-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S27x50000 : Shape := ⟨2, ![27, 50000]⟩
abbrev S128x64 : Shape := ⟨2, ![128, 64]⟩
abbrev S64 : Shape := ⟨1, ![64]⟩
abbrev S27x64x64 : Shape := ⟨3, ![27, 64, 64]⟩
abbrev S64x128 : Shape := ⟨2, ![64, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S27x64x64 : S_.BroadcastsInDim S27x64x64 (![] : Fin 0 → Fin S27x64x64.rank)
  reducesTo_S27x64x64_S_d0_1_2 : S27x64x64.ReducesTo [0, 1, 2] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S64x128 .f32) (main_arg10 : FVec F S128 .f32) (main_arg11 : FVec F S128 .f32) (main_v33 : IVec S_ 1) : IVec S_ 1 :=
  let main_v34 : FVec F S64x128 .f32 := Host.absf main_arg9
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S27x64x64 .f32) (main_arg7 : FVec F S64 .f32) (main_arg8 : FVec F S64 .f32) (main_arg9 : FVec F S64x128 .f32) (main_arg10 : FVec F S128 .f32) (main_arg11 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S27x64x64 .f32 := Host.absf main_arg6
  let main_cst_6 : FVec F S_ .f32 := constant S_ .f32 0x7F800000#32
  let main_v20 : FVec F S27x64x64 .f32 := broadcastInDim S27x64x64 ![] bcast_S_S27x64x64 main_cst_6
  let main_v21 : IVec S27x64x64 1 := cmpf .olt main_v19 main_v20
  let main_c_7 : IVec S_ 1 := constantI S_ 1 1#1
  let main_v22 : IVec S_ 1 := (fun x v => Host.reduce IntOp.andi x v reducesTo_S27x64x64_S_d0_1_2 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : IVec S27x50000 32) (main_arg2 : IVec S27x50000 32) (main_arg3 : FVec F S128x64 .f32) (main_arg4 : FVec F S64 .f32) (main_arg5 : FVec F S64 .f32) (main_arg6 : FVec F S27x64x64 .f32) (main_arg7 : FVec F S64 .f32) (main_arg8 : FVec F S64 .f32) (main_arg9 : FVec F S64x128 .f32) (main_arg10 : FVec F S128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S27x50000 : Shape := ⟨2, ![27, 50000]⟩
abbrev S128x64 : Shape := ⟨2, ![128, 64]⟩
abbrev S64 : Shape := ⟨1, ![64]⟩
abbrev S27x64x64 : Shape := ⟨3, ![27, 64, 64]⟩
abbrev S64x128 : Shape := ⟨2, ![64, 128]⟩
abbrev S128 : Shape := ⟨1, ![128]⟩
abbrev S1x64 : Shape := ⟨2, ![1, 64]⟩
abbrev S1x128 : Shape := ⟨2, ![1, 128]⟩
abbrev S100000x64 : Shape := ⟨2, ![100000, 64]⟩
abbrev S16x64 : Shape := ⟨2, ![16, 64]⟩
abbrev S2000x128 : Shape := ⟨2, ![2000, 128]⟩
abbrev S2000x64 : Shape := ⟨2, ![2000, 64]⟩
abbrev S8x64 : Shape := ⟨2, ![8, 64]⟩
abbrev S2x8x64 : Shape := ⟨3, ![2, 8, 64]⟩
abbrev S2x1x64 : Shape := ⟨3, ![2, 1, 64]⟩
abbrev S2x64 : Shape := ⟨2, ![2, 64]⟩
abbrev S_ : Shape := ⟨0, ![]⟩
abbrev S27x50000x1 : Shape := ⟨3, ![27, 50000, 1]⟩
abbrev S27x50000x64 : Shape := ⟨3, ![27, 50000, 64]⟩
abbrev S1x10000x64 : Shape := ⟨3, ![1, 10000, 64]⟩
abbrev S1x64x64 : Shape := ⟨3, ![1, 64, 64]⟩
abbrev S10000x64 : Shape := ⟨2, ![10000, 64]⟩
abbrev S64x64 : Shape := ⟨2, ![64, 64]⟩
abbrev S1350000 : Shape := ⟨1, ![1350000]⟩
abbrev S1350000x64 : Shape := ⟨2, ![1350000, 64]⟩
abbrev S1350000x1 : Shape := ⟨2, ![1350000, 1]⟩
abbrev S16x128 : Shape := ⟨2, ![16, 128]⟩
abbrev S8x128 : Shape := ⟨2, ![8, 128]⟩
abbrev S2x8x128 : Shape := ⟨3, ![2, 8, 128]⟩
abbrev S2x1x128 : Shape := ⟨3, ![2, 1, 128]⟩
abbrev S2x128 : Shape := ⟨2, ![2, 128]⟩

abbrev nBuf : Space → Nat
  | .hbm => 87
  | .vmem => 52
  | .smem => 0
  | _ => 0

abbrev bufTy : (tb : Table) → Fin (tcTables nBuf tb) → BufTy
  | .hbm, ⟨0, _⟩ => ⟨S100000x128, .f32⟩
  | .hbm, ⟨1, _⟩ => ⟨S27x50000, .i32⟩
  | .hbm, ⟨2, _⟩ => ⟨S27x50000, .i32⟩
  | .hbm, ⟨3, _⟩ => ⟨S128x64, .f32⟩
  | .hbm, ⟨4, _⟩ => ⟨S64, .f32⟩
  | .hbm, ⟨5, _⟩ => ⟨S64, .f32⟩
  | .hbm, ⟨6, _⟩ => ⟨S27x64x64, .f32⟩
  | .hbm, ⟨7, _⟩ => ⟨S64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S128, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S1x128, .f32⟩
  | .hbm, ⟨17, _⟩ => ⟨S1x128, .f32⟩
  | .hbm, ⟨18, _⟩ => ⟨S100000x64, .f32⟩
  | .hbm, ⟨19, _⟩ => ⟨S16x64, .f32⟩
  | .hbm, ⟨20, _⟩ => ⟨S16x64, .f32⟩
  | .hbm, ⟨21, _⟩ => ⟨S2x8x64, .f32⟩
  | .hbm, ⟨22, _⟩ => ⟨S2x1x64, .f32⟩
  | .hbm, ⟨23, _⟩ => ⟨S2x64, .f32⟩
  | .hbm, ⟨24, _⟩ => ⟨S_, .f32⟩
  | .hbm, ⟨25, _⟩ => ⟨S64, .f32⟩
  | .hbm, ⟨26, _⟩ => ⟨S1x64, .f32⟩
  | .hbm, ⟨27, _⟩ => ⟨S2x8x64, .f32⟩
  | .hbm, ⟨28, _⟩ => ⟨S2x1x64, .f32⟩
  | .hbm, ⟨29, _⟩ => ⟨S2x64, .f32⟩
  | .hbm, ⟨30, _⟩ => ⟨S_, .f32⟩
  | .hbm, ⟨31, _⟩ => ⟨S64, .f32⟩
  | .hbm, ⟨32, _⟩ => ⟨S1x64, .f32⟩
  | .hbm, ⟨33, _⟩ => ⟨S100000x64, .bf16⟩
  | .hbm, ⟨34, _⟩ => ⟨S_, .i32⟩
  | .hbm, ⟨35, _⟩ => ⟨S27x50000, .i32⟩
  | .hbm, ⟨36, _⟩ => ⟨S27x50000, .i1⟩
  | .hbm, ⟨37, _⟩ => ⟨S_, .i32⟩
  | .hbm, ⟨38, _⟩ => ⟨S27x50000, .i32⟩
  | .hbm, ⟨39, _⟩ => ⟨S27x50000, .i32⟩
  | .hbm, ⟨40, _⟩ => ⟨S27x50000, .i32⟩
  | .hbm, ⟨41, _⟩ => ⟨S27x50000x1, .i32⟩
  | .hbm, ⟨42, _⟩ => ⟨S27x50000x64, .bf16⟩
  | .hbm, ⟨43, _⟩ => ⟨S27x50000x64, .f32⟩
  | .hbm, ⟨44, _⟩ => ⟨S_, .f32⟩
  | .hbm, ⟨45, _⟩ => ⟨S100000x64, .f32⟩
  | .hbm, ⟨46, _⟩ => ⟨S1350000, .i32⟩
  | .hbm, ⟨47, _⟩ => ⟨S1350000x64, .f32⟩
  | .hbm, ⟨48, _⟩ => ⟨S_, .i32⟩
  | .hbm, ⟨49, _⟩ => ⟨S1350000, .i32⟩
  | .hbm, ⟨50, _⟩ => ⟨S1350000, .i1⟩
  | .hbm, ⟨51, _⟩ => ⟨S_, .i32⟩
  | .hbm, ⟨52, _⟩ => ⟨S1350000, .i32⟩
  | .hbm, ⟨53, _⟩ => ⟨S1350000, .i32⟩
  | .hbm, ⟨54, _⟩ => ⟨S1350000, .i32⟩
  | .hbm, ⟨55, _⟩ => ⟨S1350000x1, .i32⟩
  | .hbm, ⟨56, _⟩ => ⟨S100000x64, .f32⟩
  | .hbm, ⟨57, _⟩ => ⟨S16x64, .f32⟩
  | .hbm, ⟨58, _⟩ => ⟨S16x64, .f32⟩
  | .hbm, ⟨59, _⟩ => ⟨S2x8x64, .f32⟩
  | .hbm, ⟨60, _⟩ => ⟨S2x1x64, .f32⟩
  | .hbm, ⟨61, _⟩ => ⟨S2x64, .f32⟩
  | .hbm, ⟨62, _⟩ => ⟨S_, .f32⟩
  | .hbm, ⟨63, _⟩ => ⟨S64, .f32⟩
  | .hbm, ⟨64, _⟩ => ⟨S1x64, .f32⟩
  | .hbm, ⟨65, _⟩ => ⟨S2x8x64, .f32⟩
  | .hbm, ⟨66, _⟩ => ⟨S2x1x64, .f32⟩
  | .hbm, ⟨67, _⟩ => ⟨S2x64, .f32⟩
  | .hbm, ⟨68, _⟩ => ⟨S_, .f32⟩
  | .hbm, ⟨69, _⟩ => ⟨S64, .f32⟩
  | .hbm, ⟨70, _⟩ => ⟨S1x64, .f32⟩
  | .hbm, ⟨71, _⟩ => ⟨S100000x128, .f32⟩
  | .hbm, ⟨72, _⟩ => ⟨S16x128, .f32⟩
  | .hbm, ⟨73, _⟩ => ⟨S16x128, .f32⟩
  | .hbm, ⟨74, _⟩ => ⟨S2x8x128, .f32⟩
  | .hbm, ⟨75, _⟩ => ⟨S2x1x128, .f32⟩
  | .hbm, ⟨76, _⟩ => ⟨S2x128, .f32⟩
  | .hbm, ⟨77, _⟩ => ⟨S_, .f32⟩
  | .hbm, ⟨78, _⟩ => ⟨S128, .f32⟩
  | .hbm, ⟨79, _⟩ => ⟨S1x128, .f32⟩
  | .hbm, ⟨80, _⟩ => ⟨S2x8x128, .f32⟩
  | .hbm, ⟨81, _⟩ => ⟨S2x1x128, .f32⟩
  | .hbm, ⟨82, _⟩ => ⟨S2x128, .f32⟩
  | .hbm, ⟨83, _⟩ => ⟨S_, .f32⟩
  | .hbm, ⟨84, _⟩ => ⟨S128, .f32⟩
  | .hbm, ⟨85, _⟩ => ⟨S1x128, .f32⟩
  | .hbm, ⟨86, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S8x64, .f32⟩
  | .local _ .vmem, ⟨6, _⟩ => ⟨S8x64, .f32⟩
  | .local _ .vmem, ⟨7, _⟩ => ⟨S8x64, .f32⟩
  | .local _ .vmem, ⟨8, _⟩ => ⟨S8x64, .f32⟩
  | .local _ .vmem, ⟨9, _⟩ => ⟨S2000x64, .f32⟩
  | .local _ .vmem, ⟨10, _⟩ => ⟨S2000x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S2000x64, .bf16⟩
  | .local _ .vmem, ⟨16, _⟩ => ⟨S2000x64, .bf16⟩
  | .local _ .vmem, ⟨17, _⟩ => ⟨S1x10000x64, .bf16⟩
  | .local _ .vmem, ⟨18, _⟩ => ⟨S1x10000x64, .bf16⟩
  | .local _ .vmem, ⟨19, _⟩ => ⟨S1x64x64, .f32⟩
  | .local _ .vmem, ⟨20, _⟩ => ⟨S1x64x64, .f32⟩
  | .local _ .vmem, ⟨21, _⟩ => ⟨S1x10000x64, .f32⟩
  | .local _ .vmem, ⟨22, _⟩ => ⟨S1x10000x64, .f32⟩
  | .local _ .vmem, ⟨23, _⟩ => ⟨S2000x64, .f32⟩
  | .local _ .vmem, ⟨24, _⟩ => ⟨S2000x64, .f32⟩
  | .local _ .vmem, ⟨25, _⟩ => ⟨S8x64, .f32⟩
  | .local _ .vmem, ⟨26, _⟩ => ⟨S8x64, .f32⟩
  | .local _ .vmem, ⟨27, _⟩ => ⟨S8x64, .f32⟩
  | .local _ .vmem, ⟨28, _⟩ => ⟨S8x64, .f32⟩
  | .local _ .vmem, ⟨29, _⟩ => ⟨S2000x64, .f32⟩
  | .local _ .vmem, ⟨30, _⟩ => ⟨S2000x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S64x128, .f32⟩
  | .local _ .vmem, ⟨36, _⟩ => ⟨S2000x128, .f32⟩
  | .local _ .vmem, ⟨37, _⟩ => ⟨S2000x128, .f32⟩
  | .local _ .vmem, ⟨38, _⟩ => ⟨S8x128, .f32⟩
  | .local _ .vmem, ⟨39, _⟩ => ⟨S8x128, .f32⟩
  | .local _ .vmem, ⟨40, _⟩ => ⟨S8x128, .f32⟩
  | .local _ .vmem, ⟨41, _⟩ => ⟨S8x128, .f32⟩
  | .local _ .vmem, ⟨42, _⟩ => ⟨S2000x128, .f32⟩
  | .local _ .vmem, ⟨43, _⟩ => ⟨S2000x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_3 : Ref sig .tc := ⟨.hbm, 48, rfl⟩
abbrev main_v29 : Ref sig .tc := ⟨.hbm, 49, rfl⟩
abbrev main_v30 : Ref sig .tc := ⟨.hbm, 50, rfl⟩
abbrev main_c_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36_0 : Ref sig .tc := ⟨.hbm, 57, rfl⟩
abbrev main_v36_1 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_v47_0 : Ref sig .tc := ⟨.hbm, 71, rfl⟩
abbrev main_v47_1 : Ref sig .tc := ⟨.hbm, 72, rfl⟩
abbrev main_v47_2 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_7 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_8 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg6_1 : Ref sig .tc := ⟨.vmem, 37, rfl⟩
abbrev cc4_stg7_0 : Ref sig .tc := ⟨.vmem, 38, rfl⟩
abbrev cc4_stg7_1 : Ref sig .tc := ⟨.vmem, 39, rfl⟩
abbrev cc4_stg8_0 : Ref sig .tc := ⟨.vmem, 40, rfl⟩
abbrev cc4_stg8_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg5_1 : Ref sig .tc := ⟨.vmem, 49, rfl⟩
abbrev cc5_stg6_0 : Ref sig .tc := ⟨.vmem, 50, rfl⟩
abbrev cc5_stg6_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem6_0 : DmaSem sig := 36
abbrev cc4_sem6_1 : DmaSem sig := 37
abbrev cc4_sem7_0 : DmaSem sig := 38
abbrev cc4_sem7_1 : DmaSem sig := 39
abbrev cc4_sem8_0 : DmaSem sig := 40
abbrev cc4_sem8_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem5_1 : DmaSem sig := 49
abbrev cc5_sem6_0 : DmaSem sig := 50
abbrev cc5_sem6_1 : DmaSem sig := 51

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![27, 5], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x10000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 25], ![false, false]⟩

def cc3_transform_0 (i : grid3.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S8x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S8x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![2, 25], ![false, false]⟩

def cc4_transform_0 (i : grid4.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S64x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev stage4_7 : Fin 2 → Memref sig .tc .vmem S8x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, false]

abbrev stage4_8 : Fin 2 → Memref sig .tc .vmem S8x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true, false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  shapeCasts_S64_S1x64 : S64.ShapeCasts S1x64
  shapeCasts_S128_S1x128 : S128.ShapeCasts S1x128
  inb_S8x64_S8x64_0_0 : ∀ a, (![0, 0] : Fin 2 → Nat) a + S8x64.size a ≤ S8x64.size a
  h_S8x64 : 0 < S8x64.numel
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  reduces_S2000x64_S64 : S2000x64.Reduces [0] S64
  inb_S8x64_S1x64_0_0 : ∀ a, (![0, 0] : Fin 2 → Nat) a + S1x64.size a ≤ S8x64.size a
  h_S1x64 : 0 < S1x64.numel
  shapeCasts_S1x64_S1x64 : S1x64.ShapeCasts S1x64
  shapeCasts_S16x64_S2x8x64 : S16x64.ShapeCasts S2x8x64
  slices_S2x8x64_S2x1x64_0_0_0 : S2x8x64.Slices ![0, 0, 0] S2x1x64
  shapeCasts_S2x1x64_S2x64 : S2x1x64.ShapeCasts S2x64
  reducesTo_S2x64_S64_d0 : S2x64.ReducesTo [0] S64
  h_S_ : 0 < S_.numel
  bcast_S64_S1x64_1 : S64.BroadcastsInDim S1x64 (![1] : Fin 1 → Fin S1x64.rank)
  inb_S1x64_S1x64_0_0 : ∀ a, (![0, 0] : Fin 2 → Nat) a + S1x64.size a ≤ S1x64.size a
  shapeCasts_S2000x64_S2000x64 : S2000x64.ShapeCasts S2000x64
  broadcasts_S1x64_S2000x64 : S1x64.Broadcasts S2000x64
  packedbf16_S2000x64_S2000x64_0_0 : (Rect.unit (s := S2000x64) ![0, 0] S2000x64.size inb_S2000x64_S2000x64_0_0).PackedRows (EltTy.packing .bf16)
  bcast_S_S27x50000 : S_.BroadcastsInDim S27x50000 (![] : Fin 0 → Fin S27x50000.rank)
  bcast_S27x50000_S27x50000x1_0_1 : S27x50000.BroadcastsInDim S27x50000x1 (![0, 1] : Fin 2 → Fin S27x50000x1.rank)
  inb_S1x10000x64_S1x10000x64_0_0_0 : ∀ a, (![0, 0, 0] : Fin 3 → Nat) a + S1x10000x64.size a ≤ S1x10000x64.size a
  h_S1x10000x64 : 0 < S1x10000x64.numel
  shapeCasts_S1x10000x64_S10000x64 : S1x10000x64.ShapeCasts S10000x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S10000x64_S1x10000x64 : S10000x64.ShapeCasts S1x10000x64
  bcast_S_S100000x64 : S_.BroadcastsInDim S100000x64 (![] : Fin 0 → Fin S100000x64.rank)
  shapeCasts_S27x50000_S1350000 : S27x50000.ShapeCasts S1350000
  shapeCasts_S27x50000x64_S1350000x64 : S27x50000x64.ShapeCasts S1350000x64
  bcast_S_S1350000 : S_.BroadcastsInDim S1350000 (![] : Fin 0 → Fin S1350000.rank)
  bcast_S1350000_S1350000x1_0 : S1350000.BroadcastsInDim S1350000x1 (![0] : Fin 1 → Fin S1350000x1.rank)
  inb_S8x128_S8x128_0_0 : ∀ a, (![0, 0] : Fin 2 → Nat) a + S8x128.size a ≤ S8x128.size a
  h_S8x128 : 0 < S8x128.numel
  inb_S64x128_S64x128_0_0 : ∀ a, (![0, 0] : Fin 2 → Nat) a + S64x128.size a ≤ S64x128.size a
  h_S64x128 : 0 < S64x128.numel
  reduces_S2000x128_S128 : S2000x128.Reduces [0] S128
  inb_S8x128_S1x128_0_0 : ∀ a, (![0, 0] : Fin 2 → Nat) a + S1x128.size a ≤ S8x128.size a
  h_S1x128 : 0 < S1x128.numel
  shapeCasts_S1x128_S1x128 : S1x128.ShapeCasts S1x128
  shapeCasts_S16x128_S2x8x128 : S16x128.ShapeCasts S2x8x128
  slices_S2x8x128_S2x1x128_0_0_0 : S2x8x128.Slices ![0, 0, 0] S2x1x128
  shapeCasts_S2x1x128_S2x128 : S2x1x128.ShapeCasts S2x128
  reducesTo_S2x128_S128_d0 : S2x128.ReducesTo [0] S128
  bcast_S128_S1x128_1 : S128.BroadcastsInDim S1x128 (![1] : Fin 1 → Fin S1x128.rank)
  inb_S1x128_S1x128_0_0 : ∀ a, (![0, 0] : Fin 2 → Nat) a + S1x128.size a ≤ S1x128.size a
  shapeCasts_S2000x128_S2000x128 : S2000x128.ShapeCasts S2000x128
  broadcasts_S1x128_S2000x128 : S1x128.Broadcasts S2000x128
  dot_S2000x128_S128x64_S2000x64_1_0_0_1_n_n_wf : DotDims.WF S2000x128 S128x64 S2000x64 [1] [0] [0] [1] [] []
  gather_S100000x64_S27x50000x1_S27x50000x64_2_0_n_n_0_2_164_wf : GatherDims.WF S100000x64 S27x50000x1 S27x50000x64 [2] [0] [] [0] [] 2 ![1, 64]
  dot_S10000x64_S64x64_S10000x64_1_0_0_1_n_n_wf : DotDims.WF S10000x64 S64x64 S10000x64 [1] [0] [0] [1] [] []
  scatter_S100000x64_S1350000x1_S1350000x64_1_0_0_1_wf : ScatterDims.WF S100000x64 S1350000x1 S1350000x64 [1] [0] [0] 1
  dot_S2000x64_S64x128_S2000x128_1_0_0_1_n_n_wf : DotDims.WF S2000x64 S64x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x64.size a ≤ S16x64.size a
  hwx0_3 : ∀ i : grid0.Coords, EltTy.bits .f32 = 32 ∨ (Rect.block (s := S16x64) S8x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x64.size a ≤ S16x64.size a
  hwx0_4 : ∀ i : grid0.Coords, EltTy.bits .f32 = 32 ∨ (Rect.block (s := S16x64) S8x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .bf16 = 32 ∨ (Rect.block (s := S100000x64) S2000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x10000x64.size a ≤ S27x50000x64.size a
  hwx2_0 : ∀ i : grid2.Coords, EltTy.bits .bf16 = 32 ∨ (Rect.block (s := S27x50000x64) S1x10000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x64.size a ≤ S27x64x64.size a
  hwx2_1 : ∀ i : grid2.Coords, EltTy.bits .f32 = 32 ∨ (Rect.block (s := S27x64x64) S1x64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x10000x64.size a ≤ S27x50000x64.size a
  hwx2_2 : ∀ i : grid2.Coords, EltTy.bits .f32 = 32 ∨ (Rect.block (s := S27x50000x64) S1x10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8x64.size a ≤ S16x64.size a
  hwx3_1 : ∀ i : grid3.Coords, EltTy.bits .f32 = 32 ∨ (Rect.block (s := S16x64) S8x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8x64.size a ≤ S16x64.size a
  hwx3_2 : ∀ i : grid3.Coords, EltTy.bits .f32 = 32 ∨ (Rect.block (s := S16x64) S8x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x128.size a ≤ S64x128.size a
  hwx4_5 : ∀ i : grid4.Coords, EltTy.bits .f32 = 32 ∨ (Rect.block (s := S64x128) S64x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S100000x128.size a
  hwx4_6 : ∀ i : grid4.Coords, EltTy.bits .f32 = 32 ∨ (Rect.block (s := S100000x128) S2000x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S8x128.size a ≤ S16x128.size a
  hwx4_7 : ∀ i : grid4.Coords, EltTy.bits .f32 = 32 ∨ (Rect.block (s := S16x128) S8x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S8x128.size a ≤ S16x128.size a
  hwx4_8 : ∀ i : grid4.Coords, EltTy.bits .f32 = 32 ∨ (Rect.block (s := S16x128) S8x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S100000x128.size a
  hwx5_5 : ∀ i : grid5.Coords, EltTy.bits .f32 = 32 ∨ (Rect.block (s := S100000x128) S2000x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S100000x128.size a
  hwx5_6 : ∀ i : grid5.Coords, EltTy.bits .f32 = 32 ∨ (Rect.block (s := S100000x128) S2000x128.size (cc5_transform_6 i) (hinb5_6 i)).WholeWords (EltTy.packing .f32)

variable [Facts₀]

def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S27x50000x1_S27x50000x64_2_0_n_n_0_2_164 : GatherDims S100000x64 S27x50000x1 S27x50000x64 where
  offsetDims := [2]
  collapsedSliceDims := [0]
  operandBatchingDims := []
  startIndicesBatchingDims := []
  startIndexMap := [0]
  indexVectorDim := 2
  sliceSizes := ![1, 64]
  wf := gather_S100000x64_S27x50000x1_S27x50000x64_2_0_n_n_0_2_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6_0) S2000x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_1) S8x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_2) S8x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v6_0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v24) S1x10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S1x64x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1x10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v35) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36_0) S8x64.size cc3_transform_1 reads3_1 true false 2 stage3_1 sem3_1
    hrank3 hreads3_1 hinb3_1 nbuf3_1 (Memref.isWhole_whole _) hwx3_1 hstage3_1

abbrev win3_2 : Pipeline.Window sig grid3 :=
  Pipeline.Window.ofSpec (Memref.whole main_v36_1) S8x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v35) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v46) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v2) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v3) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg9) S64x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v47_0) S2000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v47_1) S8x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v47_2) S8x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v47_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v52) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v57) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v4) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v5) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg0) S2000x128.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v58) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S100000x128 : Shape := ⟨2, ![100000, 128]⟩
abbrev S27x50000 : Shape := ⟨2, ![27, 50000]⟩
abbrev S128x64 : Shape := ⟨2, ![128, 64]⟩
abbrev S64 : Shape := ⟨1, ![64]⟩
abbrev S27x64x64 : Shape := ⟨3, ![27, 64, 64]⟩
abbrev S64x128 : Shape := ⟨2, ![64, 128]⟩
abbrev S128 : Shape := ⟨1, ![128]⟩
abbrev S100000x64 : Shape := ⟨2, ![100000, 64]⟩
abbrev S_ : Shape := ⟨0, ![]⟩
abbrev S1x64 : Shape := ⟨2, ![1, 64]⟩
abbrev S27x50000x1 : Shape := ⟨3, ![27, 50000, 1]⟩
abbrev S27x50000x64 : Shape := ⟨3, ![27, 50000, 64]⟩
abbrev S1350000 : Shape := ⟨1, ![1350000]⟩
abbrev S1350000x64 : Shape := ⟨2, ![1350000, 64]⟩
abbrev S1350000x1 : Shape := ⟨2, ![1350000, 1]⟩
abbrev S1x128 : Shape := ⟨2, ![1, 128]⟩

abbrev nBuf : Space → Nat
  | .hbm => 176
  | .vmem => 0
  | .smem => 0
  | _ => 0

abbrev hbmTy0_0 (i : Nat) : BufTy := match i % 128 with
  | 0 => ⟨S100000x128, .f32⟩
  | 1 => ⟨S27x50000, .i32⟩
  | 2 => ⟨S27x50000, .i32⟩
  | 3 => ⟨S128x64, .f32⟩
  | 4 => ⟨S64, .f32⟩
  | 5 => ⟨S64, .f32⟩
  | 6 => ⟨S27x64x64, .f32⟩
  | 7 => ⟨S64, .f32⟩
  | 8 => ⟨S64, .f32⟩
  | 9 => ⟨S64x128, .f32⟩
  | 10 => ⟨S128, .f32⟩
  | 11 => ⟨S128, .f32⟩
  | 12 => ⟨S100000x64, .f32⟩
  | 13 => ⟨S_, .f32⟩
  | 14 => ⟨S64, .f32⟩
  | 15 => ⟨S_, .f32⟩
  | 16 => ⟨S64, .f32⟩
  | 17 => ⟨S64, .f32⟩
  | 18 => ⟨S_, .i32⟩
  | 19 => ⟨S_, .f32⟩
  | 20 => ⟨S64, .f32⟩
  | 21 => ⟨S1x64, .f32⟩
  | 22 => ⟨S_, .f32⟩
  | 23 => ⟨S1x64, .f32⟩
  | 24 => ⟨S1x64, .f32⟩
  | 25 => ⟨S100000x64, .f32⟩
  | 26 => ⟨S100000x64, .f32⟩
  | 27 => ⟨S100000x64, .f32⟩
  | 28 => ⟨S_, .f32⟩
  | 29 => ⟨S_, .f32⟩
  | 30 => ⟨S_, .f32⟩
  | 31 => ⟨S_, .f32⟩
  | 32 => ⟨S64, .f32⟩
  | 33 => ⟨S64, .f32⟩
  | 34 => ⟨S64, .f32⟩
  | 35 => ⟨S_, .f32⟩
  | 36 => ⟨S_, .i1⟩
  | 37 => ⟨S_, .f32⟩
  | 38 => ⟨S_, .f32⟩
  | 39 => ⟨S64, .f32⟩
  | 40 => ⟨S64, .f32⟩
  | 41 => ⟨S1x64, .f32⟩
  | 42 => ⟨S100000x64, .f32⟩
  | 43 => ⟨S100000x64, .f32⟩
  | 44 => ⟨S_, .f32⟩
  | 45 => ⟨S64, .f32⟩
  | 46 => ⟨S64, .f32⟩
  | 47 => ⟨S64, .f32⟩
  | 48 => ⟨S1x64, .f32⟩
  | 49 => ⟨S100000x64, .f32⟩
  | 50 => ⟨S100000x64, .f32⟩
  | 51 => ⟨S1x64, .f32⟩
  | 52 => ⟨S100000x64, .f32⟩
  | 53 => ⟨S100000x64, .f32⟩
  | 54 => ⟨S1x64, .f32⟩
  | 55 => ⟨S100000x64, .f32⟩
  | 56 => ⟨S100000x64, .f32⟩
  | 57 => ⟨S_, .f32⟩
  | 58 => ⟨S100000x64, .f32⟩
  | 59 => ⟨S100000x64, .f32⟩
  | 60 => ⟨S_, .i32⟩
  | 61 => ⟨S27x50000, .i32⟩
  | 62 => ⟨S27x50000, .i1⟩
  | 63 => ⟨S_, .i32⟩
  | 64 => ⟨S27x50000, .i32⟩
  | 65 => ⟨S27x50000, .i32⟩
  | 66 => ⟨S27x50000, .i32⟩
  | 67 => ⟨S27x50000x1, .i32⟩
  | 68 => ⟨S27x50000x64, .f32⟩
  | 69 => ⟨S27x50000x64, .f32⟩
  | 70 => ⟨S_, .f32⟩
  | 71 => ⟨S100000x64, .f32⟩
  | 72 => ⟨S1350000, .i32⟩
  | 73 => ⟨S1350000x64, .f32⟩
  | 74 => ⟨S_, .i32⟩
  | 75 => ⟨S1350000, .i32⟩
  | 76 => ⟨S1350000, .i1⟩
  | 77 => ⟨S_, .i32⟩
  | 78 => ⟨S1350000, .i32⟩
  | 79 => ⟨S1350000, .i32⟩
  | 80 => ⟨S1350000, .i32⟩
  | 81 => ⟨S1350000x1, .i32⟩
  | 82 => ⟨S100000x64, .f32⟩
  | 83 => ⟨S_, .f32⟩
  | 84 => ⟨S64, .f32⟩
  | 85 => ⟨S_, .f32⟩
  | 86 => ⟨S64, .f32⟩
  | 87 => ⟨S64, .f32⟩
  | 88 => ⟨S_, .i32⟩
  | 89 => ⟨S_, .f32⟩
  | 90 => ⟨S64, .f32⟩
  | 91 => ⟨S1x64, .f32⟩
  | 92 => ⟨S_, .f32⟩
  | 93 => ⟨S1x64, .f32⟩
  | 94 => ⟨S1x64, .f32⟩
  | 95 => ⟨S100000x64, .f32⟩
  | 96 => ⟨S100000x64, .f32⟩
  | 97 => ⟨S100000x64, .f32⟩
  | 98 => ⟨S_, .f32⟩
  | 99 => ⟨S_, .f32⟩
  | 100 => ⟨S_, .f32⟩
  | 101 => ⟨S_, .f32⟩
  | 102 => ⟨S64, .f32⟩
  | 103 => ⟨S64, .f32⟩
  | 104 => ⟨S64, .f32⟩
  | 105 => ⟨S_, .f32⟩
  | 106 => ⟨S_, .i1⟩
  | 107 => ⟨S_, .f32⟩
  | 108 => ⟨S_, .f32⟩
  | 109 => ⟨S64, .f32⟩
  | 110 => ⟨S64, .f32⟩
  | 111 => ⟨S1x64, .f32⟩
  | 112 => ⟨S100000x64, .f32⟩
  | 113 => ⟨S100000x64, .f32⟩
  | 114 => ⟨S_, .f32⟩
  | 115 => ⟨S64, .f32⟩
  | 116 => ⟨S64, .f32⟩
  | 117 => ⟨S64, .f32⟩
  | 118 => ⟨S1x64, .f32⟩
  | 119 => ⟨S100000x64, .f32⟩
  | 120 => ⟨S100000x64, .f32⟩
  | 121 => ⟨S1x64, .f32⟩
  | 122 => ⟨S100000x64, .f32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x128, .f32⟩

abbrev hbmTy0_1 (i : Nat) : BufTy := match i % 128 with
  | 0 => ⟨S100000x64, .f32⟩
  | 1 => ⟨S100000x64, .f32⟩
  | 2 => ⟨S100000x128, .f32⟩
  | 3 => ⟨S_, .f32⟩
  | 4 => ⟨S128, .f32⟩
  | 5 => ⟨S_, .f32⟩
  | 6 => ⟨S128, .f32⟩
  | 7 => ⟨S128, .f32⟩
  | 8 => ⟨S_, .i32⟩
  | 9 => ⟨S_, .f32⟩
  | 10 => ⟨S128, .f32⟩
  | 11 => ⟨S1x128, .f32⟩
  | 12 => ⟨S_, .f32⟩
  | 13 => ⟨S1x128, .f32⟩
  | 14 => ⟨S1x128, .f32⟩
  | 15 => ⟨S100000x128, .f32⟩
  | 16 => ⟨S100000x128, .f32⟩
  | 17 => ⟨S100000x128, .f32⟩
  | 18 => ⟨S_, .f32⟩
  | 19 => ⟨S_, .f32⟩
  | 20 => ⟨S_, .f32⟩
  | 21 => ⟨S_, .f32⟩
  | 22 => ⟨S128, .f32⟩
  | 23 => ⟨S128, .f32⟩
  | 24 => ⟨S128, .f32⟩
  | 25 => ⟨S_, .f32⟩
  | 26 => ⟨S_, .i1⟩
  | 27 => ⟨S_, .f32⟩
  | 28 => ⟨S_, .f32⟩
  | 29 => ⟨S128, .f32⟩
  | 30 => ⟨S128, .f32⟩
  | 31 => ⟨S1x128, .f32⟩
  | 32 => ⟨S100000x128, .f32⟩
  | 33 => ⟨S100000x128, .f32⟩
  | 34 => ⟨S_, .f32⟩
  | 35 => ⟨S128, .f32⟩
  | 36 => ⟨S128, .f32⟩
  | 37 => ⟨S128, .f32⟩
  | 38 => ⟨S1x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_cst_3 : Ref sig .tc := ⟨.hbm, 35, rfl⟩
abbrev main_call0_v12 : Ref sig .tc := ⟨.hbm, 36, rfl⟩
abbrev main_call0_cst_4 : Ref sig .tc := ⟨.hbm, 37, rfl⟩
abbrev main_call0_call0_v0 : Ref sig .tc := ⟨.hbm, 38, rfl⟩
abbrev main_call0_call0_v1 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_cst_1 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_call1_cst : Ref sig .tc := ⟨.hbm, 57, rfl⟩
abbrev main_call1_v0 : Ref sig .tc := ⟨.hbm, 58, rfl⟩
abbrev main_v20 : Ref sig .tc := ⟨.hbm, 59, rfl⟩
abbrev main_c_2 : Ref sig .tc := ⟨.hbm, 60, rfl⟩
abbrev main_v21 : Ref sig .tc := ⟨.hbm, 61, rfl⟩
abbrev main_v22 : Ref sig .tc := ⟨.hbm, 62, rfl⟩
abbrev main_c_3 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_cst_4 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_c_5 : Ref sig .tc := ⟨.hbm, 74, rfl⟩
abbrev main_v32 : Ref sig .tc := ⟨.hbm, 75, rfl⟩
abbrev main_v33 : Ref sig .tc := ⟨.hbm, 76, rfl⟩
abbrev main_c_6 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_7 : Ref sig .tc := ⟨.hbm, 83, rfl⟩
abbrev main_v39 : Ref sig .tc := ⟨.hbm, 84, rfl⟩
abbrev main_cst_8 : Ref sig .tc := ⟨.hbm, 85, rfl⟩
abbrev main_v40 : Ref sig .tc := ⟨.hbm, 86, rfl⟩
abbrev main_v41 : Ref sig .tc := ⟨.hbm, 87, rfl⟩
abbrev main_c_9 : Ref sig .tc := ⟨.hbm, 88, rfl⟩
abbrev main_call2_cst : Ref sig .tc := ⟨.hbm, 89, rfl⟩
abbrev main_call2_v0 : Ref sig .tc := ⟨.hbm, 90, rfl⟩
abbrev main_call2_v1 : Ref sig .tc := ⟨.hbm, 91, rfl⟩
abbrev main_call2_cst_0 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_v7 : Ref sig .tc := ⟨.hbm, 98, rfl⟩
abbrev main_call2_cst_1 : Ref sig .tc := ⟨.hbm, 99, rfl⟩
abbrev main_call2_v8 : Ref sig .tc := ⟨.hbm, 100, rfl⟩
abbrev main_call2_cst_2 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_call2_cst_3 : Ref sig .tc := ⟨.hbm, 105, rfl⟩
abbrev main_call2_v12 : Ref sig .tc := ⟨.hbm, 106, rfl⟩
abbrev main_call2_cst_4 : Ref sig .tc := ⟨.hbm, 107, rfl⟩
abbrev main_call2_call0_v0 : Ref sig .tc := ⟨.hbm, 108, rfl⟩
abbrev main_call2_call0_v1 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_cst_10 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_call3_cst : Ref sig .tc := ⟨.hbm, 127, rfl⟩
abbrev main_call3_v0 : Ref sig .tc := ⟨.hbm, 128, rfl⟩
abbrev main_v58 : Ref sig .tc := ⟨.hbm, 129, rfl⟩
abbrev main_v59 : Ref sig .tc := ⟨.hbm, 130, rfl⟩
abbrev main_cst_11 : Ref sig .tc := ⟨.hbm, 131, rfl⟩
abbrev main_v60 : Ref sig .tc := ⟨.hbm, 132, rfl⟩
abbrev main_cst_12 : Ref sig .tc := ⟨.hbm, 133, rfl⟩
abbrev main_v61 : Ref sig .tc := ⟨.hbm, 134, rfl⟩
abbrev main_v62 : Ref sig .tc := ⟨.hbm, 135, rfl⟩
abbrev main_c_13 : Ref sig .tc := ⟨.hbm, 136, rfl⟩
abbrev main_call4_cst : Ref sig .tc := ⟨.hbm, 137, rfl⟩
abbrev main_call4_v0 : Ref sig .tc := ⟨.hbm, 138, rfl⟩
abbrev main_call4_v1 : Ref sig .tc := ⟨.hbm, 139, rfl⟩
abbrev main_call4_cst_0 : Ref sig .tc := ⟨.hbm, 140, rfl⟩
abbrev main_call4_v2 : Ref sig .tc := ⟨.hbm, 141, rfl⟩
abbrev main_call4_v3 : Ref sig .tc := ⟨.hbm, 142, rfl⟩
abbrev main_call4_v4 : Ref sig .tc := ⟨.hbm, 143, rfl⟩
abbrev main_call4_v5 : Ref sig .tc := ⟨.hbm, 144, rfl⟩
abbrev main_call4_v6 : Ref sig .tc := ⟨.hbm, 145, rfl⟩
abbrev main_call4_v7 : Ref sig .tc := ⟨.hbm, 146, rfl⟩
abbrev main_call4_cst_1 : Ref sig .tc := ⟨.hbm, 147, rfl⟩
abbrev main_call4_v8 : Ref sig .tc := ⟨.hbm, 148, rfl⟩
abbrev main_call4_cst_2 : Ref sig .tc := ⟨.hbm, 149, rfl⟩
abbrev main_call4_v9 : Ref sig .tc := ⟨.hbm, 150, rfl⟩
abbrev main_call4_v10 : Ref sig .tc := ⟨.hbm, 151, rfl⟩
abbrev main_call4_v11 : Ref sig .tc := ⟨.hbm, 152, rfl⟩
abbrev main_call4_cst_3 : Ref sig .tc := ⟨.hbm, 153, rfl⟩
abbrev main_call4_v12 : Ref sig .tc := ⟨.hbm, 154, rfl⟩
abbrev main_call4_cst_4 : Ref sig .tc := ⟨.hbm, 155, rfl⟩
abbrev main_call4_call0_v0 : Ref sig .tc := ⟨.hbm, 156, rfl⟩
abbrev main_call4_call0_v1 : Ref sig .tc := ⟨.hbm, 157, rfl⟩
abbrev main_v63 : Ref sig .tc := ⟨.hbm, 158, rfl⟩
abbrev main_v64 : Ref sig .tc := ⟨.hbm, 159, rfl⟩
abbrev main_v65 : Ref sig .tc := ⟨.hbm, 160, rfl⟩
abbrev main_v66 : Ref sig .tc := ⟨.hbm, 161, rfl⟩
abbrev main_cst_14 : Ref sig .tc := ⟨.hbm, 162, rfl⟩
abbrev main_v67 : Ref sig .tc := ⟨.hbm, 163, rfl⟩
abbrev main_v68 : Ref sig .tc := ⟨.hbm, 164, rfl⟩
abbrev main_v69 : Ref sig .tc := ⟨.hbm, 165, rfl⟩
abbrev main_v70 : Ref sig .tc := ⟨.hbm, 166, rfl⟩
abbrev main_v71 : Ref sig .tc := ⟨.hbm, 167, rfl⟩
abbrev main_v72 : Ref sig .tc := ⟨.hbm, 168, rfl⟩
abbrev main_v73 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_v79 : Ref sig .tc := ⟨.hbm, 175, rfl⟩

abbrev nD : Nat := 1
abbrev τ : Topo := Topo.v7x

variable {F : FTy → Type} [FloatOps F]

class Facts₀ : Prop where
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S27x50000 : S_.BroadcastsInDim S27x50000 (![] : Fin 0 → Fin S27x50000.rank)
  bcast_S27x50000_S27x50000x1_0_1 : S27x50000.BroadcastsInDim S27x50000x1 (![0, 1] : Fin 2 → Fin S27x50000x1.rank)
  shapeCasts_S27x50000_S1350000 : S27x50000.ShapeCasts S1350000
  shapeCasts_S27x50000x64_S1350000x64 : S27x50000x64.ShapeCasts S1350000x64
  bcast_S_S1350000 : S_.BroadcastsInDim S1350000 (![] : Fin 0 → Fin S1350000.rank)
  bcast_S1350000_S1350000x1_0 : S1350000.BroadcastsInDim S1350000x1 (![0] : Fin 1 → Fin S1350000x1.rank)
  reducesTo_S100000x128_S128_d0 : S100000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  dot_S100000x128_S128x64_S100000x64_1_0_0_1_n_n_wf : DotDims.WF S100000x128 S128x64 S100000x64 [1] [0] [0] [1] [] []
  gather_S100000x64_S27x50000x1_S27x50000x64_2_0_n_n_0_2_164_wf : GatherDims.WF S100000x64 S27x50000x1 S27x50000x64 [2] [0] [] [0] [] 2 ![1, 64]
  dot_S27x50000x64_S27x64x64_S27x50000x64_2_1_1_2_0_0_wf : DotDims.WF S27x50000x64 S27x64x64 S27x50000x64 [2] [1] [1] [2] [0] [0]
  scatter_S100000x64_S1350000x1_S1350000x64_1_0_0_1_wf : ScatterDims.WF S100000x64 S1350000x1 S1350000x64 [1] [0] [0] 1
  dot_S100000x64_S64x128_S100000x128_1_0_0_1_n_n_wf : DotDims.WF S100000x64 S64x128 S100000x128 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S27x50000x1_S27x50000x64_2_0_n_n_0_2_164 : GatherDims S100000x64 S27x50000x1 S27x50000x64 where
  offsetDims := [2]
  collapsedSliceDims := [0]
  operandBatchingDims := []
  startIndicesBatchingDims := []
  startIndexMap := [0]
  indexVectorDim := 2
  sliceSizes := ![1, 64]
  wf := gather_S100000x64_S27x50000x1_S27x50000x64_2_0_n_n_0_2_164_wf
def dot_S27x50000x64_S27x64x64_S27x50000x64_2_1_1_2_0_0 : DotDims S27x50000x64 S27x64x64 S27x50000x64 where
  lhsContracting := [2]
  rhsContracting := [1]
  lhsNonContracting := [1]
  rhsNonContracting := [2]
  lhsBatch := [0]
  rhsBatch := [0]
  wf := dot_S27x50000x64_S27x64x64_S27x50000x64_2_1_1_2_0_0_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf

class Facts : Prop extends Facts₀ where

variable [Facts]
-- ==== Proof.KRun.lean ====
/-
  The idealized kernel's whole run: from any launch memory every weakly fair execution of @main terminates without
  a fault, and EVERY unscoped buffer of every core ends at the last boundary's contents — the fold of the six regions'
  write-backs and the host stretches between them over the launch memory. The frame (arguments unchanged) and the
  result buffer's final contents are both read off this one statement.
-/
import proofs.«174784_j23922967838995_2_alg».proof.Proof.KernelIdealFrameP

set_option maxRecDepth 16384

noncomputable section

namespace Cert.KernelIdeal.KRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch theorem for a program of regions among host stretches, over the twelve segments of @main: the last
    thread state holds every unscoped buffer at the last boundary's contents, and the final memory agrees with it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

/-- The run with the result buffer named: it ends at the last boundary's contents of that buffer, and the twelve
    argument arrays end as launched. -/
theorem run : θ_run defs (onTc (τ := τ) (main (F := F))) ⟨m, fun _ => 0, ρ⟩ (fun r => ∀ c : Dev nD,
      r.2.mem ((c.tc : Thread nD τ).loc main_v58) = W12 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun s h c =>
      ⟨h c _ (mem_uc main_v58 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)
    (run_all m ρ)

end Cert.KernelIdeal.KRun

end
-- ==== Proof.KChain.lean ====
/-
  The contents of the idealized kernel's buffers at the boundaries between its segments: each buffer a region reads,
  walked back through the host stretches that do not write it and the regions that do not own it, to the operation or
  the region that produced it, or to the launch memory.
-/
import proofs.«174784_j23922967838995_2_alg».proof.Proof.KernelIdealFrameP
import Idealize.ShloMosaic.PureOps.Ideal

set_option maxRecDepth 16384

noncomputable section

namespace Cert.KernelIdeal.KChain

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window BodyObligation cellOf)

variable (m : (ℓ : Loc nD τ sig) → Buf (Elt Ideal) ℓ) (ρ : Dev nD → PrngReg)

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := (by show StableHlo.after hostOps0 _ _ = _; after_results)
    _ = m ((c : Thread nD τ).loc main_arg0) := rfl

theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := (by show StableHlo.after hostOps0 _ _ = _; after_results)
    _ = m ((c : Thread nD τ).loc main_arg3) := rfl

theorem W3_v6_0 (c : Dev nD) : W3 m ρ c (Proc.devRef .tc main_v6_0) = (dat0 (V1 m ρ) c).arrAt 2 cfg0.N :=
  calc W3 m ρ c (Proc.devRef .tc main_v6_0)
    _ = W2 m ρ c (Proc.devRef .tc main_v6_0) := (by show StableHlo.after hostOps1 _ _ = _; after_results)
    _ = (dat0 (V1 m ρ) c).arrAt 2 cfg0.N := W2_arr m ρ c 2

theorem W3_v0 (c : Dev nD) : W3 m ρ c (Proc.devRef .tc main_v0) = shapeCast S1x64 (m ((c : Thread nD τ).loc main_arg4)) shapeCasts_S64_S1x64 :=
  calc W3 m ρ c (Proc.devRef .tc main_v0)
    _ = W2 m ρ c (Proc.devRef .tc main_v0) := (by show StableHlo.after hostOps1 _ _ = _; after_results)
    _ = W1 m ρ c (Proc.devRef .tc main_v0) := W2_of_ne m ρ c main_v0 (by decide)
    _ = shapeCast S1x64 (m ((c : Thread nD τ).loc main_arg4)) shapeCasts_S64_S1x64 := by show StableHlo.after hostOps0 _ _ = _; after_results <;> rfl

theorem W3_v1 (c : Dev nD) : W3 m ρ c (Proc.devRef .tc main_v1) = shapeCast S1x64 (m ((c : Thread nD τ).loc main_arg5)) shapeCasts_S64_S1x64 :=
  calc W3 m ρ c (Proc.devRef .tc main_v1)
    _ = W2 m ρ c (Proc.devRef .tc main_v1) := (by show StableHlo.after hostOps1 _ _ = _; after_results)
    _ = W1 m ρ c (Proc.devRef .tc main_v1) := W2_of_ne m ρ c main_v1 (by decide)
    _ = shapeCast S1x64 (m ((c : Thread nD τ).loc main_arg5)) shapeCasts_S64_S1x64 := by show StableHlo.after hostOps0 _ _ = _; after_results <;> rfl

theorem W2_v6_1 (c : Dev nD) : W2 m ρ c (Proc.devRef .tc main_v6_1) = (dat0 (V1 m ρ) c).arrAt 3 cfg0.N :=
  calc W2 m ρ c (Proc.devRef .tc main_v6_1)
    _ = (dat0 (V1 m ρ) c).arrAt 3 cfg0.N := W2_arr m ρ c 3

theorem W2_v6_2 (c : Dev nD) : W2 m ρ c (Proc.devRef .tc main_v6_2) = (dat0 (V1 m ρ) c).arrAt 4 cfg0.N :=
  calc W2 m ρ c (Proc.devRef .tc main_v6_2)
    _ = (dat0 (V1 m ρ) c).arrAt 4 cfg0.N := W2_arr m ρ c 4

theorem W4_v17 (c : Dev nD) : W4 m ρ c (Proc.devRef .tc main_v17) = (dat1 (V3 m ρ) c).arrAt 5 cfg1.N :=
  calc W4 m ρ c (Proc.devRef .tc main_v17)
    _ = (dat1 (V3 m ρ) c).arrAt 5 cfg1.N := W4_arr m ρ c 5

theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := (by show StableHlo.after hostOps1 _ _ = _; after_results)
    _ = W1 m ρ c (Proc.devRef .tc main_arg1) := W2_of_ne m ρ c main_arg1 (by decide)
    _ = W0 m ρ c (Proc.devRef .tc main_arg1) := (by show StableHlo.after hostOps0 _ _ = _; after_results)
    _ = m ((c : Thread nD τ).loc main_arg1) := rfl

theorem W5_arg6 (c : Dev nD) : W5 m ρ c (Proc.devRef .tc main_arg6) = m ((c : Thread nD τ).loc main_arg6) :=
  calc W5 m ρ c (Proc.devRef .tc main_arg6)
    _ = W4 m ρ c (Proc.devRef .tc main_arg6) := (by show StableHlo.after hostOps2 _ _ = _; after_results)
    _ = W3 m ρ c (Proc.devRef .tc main_arg6) := W4_of_ne m ρ c main_arg6 (by decide)
    _ = W2 m ρ c (Proc.devRef .tc main_arg6) := (by show StableHlo.after hostOps1 _ _ = _; after_results)
    _ = W1 m ρ c (Proc.devRef .tc main_arg6) := W2_of_ne m ρ c main_arg6 (by decide)
    _ = W0 m ρ c (Proc.devRef .tc main_arg6) := (by show StableHlo.after hostOps0 _ _ = _; after_results)
    _ = m ((c : Thread nD τ).loc main_arg6) := rfl

theorem W6_v25 (c : Dev nD) : W6 m ρ c (Proc.devRef .tc main_v25) = (dat2 (V5 m ρ) c).arrAt 2 cfg2.N :=
  calc W6 m ρ c (Proc.devRef .tc main_v25)
    _ = (dat2 (V5 m ρ) c).arrAt 2 cfg2.N := W6_arr m ρ c 2

theorem W6_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := (by show StableHlo.after hostOps2 _ _ = _; after_results)
    _ = W3 m ρ c (Proc.devRef .tc main_arg2) := W4_of_ne m ρ c main_arg2 (by decide)
    _ = W2 m ρ c (Proc.devRef .tc main_arg2) := (by show StableHlo.after hostOps1 _ _ = _; after_results)
    _ = W1 m ρ c (Proc.devRef .tc main_arg2) := W2_of_ne m ρ c main_arg2 (by decide)
    _ = W0 m ρ c (Proc.devRef .tc main_arg2) := (by show StableHlo.after hostOps0 _ _ = _; after_results)
    _ = m ((c : Thread nD τ).loc main_arg2) := rfl

theorem W9_v35 (c : Dev nD) : W9 m ρ c (Proc.devRef .tc main_v35) = W7 m ρ c (Proc.devRef .tc main_v35) :=
  calc W9 m ρ c (Proc.devRef .tc main_v35)
    _ = W8 m ρ c (Proc.devRef .tc main_v35) := (by show StableHlo.after hostOps4 _ _ = _; after_results)
    _ = W7 m ρ c (Proc.devRef .tc main_v35) := (W8_arr m ρ c 0).trans (((dat3 (V7 m ρ) c).arrAt_in 0 rfl _).trans (A_eq3 (V7 m ρ) c 0))

theorem W8_v36_0 (c : Dev nD) : W8 m ρ c (Proc.devRef .tc main_v36_0) = (dat3 (V7 m ρ) c).arrAt 1 cfg3.N :=
  calc W8 m ρ c (Proc.devRef .tc main_v36_0)
    _ = (dat3 (V7 m ρ) c).arrAt 1 cfg3.N := W8_arr m ρ c 1

theorem W8_v36_1 (c : Dev nD) : W8 m ρ c (Proc.devRef .tc main_v36_1) = (dat3 (V7 m ρ) c).arrAt 2 cfg3.N :=
  calc W8 m ρ c (Proc.devRef .tc main_v36_1)
    _ = (dat3 (V7 m ρ) c).arrAt 2 cfg3.N := W8_arr m ρ c 2

theorem W9_v2 (c : Dev nD) : W9 m ρ c (Proc.devRef .tc main_v2) = shapeCast S1x64 (m ((c : Thread nD τ).loc main_arg7)) shapeCasts_S64_S1x64 :=
  calc W9 m ρ c (Proc.devRef .tc main_v2)
    _ = W8 m ρ c (Proc.devRef .tc main_v2) := (by show StableHlo.after hostOps4 _ _ = _; after_results)
    _ = W7 m ρ c (Proc.devRef .tc main_v2) := W8_of_ne m ρ c main_v2 (by decide)
    _ = W6 m ρ c (Proc.devRef .tc main_v2) := (by show StableHlo.after hostOps3 _ _ = _; after_results)
    _ = W5 m ρ c (Proc.devRef .tc main_v2) := W6_of_ne m ρ c main_v2 (by decide)
    _ = W4 m ρ c (Proc.devRef .tc main_v2) := (by show StableHlo.after hostOps2 _ _ = _; after_results)
    _ = W3 m ρ c (Proc.devRef .tc main_v2) := W4_of_ne m ρ c main_v2 (by decide)
    _ = W2 m ρ c (Proc.devRef .tc main_v2) := (by show StableHlo.after hostOps1 _ _ = _; after_results)
    _ = W1 m ρ c (Proc.devRef .tc main_v2) := W2_of_ne m ρ c main_v2 (by decide)
    _ = shapeCast S1x64 (m ((c : Thread nD τ).loc main_arg7)) shapeCasts_S64_S1x64 := by show StableHlo.after hostOps0 _ _ = _; after_results <;> rfl

theorem W9_v3 (c : Dev nD) : W9 m ρ c (Proc.devRef .tc main_v3) = shapeCast S1x64 (m ((c : Thread nD τ).loc main_arg8)) shapeCasts_S64_S1x64 :=
  calc W9 m ρ c (Proc.devRef .tc main_v3)
    _ = W8 m ρ c (Proc.devRef .tc main_v3) := (by show StableHlo.after hostOps4 _ _ = _; after_results)
    _ = W7 m ρ c (Proc.devRef .tc main_v3) := W8_of_ne m ρ c main_v3 (by decide)
    _ = W6 m ρ c (Proc.devRef .tc main_v3) := (by show StableHlo.after hostOps3 _ _ = _; after_results)
    _ = W5 m ρ c (Proc.devRef .tc main_v3) := W6_of_ne m ρ c main_v3 (by decide)
    _ = W4 m ρ c (Proc.devRef .tc main_v3) := (by show StableHlo.after hostOps2 _ _ = _; after_results)
    _ = W3 m ρ c (Proc.devRef .tc main_v3) := W4_of_ne m ρ c main_v3 (by decide)
    _ = W2 m ρ c (Proc.devRef .tc main_v3) := (by show StableHlo.after hostOps1 _ _ = _; after_results)
    _ = W1 m ρ c (Proc.devRef .tc main_v3) := W2_of_ne m ρ c main_v3 (by decide)
    _ = shapeCast S1x64 (m ((c : Thread nD τ).loc main_arg8)) shapeCasts_S64_S1x64 := by show StableHlo.after hostOps0 _ _ = _; after_results <;> rfl

theorem W9_arg9 (c : Dev nD) : W9 m ρ c (Proc.devRef .tc main_arg9) = m ((c : Thread nD τ).loc main_arg9) :=
  calc W9 m ρ c (Proc.devRef .tc main_arg9)
    _ = W8 m ρ c (Proc.devRef .tc main_arg9) := (by show StableHlo.after hostOps4 _ _ = _; after_results)
    _ = W7 m ρ c (Proc.devRef .tc main_arg9) := W8_of_ne m ρ c main_arg9 (by decide)
    _ = W6 m ρ c (Proc.devRef .tc main_arg9) := (by show StableHlo.after hostOps3 _ _ = _; after_results)
    _ = W5 m ρ c (Proc.devRef .tc main_arg9) := W6_of_ne m ρ c main_arg9 (by decide)
    _ = W4 m ρ c (Proc.devRef .tc main_arg9) := (by show StableHlo.after hostOps2 _ _ = _; after_results)
    _ = W3 m ρ c (Proc.devRef .tc main_arg9) := W4_of_ne m ρ c main_arg9 (by decide)
    _ = W2 m ρ c (Proc.devRef .tc main_arg9) := (by show StableHlo.after hostOps1 _ _ = _; after_results)
    _ = W1 m ρ c (Proc.devRef .tc main_arg9) := W2_of_ne m ρ c main_arg9 (by decide)
    _ = W0 m ρ c (Proc.devRef .tc main_arg9) := (by show StableHlo.after hostOps0 _ _ = _; after_results)
    _ = m ((c : Thread nD τ).loc main_arg9) := rfl

theorem W11_v47_0 (c : Dev nD) : W11 m ρ c (Proc.devRef .tc main_v47_0) = (dat4 (V9 m ρ) c).arrAt 6 cfg4.N :=
  calc W11 m ρ c (Proc.devRef .tc main_v47_0)
    _ = W10 m ρ c (Proc.devRef .tc main_v47_0) := (by show StableHlo.after hostOps5 _ _ = _; after_results)
    _ = (dat4 (V9 m ρ) c).arrAt 6 cfg4.N := W10_arr m ρ c 6

theorem W10_v47_1 (c : Dev nD) : W10 m ρ c (Proc.devRef .tc main_v47_1) = (dat4 (V9 m ρ) c).arrAt 7 cfg4.N :=
  calc W10 m ρ c (Proc.devRef .tc main_v47_1)
    _ = (dat4 (V9 m ρ) c).arrAt 7 cfg4.N := W10_arr m ρ c 7

theorem W10_v47_2 (c : Dev nD) : W10 m ρ c (Proc.devRef .tc main_v47_2) = (dat4 (V9 m ρ) c).arrAt 8 cfg4.N :=
  calc W10 m ρ c (Proc.devRef .tc main_v47_2)
    _ = (dat4 (V9 m ρ) c).arrAt 8 cfg4.N := W10_arr m ρ c 8

theorem W11_v4 (c : Dev nD) : W11 m ρ c (Proc.devRef .tc main_v4) = shapeCast S1x128 (m ((c : Thread nD τ).loc main_arg10)) shapeCasts_S128_S1x128 :=
  calc W11 m ρ c (Proc.devRef .tc main_v4)
    _ = W10 m ρ c (Proc.devRef .tc main_v4) := (by show StableHlo.after hostOps5 _ _ = _; after_results)
    _ = W9 m ρ c (Proc.devRef .tc main_v4) := W10_of_ne m ρ c main_v4 (by decide)
    _ = W8 m ρ c (Proc.devRef .tc main_v4) := (by show StableHlo.after hostOps4 _ _ = _; after_results)
    _ = W7 m ρ c (Proc.devRef .tc main_v4) := W8_of_ne m ρ c main_v4 (by decide)
    _ = W6 m ρ c (Proc.devRef .tc main_v4) := (by show StableHlo.after hostOps3 _ _ = _; after_results)
    _ = W5 m ρ c (Proc.devRef .tc main_v4) := W6_of_ne m ρ c main_v4 (by decide)
    _ = W4 m ρ c (Proc.devRef .tc main_v4) := (by show StableHlo.after hostOps2 _ _ = _; after_results)
    _ = W3 m ρ c (Proc.devRef .tc main_v4) := W4_of_ne m ρ c main_v4 (by decide)
    _ = W2 m ρ c (Proc.devRef .tc main_v4) := (by show StableHlo.after hostOps1 _ _ = _; after_results)
    _ = W1 m ρ c (Proc.devRef .tc main_v4) := W2_of_ne m ρ c main_v4 (by decide)
    _ = shapeCast S1x128 (m ((c : Thread nD τ).loc main_arg10)) shapeCasts_S128_S1x128 := by show StableHlo.after hostOps0 _ _ = _; after_results <;> rfl

theorem W11_v5 (c : Dev nD) : W11 m ρ c (Proc.devRef .tc main_v5) = shapeCast S1x128 (m ((c : Thread nD τ).loc main_arg11)) shapeCasts_S128_S1x128 :=
  calc W11 m ρ c (Proc.devRef .tc main_v5)
    _ = W10 m ρ c (Proc.devRef .tc main_v5) := (by show StableHlo.after hostOps5 _ _ = _; after_results)
    _ = W9 m ρ c (Proc.devRef .tc main_v5) := W10_of_ne m ρ c main_v5 (by decide)
    _ = W8 m ρ c (Proc.devRef .tc main_v5) := (by show StableHlo.after hostOps4 _ _ = _; after_results)
    _ = W7 m ρ c (Proc.devRef .tc main_v5) := W8_of_ne m ρ c main_v5 (by decide)
    _ = W6 m ρ c (Proc.devRef .tc main_v5) := (by show StableHlo.after hostOps3 _ _ = _; after_results)
    _ = W5 m ρ c (Proc.devRef .tc main_v5) := W6_of_ne m ρ c main_v5 (by decide)
    _ = W4 m ρ c (Proc.devRef .tc main_v5) := (by show StableHlo.after hostOps2 _ _ = _; after_results)
    _ = W3 m ρ c (Proc.devRef .tc main_v5) := W4_of_ne m ρ c main_v5 (by decide)
    _ = W2 m ρ c (Proc.devRef .tc main_v5) := (by show StableHlo.after hostOps1 _ _ = _; after_results)
    _ = W1 m ρ c (Proc.devRef .tc main_v5) := W2_of_ne m ρ c main_v5 (by decide)
    _ = shapeCast S1x128 (m ((c : Thread nD τ).loc main_arg11)) shapeCasts_S128_S1x128 := by show StableHlo.after hostOps0 _ _ = _; after_results <;> rfl

theorem W11_arg0 (c : Dev nD) : W11 m ρ c (Proc.devRef .tc main_arg0) = m ((c : Thread nD τ).loc main_arg0) :=
  calc W11 m ρ c (Proc.devRef .tc main_arg0)
    _ = W10 m ρ c (Proc.devRef .tc main_arg0) := (by show StableHlo.after hostOps5 _ _ = _; after_results)
    _ = W9 m ρ c (Proc.devRef .tc main_arg0) := W10_of_ne m ρ c main_arg0 (by decide)
    _ = W8 m ρ c (Proc.devRef .tc main_arg0) := (by show StableHlo.after hostOps4 _ _ = _; after_results)
    _ = W7 m ρ c (Proc.devRef .tc main_arg0) := W8_of_ne m ρ c main_arg0 (by decide)
    _ = W6 m ρ c (Proc.devRef .tc main_arg0) := (by show StableHlo.after hostOps3 _ _ = _; after_results)
    _ = W5 m ρ c (Proc.devRef .tc main_arg0) := W6_of_ne m ρ c main_arg0 (by decide)
    _ = W4 m ρ c (Proc.devRef .tc main_arg0) := (by show StableHlo.after hostOps2 _ _ = _; after_results)
    _ = W3 m ρ c (Proc.devRef .tc main_arg0) := W4_of_ne m ρ c main_arg0 (by decide)
    _ = W2 m ρ c (Proc.devRef .tc main_arg0) := (by show StableHlo.after hostOps1 _ _ = _; after_results)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := (by show StableHlo.after hostOps0 _ _ = _; after_results)
    _ = m ((c : Thread nD τ).loc main_arg0) := rfl

theorem W12_v58 (c : Dev nD) : W12 m ρ c (Proc.devRef .tc main_v58) = (dat5 (V11 m ρ) c).arrAt 6 cfg5.N :=
  calc W12 m ρ c (Proc.devRef .tc main_v58)
    _ = (dat5 (V11 m ρ) c).arrAt 6 cfg5.N := W12_arr m ρ c 6

end Cert.KernelIdeal.KChain

end
-- ==== Proof.Spec.lean ====
/-
  The mathematics the two programs share, index by index on the extended reals: column sums over the 100000 rows,
  a product of a row-indexed array with a weight matrix, and the batch normalisation in the arrangement that works from
  the column sums s = Σ_r a(r,c) and q = Σ_r a(r,c)²:

      mean = s / n,   var = max (q / n − mean², 0),   y(r,c) = (a(r,c) − mean(c)) · (var(c) + ε)^(−1/2) · g(c) + b(c).

  Arrays are read as functions of their coordinates (`rd2`, `rd1`), so that statements about different programs'
  arrays of one shape meet in one term.
-/
import Idealize.ShloMosaic.PureOps.Ideal
import Idealize.ShloMosaic.Lib.ValueIdx

noncomputable section

namespace Cert.Spec

open Idealize.ShloMosaic Idealize.ShloMosaic.ValueIdx

/-- The number of rows, 100000, as the f32 word both programs divide by. -/
def nF : EReal := Ideal.ofBits .f32 0x47C35000#32
/-- The variance offset ε, the f32 word nearest 1e-5, the same word in both programs. -/
def epsF : EReal := Ideal.ofBits .f32 0x3727C5AC#32
/-- The f32 zero word. -/
def zeroF : EReal := Ideal.ofBits .f32 0x00000000#32

/-- The row coordinate of the activations. -/
abbrev Rows := Fin 100000

/-- A rank-2 array as a function of its two coordinates. -/
def rd2 {n0 n1 : Nat} (a : (⟨2, ![n0, n1]⟩ : Shape).Idx → EReal) (i : Fin n0) (j : Fin n1) : EReal := a (ix2 i j)
/-- A rank-1 array as a function of its coordinate. -/
def rd1 {n : Nat} (a : (⟨1, ![n]⟩ : Shape).Idx → EReal) (i : Fin n) : EReal := a (ix1 i)
/-- A rank-3 array as a function of its three coordinates. -/
def rd3 {n0 n1 n2 : Nat} (a : (⟨3, ![n0, n1, n2]⟩ : Shape).Idx → EReal) (i : Fin n0) (j : Fin n1) (k : Fin n2) : EReal := a (ix3 i j k)

theorem rd2_ext {n0 n1 : Nat} {a b : (⟨2, ![n0, n1]⟩ : Shape).Idx → EReal} (h : ∀ i j, rd2 a i j = rd2 b i j) : a = b := by
  funext x; rw [eq_ix2 x]; exact h _ _

theorem rd1_ext {n : Nat} {a b : (⟨1, ![n]⟩ : Shape).Idx → EReal} (h : ∀ i, rd1 a i = rd1 b i) : a = b := by
  funext x; rw [eq_ix1 x]; exact h _

theorem rd3_ext {n0 n1 n2 : Nat} {a b : (⟨3, ![n0, n1, n2]⟩ : Shape).Idx → EReal} (h : ∀ i j k, rd3 a i j k = rd3 b i j k) : a = b := by
  funext x; rw [eq_ix3 x]; exact h _ _ _

variable {C K : Nat}

/-- Every entry is a real number (neither infinity). -/
def IsReal2 (a : Rows → Fin C → EReal) : Prop := ∀ r c, ∃ x : ℝ, a r c = (x : EReal)
/-- Every entry of a vector is a real number. -/
def IsReal1 (g : Fin C → EReal) : Prop := ∀ c, ∃ x : ℝ, g c = (x : EReal)

/-- The sum of a column. -/
def colSum (a : Rows → Fin C → EReal) (c : Fin C) : EReal := ∑ r : Rows, a r c
/-- The sum of the squares of a column. -/
def colSumSq (a : Rows → Fin C → EReal) (c : Fin C) : EReal := ∑ r : Rows, a r c * a r c

/-- Rows times a weight matrix. -/
def mm (x : Rows → Fin K → EReal) (w : Fin K → Fin C → EReal) (r : Rows) (c : Fin C) : EReal := ∑ k : Fin K, x r k * w k c

/-- The rectifier: the larger of the value and zero. -/
def relu (x : EReal) : EReal := max x zeroF

/-- Batch normalisation from the column sums `s` and sums of squares `q`. -/
def bnK (a : Rows → Fin C → EReal) (s q g b : Fin C → EReal) (r : Rows) (c : Fin C) : EReal :=
  (a r c - Ideal.div (s c) nF)
    * Ideal.rsqrt (max (Ideal.div (q c) nF - Ideal.div (s c) nF * Ideal.div (s c) nF) zeroF + epsF)
    * g c + b c

/-- Batch normalisation with the sums taken from the array itself. -/
def bnS (a : Rows → Fin C → EReal) (g b : Fin C → EReal) : Rows → Fin C → EReal := bnK a (colSum a) (colSumSq a) g b

end Cert.Spec

end
-- ==== Proof.Comb.lean ====
/-
  The host's combination of the two cores' partial sums. Each accumulator kernel leaves a raw [16,C] array: rows 0–7 are
  core 0's block, rows 8–15 core 1's, and only row 0 of each block carries the core's column sums. The host reads the
  array as [2,8,C], keeps row 0 of each block, and adds the two rows to the zero word:

      comb(raw)(0,k) = 0 + (raw(0,k) + raw(8,k)).
-/
import proofs.«174784_j23922967838995_2_alg».proof.KernelIdeal
import proofs.«174784_j23922967838995_2_alg».proof.Proof.Spec
import Idealize.ShloMosaic.Lib.IdealHost
import Idealize.ShloMosaic.Lib.Pipeline.Value

noncomputable section

namespace Cert.KernelIdeal.Stage

open Idealize.ShloMosaic Idealize.ShloMosaic.ValueIdx Cert.KernelIdeal Cert.Spec

theorem pos_scalar : 0 < S_.numel := by decide

/-- The shape facts of the chain over 64 columns. -/
theorem cast_16x64_2x8x64 : S16x64.ShapeCasts S2x8x64 := by decide
theorem slice_2x8x64_2x1x64 : S2x8x64.Slices ![0, 0, 0] S2x1x64 := by decide
theorem cast_2x1x64_2x64 : S2x1x64.ShapeCasts S2x64 := by decide
theorem redTo_2x64_64 : S2x64.ReducesTo [0] S64 := by decide
theorem red_2x64_64 : S2x64.Reduces [0] S64 := by decide
theorem bcast_64_1x64 : S64.BroadcastsInDim S1x64 (![1] : Fin 1 → Fin S1x64.rank) := by decide

/-- The host's combination of the two cores' partial rows over 64 columns (the host's operations after the kernel, in order): the raw
    [16,64] array as [2,8,64], row 0 of each core's eight, as [2,64], summed over the cores from the zero word, as one
    row [1,64]. -/
def comb64 (raw : FVec Ideal S16x64 .f32) : FVec Ideal S1x64 .f32 :=
  broadcastInDim S1x64 ![1] bcast_64_1x64
    (Host.reduceAdd
      (shapeCast S2x64
        (extractStridedSlice S2x1x64 ![0, 0, 0] (shapeCast S2x8x64 raw cast_16x64_2x8x64) slice_2x8x64_2x1x64)
        cast_2x1x64_2x64)
      (constant (F := Ideal) S_ .f32 0x00000000#32) redTo_2x64_64 pos_scalar)

/-- Core `g`'s term: entry (g,k) of the [2,64] array is entry (8g,k) of the raw array. -/
theorem core_row64 (raw : FVec Ideal S16x64 .f32) (g : Fin 2) (k : Fin 64) (r : Fin 16) (hr : r.val = 8 * g.val) :
    shapeCast S2x64
        (extractStridedSlice S2x1x64 ![0, 0, 0] (shapeCast S2x8x64 raw cast_16x64_2x8x64) slice_2x8x64_2x1x64)
        cast_2x1x64_2x64 (ix2 g k) = raw (ix2 r k) := by
  refine (shapeCast_apply _ _ (ix2 g k) (ix3 g (0 : Fin 1) k) ?_).trans ?_
  · rw [Shape.rowMajor_val_three, Shape.rowMajor_val_two]
    show (g.val * 1 + 0) * 64 + k.val = g.val * 64 + k.val
    omega
  refine (extractStridedSlice_apply _ _ _ (ix3 g (0 : Fin 1) k) (ix3 g (0 : Fin 8) k) (fun a => ?_)).trans ?_
  · match a with
    | ⟨0, _⟩ => show g.val = 0 + g.val; omega
    | ⟨1, _⟩ => rfl
    | ⟨2, _⟩ => show k.val = 0 + k.val; omega
  refine shapeCast_apply _ _ (ix3 g (0 : Fin 8) k) (ix2 r k) ?_
  rw [Shape.rowMajor_val_three, Shape.rowMajor_val_two]
  show r.val * 64 + k.val = (g.val * 8 + 0) * 64 + k.val
  rw [hr]; omega

/-- Column `k` of the combined row: the zero word plus rows 0 and 8 of the raw array (the two cores' row 0). -/
theorem comb64_rd (raw : FVec Ideal S16x64 .f32) (k : Fin 64) :
    rd2 (comb64 raw) 0 k = zeroF + (rd2 raw 0 k + rd2 raw 8 k) := by
  unfold comb64 rd2
  rw [broadcastInDim_apply _ _ _ (ix2 (0 : Fin 1) k) (ix1 k) (fun a => by match a with | ⟨0, _⟩ => rfl)]
  rw [hostReduceAdd_apply, Ideal.hostReduceAdd_single redTo_2x64_64 red_2x64_64]
  refine congrArg₂ (· + ·) rfl ?_
  refine (Fin.sum_univ_two (fun g : Fin 2 => _)).trans ?_
  have e : ∀ g : Fin 2, red_2x64_64.lift (ix1 k) g = ix2 g k := fun g => funext fun a => by
    match a with
    | ⟨0, _⟩ => exact Fin.ext rfl
    | ⟨1, _⟩ => exact Fin.ext rfl
  exact congrArg₂ (· + ·) ((congrArg _ (e 0)).trans (core_row64 raw 0 k 0 rfl)) ((congrArg _ (e 1)).trans (core_row64 raw 1 k 8 rfl))

/-- The shape facts of the chain over 128 columns. -/
theorem cast_16x128_2x8x128 : S16x128.ShapeCasts S2x8x128 := by decide
theorem slice_2x8x128_2x1x128 : S2x8x128.Slices ![0, 0, 0] S2x1x128 := by decide
theorem cast_2x1x128_2x128 : S2x1x128.ShapeCasts S2x128 := by decide
theorem redTo_2x128_128 : S2x128.ReducesTo [0] S128 := by decide
theorem red_2x128_128 : S2x128.Reduces [0] S128 := by decide
theorem bcast_128_1x128 : S128.BroadcastsInDim S1x128 (![1] : Fin 1 → Fin S1x128.rank) := by decide

/-- The host's combination of the two cores' partial rows over 128 columns (the host's operations after the kernel, in order): the raw
    [16,128] array as [2,8,128], row 0 of each core's eight, as [2,128], summed over the cores from the zero word, as one
    row [1,128]. -/
def comb128 (raw : FVec Ideal S16x128 .f32) : FVec Ideal S1x128 .f32 :=
  broadcastInDim S1x128 ![1] bcast_128_1x128
    (Host.reduceAdd
      (shapeCast S2x128
        (extractStridedSlice S2x1x128 ![0, 0, 0] (shapeCast S2x8x128 raw cast_16x128_2x8x128) slice_2x8x128_2x1x128)
        cast_2x1x128_2x128)
      (constant (F := Ideal) S_ .f32 0x00000000#32) redTo_2x128_128 pos_scalar)

/-- Core `g`'s term: entry (g,k) of the [2,128] array is entry (8g,k) of the raw array. -/
theorem core_row128 (raw : FVec Ideal S16x128 .f32) (g : Fin 2) (k : Fin 128) (r : Fin 16) (hr : r.val = 8 * g.val) :
    shapeCast S2x128
        (extractStridedSlice S2x1x128 ![0, 0, 0] (shapeCast S2x8x128 raw cast_16x128_2x8x128) slice_2x8x128_2x1x128)
        cast_2x1x128_2x128 (ix2 g k) = raw (ix2 r k) := by
  refine (shapeCast_apply _ _ (ix2 g k) (ix3 g (0 : Fin 1) k) ?_).trans ?_
  · rw [Shape.rowMajor_val_three, Shape.rowMajor_val_two]
    show (g.val * 1 + 0) * 128 + k.val = g.val * 128 + k.val
    omega
  refine (extractStridedSlice_apply _ _ _ (ix3 g (0 : Fin 1) k) (ix3 g (0 : Fin 8) k) (fun a => ?_)).trans ?_
  · match a with
    | ⟨0, _⟩ => show g.val = 0 + g.val; omega
    | ⟨1, _⟩ => rfl
    | ⟨2, _⟩ => show k.val = 0 + k.val; omega
  refine shapeCast_apply _ _ (ix3 g (0 : Fin 8) k) (ix2 r k) ?_
  rw [Shape.rowMajor_val_three, Shape.rowMajor_val_two]
  show r.val * 128 + k.val = (g.val * 8 + 0) * 128 + k.val
  rw [hr]; omega

/-- Column `k` of the combined row: the zero word plus rows 0 and 8 of the raw array (the two cores' row 0). -/
theorem comb128_rd (raw : FVec Ideal S16x128 .f32) (k : Fin 128) :
    rd2 (comb128 raw) 0 k = zeroF + (rd2 raw 0 k + rd2 raw 8 k) := by
  unfold comb128 rd2
  rw [broadcastInDim_apply _ _ _ (ix2 (0 : Fin 1) k) (ix1 k) (fun a => by match a with | ⟨0, _⟩ => rfl)]
  rw [hostReduceAdd_apply, Ideal.hostReduceAdd_single redTo_2x128_128 red_2x128_128]
  refine congrArg₂ (· + ·) rfl ?_
  refine (Fin.sum_univ_two (fun g : Fin 2 => _)).trans ?_
  have e : ∀ g : Fin 2, red_2x128_128.lift (ix1 k) g = ix2 g k := fun g => funext fun a => by
    match a with
    | ⟨0, _⟩ => exact Fin.ext rfl
    | ⟨1, _⟩ => exact Fin.ext rfl
  exact congrArg₂ (· + ·) ((congrArg _ (e 0)).trans (core_row128 raw 0 k 0 rfl)) ((congrArg _ (e 1)).trans (core_row128 raw 1 k 8 rfl))

end Cert.KernelIdeal.Stage

end
-- ==== Proof.RefStages.lean ====
/-
  The reference program's stages as whole-array functions at the ideal instance (floats are extended
  reals, operations exact). Each definition's body is the composition, in program order, of the functions
  the reference's printed operations apply — the same shape records, the same literals — with the outlined
  helper functions (the variance, its where-select, the relu) substituted at their call sites. The whole
  reference is `out`: three linear layers, three training-mode batch normalizations over the 100000 rows,
  two relus, a row gather, a batched product over 27 offsets, a scatter-add of rows, and the residual.
-/
import proofs.«174784_j23922967838995_2_alg».proof.ReferenceIdeal
import Idealize.ShloMosaic.PureOps.Ideal

noncomputable section

namespace Cert.RefStages

open Idealize.ShloMosaic Idealize.SL.Sem
open Cert.ReferenceIdeal

variable [Cert.ReferenceIdeal.Facts]
open Cert.ReferenceIdeal.Facts₀ Cert.ReferenceIdeal.Facts

/-- The first linear layer: the rows of `x` times `w`, contracting the 128 input channels. -/
def lin1 (x : FVec Ideal S100000x128 .f32) (w : FVec Ideal S128x64 .f32) : FVec Ideal S100000x64 .f32 :=
  Host.dotGeneral (F := Ideal) dot_S100000x128_S128x64_S100000x64_1_0_0_1_n_n none x w

/-- Batch normalization of 64 channels over the 100000 rows, as the reference arranges it:
    `(a - mean) * rsqrt (var + eps) * g + b`, where `mean` is the column sum over `1e5`, and `var` is the
    column sum of the squared deviations from a second copy of the mean (kept as a `1 × 64` row), over
    `1e5 - 0`, selected against a NaN when that count is not positive. -/
def bn64 (a : FVec Ideal S100000x64 .f32) (g b : FVec Ideal S64 .f32) : FVec Ideal S100000x64 .f32 :=
  addf (F := Ideal) (mulf (F := Ideal) (mulf (F := Ideal) (subf (F := Ideal) a (broadcastInDim S100000x64 ![0, 1] bcast_S1x64_S100000x64_0_1 (broadcastInDim S1x64 ![1] bcast_S64_S1x64_1 (Host.divf (F := Ideal) (Host.reduceAdd (F := Ideal) a (constant (F := Ideal) S_ .f32 0x00000000#32) reducesTo_S100000x64_S64_d0 h_S_) (broadcastInDim S64 ![] bcast_S_S64 (constant (F := Ideal) S_ .f32 0x47C35000#32)))))) (broadcastInDim S100000x64 ![0, 1] bcast_S1x64_S100000x64_0_1 (broadcastInDim S1x64 ![1] bcast_S64_S1x64_1 (Host.rsqrt (F := Ideal) (addf (F := Ideal) (select (broadcastInDim S64 ![] bcast_S_S64 (cmpf (F := Ideal) .ogt (subf (F := Ideal) (constant (F := Ideal) S_ .f32 0x47C35000#32) (sitofp (F := Ideal) .f32 (constantI S_ 32 0#32))) (constant (F := Ideal) S_ .f32 0x00000000#32))) (Host.divf (F := Ideal) (Host.reduceAdd (F := Ideal) (mulf (F := Ideal) (subf (F := Ideal) a (broadcastInDim S100000x64 ![0, 1] bcast_S1x64_S100000x64_0_1 (Host.divf (F := Ideal) (broadcastInDim S1x64 ![1] bcast_S64_S1x64_1 (Host.reduceAdd (F := Ideal) a (constant (F := Ideal) S_ .f32 0x00000000#32) reducesTo_S100000x64_S64_d0 h_S_)) (broadcastInDim S1x64 ![] bcast_S_S1x64 (constant (F := Ideal) S_ .f32 0x47C35000#32))))) (subf (F := Ideal) a (broadcastInDim S100000x64 ![0, 1] bcast_S1x64_S100000x64_0_1 (Host.divf (F := Ideal) (broadcastInDim S1x64 ![1] bcast_S64_S1x64_1 (Host.reduceAdd (F := Ideal) a (constant (F := Ideal) S_ .f32 0x00000000#32) reducesTo_S100000x64_S64_d0 h_S_)) (broadcastInDim S1x64 ![] bcast_S_S1x64 (constant (F := Ideal) S_ .f32 0x47C35000#32)))))) (constant (F := Ideal) S_ .f32 0x00000000#32) reducesTo_S100000x64_S64_d0 h_S_) (broadcastInDim S64 ![] bcast_S_S64 (subf (F := Ideal) (constant (F := Ideal) S_ .f32 0x47C35000#32) (sitofp (F := Ideal) .f32 (constantI S_ 32 0#32))))) (broadcastInDim S64 ![] bcast_S_S64 (id (constant (F := Ideal) S_ .f32 0x7FC00000#32)))) (broadcastInDim S64 ![] bcast_S_S64 (constant (F := Ideal) S_ .f32 0x3727C5AC#32))))))) (broadcastInDim S100000x64 ![0, 1] bcast_S1x64_S100000x64_0_1 (broadcastInDim S1x64 ![1] bcast_S64_S1x64_1 g))) (broadcastInDim S100000x64 ![0, 1] bcast_S1x64_S100000x64_0_1 (broadcastInDim S1x64 ![1] bcast_S64_S1x64_1 b))

/-- The relu of a `100000 × 64` array: the maximum with the zero array. -/
def relu64 (a : FVec Ideal S100000x64 .f32) : FVec Ideal S100000x64 .f32 :=
  maximumf (F := Ideal) a (broadcastInDim S100000x64 ![] bcast_S_S100000x64 (constant (F := Ideal) S_ .f32 0x00000000#32))

/-- The row gather: for each of the `27 × 50000` indices (a negative one first moved up by 100000), that
    row of `h`. -/
def gath (h : FVec Ideal S100000x64 .f32) (ii : IVec S27x50000 32) : FVec Ideal S27x50000x64 .f32 :=
  Host.gather gather_S100000x64_S27x50000x1_S27x50000x64_2_0_n_n_0_2_164 h
    (broadcastInDim S27x50000x1 ![0, 1] bcast_S27x50000_S27x50000x1_0_1 (select (cmpi .slt ii (broadcastInDim S27x50000 ![] bcast_S_S27x50000 (constantI S_ 32 0#32))) (addi ii (broadcastInDim S27x50000 ![] bcast_S_S27x50000 (constantI S_ 32 100000#32))) ii))

/-- The batched product: for each of the 27 offsets, its `50000 × 64` block times its `64 × 64` matrix. -/
def bmm (t : FVec Ideal S27x50000x64 .f32) (w : FVec Ideal S27x64x64 .f32) : FVec Ideal S27x50000x64 .f32 :=
  Host.dotGeneral (F := Ideal) dot_S27x50000x64_S27x64x64_S27x50000x64_2_1_1_2_0_0 none t w

/-- The scatter-add of rows into the zero `100000 × 64` array: the `27 × 50000` indices and the
    `27 × 50000 × 64` updates flattened to 1350000 entries, a negative index first moved up by 100000. -/
def scat (oi : IVec S27x50000 32) (y : FVec Ideal S27x50000x64 .f32) : FVec Ideal S100000x64 .f32 :=
  Host.scatterAdd (F := Ideal) scatter_S100000x64_S1350000x1_S1350000x64_1_0_0_1
    (broadcastInDim S100000x64 ![] bcast_S_S100000x64 (constant (F := Ideal) S_ .f32 0x00000000#32))
    (broadcastInDim S1350000x1 ![0] bcast_S1350000_S1350000x1_0 (select (cmpi .slt (shapeCast S1350000 oi shapeCasts_S27x50000_S1350000) (broadcastInDim S1350000 ![] bcast_S_S1350000 (constantI S_ 32 0#32))) (addi (shapeCast S1350000 oi shapeCasts_S27x50000_S1350000) (broadcastInDim S1350000 ![] bcast_S_S1350000 (constantI S_ 32 100000#32))) (shapeCast S1350000 oi shapeCasts_S27x50000_S1350000)))
    (shapeCast S1350000x64 y shapeCasts_S27x50000x64_S1350000x64)

/-- The third linear layer: the rows of `h` times `w`, contracting the 64 channels. -/
def lin3 (h : FVec Ideal S100000x64 .f32) (w : FVec Ideal S64x128 .f32) : FVec Ideal S100000x128 .f32 :=
  Host.dotGeneral (F := Ideal) dot_S100000x64_S64x128_S100000x128_1_0_0_1_n_n none h w

/-- Batch normalization of 128 channels over the 100000 rows, arranged as `bn64`. -/
def bn128 (a : FVec Ideal S100000x128 .f32) (g b : FVec Ideal S128 .f32) : FVec Ideal S100000x128 .f32 :=
  addf (F := Ideal) (mulf (F := Ideal) (mulf (F := Ideal) (subf (F := Ideal) a (broadcastInDim S100000x128 ![0, 1] bcast_S1x128_S100000x128_0_1 (broadcastInDim S1x128 ![1] bcast_S128_S1x128_1 (Host.divf (F := Ideal) (Host.reduceAdd (F := Ideal) a (constant (F := Ideal) S_ .f32 0x00000000#32) reducesTo_S100000x128_S128_d0 h_S_) (broadcastInDim S128 ![] bcast_S_S128 (constant (F := Ideal) S_ .f32 0x47C35000#32)))))) (broadcastInDim S100000x128 ![0, 1] bcast_S1x128_S100000x128_0_1 (broadcastInDim S1x128 ![1] bcast_S128_S1x128_1 (Host.rsqrt (F := Ideal) (addf (F := Ideal) (select (broadcastInDim S128 ![] bcast_S_S128 (cmpf (F := Ideal) .ogt (subf (F := Ideal) (constant (F := Ideal) S_ .f32 0x47C35000#32) (sitofp (F := Ideal) .f32 (constantI S_ 32 0#32))) (constant (F := Ideal) S_ .f32 0x00000000#32))) (Host.divf (F := Ideal) (Host.reduceAdd (F := Ideal) (mulf (F := Ideal) (subf (F := Ideal) a (broadcastInDim S100000x128 ![0, 1] bcast_S1x128_S100000x128_0_1 (Host.divf (F := Ideal) (broadcastInDim S1x128 ![1] bcast_S128_S1x128_1 (Host.reduceAdd (F := Ideal) a (constant (F := Ideal) S_ .f32 0x00000000#32) reducesTo_S100000x128_S128_d0 h_S_)) (broadcastInDim S1x128 ![] bcast_S_S1x128 (constant (F := Ideal) S_ .f32 0x47C35000#32))))) (subf (F := Ideal) a (broadcastInDim S100000x128 ![0, 1] bcast_S1x128_S100000x128_0_1 (Host.divf (F := Ideal) (broadcastInDim S1x128 ![1] bcast_S128_S1x128_1 (Host.reduceAdd (F := Ideal) a (constant (F := Ideal) S_ .f32 0x00000000#32) reducesTo_S100000x128_S128_d0 h_S_)) (broadcastInDim S1x128 ![] bcast_S_S1x128 (constant (F := Ideal) S_ .f32 0x47C35000#32)))))) (constant (F := Ideal) S_ .f32 0x00000000#32) reducesTo_S100000x128_S128_d0 h_S_) (broadcastInDim S128 ![] bcast_S_S128 (subf (F := Ideal) (constant (F := Ideal) S_ .f32 0x47C35000#32) (sitofp (F := Ideal) .f32 (constantI S_ 32 0#32))))) (broadcastInDim S128 ![] bcast_S_S128 (id (constant (F := Ideal) S_ .f32 0x7FC00000#32)))) (broadcastInDim S128 ![] bcast_S_S128 (constant (F := Ideal) S_ .f32 0x3727C5AC#32))))))) (broadcastInDim S100000x128 ![0, 1] bcast_S1x128_S100000x128_0_1 (broadcastInDim S1x128 ![1] bcast_S128_S1x128_1 g))) (broadcastInDim S100000x128 ![0, 1] bcast_S1x128_S100000x128_0_1 (broadcastInDim S1x128 ![1] bcast_S128_S1x128_1 b))

/-- The whole reference: the bottleneck block's output plus its input. -/
def out (x : FVec Ideal S100000x128 .f32) (ii oi : IVec S27x50000 32)
    (w1 : FVec Ideal S128x64 .f32) (g1 b1 : FVec Ideal S64 .f32)
    (w2 : FVec Ideal S27x64x64 .f32) (g2 b2 : FVec Ideal S64 .f32)
    (w3 : FVec Ideal S64x128 .f32) (g3 b3 : FVec Ideal S128 .f32) : FVec Ideal S100000x128 .f32 :=
  addf (F := Ideal) (bn128 (lin3 (relu64 (bn64 (scat oi (bmm (gath (relu64 (bn64 (lin1 x w1) g1 b1)) ii) w2)) g2 b2)) w3) g3 b3) x

end Cert.RefStages

end
-- ==== Proof.KChain2.lean ====
/-
  The contents of the buffers that host operations between the regions compute: the per-core statistic rows combined
  into one row, the gathered rows, and the scatter-add of the per-offset products — each as the named whole-array
  function of what the region before it left.
-/
import proofs.«174784_j23922967838995_2_alg».proof.Proof.KChain
import proofs.«174784_j23922967838995_2_alg».proof.Proof.Comb
import proofs.«174784_j23922967838995_2_alg».proof.Proof.RefStages
import proofs.«174784_j23922967838995_2_alg».proof.Proof.Gen.ReferenceIdeal

set_option maxRecDepth 16384

noncomputable section

namespace Cert.KernelIdeal.KChain

open Cert.KernelIdeal Cert.KernelIdeal.Gen Cert.KernelIdeal.GenP
open Idealize.ShloMosaic Idealize.ShloMosaic.TcCoe Idealize.ShloMosaic.Tactic
open Idealize.SL Idealize.SL.Sem
open Idealize.ShloMosaic.Pipeline (Dat Cfg Window BodyObligation cellOf)

variable (m : (ℓ : Loc nD τ sig) → Buf (Elt Ideal) ℓ) (ρ : Dev nD → PrngReg)

/-- The reference program's stated shape facts (a proposition: any two witnesses agree). -/
local instance : Cert.ReferenceIdeal.Facts := Cert.ReferenceIdeal.Gen.facts

/-- Region 1's column sums: the two cores' statistic rows of region 0 combined. -/
theorem W3_v11 (c : Dev nD) : W3 m ρ c (Proc.devRef .tc main_v11) = Stage.comb64 ((dat0 (V1 m ρ) c).arrAt 3 cfg0.N) := by
  show StableHlo.after hostOps1 _ _ = _
  after_results
  simp only [W2_v6_1 m ρ c]
  rfl

theorem W3_v16 (c : Dev nD) : W3 m ρ c (Proc.devRef .tc main_v16) = Stage.comb64 ((dat0 (V1 m ρ) c).arrAt 4 cfg0.N) := by
  show StableHlo.after hostOps1 _ _ = _
  after_results
  simp only [W2_v6_2 m ρ c]
  rfl

/-- The gathered rows: the reference's gather of region 1's output by the first index array. -/
theorem W5_v24 (c : Dev nD) : W5 m ρ c (Proc.devRef .tc main_v24)
    = Cert.RefStages.gath ((dat1 (V3 m ρ) c).arrAt 5 cfg1.N) (m ((c : Thread nD τ).loc main_arg1)) := by
  show StableHlo.after hostOps2 _ _ = _
  after_results
  simp only [W4_v17 m ρ c, W4_arg1 m ρ c]
  rfl

/-- The scatter-add of region 2's products by the second index array. -/
theorem W7_v35 (c : Dev nD) : W7 m ρ c (Proc.devRef .tc main_v35)
    = Cert.RefStages.scat (m ((c : Thread nD τ).loc main_arg2)) ((dat2 (V5 m ρ) c).arrAt 2 cfg2.N) := by
  show StableHlo.after hostOps3 _ _ = _
  after_results_simp
  simp only [W6_v25 m ρ c, W6_arg2 m ρ c]
  rfl

theorem W9_v41 (c : Dev nD) : W9 m ρ c (Proc.devRef .tc main_v41) = Stage.comb64 ((dat3 (V7 m ρ) c).arrAt 1 cfg3.N) := by
  show StableHlo.after hostOps4 _ _ = _
  after_results
  simp only [W8_v36_0 m ρ c]
  rfl

theorem W9_v46 (c : Dev nD) : W9 m ρ c (Proc.devRef .tc main_v46) = Stage.comb64 ((dat3 (V7 m ρ) c).arrAt 2 cfg3.N) := by
  show StableHlo.after hostOps4 _ _ = _
  after_results
  simp only [W8_v36_1 m ρ c]
  rfl

theorem W11_v52 (c : Dev nD) : W11 m ρ c (Proc.devRef .tc main_v52) = Stage.comb128 ((dat4 (V9 m ρ) c).arrAt 7 cfg4.N) := by
  show StableHlo.after hostOps5 _ _ = _
  after_results
  simp only [W10_v47_1 m ρ c]
  rfl

theorem W11_v57 (c : Dev nD) : W11 m ρ c (Proc.devRef .tc main_v57) = Stage.comb128 ((dat4 (V9 m ρ) c).arrAt 8 cfg4.N) := by
  show StableHlo.after hostOps5 _ _ = _
  after_results
  simp only [W10_v47_2 m ρ c]
  rfl

/-- Region 4 reads the scatter-add's result where region 3 read it. -/
theorem W9_v35' (c : Dev nD) : W9 m ρ c (Proc.devRef .tc main_v35)
    = Cert.RefStages.scat (m ((c : Thread nD τ).loc main_arg2)) ((dat2 (V5 m ρ) c).arrAt 2 cfg2.N) :=
  (W9_v35 m ρ c).trans (W7_v35 m ρ c)

end Cert.KernelIdeal.KChain

end
-- ==== Proof.NetSpec.lean ====
/-
  The network both programs compute, in the arrangement the kernel uses: every batch normalisation from the column
  sums of its own input (`Spec.bnS`), the gather, the per-offset product and the scatter-add as the reference's own
  whole-array functions. `outK` is the result as one function of the twelve argument arrays.
-/
import proofs.«174784_j23922967838995_2_alg».proof.Proof.Spec
import proofs.«174784_j23922967838995_2_alg».proof.Proof.RefStages

noncomputable section

namespace Cert.Net

open Idealize.ShloMosaic Idealize.ShloMosaic.ValueIdx
open Cert.Spec Cert.ReferenceIdeal

variable [Cert.ReferenceIdeal.Facts]

/-- A function of two coordinates as a rank-2 array. -/
def un2 {n0 n1 : Nat} (f : Fin n0 → Fin n1 → EReal) : (⟨2, ![n0, n1]⟩ : Shape).Idx → EReal := fun i => f (i 0) (i 1)

theorem rd2_un2 {n0 n1 : Nat} (f : Fin n0 → Fin n1 → EReal) : rd2 (un2 f) = f := rfl

theorem un2_rd2 {n0 n1 : Nat} (a : (⟨2, ![n0, n1]⟩ : Shape).Idx → EReal) : un2 (rd2 a) = a := rd2_ext fun _ _ => rfl

/-- After the first layer: the rectified normalisation of `x · w1`. -/
def h1 (x : FVec Ideal S100000x128 .f32) (w1 : FVec Ideal S128x64 .f32) (g1 b1 : FVec Ideal S64 .f32) : FVec Ideal S100000x64 .f32 :=
  un2 fun r k => relu (bnS (mm (rd2 x) (rd2 w1)) (rd1 g1) (rd1 b1) r k)

/-- The sparse convolution of `h1`: gathered rows, per-offset products, scatter-add. -/
def a2 (x : FVec Ideal S100000x128 .f32) (ii oi : IVec S27x50000 32) (w1 : FVec Ideal S128x64 .f32) (g1 b1 : FVec Ideal S64 .f32)
    (w2 : FVec Ideal S27x64x64 .f32) : FVec Ideal S100000x64 .f32 :=
  Cert.RefStages.scat oi (Cert.RefStages.bmm (Cert.RefStages.gath (h1 x w1 g1 b1) ii) w2)

/-- The third layer's product: the rectified normalisation of `a2`, times `w3`. -/
def a3 (x : FVec Ideal S100000x128 .f32) (ii oi : IVec S27x50000 32) (w1 : FVec Ideal S128x64 .f32) (g1 b1 : FVec Ideal S64 .f32)
    (w2 : FVec Ideal S27x64x64 .f32) (g2 b2 : FVec Ideal S64 .f32) (w3 : FVec Ideal S64x128 .f32) : Rows → Fin 128 → EReal :=
  mm (fun r k => relu (bnS (rd2 (a2 x ii oi w1 g1 b1 w2)) (rd1 g2) (rd1 b2) r k)) (rd2 w3)

/-- The whole block: the normalisation of `a3` plus the input. -/
def outK (x : FVec Ideal S100000x128 .f32) (ii oi : IVec S27x50000 32) (w1 : FVec Ideal S128x64 .f32) (g1 b1 : FVec Ideal S64 .f32)
    (w2 : FVec Ideal S27x64x64 .f32) (g2 b2 : FVec Ideal S64 .f32) (w3 : FVec Ideal S64x128 .f32) (g3 b3 : FVec Ideal S128 .f32) :
    FVec Ideal S100000x128 .f32 :=
  un2 fun r k => bnS (a3 x ii oi w1 g1 b1 w2 g2 b2 w3) (rd1 g3) (rd1 b3) r k + rd2 x r k

end Cert.Net

end
-- ==== Proof.Reg0Pieces.lean ====
/-
  Region 0 (the block product with its two running column totals), what the body leaves at one grid point, read off
  the stores the run found. With x the point's [2000,128] block and w the [128,64] weights, o = x·w:
    * the product block is o at every point;
    * at the first point of a core (grid column 0) the two [8,64] total blocks are zeroed and row 0 then takes
      0 + Σ_r o(r,·) and 0 + Σ_r o(r,·)², rows 1–7 staying zero;
    * at every other point row 0 takes what the point before left plus those sums, rows 1–7 are not touched.
  The statements hold for any float values; nothing is evaluated.
-/
import proofs.«174784_j23922967838995_2_alg».proof.Proof.KernelIdealFrameP
import proofs.«174784_j23922967838995_2_alg».proof.Proof.Spec
import Idealize.ShloMosaic.Lib.Pipeline.Value
import Idealize.ShloMosaic.Lib.Tactic
import Idealize.ShloMosaic.Lib.WritesUnit

noncomputable section

namespace Cert.KernelIdeal.Stage

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.Spec

variable {F : FTy → Type} [FloatOps F]

theorem hz2 : (![0, 0] : Fin 2 → Nat) = fun _ => 0 := funext fun a => by fin_cases a <;> rfl

/-- The zero block a reset stores reads the zero word at every index. -/
theorem zeroBlock_apply (j : S8x64.Idx) : (k0_pay1 (F := F)) j = Scalar.ofBits .f32 0x00000000#32 := rfl
theorem zeroBlock_apply' (j : S8x64.Idx) : (k0_pay2 (F := F)) j = Scalar.ofBits .f32 0x00000000#32 := rfl

/-- A load of row 0 after the zero block was stored reads the zero word. -/
theorem readCov_zero (v : View sig .tc .vmem S8x64 .f32) :
    v.readCov [(⟨Rect.unit ![0, 0] S8x64.size inb_S8x64_S8x64_0_0, k0_pay1 (F := F)⟩ : View.Piece (Elt F) S8x64 .f32)]
        (Rect.unit (s := S8x64) ![0, 0] S1x64.size inb_S8x64_S1x64_0_0).toLoadRect
      = fun _ => Scalar.ofBits .f32 0x00000000#32 := by
  rw [View.readCov_eq_canon', View.canon_unit_zero hz2]; rfl
theorem readCov_zero' (v : View sig .tc .vmem S8x64 .f32) :
    v.readCov [(⟨Rect.unit ![0, 0] S8x64.size inb_S8x64_S8x64_0_0, k0_pay2 (F := F)⟩ : View.Piece (Elt F) S8x64 .f32)]
        (Rect.unit (s := S8x64) ![0, 0] S1x64.size inb_S8x64_S1x64_0_0).toLoadRect
      = fun _ => Scalar.ofBits .f32 0x00000000#32 := by
  rw [View.readCov_eq_canon', View.canon_unit_zero hz2]; rfl

/-- The product block: at either kind of point the body stores the block product of its two input blocks. -/
theorem o_A (c : Dev nD) (i : grid0.Coords) (a2 : Memref sig .tc .vmem S2000x128 .f32) (h2 : a2.IsWhole) (a3 : Memref sig .tc .vmem S128x64 .f32) (h3 : a3.IsWhole) (a4 : Memref sig .tc .vmem S2000x64 .f32) (h4 : a4.IsWhole) (a5 : Memref sig .tc .vmem S8x64 .f32) (h5 : a5.IsWhole) (a6 : Memref sig .tc .vmem S8x64 .f32) (h6 : a6.IsWhole) (hc : cond0_0 i) (x0 : Vec F S2000x128 .f32) (x1 : Vec F S128x64 .f32) :
    out0_A_2 c i a2 h2 a3 h3 a4 h4 a5 h5 a6 h6 hc x0 x1 = k0_pay3 x0 x1 := by
  unfold out0_A_2
  rw [View.read_writes_eq_canon _ _ _ (cover0_A_2 c i a2 h2 a3 h3 a4 h4 a5 h5 a6 h6 hc x0 x1)]
  unfold kernelRun0_A
  dsimp only
  rw [View.canon_unit_zero hz2]
  simp only [View.readAt_eq_ld, h2.read_unread, h3.read_unread, View.ld_unit_zero (S := S2000x128) hz2, View.ld_unit_zero (S := S128x64) hz2]

theorem o_B (c : Dev nD) (i : grid0.Coords) (a2 : Memref sig .tc .vmem S2000x128 .f32) (h2 : a2.IsWhole) (a3 : Memref sig .tc .vmem S128x64 .f32) (h3 : a3.IsWhole) (a4 : Memref sig .tc .vmem S2000x64 .f32) (h4 : a4.IsWhole) (a5 : Memref sig .tc .vmem S8x64 .f32) (h5 : a5.IsWhole) (a6 : Memref sig .tc .vmem S8x64 .f32) (h6 : a6.IsWhole) (hc : ¬cond0_0 i) (x0 : Vec F S2000x128 .f32) (x1 : Vec F S128x64 .f32) (xo3 xo4 : Vec F S8x64 .f32) :
    out0_B_2 c i a2 h2 a3 h3 a4 h4 a5 h5 a6 h6 hc x0 x1 xo3 xo4 = k0_pay3 x0 x1 := by
  unfold out0_B_2
  rw [View.read_writes_eq_canon _ _ _ (cover0_B_2 c i a2 h2 a3 h3 a4 h4 a5 h5 a6 h6 hc x0 x1 xo3 xo4)]
  unfold kernelRun0_B
  dsimp only
  rw [View.canon_unit_zero hz2]
  simp only [View.readAt_eq_ld, h2.read_unread, h3.read_unread, View.ld_unit_zero (S := S2000x128) hz2, View.ld_unit_zero (S := S128x64) hz2]

/-- The sum block after a reset point, row 0: the running row from the zero row. -/
theorem s_A_row0 (c : Dev nD) (i : grid0.Coords) (a2 : Memref sig .tc .vmem S2000x128 .f32) (h2 : a2.IsWhole) (a3 : Memref sig .tc .vmem S128x64 .f32) (h3 : a3.IsWhole) (a4 : Memref sig .tc .vmem S2000x64 .f32) (h4 : a4.IsWhole) (a5 : Memref sig .tc .vmem S8x64 .f32) (h5 : a5.IsWhole) (a6 : Memref sig .tc .vmem S8x64 .f32) (h6 : a6.IsWhole) (hc : cond0_0 i) (x0 : Vec F S2000x128 .f32) (x1 : Vec F S128x64 .f32) (k : Fin 64) :
    out0_A_3 c i a2 h2 a3 h3 a4 h4 a5 h5 a6 h6 hc x0 x1 (ix2 (0 : Fin 8) k)
      = k0_pay4 x0 x1 (fun _ => Scalar.ofBits .f32 0x00000000#32) (ix2 (0 : Fin 1) k) := by
  unfold out0_A_3 kernelRun0_A
  dsimp only
  sl_unfold_words
  refine (View.read_writes_cons_rows_of_mem VO0_3 _ _ _ _ (ix2 (0 : Fin 8) k) (ix2 (0 : Fin 1) k) rfl rfl rfl).trans ?_
  simp only [View.readAt_eq_ld, h2.read_unread, h3.read_unread, View.ld_unit_zero (S := S2000x128) hz2, View.ld_unit_zero (S := S128x64) hz2]
  exact congrArg (fun v => k0_pay4 x0 x1 v (ix2 (0 : Fin 1) k)) (readCov_zero a5.view)

/-- The sum block after a reset point, rows 1–7: the zero word. -/
theorem s_A_rest (c : Dev nD) (i : grid0.Coords) (a2 : Memref sig .tc .vmem S2000x128 .f32) (h2 : a2.IsWhole) (a3 : Memref sig .tc .vmem S128x64 .f32) (h3 : a3.IsWhole) (a4 : Memref sig .tc .vmem S2000x64 .f32) (h4 : a4.IsWhole) (a5 : Memref sig .tc .vmem S8x64 .f32) (h5 : a5.IsWhole) (a6 : Memref sig .tc .vmem S8x64 .f32) (h6 : a6.IsWhole) (hc : cond0_0 i) (x0 : Vec F S2000x128 .f32) (x1 : Vec F S128x64 .f32) (r : Fin 8) (hr : r.val ≠ 0) (k : Fin 64) :
    out0_A_3 c i a2 h2 a3 h3 a4 h4 a5 h5 a6 h6 hc x0 x1 (ix2 r k) = Scalar.ofBits .f32 0x00000000#32 := by
  unfold out0_A_3 kernelRun0_A
  dsimp only
  sl_unfold_words
  refine (View.read_writes_cons_rows_of_not_mem (W := 1) VO0_3 _ _ _ _ (ix2 r k) rfl rfl (Or.inr (by show 0 + 1 ≤ r.val; omega))).trans ?_
  refine (View.read_writes_cons_rows_of_mem VO0_3 _ _ _ _ (ix2 r k) (ix2 r k) rfl (by show r.val = 0 + r.val; omega) rfl).trans ?_
  rfl

/-- The square-sum block after a reset point, row 0: the running row from the zero row. -/
theorem q_A_row0 (c : Dev nD) (i : grid0.Coords) (a2 : Memref sig .tc .vmem S2000x128 .f32) (h2 : a2.IsWhole) (a3 : Memref sig .tc .vmem S128x64 .f32) (h3 : a3.IsWhole) (a4 : Memref sig .tc .vmem S2000x64 .f32) (h4 : a4.IsWhole) (a5 : Memref sig .tc .vmem S8x64 .f32) (h5 : a5.IsWhole) (a6 : Memref sig .tc .vmem S8x64 .f32) (h6 : a6.IsWhole) (hc : cond0_0 i) (x0 : Vec F S2000x128 .f32) (x1 : Vec F S128x64 .f32) (k : Fin 64) :
    out0_A_4 c i a2 h2 a3 h3 a4 h4 a5 h5 a6 h6 hc x0 x1 (ix2 (0 : Fin 8) k)
      = k0_pay5 x0 x1 (fun _ => Scalar.ofBits .f32 0x00000000#32) (ix2 (0 : Fin 1) k) := by
  unfold out0_A_4 kernelRun0_A
  dsimp only
  sl_unfold_words
  refine (View.read_writes_cons_rows_of_mem VO0_4 _ _ _ _ (ix2 (0 : Fin 8) k) (ix2 (0 : Fin 1) k) rfl rfl rfl).trans ?_
  simp only [View.readAt_eq_ld, h2.read_unread, h3.read_unread, View.ld_unit_zero (S := S2000x128) hz2, View.ld_unit_zero (S := S128x64) hz2]
  exact congrArg (fun v => k0_pay5 x0 x1 v (ix2 (0 : Fin 1) k)) (readCov_zero' a6.view)

/-- The square-sum block after a reset point, rows 1–7: the zero word. -/
theorem q_A_rest (c : Dev nD) (i : grid0.Coords) (a2 : Memref sig .tc .vmem S2000x128 .f32) (h2 : a2.IsWhole) (a3 : Memref sig .tc .vmem S128x64 .f32) (h3 : a3.IsWhole) (a4 : Memref sig .tc .vmem S2000x64 .f32) (h4 : a4.IsWhole) (a5 : Memref sig .tc .vmem S8x64 .f32) (h5 : a5.IsWhole) (a6 : Memref sig .tc .vmem S8x64 .f32) (h6 : a6.IsWhole) (hc : cond0_0 i) (x0 : Vec F S2000x128 .f32) (x1 : Vec F S128x64 .f32) (r : Fin 8) (hr : r.val ≠ 0) (k : Fin 64) :
    out0_A_4 c i a2 h2 a3 h3 a4 h4 a5 h5 a6 h6 hc x0 x1 (ix2 r k) = Scalar.ofBits .f32 0x00000000#32 := by
  unfold out0_A_4 kernelRun0_A
  dsimp only
  sl_unfold_words
  refine (View.read_writes_cons_rows_of_not_mem (W := 1) VO0_4 _ _ _ _ (ix2 r k) rfl rfl (Or.inr (by show 0 + 1 ≤ r.val; omega))).trans ?_
  refine (View.read_writes_cons_rows_of_mem VO0_4 _ _ _ _ (ix2 r k) (ix2 r k) rfl (by show r.val = 0 + r.val; omega) rfl).trans ?_
  rfl

/-- Row 0 of a block, as a load through the first row's rectangle reads it. -/
abbrev row0 (xo : Vec F S8x64 .f32) : Vec F S1x64 .f32 :=
  View.ld xo (Rect.unit (s := S8x64) ![0, 0] S1x64.size inb_S8x64_S1x64_0_0)

/-- The sum block after any other point, row 0: the running row from the row the point before left. -/
theorem s_B_row0 (c : Dev nD) (i : grid0.Coords) (a2 : Memref sig .tc .vmem S2000x128 .f32) (h2 : a2.IsWhole) (a3 : Memref sig .tc .vmem S128x64 .f32) (h3 : a3.IsWhole) (a4 : Memref sig .tc .vmem S2000x64 .f32) (h4 : a4.IsWhole) (a5 : Memref sig .tc .vmem S8x64 .f32) (h5 : a5.IsWhole) (a6 : Memref sig .tc .vmem S8x64 .f32) (h6 : a6.IsWhole) (hc : ¬cond0_0 i) (x0 : Vec F S2000x128 .f32) (x1 : Vec F S128x64 .f32) (xo3 xo4 : Vec F S8x64 .f32) (k : Fin 64) :
    out0_B_3 c i a2 h2 a3 h3 a4 h4 a5 h5 a6 h6 hc x0 x1 xo3 xo4 (ix2 (0 : Fin 8) k)
      = k0_pay4 x0 x1 (row0 xo3) (ix2 (0 : Fin 1) k) := by
  unfold out0_B_3 kernelRun0_B
  dsimp only
  refine (View.read_writes_cons_rows_of_mem a5.view _ _ _ _ (ix2 (0 : Fin 8) k) (ix2 (0 : Fin 1) k) rfl rfl rfl).trans ?_
  simp only [View.readAt_eq_ld, h2.read_unread, h3.read_unread, h5.read_unread, View.ld_unit_zero (S := S2000x128) hz2, View.ld_unit_zero (S := S128x64) hz2]

/-- The sum block after any other point, rows 1–7: what the point before left. -/
theorem s_B_rest (c : Dev nD) (i : grid0.Coords) (a2 : Memref sig .tc .vmem S2000x128 .f32) (h2 : a2.IsWhole) (a3 : Memref sig .tc .vmem S128x64 .f32) (h3 : a3.IsWhole) (a4 : Memref sig .tc .vmem S2000x64 .f32) (h4 : a4.IsWhole) (a5 : Memref sig .tc .vmem S8x64 .f32) (h5 : a5.IsWhole) (a6 : Memref sig .tc .vmem S8x64 .f32) (h6 : a6.IsWhole) (hc : ¬cond0_0 i) (x0 : Vec F S2000x128 .f32) (x1 : Vec F S128x64 .f32) (xo3 xo4 : Vec F S8x64 .f32) (r : Fin 8) (hr : r.val ≠ 0) (k : Fin 64) :
    out0_B_3 c i a2 h2 a3 h3 a4 h4 a5 h5 a6 h6 hc x0 x1 xo3 xo4 (ix2 r k) = xo3 (ix2 r k) := by
  unfold out0_B_3 kernelRun0_B
  dsimp only
  refine (View.read_writes_cons_rows_of_not_mem (W := 1) a5.view _ _ _ _ (ix2 r k) rfl rfl (Or.inr (by show 0 + 1 ≤ r.val; omega))).trans ?_
  exact congrFun (h5.read_unread xo3) (ix2 r k)

/-- The square-sum block after any other point, row 0. -/
theorem q_B_row0 (c : Dev nD) (i : grid0.Coords) (a2 : Memref sig .tc .vmem S2000x128 .f32) (h2 : a2.IsWhole) (a3 : Memref sig .tc .vmem S128x64 .f32) (h3 : a3.IsWhole) (a4 : Memref sig .tc .vmem S2000x64 .f32) (h4 : a4.IsWhole) (a5 : Memref sig .tc .vmem S8x64 .f32) (h5 : a5.IsWhole) (a6 : Memref sig .tc .vmem S8x64 .f32) (h6 : a6.IsWhole) (hc : ¬cond0_0 i) (x0 : Vec F S2000x128 .f32) (x1 : Vec F S128x64 .f32) (xo3 xo4 : Vec F S8x64 .f32) (k : Fin 64) :
    out0_B_4 c i a2 h2 a3 h3 a4 h4 a5 h5 a6 h6 hc x0 x1 xo3 xo4 (ix2 (0 : Fin 8) k)
      = k0_pay5 x0 x1 (row0 xo4) (ix2 (0 : Fin 1) k) := by
  unfold out0_B_4 kernelRun0_B
  dsimp only
  refine (View.read_writes_cons_rows_of_mem a6.view _ _ _ _ (ix2 (0 : Fin 8) k) (ix2 (0 : Fin 1) k) rfl rfl rfl).trans ?_
  simp only [View.readAt_eq_ld, h2.read_unread, h3.read_unread, h6.read_unread, View.ld_unit_zero (S := S2000x128) hz2, View.ld_unit_zero (S := S128x64) hz2]

/-- The square-sum block after any other point, rows 1–7. -/
theorem q_B_rest (c : Dev nD) (i : grid0.Coords) (a2 : Memref sig .tc .vmem S2000x128 .f32) (h2 : a2.IsWhole) (a3 : Memref sig .tc .vmem S128x64 .f32) (h3 : a3.IsWhole) (a4 : Memref sig .tc .vmem S2000x64 .f32) (h4 : a4.IsWhole) (a5 : Memref sig .tc .vmem S8x64 .f32) (h5 : a5.IsWhole) (a6 : Memref sig .tc .vmem S8x64 .f32) (h6 : a6.IsWhole) (hc : ¬cond0_0 i) (x0 : Vec F S2000x128 .f32) (x1 : Vec F S128x64 .f32) (xo3 xo4 : Vec F S8x64 .f32) (r : Fin 8) (hr : r.val ≠ 0) (k : Fin 64) :
    out0_B_4 c i a2 h2 a3 h3 a4 h4 a5 h5 a6 h6 hc x0 x1 xo3 xo4 (ix2 r k) = xo4 (ix2 r k) := by
  unfold out0_B_4 kernelRun0_B
  dsimp only
  refine (View.read_writes_cons_rows_of_not_mem (W := 1) a6.view _ _ _ _ (ix2 r k) rfl rfl (Or.inr (by show 0 + 1 ≤ r.val; omega))).trans ?_
  exact congrFun (h6.read_unread xo4) (ix2 r k)

end Cert.KernelIdeal.Stage

end
-- ==== Proof.Reg0Pay.lean ====
/-
  The arithmetic of region 0's body on the extended reals, index by index: the block product o(r,k) = Σ_j x(r,j)·w(j,k)
  (the casts to the narrower format are the identity, the accumulator is zero), and the two running rows, each taking
  what it held plus Σ_r o(r,k), respectively Σ_r o(r,k)², over the block's 2000 rows.
-/
import proofs.«174784_j23922967838995_2_alg».proof.Proof.KernelIdealFrameP
import proofs.«174784_j23922967838995_2_alg».proof.Proof.Spec
import Idealize.ShloMosaic.Lib.Pipeline.Value
import Idealize.ShloMosaic.Lib.Tactic
import proofs.«174784_j23922967838995_2_alg».proof.Proof.Reg0Pieces
import Idealize.ShloMosaic.PureOps.Ideal.Laws

noncomputable section

namespace Cert.KernelIdeal.Stage

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.Spec

variable {F : FTy → Type} [FloatOps F]

/-- A column of a [2000,64] block summed down its rows, as the body takes it (a reduction over the row axis recast to one
    row), at column `k`. -/
theorem colsum_apply (src : FVec Ideal S2000x64 .f32) (k : Fin 64) :
    shapeCast S1x64 (multiReduction .add [0] S64 src 0x00000000#32 reduces_S2000x64_S64 (.inl rfl) rfl) shapeCasts_S64_S1x64
        (ix2 (0 : Fin 1) k)
      = ∑ r : Fin 2000, src (ix2 r k) := by
  refine (shapeCast_apply _ _ (ix2 (0 : Fin 1) k) (ix1 k) ?_).trans ?_
  · rw [Shape.rowMajor_val_one, Shape.rowMajor_val_two]
    show k.val = 0 * 64 + k.val
    omega
  refine (Ideal.multiReduction_add_single src _ reduces_S2000x64_S64 _ _ (ix1 k)).trans ?_
  refine Finset.sum_congr rfl fun r _ => congrArg src (funext fun a => ?_)
  match a with
  | ⟨0, _⟩ => exact Fin.ext rfl
  | ⟨1, _⟩ => exact Fin.ext rfl

/-- The block product at an index: the sum over the 128 inner coordinates of the products (the casts to the narrower
    format do nothing to extended reals; the accumulator is the zero array). -/
theorem pay3_apply (x0 : Vec Ideal S2000x128 .f32) (x1 : Vec Ideal S128x64 .f32) (r : Fin 2000) (k : Fin 64) :
    k0_pay3 (F := Ideal) x0 x1 (ix2 r k) = ∑ j : Fin 128, x0 (ix2 r j) * x1 (ix2 j k) := by
  unfold k0_pay3
  refine (Ideal.matmul_constant_zero_apply dot_S2000x128_S128x64_S2000x64_1_0_0_1_n_n none _ _ (ix2 r k)).trans ?_
  refine (Equiv.sum_comp (contrEquiv1 dot_S2000x128_S128x64_S2000x64_1_0_0_1_n_n 128 rfl rfl).symm _).symm.trans ?_
  refine Finset.sum_congr rfl fun j _ => ?_
  refine congrArg₂ (· * ·) (congrArg x0 (funext fun a => ?_)) (congrArg x1 (funext fun a => ?_))
  · match a with
    | ⟨0, _⟩ => exact Fin.ext rfl
    | ⟨1, _⟩ =>
      exact Fin.ext ((DotDims.lhsIdx_val_of_single _ rfl _ _).trans (contrEquiv1_symm_val _ 128 rfl rfl j))
  · match a with
    | ⟨0, _⟩ =>
      exact Fin.ext ((DotDims.rhsIdx_val_of_single _ rfl _ _).trans (contrEquiv1_symm_val _ 128 rfl rfl j))
    | ⟨1, _⟩ => exact Fin.ext rfl

/-- The running sum row: what it held at column `k` plus the block product's column `k` summed down the rows. -/
theorem pay4_apply (x0 : Vec Ideal S2000x128 .f32) (x1 : Vec Ideal S128x64 .f32) (v : Vec Ideal S1x64 .f32) (k : Fin 64) :
    k0_pay4 (F := Ideal) x0 x1 v (ix2 (0 : Fin 1) k) = v (ix2 (0 : Fin 1) k) + ∑ r : Fin 2000, k0_pay3 (F := Ideal) x0 x1 (ix2 r k) := by
  unfold k0_pay4
  exact congrArg₂ (· + ·) (congrFun (shapeCast_self v _) _) (colsum_apply _ k)

/-- The running square-sum row: what it held plus the squares of the block product's column summed down the rows. -/
theorem pay5_apply (x0 : Vec Ideal S2000x128 .f32) (x1 : Vec Ideal S128x64 .f32) (v : Vec Ideal S1x64 .f32) (k : Fin 64) :
    k0_pay5 (F := Ideal) x0 x1 v (ix2 (0 : Fin 1) k)
      = v (ix2 (0 : Fin 1) k) + ∑ r : Fin 2000, k0_pay3 (F := Ideal) x0 x1 (ix2 r k) * k0_pay3 (F := Ideal) x0 x1 (ix2 r k) := by
  unfold k0_pay5
  exact congrArg₂ (· + ·) (congrFun (shapeCast_self v _) _) (colsum_apply _ k)

/-- Row 0 of a block read at column `k`. -/
theorem row0_apply (xo : Vec Ideal S8x64 .f32) (k : Fin 64) : row0 xo (ix2 (0 : Fin 1) k) = xo (ix2 (0 : Fin 8) k) := by
  show xo _ = xo _
  refine congrArg xo (funext fun a => ?_)
  match a with
  | ⟨0, _⟩ => exact Fin.ext rfl
  | ⟨1, _⟩ => exact Fin.ext (by show 0 + 1 * k.val = k.val; omega)

end Cert.KernelIdeal.Stage

end
-- ==== Proof.LibResetSum.lean ====
/-
  Two laws about sums taken in pieces, in any commutative additive monoid (so they hold on the extended reals, with
  their infinities, exactly as on the reals: only associativity and commutativity of addition are used).

  1. Tiling. The sum of the first A * B terms of a sequence is the sum, over A consecutive tiles, of each tile's B terms.

  2. A running total with periodic reset. Walk the steps 0, 1, 2, … keeping a running total that is RESET at every
     step divisible by P (there it becomes that step's term alone) and otherwise grows by the step's term. Then at the
     j-th step of the q-th period the total is the sum of that period's first j + 1 terms; in particular, at a period's
     last step it is the sum of the period's P terms. This is what an accumulator carried along the inner axis of a
     two-axis grid holds when it is cleared at the start of every row of the grid.
-/
import Mathlib.Algebra.BigOperators.Fin

open Finset

namespace Cert.ResetSum

variable {M : Type*} [AddCommMonoid M]

/-- Tiling: the first `A * B` terms, summed tile by tile. -/
theorem sum_range_mul (A B : ℕ) (g : ℕ → M) :
    ∑ n ∈ range (A * B), g n = ∑ a ∈ range A, ∑ b ∈ range B, g (a * B + b) := by
  induction A with
  | zero => rw [Nat.zero_mul, range_zero, sum_empty, sum_empty]
  | succ A ih => rw [Nat.succ_mul, sum_range_add, ih, sum_range_succ]

/-- The running total that is reset at every step divisible by `P`. -/
def resetAcc (P : ℕ) (f : ℕ → M) : ℕ → M
  | 0 => f 0
  | n + 1 => if (n + 1) % P = 0 then f (n + 1) else resetAcc P f n + f (n + 1)

/-- At a step divisible by the period the total is that step's term. -/
theorem resetAcc_of_dvd (P : ℕ) (f : ℕ → M) (n : ℕ) (h : n % P = 0) : resetAcc P f n = f n := by
  cases n with
  | zero => rfl
  | succ n => exact if_pos h

/-- At any other step it grows by that step's term. -/
theorem resetAcc_succ (P : ℕ) (f : ℕ → M) (n : ℕ) (h : ¬(n + 1) % P = 0) :
    resetAcc P f (n + 1) = resetAcc P f n + f (n + 1) := if_neg h

/-- Within a period: at its `j`-th step the total is the sum of the period's first `j + 1` terms. -/
theorem resetAcc_period (P : ℕ) (f : ℕ → M) (q : ℕ) :
    ∀ j, j < P → resetAcc P f (q * P + j) = ∑ k ∈ range (j + 1), f (q * P + k)
  | 0, _ => by
    rw [resetAcc_of_dvd P f _ (by rw [Nat.add_zero, Nat.mul_mod_left]), sum_range_one]
  | j + 1, hj => by
    have hne : ¬(q * P + j + 1) % P = 0 := by
      rw [Nat.add_assoc, Nat.mul_add_mod', Nat.mod_eq_of_lt hj]; exact Nat.succ_ne_zero j
    rw [← Nat.add_assoc, resetAcc_succ P f _ hne, resetAcc_period P f q j (Nat.lt_of_succ_lt hj),
      sum_range_succ _ (j + 1), Nat.add_assoc]

/-- At a period's last step: the sum of the period's `P` terms. -/
theorem resetAcc_last (P : ℕ) (hP : 0 < P) (f : ℕ → M) (q : ℕ) :
    resetAcc P f (q * P + (P - 1)) = ∑ k ∈ range P, f (q * P + k) := by
  rw [resetAcc_period P f q (P - 1) (Nat.sub_lt hP Nat.one_pos), Nat.sub_add_cancel hP]

end Cert.ResetSum
-- ==== Proof.TileSums.lean ====
/-
  The column sums over the 100000 rows, taken the way the accumulator kernels take them: the rows are 50 tiles of 2000
  (tile n holds rows 2000·n … 2000·n + 1999), core 0 adds up tiles 0–24 into one row and core 1 tiles 25–49 into another,
  each starting from the zero word, and the host adds the two rows to the zero word. Only associativity and
  commutativity of addition on the extended reals are used, and that the zero word is the number zero.
-/
import proofs.«174784_j23922967838995_2_alg».proof.Proof.Spec
import proofs.«174784_j23922967838995_2_alg».proof.Proof.LibResetSum
import Idealize.ShloMosaic.PureOps.Ideal.Laws

noncomputable section

namespace Cert.Spec

open Finset Idealize.ShloMosaic

/-- Row `r` of tile `n`: row `2000·n + r` of the array. -/
def tileRow (n : ℕ) (hn : n < 50) (r : Fin 2000) : Rows := ⟨2000 * n + r.val, by have := r.isLt; omega⟩

/-- Column `k` of `a` as a sequence of its entries down the rows, zero past the last row. -/
def colSeq {C : ℕ} (a : Rows → Fin C → EReal) (k : Fin C) (n : ℕ) : EReal := if h : n < 100000 then a ⟨n, h⟩ k else 0

/-- The two cores' totals of their 25 tile sums, each from the zero word, added to the zero word, are the column sum
    over all rows: `T n` is tile `n`'s sum of column `k`. -/
theorem colSum_tiles {C : ℕ} (a : Rows → Fin C → EReal) (k : Fin C) (T : ℕ → EReal)
    (hT : ∀ (n : ℕ) (hn : n < 50), T n = ∑ r : Fin 2000, a (tileRow n hn r) k) :
    zeroF + ((zeroF + ∑ s ∈ range 25, T (25 * 0 + s)) + (zeroF + ∑ s ∈ range 25, T (25 * 1 + s))) = colSum a k := by
  have z : zeroF = 0 := Ideal.ofBits_zero_f32
  rw [z, zero_add, zero_add, zero_add]
  have h50 : ∑ n ∈ range 50, T n = ∑ s ∈ range 25, T (25 * 0 + s) + ∑ s ∈ range 25, T (25 * 1 + s) := by
    rw [show (50 : ℕ) = 25 + 25 from rfl, sum_range_add]
    refine congrArg₂ (· + ·) (sum_congr rfl fun s _ => ?_) (sum_congr rfl fun s _ => ?_)
    · rw [Nat.mul_zero, Nat.zero_add]
    · rw [Nat.mul_one]
  rw [← h50]
  unfold colSum
  have hf : ∑ r : Rows, a r k = ∑ n ∈ range (50 * 2000), colSeq a k n := by
    show _ = ∑ n ∈ range 100000, colSeq a k n
    rw [Finset.sum_range]
    exact sum_congr rfl fun r _ => by unfold colSeq; rw [dif_pos r.isLt]
  rw [hf, Cert.ResetSum.sum_range_mul]
  refine sum_congr rfl fun n hn => ?_
  have hn' : n < 50 := mem_range.mp hn
  rw [hT n hn', Finset.sum_range (fun b => colSeq a k (n * 2000 + b))]
  refine sum_congr rfl fun r _ => ?_
  have hr : n * 2000 + r.val < 100000 := by have := r.isLt; omega
  unfold colSeq
  rw [dif_pos hr]
  exact congrArg (fun R => a R k) (Fin.ext (by show 2000 * n + r.val = n * 2000 + r.val; omega))

/-- The same for the sums of squares. -/
theorem colSumSq_tiles {C : ℕ} (a : Rows → Fin C → EReal) (k : Fin C) (T : ℕ → EReal)
    (hT : ∀ (n : ℕ) (hn : n < 50), T n = ∑ r : Fin 2000, a (tileRow n hn r) k * a (tileRow n hn r) k) :
    zeroF + ((zeroF + ∑ s ∈ range 25, T (25 * 0 + s)) + (zeroF + ∑ s ∈ range 25, T (25 * 1 + s))) = colSumSq a k :=
  colSum_tiles (fun r c => a r c * a r c) k T hT

end Cert.Spec

end
-- ==== Proof.Reg0Blocks.lean ====
/-
  Region 0's input blocks as parts of the whole arrays. Point t of the 50 reads rows 2000·t … 2000·t + 1999 of the
  activations and all of the weights, so its product block o_t = x_t·w is those rows of the product of the whole arrays:
  o_t(r,k) = Σ_j x(2000·t + r, j)·w(j,k).
-/
import proofs.«174784_j23922967838995_2_alg».proof.Proof.KernelIdealFrameP
import proofs.«174784_j23922967838995_2_alg».proof.Proof.Spec
import Idealize.ShloMosaic.Lib.Pipeline.Value
import Idealize.ShloMosaic.Lib.Tactic
import proofs.«174784_j23922967838995_2_alg».proof.Proof.Reg0Pay
import proofs.«174784_j23922967838995_2_alg».proof.Proof.TileSums
import proofs.«174784_j23922967838995_2_alg».proof.Proof.Comb

noncomputable section

namespace Cert.KernelIdeal.Stage

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.Spec

variable {F : FTy → Type} [FloatOps F]

variable (V : (c : Dev nD) → (b : Ref sig .tc) → Buf (Elt Ideal) ((c : Thread nD τ).loc b)) (c : Dev nD)

theorem N0 : cfg0.N = 50 := N_0

/-- The printed index maps over the grid: the point `t = 25·core + j` reads x-block `t` and the whole weights, writes
    product block `t`, and its two total blocks are block `core = t / 25` of the raw [16,64] arrays. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val / 25 ∧ win0_3.index t (1 : Fin 2) = 0
    ∧ win0_4.index t (0 : Fin 2) = t.val / 25 ∧ win0_4.index t (1 : Fin 2) = 0 :=
  (by decide +kernel : ∀ t : Fin grid0.N, _)

/-- The x-block of point `t` at (r,j) is the array's row `2000·t + r`. -/
theorem xblk_apply (t : Fin cfg0.N) (r : Fin 2000) (j : Fin 128) :
    iblk0 V c 0 t (ix2 r j) = rd2 (V c (Pipeline.arrRef spec0 0)) (tileRow t.val (lt_of_lt_of_eq t.isLt N0) r) j := by
  obtain ⟨e0, e1, -⟩ := idx0 t
  unfold iblk0 rd2
  rw [View.read_apply]
  show V c (Pipeline.arrRef spec0 0) (((cfg0.win 0).blk t).view.emb (ix2 r j)) = _
  refine congrArg (V c (Pipeline.arrRef spec0 0)) (funext fun a => Fin.ext ?_)
  match a with
  | ⟨0, _⟩ => show win0_0.index t (0 : Fin 2) * 2000 + 1 * r.val = 2000 * t.val + r.val; rw [e0]; omega
  | ⟨1, _⟩ => show win0_0.index t (1 : Fin 2) * 128 + 1 * j.val = j.val; rw [e1]; omega

/-- The weight block of every point is the whole weight array. -/
theorem wblk_apply (t : Fin cfg0.N) (j : Fin 128) (k : Fin 64) :
    iblk0 V c 1 t (ix2 j k) = rd2 (V c (Pipeline.arrRef spec0 1)) j k := by
  obtain ⟨-, -, e2, e3, -⟩ := idx0 t
  unfold iblk0 rd2
  rw [View.read_apply]
  show V c (Pipeline.arrRef spec0 1) (((cfg0.win 1).blk t).view.emb (ix2 j k)) = _
  refine congrArg (V c (Pipeline.arrRef spec0 1)) (funext fun a => Fin.ext ?_)
  match a with
  | ⟨0, _⟩ => show win0_1.index t (0 : Fin 2) * 128 + 1 * j.val = j.val; rw [e2]; omega
  | ⟨1, _⟩ => show win0_1.index t (1 : Fin 2) * 64 + 1 * k.val = k.val; rw [e3]; omega

/-- The product block of point `t`: the x-block times the weights. -/
def oblk (t : Fin cfg0.N) : FVec Ideal S2000x64 .f32 := k0_pay3 (F := Ideal) (iblk0 V c 0 t) (iblk0 V c 1 t)

/-- It is rows `2000·t …` of the product of the whole arrays. -/
theorem oblk_apply (t : Fin cfg0.N) (r : Fin 2000) (k : Fin 64) :
    oblk V c t (ix2 r k)
      = mm (rd2 (V c (Pipeline.arrRef spec0 0))) (rd2 (V c (Pipeline.arrRef spec0 1))) (tileRow t.val (lt_of_lt_of_eq t.isLt N0) r) k := by
  unfold oblk mm
  refine (pay3_apply (iblk0 V c 0 t) (iblk0 V c 1 t) r k).trans (Finset.sum_congr rfl fun j _ => ?_)
  exact congrArg₂ (· * ·) (xblk_apply V c t r j) (wblk_apply V c t j k)

end Cert.KernelIdeal.Stage

end
-- ==== Proof.Reg0Acc.lean ====
/-
  Region 0 across the grid. After point t the product window's buffer holds o_t; row 0 of the two total blocks is reset at
  a core's first point (t divisible by 25) to 0 + S_t, respectively 0 + Q_t, and grows by S_t, Q_t at every other point,
  where S_t(k) = Σ_r o_t(r,k) and Q_t(k) = Σ_r o_t(r,k)². So after point t it holds the zero word plus the sums of the
  core's tiles 25·(t / 25) … t, by induction on the point.
-/
import proofs.«174784_j23922967838995_2_alg».proof.Proof.KernelIdealFrameP
import proofs.«174784_j23922967838995_2_alg».proof.Proof.Spec
import Idealize.ShloMosaic.Lib.Pipeline.Value
import Idealize.ShloMosaic.Lib.Tactic
import proofs.«174784_j23922967838995_2_alg».proof.Proof.Reg0Blocks

noncomputable section

namespace Cert.KernelIdeal.Stage

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.Spec

variable {F : FTy → Type} [FloatOps F]

variable (V : (c : Dev nD) → (b : Ref sig .tc) → Buf (Elt Ideal) ((c : Thread nD τ).loc b)) (c : Dev nD)

/-- After every point the product window's buffer holds that point's product block. -/
theorem outs_o (t : Fin cfg0.N) : (outsAt0 V c t.val t.isLt).1 = oblk V c t := by
  unfold oblk
  by_cases h0 : t.val % 25 = 0
  · rw [outsAt0_A V c t h0]
    dsimp only
    exact o_A (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)
  · rw [outsAt0_B V c t h0]
    dsimp only
    exact o_B (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) _ _

/-! ## The two running rows -/

/-- Tile `t`'s column sums and sums of squares of its product block. -/
def tS (t : Fin cfg0.N) (k : Fin 64) : EReal := ∑ r : Fin 2000, oblk V c t (ix2 r k)
def tQ (t : Fin cfg0.N) (k : Fin 64) : EReal := ∑ r : Fin 2000, oblk V c t (ix2 r k) * oblk V c t (ix2 r k)

/-- Row 0 of the two total blocks after point `n`. -/
def Rs (n : ℕ) (hn : n < cfg0.N) : Fin 64 → EReal := fun k => (outsAt0 V c n hn).2.1 (ix2 (0 : Fin 8) k)
def Rq (n : ℕ) (hn : n < cfg0.N) : Fin 64 → EReal := fun k => (outsAt0 V c n hn).2.2 (ix2 (0 : Fin 8) k)

/-- At a core's first point the sum row is the zero word plus the tile's sums. -/
theorem Rs_reset (n : ℕ) (hn : n < cfg0.N) (h0 : n % 25 = 0) :
    Rs V c n hn = fun k => zeroF + tS V c ⟨n, hn⟩ k := by
  funext k
  unfold Rs
  rw [outsAt0_A V c ⟨n, hn⟩ h0]
  dsimp only
  refine (s_A_row0 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) ((hcond0_0 ⟨n, hn⟩).mpr h0) (iblk0 V c 0 ⟨n, hn⟩) (iblk0 V c 1 ⟨n, hn⟩) k).trans ?_
  exact pay4_apply (iblk0 V c 0 ⟨n, hn⟩) (iblk0 V c 1 ⟨n, hn⟩) _ k

/-- At every other point it grows by the tile's sums. -/
theorem Rs_step (n : ℕ) (hn : n + 1 < cfg0.N) (h0 : ¬(n + 1) % 25 = 0) :
    Rs V c (n + 1) hn = fun k => Rs V c n (Nat.lt_of_succ_lt hn) k + tS V c ⟨n + 1, hn⟩ k := by
  funext k
  unfold Rs
  rw [outsAt0_B V c ⟨n + 1, hn⟩ h0]
  dsimp only
  refine (s_B_row0 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) _ _ k).trans ?_
  refine (pay4_apply (iblk0 V c 0 ⟨n + 1, hn⟩) (iblk0 V c 1 ⟨n + 1, hn⟩) _ k).trans ?_
  exact congrArg₂ (· + ·) (row0_apply _ k) rfl

theorem Rq_reset (n : ℕ) (hn : n < cfg0.N) (h0 : n % 25 = 0) :
    Rq V c n hn = fun k => zeroF + tQ V c ⟨n, hn⟩ k := by
  funext k
  unfold Rq
  rw [outsAt0_A V c ⟨n, hn⟩ h0]
  dsimp only
  refine (q_A_row0 (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) ((hcond0_0 ⟨n, hn⟩).mpr h0) (iblk0 V c 0 ⟨n, hn⟩) (iblk0 V c 1 ⟨n, hn⟩) k).trans ?_
  exact pay5_apply (iblk0 V c 0 ⟨n, hn⟩) (iblk0 V c 1 ⟨n, hn⟩) _ k

theorem Rq_step (n : ℕ) (hn : n + 1 < cfg0.N) (h0 : ¬(n + 1) % 25 = 0) :
    Rq V c (n + 1) hn = fun k => Rq V c n (Nat.lt_of_succ_lt hn) k + tQ V c ⟨n + 1, hn⟩ k := by
  funext k
  unfold Rq
  rw [outsAt0_B V c ⟨n + 1, hn⟩ h0]
  dsimp only
  refine (q_B_row0 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩) _ _ k).trans ?_
  refine (pay5_apply (iblk0 V c 0 ⟨n + 1, hn⟩) (iblk0 V c 1 ⟨n + 1, hn⟩) _ k).trans ?_
  exact congrArg₂ (· + ·) (row0_apply _ k) rfl

/-- The tiles' sums as sequences over all naturals (zero past the grid). -/
def Ms (n : ℕ) (k : Fin 64) : EReal := if h : n < cfg0.N then tS V c ⟨n, h⟩ k else 0
def Mq (n : ℕ) (k : Fin 64) : EReal := if h : n < cfg0.N then tQ V c ⟨n, h⟩ k else 0

/-- So after point `t` the sum row holds the zero word plus the sums of the core's tiles up to `t`. -/
theorem Rs_sum (t : ℕ) (ht : t < cfg0.N) (k : Fin 64) :
    Rs V c t ht k = zeroF + ∑ s ∈ Finset.range (t % 25 + 1), Ms V c (25 * (t / 25) + s) k := by
  have h' : 25 * (t / 25) + t % 25 < cfg0.N := by rw [Nat.div_add_mod]; exact ht
  have e : Rs V c t ht = Pipeline.accAt (N := cfg0.N) (fun n h => fun k => zeroF + tS V c ⟨n, h⟩ k)
      (fun n h acc => fun k => acc k + tS V c ⟨n, h⟩ k) (25 * (t / 25)) (t % 25) h' :=
    Pipeline.eq_accAt_of_mod (N := cfg0.N) (fun n h => Rs V c n h) 25 _ _
      (fun n h h0 => Rs_reset V c n h h0) (fun n h h0 => Rs_step V c n h h0) (by decide) t ht h'
  rw [e]
  exact Pipeline.accAt_add_apply _ _ (fun _ => zeroF) (Ms V c) (25 * (t / 25)) 24
    (fun h i => by unfold Ms; rw [dif_pos h])
    (fun n h acc i _ _ => by unfold Ms; rw [dif_pos h])
    (t % 25) (by omega) h' k

theorem Rq_sum (t : ℕ) (ht : t < cfg0.N) (k : Fin 64) :
    Rq V c t ht k = zeroF + ∑ s ∈ Finset.range (t % 25 + 1), Mq V c (25 * (t / 25) + s) k := by
  have h' : 25 * (t / 25) + t % 25 < cfg0.N := by rw [Nat.div_add_mod]; exact ht
  have e : Rq V c t ht = Pipeline.accAt (N := cfg0.N) (fun n h => fun k => zeroF + tQ V c ⟨n, h⟩ k)
      (fun n h acc => fun k => acc k + tQ V c ⟨n, h⟩ k) (25 * (t / 25)) (t % 25) h' :=
    Pipeline.eq_accAt_of_mod (N := cfg0.N) (fun n h => Rq V c n h) 25 _ _
      (fun n h h0 => Rq_reset V c n h h0) (fun n h h0 => Rq_step V c n h h0) (by decide) t ht h'
  rw [e]
  exact Pipeline.accAt_add_apply _ _ (fun _ => zeroF) (Mq V c) (25 * (t / 25)) 24
    (fun h i => by unfold Mq; rw [dif_pos h])
    (fun n h acc i _ _ => by unfold Mq; rw [dif_pos h])
    (t % 25) (by omega) h' k

end Cert.KernelIdeal.Stage

end
-- ==== Proof.Reg0.lean ====
/-
  Region 0 after the run. The product array ends holding the product of the activations with the weights (the 50 blocks
  tile its rows). Each raw [16,64] total array is written back twice, after a core's last point: rows 0–7 by core 0,
  rows 8–15 by core 1, and row 0 of each block holds the zero word plus the core's 25 tile sums. The host's
  combination of rows 0 and 8 from the zero word is then the sum over all 100000 rows: the column sums of the product,
  and the column sums of its squares.
-/
import proofs.«174784_j23922967838995_2_alg».proof.Proof.KernelIdealFrameP
import proofs.«174784_j23922967838995_2_alg».proof.Proof.Spec
import Idealize.ShloMosaic.Lib.Pipeline.Value
import Idealize.ShloMosaic.Lib.Tactic
import proofs.«174784_j23922967838995_2_alg».proof.Proof.Reg0Acc

noncomputable section

namespace Cert.KernelIdeal.Stage

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.Spec

variable {F : FTy → Type} [FloatOps F]

variable (V : (c : Dev nD) → (b : Ref sig .tc) → Buf (Elt Ideal) ((c : Thread nD τ).loc b)) (c : Dev nD)

/-! ## The product array -/

/-- An index of the product array lies in point `t`'s block iff each coordinate lies in the block's range. -/
theorem mem_blk2 (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v6_0).slice (win0_2.rect t)).set ↔ _
  rw [View.set_slice_whole, Rect.mem_set_unit]
  exact Iff.rfl

/-- The product of the whole arrays, as contents of the product array. -/
def Go : S100000x64.Idx → EReal :=
  fun i => mm (rd2 (V c (Pipeline.arrRef spec0 0))) (rd2 (V c (Pipeline.arrRef spec0 1))) (i 0) (i 1)

/-- What point `t` writes back is block `t` of it. -/
theorem flushed_o (t : Fin cfg0.N) :
    (dat0 V c).flushed 2 t = ((cfg0.win 2).blk t).view.read (Elt Ideal) (Go V c) := by
  obtain ⟨-, -, -, -, e4, e5, -⟩ := idx0 t
  show (cfg0.win 2).cut (grid0.coords t) ((dat0 V c).after 2 t) = _
  rw [after0_2, outs_o]
  funext y
  obtain ⟨r, k, rfl⟩ : ∃ (r : Fin 2000) (k : Fin 64), y = ix2 r k := ⟨y 0, y 1, eq_ix2 y⟩
  rw [View.read_apply]
  show oblk V c t (ix2 r k) = Go V c (((cfg0.win 2).blk t).view.emb (ix2 r k))
  rw [oblk_apply]
  unfold Go
  refine congrArg₂ (mm _ _) (Fin.ext ?_) (Fin.ext ?_)
  · show 2000 * t.val + r.val = win0_2.index t (0 : Fin 2) * 2000 + 1 * r.val; rw [e4]; omega
  · show k.val = win0_2.index t (1 : Fin 2) * 64 + 1 * k.val; rw [e5]; omega

/-- The blocks tile the array (row `R` lies in block `R / 2000`), so the array ends holding the product. -/
theorem final_o : (dat0 V c).arrAt 2 cfg0.N = Go V c :=
  (dat0 V c).arrAt_eq_of_cover 2 (Go V c) (fun t _ => flushed_o V c t) fun i => by
    have hi0 : (i 0).val < 100000 := (i 0).isLt
    have hi1 : (i 1).val < 64 := (i 1).isLt
    have ht : (i 0).val / 2000 < cfg0.N := by rw [N0]; omega
    obtain ⟨-, -, -, -, e4, e5, -⟩ := idx0 ⟨(i 0).val / 2000, ht⟩
    refine ⟨⟨(i 0).val / 2000, ht⟩, flush0_2 _, ?_⟩
    rw [mem_blk2]
    intro a
    match a with
    | ⟨0, _⟩ =>
      show win0_2.index ⟨(i 0).val / 2000, ht⟩ (0 : Fin 2) * 2000 ≤ (i 0).val ∧ (i 0).val < win0_2.index ⟨(i 0).val / 2000, ht⟩ (0 : Fin 2) * 2000 + 2000
      rw [e4]; show (i 0).val / 2000 * 2000 ≤ (i 0).val ∧ (i 0).val < (i 0).val / 2000 * 2000 + 2000; omega
    | ⟨1, _⟩ =>
      show win0_2.index ⟨(i 0).val / 2000, ht⟩ (1 : Fin 2) * 64 ≤ (i 1).val ∧ (i 1).val < win0_2.index ⟨(i 0).val / 2000, ht⟩ (1 : Fin 2) * 64 + 64
      rw [e5]; omega

/-- Region 0's product array, entry by entry, is the product of the activations with the weights. -/
theorem r0_o : rd2 ((dat0 (F := Ideal) V c).arrAt 2 cfg0.N)
    = mm (rd2 (V c (Pipeline.arrRef spec0 0))) (rd2 (V c (Pipeline.arrRef spec0 1))) := by
  funext r k
  exact congrFun (final_o V c) (ix2 r k)

/-! ## The two raw total arrays and their combination -/

/-- An index of the raw sum array lies in point `t`'s block iff each coordinate lies in the block's range. -/
theorem mem_blk3 (t : Fin cfg0.N) (i : S16x64.Idx) :
    i ∈ ((cfg0.win 3).blk t).view.set ↔ ∀ a : Fin 2, win0_3.index t a * S8x64.size a ≤ (i a).val ∧ (i a).val < win0_3.index t a * S8x64.size a + S8x64.size a := by
  show i ∈ ((View.whole main_v6_1).slice (win0_3.rect t)).set ↔ _
  rw [View.set_slice_whole, Rect.mem_set_unit]
  exact Iff.rfl

/-- What an entry of the raw sum array holds if it is row 0 of a core's block: the zero word plus the sums of that
    core's 25 tiles. -/
def Ps (i : S16x64.Idx) (v : EReal) : Prop :=
  (i 0).val % 8 = 0 → v = zeroF + ∑ s ∈ Finset.range 25, Ms V c (25 * ((i 0).val / 8) + s) (i 1)

/-- Every entry written back has that property: a block is written back after a core's last point, when row 0 holds the
    core's whole total. -/
theorem flushed_s (t : Fin cfg0.N) (hf : (cfg0.win 3).flush t = true) (y : S8x64.Idx) :
    Ps V c (((cfg0.win 3).blk t).view.emb y) ((dat0 V c).flushed 3 t y) := by
  obtain ⟨-, -, -, -, -, -, e6, e7, e8, e9⟩ := idx0 t
  have h24 : t.val % 25 = 24 := (flush0_3 t).mp hf
  obtain ⟨r, k, rfl⟩ : ∃ (r : Fin 8) (k : Fin 64), y = ix2 r k := ⟨y 0, y 1, eq_ix2 y⟩
  have hr0 : ((((cfg0.win 3).blk t).view.emb (ix2 r k)) 0).val = 8 * (t.val / 25) + r.val := by
    show win0_3.index t (0 : Fin 2) * 8 + 1 * r.val = _
    rw [e6]; omega
  have hk : (((cfg0.win 3).blk t).view.emb (ix2 r k)) 1 = k := Fin.ext (by
    show win0_3.index t (1 : Fin 2) * 64 + 1 * k.val = k.val
    rw [e7]; omega)
  intro h8
  rw [hr0] at h8
  have hr : r = 0 := Fin.ext (by have := r.isLt; show r.val = 0; omega)
  subst hr
  have hq : (8 * (t.val / 25) + ((0 : Fin 8) : ℕ)) / 8 = t.val / 25 := by show (8 * (t.val / 25) + 0) / 8 = _; omega
  rw [hr0, hk, hq]
  show (cfg0.win 3).cut (grid0.coords t) ((dat0 V c).after 3 t) (ix2 0 k) = _
  rw [after0_3]
  refine (Rs_sum V c t.val t.isLt k).trans ?_
  rw [h24]

/-- Row 0 of core `q`'s block of the raw sum array after the run. -/
theorem raw_s (q : ℕ) (hq : q < 2) (k : Fin 64) :
    (dat0 V c).arrAt 3 cfg0.N (ix2 (⟨8 * q, by omega⟩ : Fin 16) k)
      = zeroF + ∑ s ∈ Finset.range 25, Ms V c (25 * q + s) k := by
  have ht : 25 * q + 24 < cfg0.N := by rw [N0]; omega
  obtain ⟨-, -, -, -, -, -, e6, e7, e8, e9⟩ := idx0 ⟨25 * q + 24, ht⟩
  have hf : (cfg0.win 3).flush ⟨25 * q + 24, ht⟩ = true := (flush0_3 _).mpr (by show (25 * q + 24) % 25 = 24; omega)
  have hmem : (ix2 (⟨8 * q, by omega⟩ : Fin 16) k) ∈ ((cfg0.win 3).blk ⟨25 * q + 24, ht⟩).view.set := by
    rw [mem_blk3]
    intro a
    match a with
    | ⟨0, _⟩ =>
      show win0_3.index ⟨25 * q + 24, ht⟩ (0 : Fin 2) * 8 ≤ 8 * q ∧ 8 * q < win0_3.index ⟨25 * q + 24, ht⟩ (0 : Fin 2) * 8 + 8
      rw [e6]; show (25 * q + 24) / 25 * 8 ≤ 8 * q ∧ 8 * q < (25 * q + 24) / 25 * 8 + 8; omega
    | ⟨1, _⟩ =>
      show win0_3.index ⟨25 * q + 24, ht⟩ (1 : Fin 2) * 64 ≤ k.val ∧ k.val < win0_3.index ⟨25 * q + 24, ht⟩ (1 : Fin 2) * 64 + 64
      rw [e7]; have := k.isLt; omega
  have h := (dat0 V c).arrAt_forall_of_flushed 3 (Ps V c)
    (fun t hf y => by rw [cast_eq]; exact flushed_s V c t hf y) cfg0.N ⟨25 * q + 24, ht⟩ _ ht hf hmem
  have h' := h (by show (8 * q) % 8 = 0; omega)
  rw [h']
  have hq8 : (8 * q) / 8 = q := by omega
  show zeroF + ∑ s ∈ Finset.range 25, Ms V c (25 * ((8 * q) / 8) + s) k = _
  rw [hq8]

/-- An index of the raw square-sum array lies in point `t`'s block iff each coordinate lies in the block's range. -/
theorem mem_blk4 (t : Fin cfg0.N) (i : S16x64.Idx) :
    i ∈ ((cfg0.win 4).blk t).view.set ↔ ∀ a : Fin 2, win0_4.index t a * S8x64.size a ≤ (i a).val ∧ (i a).val < win0_4.index t a * S8x64.size a + S8x64.size a := by
  show i ∈ ((View.whole main_v6_2).slice (win0_4.rect t)).set ↔ _
  rw [View.set_slice_whole, Rect.mem_set_unit]
  exact Iff.rfl

/-- What an entry of the raw square-sum array holds if it is row 0 of a core's block: the zero word plus the sums of that
    core's 25 tiles. -/
def Pq (i : S16x64.Idx) (v : EReal) : Prop :=
  (i 0).val % 8 = 0 → v = zeroF + ∑ s ∈ Finset.range 25, Mq V c (25 * ((i 0).val / 8) + s) (i 1)

/-- Every entry written back has that property: a block is written back after a core's last point, when row 0 holds the
    core's whole total. -/
theorem flushed_q (t : Fin cfg0.N) (hf : (cfg0.win 4).flush t = true) (y : S8x64.Idx) :
    Pq V c (((cfg0.win 4).blk t).view.emb y) ((dat0 V c).flushed 4 t y) := by
  obtain ⟨-, -, -, -, -, -, e6, e7, e8, e9⟩ := idx0 t
  have h24 : t.val % 25 = 24 := (flush0_4 t).mp hf
  obtain ⟨r, k, rfl⟩ : ∃ (r : Fin 8) (k : Fin 64), y = ix2 r k := ⟨y 0, y 1, eq_ix2 y⟩
  have hr0 : ((((cfg0.win 4).blk t).view.emb (ix2 r k)) 0).val = 8 * (t.val / 25) + r.val := by
    show win0_4.index t (0 : Fin 2) * 8 + 1 * r.val = _
    rw [e8]; omega
  have hk : (((cfg0.win 4).blk t).view.emb (ix2 r k)) 1 = k := Fin.ext (by
    show win0_4.index t (1 : Fin 2) * 64 + 1 * k.val = k.val
    rw [e9]; omega)
  intro h8
  rw [hr0] at h8
  have hr : r = 0 := Fin.ext (by have := r.isLt; show r.val = 0; omega)
  subst hr
  have hq : (8 * (t.val / 25) + ((0 : Fin 8) : ℕ)) / 8 = t.val / 25 := by show (8 * (t.val / 25) + 0) / 8 = _; omega
  rw [hr0, hk, hq]
  show (cfg0.win 4).cut (grid0.coords t) ((dat0 V c).after 4 t) (ix2 0 k) = _
  rw [after0_4]
  refine (Rq_sum V c t.val t.isLt k).trans ?_
  rw [h24]

/-- Row 0 of core `q`'s block of the raw square-sum array after the run. -/
theorem raw_q (q : ℕ) (hq : q < 2) (k : Fin 64) :
    (dat0 V c).arrAt 4 cfg0.N (ix2 (⟨8 * q, by omega⟩ : Fin 16) k)
      = zeroF + ∑ s ∈ Finset.range 25, Mq V c (25 * q + s) k := by
  have ht : 25 * q + 24 < cfg0.N := by rw [N0]; omega
  obtain ⟨-, -, -, -, -, -, e6, e7, e8, e9⟩ := idx0 ⟨25 * q + 24, ht⟩
  have hf : (cfg0.win 4).flush ⟨25 * q + 24, ht⟩ = true := (flush0_4 _).mpr (by show (25 * q + 24) % 25 = 24; omega)
  have hmem : (ix2 (⟨8 * q, by omega⟩ : Fin 16) k) ∈ ((cfg0.win 4).blk ⟨25 * q + 24, ht⟩).view.set := by
    rw [mem_blk4]
    intro a
    match a with
    | ⟨0, _⟩ =>
      show win0_4.index ⟨25 * q + 24, ht⟩ (0 : Fin 2) * 8 ≤ 8 * q ∧ 8 * q < win0_4.index ⟨25 * q + 24, ht⟩ (0 : Fin 2) * 8 + 8
      rw [e8]; show (25 * q + 24) / 25 * 8 ≤ 8 * q ∧ 8 * q < (25 * q + 24) / 25 * 8 + 8; omega
    | ⟨1, _⟩ =>
      show win0_4.index ⟨25 * q + 24, ht⟩ (1 : Fin 2) * 64 ≤ k.val ∧ k.val < win0_4.index ⟨25 * q + 24, ht⟩ (1 : Fin 2) * 64 + 64
      rw [e9]; have := k.isLt; omega
  have h := (dat0 V c).arrAt_forall_of_flushed 4 (Pq V c)
    (fun t hf y => by rw [cast_eq]; exact flushed_q V c t hf y) cfg0.N ⟨25 * q + 24, ht⟩ _ ht hf hmem
  have h' := h (by show (8 * q) % 8 = 0; omega)
  rw [h']
  have hq8 : (8 * q) / 8 = q := by omega
  show zeroF + ∑ s ∈ Finset.range 25, Mq V c (25 * ((8 * q) / 8) + s) k = _
  rw [hq8]

/-- Region 0's combined sum row is the column sums of the product. -/
theorem r0_s : rd2 (comb64 ((dat0 (F := Ideal) V c).arrAt 3 cfg0.N)) 0
    = colSum (mm (rd2 (V c (Pipeline.arrRef spec0 0))) (rd2 (V c (Pipeline.arrRef spec0 1)))) := by
  funext k
  rw [comb64_rd]
  have h0 := raw_s V c 0 (by omega) k
  have h1 := raw_s V c 1 (by omega) k
  refine Eq.trans (congrArg₂ (fun a b => zeroF + (a + b)) h0 h1) ?_
  refine colSum_tiles _ k (fun n => Ms V c n k) fun n hn => ?_
  have hn' : n < cfg0.N := by rw [N0]; exact hn
  show Ms V c n k = _
  unfold Ms
  rw [dif_pos hn']
  exact Finset.sum_congr rfl fun r _ => oblk_apply V c ⟨n, hn'⟩ r k

/-- Region 0's combined square-sum row is the column sums of squares of the product. -/
theorem r0_q : rd2 (comb64 ((dat0 (F := Ideal) V c).arrAt 4 cfg0.N)) 0
    = colSumSq (mm (rd2 (V c (Pipeline.arrRef spec0 0))) (rd2 (V c (Pipeline.arrRef spec0 1)))) := by
  funext k
  rw [comb64_rd]
  have h0 := raw_q V c 0 (by omega) k
  have h1 := raw_q V c 1 (by omega) k
  refine Eq.trans (congrArg₂ (fun a b => zeroF + (a + b)) h0 h1) ?_
  refine colSumSq_tiles _ k (fun n => Mq V c n k) fun n hn => ?_
  have hn' : n < cfg0.N := by rw [N0]; exact hn
  show Mq V c n k = _
  unfold Mq
  rw [dif_pos hn']
  exact Finset.sum_congr rfl fun r _ => congrArg₂ (· * ·) (oblk_apply V c ⟨n, hn'⟩ r k) (oblk_apply V c ⟨n, hn'⟩ r k)

end Cert.KernelIdeal.Stage

end
-- ==== Proof.PayNorm.lean ====
/-
  The two normalising kernels' stored values, read at one entry of a row block.

  Each body loads a block of 2000 rows `a`, the one-row arrays of column sums `s`, column sums of squares `q`, scale `g`
  and shift `b`, and stores, at row `p` and column `k`,

      (a(p,k) − s(k)/n) · (max (q(k)/n − (s(k)/n)², 0) + ε)^(−1/2) · g(k) + b(k),

  followed by the rectifier (64 columns, stored in the 16-bit format, which changes nothing on the extended reals)
  or by the addition of a second block `x` at the same entry (128 columns). Every operation is entrywise except the
  broadcast of a one-row array over the 2000 rows, which reads the row at the entry's column.
-/
import proofs.«174784_j23922967838995_2_alg».proof.Proof.Gen.KernelIdeal.Skeleton
import proofs.«174784_j23922967838995_2_alg».proof.Proof.Spec
import Idealize.ShloMosaic.Lib.ValueLayout

noncomputable section

namespace Cert.KernelIdeal.Stage

open Idealize.ShloMosaic Idealize.ShloMosaic.ValueIdx Cert.KernelIdeal Cert.KernelIdeal.Gen Cert.Spec

/-- The reciprocal square root of a vector, at an entry. -/
private theorem rsqrt_at {s : Shape} {φ : FTy} (a : FVec Ideal s φ) (i : s.Idx) : rsqrt a i = Ideal.rsqrt (a i) := rfl

/-- The 64-column kernel's stored value at row `p`, column `k` of the block: the normalised entry, rectified. -/
theorem k1_pay1_apply (s q : Vec Ideal S1x64 .f32) (a : Vec Ideal S2000x64 .f32) (g b : Vec Ideal S1x64 .f32)
    (p : Fin 2000) (k : Fin 64) :
    k1_pay1 (F := Ideal) s q a g b (ix2 p k)
      = relu ((a (ix2 p k) - Ideal.div (s (ix2 (0 : Fin 1) k)) nF)
          * Ideal.rsqrt (max (Ideal.div (q (ix2 (0 : Fin 1) k)) nF
              - Ideal.div (s (ix2 (0 : Fin 1) k)) nF * Ideal.div (s (ix2 (0 : Fin 1) k)) nF) zeroF + epsF)
          * g (ix2 (0 : Fin 1) k) + b (ix2 (0 : Fin 1) k)) := by
  unfold k1_pay1
  simp only [shapeCast_self, truncf_apply, maximumf_apply, addf_apply, mulf_apply, subf_apply, divf_apply,
    rsqrt_at, broadcast_apply, broadcastTo_1b_ab_apply]
  rfl

/-- The 128-column kernel's stored value at row `p`, column `k` of the block: the normalised entry plus the second
    block's entry. -/
theorem k5_pay1_apply (s q : Vec Ideal S1x128 .f32) (a : Vec Ideal S2000x128 .f32) (g b : Vec Ideal S1x128 .f32)
    (x : Vec Ideal S2000x128 .f32) (p : Fin 2000) (k : Fin 128) :
    k5_pay1 (F := Ideal) s q a g b x (ix2 p k)
      = (a (ix2 p k) - Ideal.div (s (ix2 (0 : Fin 1) k)) nF)
          * Ideal.rsqrt (max (Ideal.div (q (ix2 (0 : Fin 1) k)) nF
              - Ideal.div (s (ix2 (0 : Fin 1) k)) nF * Ideal.div (s (ix2 (0 : Fin 1) k)) nF) zeroF + epsF)
          * g (ix2 (0 : Fin 1) k) + b (ix2 (0 : Fin 1) k) + x (ix2 p k) := by
  unfold k5_pay1
  simp only [shapeCast_self, addf_apply, mulf_apply, subf_apply, divf_apply, maximumf_apply,
    rsqrt_at, broadcast_apply, broadcastTo_1b_ab_apply]
  rfl

end Cert.KernelIdeal.Stage

end
-- ==== Proof.Reg1.lean ====
/-
  The second region of the kernel's program: the 64-column normalise-and-rectify kernel, from its blocks to its array.

  The grid has 50 points. At point t the body sees rows 2000·t … 2000·t + 1999 of the 100000 × 64 array A and the whole
  of the four one-row arrays S, Q, G, B (their block is the same at every point), and writes back rows 2000·t … 2000·t + 1999
  of the output. The stored block, read at one entry, is the rectified normalisation of that entry of A (the payload
  lemma); each loaded block entry is the array's entry at the row the output block's entry has; the 50 blocks tile the
  100000 rows, the row r lying in block r / 2000. Hence the output array, as the region leaves it, is entry by entry

      max ((A(r,k) − S(k)/n) · (max (Q(k)/n − (S(k)/n)², 0) + ε)^(−1/2) · G(k) + B(k), 0).
-/
import proofs.«174784_j23922967838995_2_alg».proof.Proof.KernelIdealFrameP
import proofs.«174784_j23922967838995_2_alg».proof.Proof.PayNorm
import Idealize.ShloMosaic.Lib.Pipeline.Value

noncomputable section

namespace Cert.KernelIdeal.Stage

open Cert.KernelIdeal Cert.KernelIdeal.Gen Cert.KernelIdeal.GenP Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

private theorem hz : (![0, 0] : Fin 2 → Nat) = fun _ => 0 := funext fun a => by fin_cases a <;> rfl

/-- The normalised and rectified array, entry by entry: at row `r`, column `k`, the rectifier of the batch normalisation of
    `A` from the column sums `S` and sums of squares `Q` with scale `G` and shift `B` (one-row arrays, read in their row 0). -/
def normRelu64 (A : S100000x64.Idx → EReal) (S Q G B : S1x64.Idx → EReal) : S100000x64.Idx → EReal :=
  fun i => relu (bnK (rd2 A) (rd2 S 0) (rd2 Q 0) (rd2 G 0) (rd2 B 0) (i 0) (i 1))

/-- The index maps over the 50 points: a row-block window is at block (t, 0) at point `t`, a one-row window at block (0, 0). -/
private theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point `t` holds the rows of its array where the output's block lies. -/
private theorem blk1_0 (t : Fin cfg1.N) (p : Fin 2000) (k : Fin 64) :
    (iblk1 V c 0 t : S2000x64.Idx → EReal) (ix2 p k)
      = (V c (Pipeline.arrRef spec1 0) : S100000x64.Idx → EReal)
          (ix2 ((((cfg1.win 5).blk t).view.emb (ix2 p k) : S100000x64.Idx) 0) ((((cfg1.win 5).blk t).view.emb (ix2 p k) : S100000x64.Idx) 1)) := by
  obtain ⟨a0, a1, -, -, -, -, -, -, -, -, e50, e51⟩ := idx1 t
  show (V c (Pipeline.arrRef spec1 0) : S100000x64.Idx → EReal) (((cfg1.win 0).blk t).view.emb (ix2 p k)) = _
  refine congrArg _ (funext fun a => Fin.ext ?_)
  match a with
  | ⟨0, _⟩ => show win1_0.index t (0 : Fin 2) * 2000 + 1 * p.val = win1_5.index t (0 : Fin 2) * 2000 + 1 * p.val; omega
  | ⟨1, _⟩ => show win1_0.index t (1 : Fin 2) * 64 + 1 * k.val = win1_5.index t (1 : Fin 2) * 64 + 1 * k.val; omega

/-- Window 1's block is its whole one-row array at every point. -/
private theorem blk1_1 (t : Fin cfg1.N) (p : Fin 2000) (k : Fin 64) :
    (iblk1 V c 1 t : S1x64.Idx → EReal) (ix2 (0 : Fin 1) k)
      = (V c (Pipeline.arrRef spec1 1) : S1x64.Idx → EReal)
          (ix2 (0 : Fin 1) ((((cfg1.win 5).blk t).view.emb (ix2 p k) : S100000x64.Idx) 1)) := by
  obtain ⟨-, -, a0, a1, -, -, -, -, -, -, e50, e51⟩ := idx1 t
  show (V c (Pipeline.arrRef spec1 1) : S1x64.Idx → EReal) (((cfg1.win 1).blk t).view.emb (ix2 (0 : Fin 1) k)) = _
  refine congrArg _ (funext fun a => Fin.ext ?_)
  match a with
  | ⟨0, _⟩ => show win1_1.index t (0 : Fin 2) * 1 + 1 * 0 = 0; omega
  | ⟨1, _⟩ => show win1_1.index t (1 : Fin 2) * 64 + 1 * k.val = win1_5.index t (1 : Fin 2) * 64 + 1 * k.val; omega

/-- Window 2's block is its whole one-row array at every point. -/
private theorem blk1_2 (t : Fin cfg1.N) (p : Fin 2000) (k : Fin 64) :
    (iblk1 V c 2 t : S1x64.Idx → EReal) (ix2 (0 : Fin 1) k)
      = (V c (Pipeline.arrRef spec1 2) : S1x64.Idx → EReal)
          (ix2 (0 : Fin 1) ((((cfg1.win 5).blk t).view.emb (ix2 p k) : S100000x64.Idx) 1)) := by
  obtain ⟨-, -, -, -, a0, a1, -, -, -, -, e50, e51⟩ := idx1 t
  show (V c (Pipeline.arrRef spec1 2) : S1x64.Idx → EReal) (((cfg1.win 2).blk t).view.emb (ix2 (0 : Fin 1) k)) = _
  refine congrArg _ (funext fun a => Fin.ext ?_)
  match a with
  | ⟨0, _⟩ => show win1_2.index t (0 : Fin 2) * 1 + 1 * 0 = 0; omega
  | ⟨1, _⟩ => show win1_2.index t (1 : Fin 2) * 64 + 1 * k.val = win1_5.index t (1 : Fin 2) * 64 + 1 * k.val; omega

/-- Window 3's block is its whole one-row array at every point. -/
private theorem blk1_3 (t : Fin cfg1.N) (p : Fin 2000) (k : Fin 64) :
    (iblk1 V c 3 t : S1x64.Idx → EReal) (ix2 (0 : Fin 1) k)
      = (V c (Pipeline.arrRef spec1 3) : S1x64.Idx → EReal)
          (ix2 (0 : Fin 1) ((((cfg1.win 5).blk t).view.emb (ix2 p k) : S100000x64.Idx) 1)) := by
  obtain ⟨-, -, -, -, -, -, a0, a1, -, -, e50, e51⟩ := idx1 t
  show (V c (Pipeline.arrRef spec1 3) : S1x64.Idx → EReal) (((cfg1.win 3).blk t).view.emb (ix2 (0 : Fin 1) k)) = _
  refine congrArg _ (funext fun a => Fin.ext ?_)
  match a with
  | ⟨0, _⟩ => show win1_3.index t (0 : Fin 2) * 1 + 1 * 0 = 0; omega
  | ⟨1, _⟩ => show win1_3.index t (1 : Fin 2) * 64 + 1 * k.val = win1_5.index t (1 : Fin 2) * 64 + 1 * k.val; omega

/-- Window 4's block is its whole one-row array at every point. -/
private theorem blk1_4 (t : Fin cfg1.N) (p : Fin 2000) (k : Fin 64) :
    (iblk1 V c 4 t : S1x64.Idx → EReal) (ix2 (0 : Fin 1) k)
      = (V c (Pipeline.arrRef spec1 4) : S1x64.Idx → EReal)
          (ix2 (0 : Fin 1) ((((cfg1.win 5).blk t).view.emb (ix2 p k) : S100000x64.Idx) 1)) := by
  obtain ⟨-, -, -, -, -, -, -, -, a0, a1, e50, e51⟩ := idx1 t
  show (V c (Pipeline.arrRef spec1 4) : S1x64.Idx → EReal) (((cfg1.win 4).blk t).view.emb (ix2 (0 : Fin 1) k)) = _
  refine congrArg _ (funext fun a => Fin.ext ?_)
  match a with
  | ⟨0, _⟩ => show win1_4.index t (0 : Fin 2) * 1 + 1 * 0 = 0; omega
  | ⟨1, _⟩ => show win1_4.index t (1 : Fin 2) * 64 + 1 * k.val = win1_5.index t (1 : Fin 2) * 64 + 1 * k.val; omega

/-- What point `t` writes back is block `t` of `normRelu64` of the arrays as the region finds them. -/
theorem flushed1_eq (t : Fin cfg1.N) :
    (dat1 V c).flushed 5 t = ((cfg1.win 5).blk t).view.read (Elt Ideal)
      (normRelu64 (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero hz]
  simp only [View.ld_unit_zero (S := S2000x64) hz, View.ld_unit_zero (S := S1x64) hz]
  have key : ∀ j : S2000x64.Idx,
      k1_pay1 (F := Ideal) (iblk1 V c 1 t) (iblk1 V c 2 t) (iblk1 V c 0 t) (iblk1 V c 3 t) (iblk1 V c 4 t) j
        = normRelu64 (V c (Pipeline.arrRef spec1 0)) (V c (Pipeline.arrRef spec1 1)) (V c (Pipeline.arrRef spec1 2)) (V c (Pipeline.arrRef spec1 3)) (V c (Pipeline.arrRef spec1 4)) (((cfg1.win 5).blk t).view.emb j) := by
    intro j
    obtain ⟨p, k, rfl⟩ : ∃ (p : Fin 2000) (k : Fin 64), j = ix2 p k := ⟨j 0, j 1, eq_ix2 j⟩
    rw [k1_pay1_apply (iblk1 V c 1 t) (iblk1 V c 2 t) (iblk1 V c 0 t) (iblk1 V c 3 t) (iblk1 V c 4 t) p k,
      blk1_0 V c t p k, blk1_1 V c t p k, blk1_2 V c t p k, blk1_3 V c t p k, blk1_4 V c t p k]
    rfl
  funext j
  exact key j

/-- An index of the array is in point `t`'s block iff each coordinate is in the block's range on its axis. -/
private theorem mem_blk1 (t : Fin cfg1.N) (i : S100000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v17).slice (win1_5.rect t)).set ↔ _
  rw [View.set_slice_whole, Rect.mem_set_unit]
  exact Iff.rfl

/-- Every entry lies in the block of the point `row / 2000`: the 50 blocks of 2000 rows tile the 100000 rows. -/
private theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, -, -, -, -, -, -, -, -, e50, e51⟩ := idx1 t
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

/-- The output array after the region's run is `normRelu64` of the arrays as the region finds them. -/
theorem final1 : (dat1 V c).arrAt 5 cfg1.N
    = normRelu64 (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 5 _ (fun t _ => flushed1_eq V c t) cover1

/-- The same, read by coordinates. -/
theorem r1_o : rd2 ((dat1 V c).arrAt 5 cfg1.N)
    = fun r k => relu (bnK (rd2 (V c (Pipeline.arrRef spec1 0))) (rd2 (V c (Pipeline.arrRef spec1 1)) 0)
        (rd2 (V c (Pipeline.arrRef spec1 2)) 0) (rd2 (V c (Pipeline.arrRef spec1 3)) 0) (rd2 (V c (Pipeline.arrRef spec1 4)) 0) r k) := by
  rw [final1]
  rfl

end Cert.KernelIdeal.Stage

end
-- ==== Proof.Pay2.lean ====
/-
  The batched product, entry by entry, on both sides.

  The kernel's third body loads a block `t` of 10000 rows of one offset's gathered rows and that offset's 64 × 64
  matrix `w`, and stores the matrix product of the two: at row `p` and column `d` of the block, the sum over the 64
  input channels `q` of `t(p,q) · w(q,d)` (the leading unit axis of both blocks is dropped and put back, the change
  of the matrix to the 16-bit format changes nothing on the extended reals, and the product is accumulated into
  zero). The reference's batched product of the whole arrays is, at offset `k`, row `m`, column `d`, the same sum
  of `T(k,m,q) · W(k,q,d)`.
-/
import proofs.«174784_j23922967838995_2_alg».proof.Proof.Gen.KernelIdeal.Skeleton
import proofs.«174784_j23922967838995_2_alg».proof.Proof.Gen.ReferenceIdeal
import proofs.«174784_j23922967838995_2_alg».proof.Proof.RefStages
import Idealize.ShloMosaic.Lib.ValueLayout
import Idealize.ShloMosaic.PureOps.Ideal.Laws

noncomputable section

namespace Cert.KernelIdeal.Stage

open Idealize.ShloMosaic Idealize.ShloMosaic.ValueIdx Cert.KernelIdeal Cert.KernelIdeal.Gen
open scoped BigOperators

local instance : Cert.ReferenceIdeal.Facts := Cert.ReferenceIdeal.Gen.facts

/-- The batched product of a `27 × 50000 × 64` array with a `27 × 64 × 64` array, entry by entry: at offset `k`, row
    `m`, column `d`, the sum over `q` of `T(k,m,q) · W(k,q,d)`. -/
def bmmAt (T : (⟨3, ![27, 50000, 64]⟩ : Shape).Idx → EReal) (W : (⟨3, ![27, 64, 64]⟩ : Shape).Idx → EReal) :
    (⟨3, ![27, 50000, 64]⟩ : Shape).Idx → EReal :=
  fun i => ∑ q : Fin 64, T (ix3 (i 0) (i 1) q) * W (ix3 (i 0) q (i 2))

/-- The kernel's matrix product's dimension numbers: rows × channels times channels × columns. -/
abbrev dotK : DotDims S10000x64 S64x64 S10000x64 := dot_S10000x64_S64x64_S10000x64_1_0_0_1_n_n

/-- The reference's batched product's dimension numbers: the offset a batch axis, the channels contracted. -/
abbrev dotR : DotDims Cert.ReferenceIdeal.S27x50000x64 Cert.ReferenceIdeal.S27x64x64 Cert.ReferenceIdeal.S27x50000x64 :=
  Cert.ReferenceIdeal.dot_S27x50000x64_S27x64x64_S27x50000x64_2_1_1_2_0_0

/-- The kernel's product reads its left operand at (row, channel) … -/
private theorem dotK_lhs (p : Fin 10000) (d q : Fin 64) :
    dotK.lhsIdx (ix2 p d) ((contrEquiv1 dotK 64 rfl rfl).symm q) = ix2 p q :=
  funext fun a => Fin.ext (by
    match a with
    | ⟨0, _⟩ => rfl
    | ⟨1, _⟩ => exact (dotK.lhsIdx_val_of_single (cl := (1 : Fin 2)) rfl _ _).trans (contrEquiv1_symm_val dotK 64 rfl rfl q))

/-- … and its right operand at (channel, column). -/
private theorem dotK_rhs (p : Fin 10000) (d q : Fin 64) :
    dotK.rhsIdx (ix2 p d) ((contrEquiv1 dotK 64 rfl rfl).symm q) = ix2 q d :=
  funext fun a => Fin.ext (by
    match a with
    | ⟨0, _⟩ => exact (dotK.rhsIdx_val_of_single (cr := (0 : Fin 2)) rfl _ _).trans (contrEquiv1_symm_val dotK 64 rfl rfl q)
    | ⟨1, _⟩ => rfl)

/-- The stored block at row `p`, column `d`: the sum over the channels of the products. -/
theorem k2_pay1_apply (x0 : FVec Ideal S1x10000x64 .bf16) (x1 : FVec Ideal S1x64x64 .f32) (u : Fin 1) (p : Fin 10000) (d : Fin 64) :
    k2_pay1 (F := Ideal) x0 x1 (ix3 u p d) = ∑ q : Fin 64, x0 (ix3 (0 : Fin 1) p q) * x1 (ix3 (0 : Fin 1) q d) := by
  unfold k2_pay1
  refine (shapeCast_ab_1ab_apply _ _ u p d).trans ?_
  refine (Ideal.matmul_constant_zero_apply dotK none _ _ (ix2 p d)).trans ?_
  rw [← Equiv.sum_comp (contrEquiv1 dotK 64 rfl rfl).symm]
  refine Finset.sum_congr rfl fun q _ => ?_
  rw [dotK_lhs p d q, dotK_rhs p d q, truncf_apply, shapeCast_1ab_ab_apply, shapeCast_1ab_ab_apply]

/-- The reference's product reads its left operand at (offset, row, channel) … -/
private theorem dotR_lhs (k : Fin 27) (m : Fin 50000) (d q : Fin 64) :
    dotR.lhsIdx (ix3 k m d) ((contrEquiv1 dotR 64 rfl rfl).symm q) = ix3 k m q :=
  funext fun a => Fin.ext (by
    match a with
    | ⟨0, _⟩ => rfl
    | ⟨1, _⟩ => rfl
    | ⟨2, _⟩ => exact (dotR.lhsIdx_val_of_single (cl := (2 : Fin 3)) rfl _ _).trans (contrEquiv1_symm_val dotR 64 rfl rfl q))

/-- … and its right operand at (offset, channel, column). -/
private theorem dotR_rhs (k : Fin 27) (m : Fin 50000) (d q : Fin 64) :
    dotR.rhsIdx (ix3 k m d) ((contrEquiv1 dotR 64 rfl rfl).symm q) = ix3 k q d :=
  funext fun a => Fin.ext (by
    match a with
    | ⟨0, _⟩ => rfl
    | ⟨1, _⟩ => exact (dotR.rhsIdx_val_of_single (cr := (1 : Fin 3)) rfl _ _).trans (contrEquiv1_symm_val dotR 64 rfl rfl q)
    | ⟨2, _⟩ => rfl)

/-- The reference's batched product at offset `k`, row `m`, column `d`. -/
theorem bmm_apply (T : FVec Ideal Cert.ReferenceIdeal.S27x50000x64 .f32) (W : FVec Ideal Cert.ReferenceIdeal.S27x64x64 .f32)
    (k : Fin 27) (m : Fin 50000) (d : Fin 64) :
    Cert.RefStages.bmm T W (ix3 k m d) = ∑ q : Fin 64, T (ix3 k m q) * W (ix3 k q d) := by
  unfold Cert.RefStages.bmm
  refine (Ideal.dotGeneral_apply dotR none .single T W (ix3 k m d)).trans ?_
  rw [← Equiv.sum_comp (contrEquiv1 dotR 64 rfl rfl).symm]
  refine Finset.sum_congr rfl fun q _ => ?_
  rw [dotR_lhs k m d q, dotR_rhs k m d q]

/-- The reference's batched product is the entry-by-entry one. -/
theorem bmm_eq_bmmAt (T : FVec Ideal Cert.ReferenceIdeal.S27x50000x64 .f32) (W : FVec Ideal Cert.ReferenceIdeal.S27x64x64 .f32) :
    Cert.RefStages.bmm T W = bmmAt T W := by
  funext i
  obtain ⟨k, m, d, rfl⟩ : ∃ (k : Fin 27) (m : Fin 50000) (d : Fin 64), i = ix3 k m d := ⟨i 0, i 1, i 2, eq_ix3 i⟩
  exact bmm_apply T W k m d

end Cert.KernelIdeal.Stage

end
-- ==== Proof.Reg2.lean ====
/-
  The third region of the kernel's program: the batched matrix product, from its blocks to its array.

  The grid has 27 × 5 points; point t is offset t / 5 and row block t mod 5. At point t the body sees rows
  10000·(t mod 5) … 10000·(t mod 5) + 9999 of offset t / 5 of the 27 × 50000 × 64 array T of gathered rows and the whole
  64 × 64 matrix of that offset in the 27 × 64 × 64 array W, and writes back the same rows of the same offset of the
  output. The stored block, read at one entry, is the sum over the channels of the products (the payload lemma); each
  loaded block entry is the array's entry at the offset and row the output block's entry has; the 135 blocks tile the
  27 × 50000 rows, the row m of offset k lying in the block of point 5·k + m / 10000. Hence the output array, as the
  region leaves it, is entry by entry the sum over q of T(k,m,q) · W(k,q,d): the reference's batched product.
-/
import proofs.«174784_j23922967838995_2_alg».proof.Proof.KernelIdealFrameP
import proofs.«174784_j23922967838995_2_alg».proof.Proof.Pay2
import Idealize.ShloMosaic.Lib.Pipeline.Value

noncomputable section

namespace Cert.KernelIdeal.Stage

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)
open scoped BigOperators

local instance : Cert.ReferenceIdeal.Facts := Cert.ReferenceIdeal.Gen.facts

variable (V : (c : Dev nD) → (b : Ref sig .tc) → Buf (Elt Ideal) ((c : Thread nD τ).loc b)) (c : Dev nD)

private theorem hz3 : (![0, 0, 0] : Fin 3 → Nat) = fun _ => 0 := funext fun a => by fin_cases a <;> rfl

/-- The index maps over the 135 points: the output window and the window of gathered rows are at block
    (t / 5, t mod 5, 0) at point `t`, the window of matrices at block (t / 5, 0, 0). -/
private theorem idx2 : ∀ t : Fin cfg2.N,
    win2_2.index t (0 : Fin 3) = t.val / 5 ∧ win2_2.index t (1 : Fin 3) = t.val % 5 ∧ win2_2.index t (2 : Fin 3) = 0
    ∧ win2_0.index t (0 : Fin 3) = t.val / 5 ∧ win2_0.index t (1 : Fin 3) = t.val % 5 ∧ win2_0.index t (2 : Fin 3) = 0
    ∧ win2_1.index t (0 : Fin 3) = t.val / 5 ∧ win2_1.index t (1 : Fin 3) = 0 ∧ win2_1.index t (2 : Fin 3) = 0 :=
  (by decide +kernel : ∀ t : Fin grid2.N, _)

/-- Window 0's block at point `t` holds the rows of its array, at the offset, where the output's block lies. -/
private theorem blk2_0 (t : Fin cfg2.N) (p : Fin 10000) (d q : Fin 64) :
    (iblk2 V c 0 t : S1x10000x64.Idx → EReal) (ix3 (0 : Fin 1) p q)
      = (V c (Pipeline.arrRef spec2 0) : S27x50000x64.Idx → EReal)
          (ix3 ((((cfg2.win 2).blk t).view.emb (ix3 (0 : Fin 1) p d) : S27x50000x64.Idx) 0)
            ((((cfg2.win 2).blk t).view.emb (ix3 (0 : Fin 1) p d) : S27x50000x64.Idx) 1) q) := by
  obtain ⟨e0, e1, e2, a0, a1, a2, -, -, -⟩ := idx2 t
  show (V c (Pipeline.arrRef spec2 0) : S27x50000x64.Idx → EReal) (((cfg2.win 0).blk t).view.emb (ix3 (0 : Fin 1) p q)) = _
  refine congrArg _ (funext fun a => Fin.ext ?_)
  match a with
  | ⟨0, _⟩ => show win2_0.index t (0 : Fin 3) * 1 + 1 * 0 = win2_2.index t (0 : Fin 3) * 1 + 1 * 0; omega
  | ⟨1, _⟩ => show win2_0.index t (1 : Fin 3) * 10000 + 1 * p.val = win2_2.index t (1 : Fin 3) * 10000 + 1 * p.val; omega
  | ⟨2, _⟩ => show win2_0.index t (2 : Fin 3) * 64 + 1 * q.val = q.val; omega

/-- Window 1's block at point `t` is the whole matrix of the offset where the output's block lies. -/
private theorem blk2_1 (t : Fin cfg2.N) (p : Fin 10000) (d q : Fin 64) :
    (iblk2 V c 1 t : S1x64x64.Idx → EReal) (ix3 (0 : Fin 1) q d)
      = (V c (Pipeline.arrRef spec2 1) : S27x64x64.Idx → EReal)
          (ix3 ((((cfg2.win 2).blk t).view.emb (ix3 (0 : Fin 1) p d) : S27x50000x64.Idx) 0) q
            ((((cfg2.win 2).blk t).view.emb (ix3 (0 : Fin 1) p d) : S27x50000x64.Idx) 2)) := by
  obtain ⟨e0, e1, e2, -, -, -, b0, b1, b2⟩ := idx2 t
  show (V c (Pipeline.arrRef spec2 1) : S27x64x64.Idx → EReal) (((cfg2.win 1).blk t).view.emb (ix3 (0 : Fin 1) q d)) = _
  refine congrArg _ (funext fun a => Fin.ext ?_)
  match a with
  | ⟨0, _⟩ => show win2_1.index t (0 : Fin 3) * 1 + 1 * 0 = win2_2.index t (0 : Fin 3) * 1 + 1 * 0; omega
  | ⟨1, _⟩ => show win2_1.index t (1 : Fin 3) * 64 + 1 * q.val = q.val; omega
  | ⟨2, _⟩ => show win2_1.index t (2 : Fin 3) * 64 + 1 * d.val = win2_2.index t (2 : Fin 3) * 64 + 1 * d.val; omega

/-- What point `t` writes back is block `t` of the entry-by-entry batched product of the arrays as the region finds them. -/
theorem flushed2_eq (t : Fin cfg2.N) :
    (dat2 V c).flushed 2 t = ((cfg2.win 2).blk t).view.read (Elt Ideal)
      (bmmAt (V c (Pipeline.arrRef spec2 0)) (V c (Pipeline.arrRef spec2 1))) := by
  show (cfg2.win 2).cut (grid2.coords t) ((dat2 V c).after 2 t) = _
  rw [after2_2]
  unfold out2_2
  rw [View.canon_unit_zero hz3]
  simp only [View.ld_unit_zero (S := S1x10000x64) hz3, View.ld_unit_zero (S := S1x64x64) hz3]
  have key : ∀ j : S1x10000x64.Idx,
      k2_pay1 (F := Ideal) (iblk2 V c 0 t) (iblk2 V c 1 t) j
        = bmmAt (V c (Pipeline.arrRef spec2 0)) (V c (Pipeline.arrRef spec2 1)) (((cfg2.win 2).blk t).view.emb j) := by
    intro j
    obtain ⟨u, p, d, rfl⟩ : ∃ (u : Fin 1) (p : Fin 10000) (d : Fin 64), j = ix3 u p d := ⟨j 0, j 1, j 2, eq_ix3 j⟩
    obtain rfl : u = 0 := Subsingleton.elim _ _
    rw [k2_pay1_apply (iblk2 V c 0 t) (iblk2 V c 1 t) 0 p d]
    show _ = ∑ q : Fin 64, _
    refine Finset.sum_congr rfl fun q _ => ?_
    rw [blk2_0 V c t p d q, blk2_1 V c t p d q]
  funext j
  exact key j

/-- An index of the array is in point `t`'s block iff each coordinate is in the block's range on its axis. -/
private theorem mem_blk2 (t : Fin cfg2.N) (i : S27x50000x64.Idx) :
    i ∈ ((cfg2.win 2).blk t).view.set ↔ ∀ a : Fin 3, win2_2.index t a * S1x10000x64.size a ≤ (i a).val ∧ (i a).val < win2_2.index t a * S1x10000x64.size a + S1x10000x64.size a := by
  show i ∈ ((View.whole main_v25).slice (win2_2.rect t)).set ↔ _
  rw [View.set_slice_whole, Rect.mem_set_unit]
  exact Iff.rfl

/-- Every entry lies in the block of the point `5 · offset + row / 10000`: the 135 blocks tile the array. -/
private theorem cover2 (i : S27x50000x64.Idx) :
    ∃ t : Fin cfg2.N, (cfg2.win 2).flush t = true ∧ i ∈ ((cfg2.win 2).blk t).view.set := by
  have hi0 : (i 0).val < 27 := (i 0).isLt
  have hi1 : (i 1).val < 50000 := (i 1).isLt
  have hi2 : (i 2).val < 64 := (i 2).isLt
  have hN : cfg2.N = 135 := N_2
  obtain ⟨t, ht⟩ : ∃ t : Fin cfg2.N, t.val = (i 0).val * 5 + (i 1).val / 10000 :=
    ⟨⟨(i 0).val * 5 + (i 1).val / 10000, by rw [hN]; omega⟩, rfl⟩
  obtain ⟨e0, e1, e2, -, -, -, -, -, -⟩ := idx2 t
  refine ⟨t, flush2_2 t, ?_⟩
  rw [mem_blk2]
  intro a
  match a with
  | ⟨0, _⟩ => show win2_2.index t (0 : Fin 3) * 1 ≤ (i 0).val ∧ (i 0).val < win2_2.index t (0 : Fin 3) * 1 + 1; omega
  | ⟨1, _⟩ => show win2_2.index t (1 : Fin 3) * 10000 ≤ (i 1).val ∧ (i 1).val < win2_2.index t (1 : Fin 3) * 10000 + 10000; omega
  | ⟨2, _⟩ => show win2_2.index t (2 : Fin 3) * 64 ≤ (i 2).val ∧ (i 2).val < win2_2.index t (2 : Fin 3) * 64 + 64; omega

/-- The output array after the region's run is the entry-by-entry batched product of the arrays as the region finds them. -/
theorem final2 : (dat2 V c).arrAt 2 cfg2.N = bmmAt (V c (Pipeline.arrRef spec2 0)) (V c (Pipeline.arrRef spec2 1)) :=
  (dat2 V c).arrAt_eq_of_cover 2 _ (fun t _ => flushed2_eq V c t) cover2

/-- The output array after the region's run is the reference's batched product of the arrays as the region finds them. -/
theorem r2_o : (GenP.dat2 (F := Ideal) V c).arrAt 2 cfg2.N
    = Cert.RefStages.bmm (V c (Pipeline.arrRef spec2 0)) (V c (Pipeline.arrRef spec2 1)) := by
  rw [final2]
  exact (bmm_eq_bmmAt _ _).symm

end Cert.KernelIdeal.Stage

end
-- ==== Proof.Reg3Pieces.lean ====
/-
  Region 3 (the two running column totals of the scattered activations), what the body leaves in row 0 of its two
  [8,64] blocks at one grid point, read off the stores the run found, and the body's arithmetic on the extended reals.

  With x the point's [2000,64] block:
    * at the first point of a core's run (grid column 0) both blocks are zeroed first, and row 0 then takes
      0 + Σ_r x(r,·), respectively 0 + Σ_r x(r,·)²;
    * at every other point row 0 takes what the point before left there plus those sums.
  The piece statements hold for any float values; the two readings of the running rows are on the extended reals, where
  the recast of the block to its own shape does nothing and the reduction over the row axis is the sum down the rows.
-/
import proofs.«174784_j23922967838995_2_alg».proof.Proof.KernelIdealFrameP
import proofs.«174784_j23922967838995_2_alg».proof.Proof.Spec
import proofs.«174784_j23922967838995_2_alg».proof.Proof.Reg0Pieces
import proofs.«174784_j23922967838995_2_alg».proof.Proof.Reg0Pay
import Idealize.ShloMosaic.Lib.Pipeline.Value
import Idealize.ShloMosaic.Lib.Tactic
import Idealize.ShloMosaic.Lib.WritesUnit
import Idealize.ShloMosaic.PureOps.Ideal.Laws

noncomputable section

namespace Cert.KernelIdeal.Stage.R3

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.Spec Cert.KernelIdeal.Stage

variable {F : FTy → Type} [FloatOps F]

/-- A load of row 0 after the zero block was stored in the sums block reads the zero word. -/
theorem readCov_zero1 (v : View sig .tc .vmem S8x64 .f32) :
    v.readCov [(⟨Rect.unit ![0, 0] S8x64.size inb_S8x64_S8x64_0_0, k3_pay1 (F := F)⟩ : View.Piece (Elt F) S8x64 .f32)]
        (Rect.unit (s := S8x64) ![0, 0] S1x64.size inb_S8x64_S1x64_0_0).toLoadRect
      = fun _ => Scalar.ofBits .f32 0x00000000#32 := by
  rw [View.readCov_eq_canon', View.canon_unit_zero hz2]; rfl

/-- The same for the squares block. -/
theorem readCov_zero2 (v : View sig .tc .vmem S8x64 .f32) :
    v.readCov [(⟨Rect.unit ![0, 0] S8x64.size inb_S8x64_S8x64_0_0, k3_pay2 (F := F)⟩ : View.Piece (Elt F) S8x64 .f32)]
        (Rect.unit (s := S8x64) ![0, 0] S1x64.size inb_S8x64_S1x64_0_0).toLoadRect
      = fun _ => Scalar.ofBits .f32 0x00000000#32 := by
  rw [View.readCov_eq_canon', View.canon_unit_zero hz2]; rfl

/-- The sums block after a point that starts a core's run, row 0: the running row taken from the zero row. -/
theorem s_A_row0 (c : Dev nD) (i : grid3.Coords) (a2 : Memref sig .tc .vmem S2000x64 .f32) (h2 : a2.IsWhole) (a3 : Memref sig .tc .vmem S8x64 .f32) (h3 : a3.IsWhole) (a4 : Memref sig .tc .vmem S8x64 .f32) (h4 : a4.IsWhole) (hc : cond3_0 i) (x0 : Vec F S2000x64 .f32) (k : Fin 64) :
    out3_A_1 c i a2 h2 a3 h3 a4 h4 hc x0 (ix2 (0 : Fin 8) k)
      = k3_pay4 x0 (fun _ => Scalar.ofBits .f32 0x00000000#32) (ix2 (0 : Fin 1) k) := by
  unfold out3_A_1 kernelRun3_A
  dsimp only
  sl_unfold_words
  refine (View.read_writes_cons_rows_of_mem VO3_1 _ _ _ _ (ix2 (0 : Fin 8) k) (ix2 (0 : Fin 1) k) rfl rfl rfl).trans ?_
  simp only [View.readAt_eq_ld, h2.read_unread, View.ld_unit_zero (S := S2000x64) hz2]
  exact congrArg (fun v => k3_pay4 x0 v (ix2 (0 : Fin 1) k)) (readCov_zero1 a3.view)

/-- The squares block after a point that starts a core's run, row 0: the running row taken from the zero row. -/
theorem q_A_row0 (c : Dev nD) (i : grid3.Coords) (a2 : Memref sig .tc .vmem S2000x64 .f32) (h2 : a2.IsWhole) (a3 : Memref sig .tc .vmem S8x64 .f32) (h3 : a3.IsWhole) (a4 : Memref sig .tc .vmem S8x64 .f32) (h4 : a4.IsWhole) (hc : cond3_0 i) (x0 : Vec F S2000x64 .f32) (k : Fin 64) :
    out3_A_2 c i a2 h2 a3 h3 a4 h4 hc x0 (ix2 (0 : Fin 8) k)
      = k3_pay5 x0 (fun _ => Scalar.ofBits .f32 0x00000000#32) (ix2 (0 : Fin 1) k) := by
  unfold out3_A_2 kernelRun3_A
  dsimp only
  sl_unfold_words
  refine (View.read_writes_cons_rows_of_mem VO3_2 _ _ _ _ (ix2 (0 : Fin 8) k) (ix2 (0 : Fin 1) k) rfl rfl rfl).trans ?_
  simp only [View.readAt_eq_ld, h2.read_unread, View.ld_unit_zero (S := S2000x64) hz2]
  exact congrArg (fun v => k3_pay5 x0 v (ix2 (0 : Fin 1) k)) (readCov_zero2 a4.view)

/-- The sums block after any other point, row 0: the running row taken from the row the point before left. -/
theorem s_B_row0 (c : Dev nD) (i : grid3.Coords) (a2 : Memref sig .tc .vmem S2000x64 .f32) (h2 : a2.IsWhole) (a3 : Memref sig .tc .vmem S8x64 .f32) (h3 : a3.IsWhole) (a4 : Memref sig .tc .vmem S8x64 .f32) (h4 : a4.IsWhole) (hc : ¬cond3_0 i) (x0 : Vec F S2000x64 .f32) (xo1 xo2 : Vec F S8x64 .f32) (k : Fin 64) :
    out3_B_1 c i a2 h2 a3 h3 a4 h4 hc x0 xo1 xo2 (ix2 (0 : Fin 8) k) = k3_pay4 x0 (row0 xo1) (ix2 (0 : Fin 1) k) := by
  unfold out3_B_1 kernelRun3_B
  dsimp only
  refine (View.read_writes_cons_rows_of_mem a3.view _ _ _ _ (ix2 (0 : Fin 8) k) (ix2 (0 : Fin 1) k) rfl rfl rfl).trans ?_
  simp only [View.readAt_eq_ld, h2.read_unread, h3.read_unread, View.ld_unit_zero (S := S2000x64) hz2]

/-- The squares block after any other point, row 0: the running row taken from the row the point before left. -/
theorem q_B_row0 (c : Dev nD) (i : grid3.Coords) (a2 : Memref sig .tc .vmem S2000x64 .f32) (h2 : a2.IsWhole) (a3 : Memref sig .tc .vmem S8x64 .f32) (h3 : a3.IsWhole) (a4 : Memref sig .tc .vmem S8x64 .f32) (h4 : a4.IsWhole) (hc : ¬cond3_0 i) (x0 : Vec F S2000x64 .f32) (xo1 xo2 : Vec F S8x64 .f32) (k : Fin 64) :
    out3_B_2 c i a2 h2 a3 h3 a4 h4 hc x0 xo1 xo2 (ix2 (0 : Fin 8) k) = k3_pay5 x0 (row0 xo2) (ix2 (0 : Fin 1) k) := by
  unfold out3_B_2 kernelRun3_B
  dsimp only
  refine (View.read_writes_cons_rows_of_mem a4.view _ _ _ _ (ix2 (0 : Fin 8) k) (ix2 (0 : Fin 1) k) rfl rfl rfl).trans ?_
  simp only [View.readAt_eq_ld, h2.read_unread, h4.read_unread, View.ld_unit_zero (S := S2000x64) hz2]

/-- The block as the body uses it (a recast to its own shape) is the block. -/
theorem pay3_apply (x0 : Vec Ideal S2000x64 .f32) (r : Fin 2000) (k : Fin 64) :
    k3_pay3 (F := Ideal) x0 (ix2 r k) = x0 (ix2 r k) := by
  unfold k3_pay3
  exact congrFun (shapeCast_self x0 _) _

/-- The running sums row on the extended reals: what it held at column `k` plus the block's column `k` summed down its
    2000 rows. -/
theorem pay4_apply (x0 : Vec Ideal S2000x64 .f32) (v : Vec Ideal S1x64 .f32) (k : Fin 64) :
    k3_pay4 (F := Ideal) x0 v (ix2 (0 : Fin 1) k) = v (ix2 (0 : Fin 1) k) + ∑ r : Fin 2000, x0 (ix2 r k) := by
  unfold k3_pay4
  refine congrArg₂ (· + ·) (congrFun (shapeCast_self v _) _) ((colsum_apply _ k).trans ?_)
  exact Finset.sum_congr rfl fun r _ => pay3_apply x0 r k

/-- The running squares row: what it held plus the squares of the block's column summed down its rows. -/
theorem pay5_apply (x0 : Vec Ideal S2000x64 .f32) (v : Vec Ideal S1x64 .f32) (k : Fin 64) :
    k3_pay5 (F := Ideal) x0 v (ix2 (0 : Fin 1) k) = v (ix2 (0 : Fin 1) k) + ∑ r : Fin 2000, x0 (ix2 r k) * x0 (ix2 r k) := by
  unfold k3_pay5
  refine congrArg₂ (· + ·) (congrFun (shapeCast_self v _) _) ((colsum_apply _ k).trans ?_)
  exact Finset.sum_congr rfl fun r _ => congrArg₂ (· * ·) (pay3_apply x0 r k) (pay3_apply x0 r k)

end Cert.KernelIdeal.Stage.R3

end
-- ==== Proof.Reg3.lean ====
/-
  Region 3 of the idealised kernel, as arrays: the column sums and the column sums of squares of the array the region
  finds, over all 100000 rows.

  The grid is two cores of 25 points; point t reads rows 2000·t … 2000·t + 1999 of the array. Within a core's run the
  first point starts row 0 of each accumulator block from zero and every later point adds its block's column sums (of
  the entries, of their squares) to what the point before left, so after the run's last point row 0 holds zero plus the
  sum over the run's 25 points of their column sums. Each core's last point (24, 49) writes its block back: core 0's to
  rows 0–7 of the raw [16,64] array, core 1's to rows 8–15. The host adds rows 0 and 8 to zero; the 50 tile sums
  re-associate to the sum over all rows (only associativity and commutativity of addition on the extended reals are
  used, and that the zero word is zero), so no entry needs to be finite.
-/
import proofs.«174784_j23922967838995_2_alg».proof.Proof.KernelIdealFrameP
import proofs.«174784_j23922967838995_2_alg».proof.Proof.Spec
import proofs.«174784_j23922967838995_2_alg».proof.Proof.Reg3Pieces
import proofs.«174784_j23922967838995_2_alg».proof.Proof.Comb
import proofs.«174784_j23922967838995_2_alg».proof.Proof.TileSums
import Idealize.ShloMosaic.Lib.Pipeline.Value

noncomputable section

namespace Cert.KernelIdeal.Stage

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.Spec

variable (V : (c : Dev nD) → (b : Ref sig .tc) → Buf (Elt Ideal) ((c : Thread nD τ).loc b)) (c : Dev nD)

namespace R3

/-- The block indices of the windows at each point, decided over the grid: the activations move with the point, the two
    accumulators with the core (25 points each). -/
theorem idx_facts : ∀ t : Fin cfg3.N,
    win3_0.index t (0 : Fin 2) = t.val ∧ win3_0.index t (1 : Fin 2) = 0
    ∧ win3_1.index t (0 : Fin 2) = t.val / 25 ∧ win3_1.index t (1 : Fin 2) = 0
    ∧ win3_2.index t (0 : Fin 2) = t.val / 25 ∧ win3_2.index t (1 : Fin 2) = 0 :=
  (by decide +kernel : ∀ t : Fin grid3.N, _)

/-- The activations' block at point `t` is rows 2000·t … 2000·t + 1999 of the array. -/
theorem blk0_apply (t : Fin cfg3.N) (r : Fin 2000) (k : Fin 64) (hr : 2000 * t.val + r.val < 100000) :
    (iblk3 V c 0 t : Vec Ideal S2000x64 .f32) (ix2 r k)
      = rd2 (V c (Pipeline.arrRef spec3 0) : S100000x64.Idx → EReal) ⟨2000 * t.val + r.val, hr⟩ k := by
  unfold iblk3
  rw [View.read_apply]
  show V c (Pipeline.arrRef spec3 0) _ = V c (Pipeline.arrRef spec3 0) _
  refine congrArg (V c (Pipeline.arrRef spec3 0)) ?_
  funext a
  apply Fin.ext
  match a with
  | ⟨0, _⟩ => show win3_0.index t 0 * 2000 + 1 * r.val = 2000 * t.val + r.val; rw [(idx_facts t).1]; omega
  | ⟨1, _⟩ => show win3_0.index t 1 * 64 + 1 * k.val = k.val; rw [(idx_facts t).2.1]; omega

/-- The block point `t` reads, as an array of extended reals. -/
def blk (t : Fin cfg3.N) : S2000x64.Idx → EReal := iblk3 V c 0 t
/-- The column sums of the block point `t` reads. -/
def cs (t : Fin cfg3.N) (k : Fin 64) : EReal := ∑ r : Fin 2000, blk V c t (ix2 r k)
/-- The column sums of its squares. -/
def cq (t : Fin cfg3.N) (k : Fin 64) : EReal := ∑ r : Fin 2000, blk V c t (ix2 r k) * blk V c t (ix2 r k)

/-- A point's column sums as a function of every natural number: zero past the grid. -/
def csN (n : ℕ) (k : Fin 64) : EReal := if h : n < cfg3.N then cs V c ⟨n, h⟩ k else 0
/-- The same for the squares. -/
def cqN (n : ℕ) (k : Fin 64) : EReal := if h : n < cfg3.N then cq V c ⟨n, h⟩ k else 0

theorem last_lt (q : ℕ) (hq : q < 2) : 25 * q + 24 < cfg3.N := by
  rw [show cfg3.N = 50 from N_3]; omega

/-- The accumulators' contents after a point depend on the point's number alone. -/
theorem outs_same (u v : ℕ) (hu : u < cfg3.N) (hv : v < cfg3.N) (e : u = v) : outsAt3 V c u hu = outsAt3 V c v hv := by
  subst e; rfl

/-- Row 0 of the sums block after a point that starts a core's run: zero plus the point's column sums. -/
theorem row1_A (t : Fin cfg3.N) (h0 : t.val % 25 = 0) (k : Fin 64) :
    (outsAt3 V c t.val t.isLt).1 (ix2 (0 : Fin 8) k) = zeroF + cs V c t k := by
  rw [outsAt3_A V c t h0]
  dsimp only
  refine (s_A_row0 (F := Ideal) c (grid3.coords t) (ms3_0 t) (hs3_0 t) (ms3_1 t) (hs3_1 t) (ms3_2 t) (hs3_2 t) ((hcond3_0 t).mpr h0) (iblk3 V c 0 t) k).trans ?_
  exact pay4_apply (iblk3 V c 0 t) _ k

/-- Row 0 of the sums block after any other point: what the point before left plus the point's column sums. -/
theorem row1_B (t : Fin cfg3.N) (h0 : ¬t.val % 25 = 0) (k : Fin 64) :
    (outsAt3 V c t.val t.isLt).1 (ix2 (0 : Fin 8) k)
      = (outsAt3 V c (t.val - 1) (Nat.lt_of_le_of_lt (Nat.sub_le _ _) t.isLt)).1 (ix2 (0 : Fin 8) k) + cs V c t k := by
  rw [outsAt3_B V c t h0]
  dsimp only
  refine (s_B_row0 (F := Ideal) c (grid3.coords t) (ms3_0 t) (hs3_0 t) (ms3_1 t) (hs3_1 t) (ms3_2 t) (hs3_2 t) (fun h => h0 ((hcond3_0 t).mp h)) (iblk3 V c 0 t) (outsAt3 V c (t.val - 1) (Nat.lt_of_le_of_lt (Nat.sub_le _ _) t.isLt)).1 (outsAt3 V c (t.val - 1) (Nat.lt_of_le_of_lt (Nat.sub_le _ _) t.isLt)).2 k).trans ?_
  refine (pay4_apply (iblk3 V c 0 t) (row0 (outsAt3 V c (t.val - 1) (Nat.lt_of_le_of_lt (Nat.sub_le _ _) t.isLt)).1) k).trans ?_
  exact congrArg (· + cs V c t k) (row0_apply (outsAt3 V c (t.val - 1) (Nat.lt_of_le_of_lt (Nat.sub_le _ _) t.isLt)).1 k)

/-- After the last point of core `q`'s run, row 0 of the sums block is zero plus the sum of the run's 25 column sums. -/
theorem row1_run (q : ℕ) (hq : 25 * q + 24 < cfg3.N) (k : Fin 64) :
    (outsAt3 V c (25 * q + 24) hq).1 (ix2 (0 : Fin 8) k) = zeroF + ∑ s ∈ Finset.range 25, csN V c (25 * q + s) k := by
  have h1 := Pipeline.eq_accAt (N := cfg3.N) (α := Fin 64 → EReal)
    (fun n h k => (outsAt3 V c n h).1 (ix2 (0 : Fin 8) k)) 25
    (fun n h k => zeroF + cs V c ⟨n, h⟩ k)
    (fun n h acc k => acc k + cs V c ⟨n, h⟩ k)
    (fun n h e => funext fun k => row1_A V c ⟨n, h⟩ e k)
    (fun n h e => funext fun k => row1_B V c ⟨n + 1, h⟩ e k)
    q 24 (by omega) hq
  have h2 := Pipeline.accAt_add_apply (N := cfg3.N) (ι := Fin 64) (β := EReal)
    (fun n h k => zeroF + cs V c ⟨n, h⟩ k)
    (fun n h acc k => acc k + cs V c ⟨n, h⟩ k)
    (fun _ => zeroF) (csN V c) (25 * q) 24
    (fun h i => by simp only [csN, dif_pos h])
    (fun n h acc i _ _ => by simp only [csN, dif_pos h])
    24 le_rfl hq k
  exact (congrFun h1 k).trans h2

/-- The contents of the sums array after the run: rows 0–7 are what core 0's block held after its last point, rows
    8–15 core 1's. -/
def arr1 : S16x64.Idx → EReal := fun i =>
  if h : (i 0).val < 8 then (outsAt3 V c (25 * 0 + 24) (last_lt 0 (by omega))).1 (ix2 (⟨(i 0).val, h⟩ : Fin 8) (i 1))
  else (outsAt3 V c (25 * 1 + 24) (last_lt 1 (by omega))).1
    (ix2 (⟨(i 0).val - 8, by have := idx2_lt0 i; omega⟩ : Fin 8) (i 1))

/-- What a core's last point writes back is its block of that. -/
theorem flushed1 (t : Fin cfg3.N) (hf : (cfg3.win 1).flush t = true) :
    (dat3 V c).flushed 1 t = ((cfg3.win 1).blk t).view.read (Elt Ideal) (arr1 V c) := by
  have hN : cfg3.N = 50 := N_3
  have h24 : t.val % 25 = 24 := (flush3_1 t).mp hf
  have hlt : t.val < cfg3.N := t.isLt
  obtain ⟨e00, e01, e10, e11, e20, e21⟩ := idx_facts t
  show (cfg3.win 1).cut (grid3.coords t) ((dat3 V c).after 1 t) = _
  rw [after3_1]
  funext y
  rw [View.read_apply]
  show (outsAt3 V c t.val t.isLt).1 y = arr1 V c (((cfg3.win 1).blk t).view.emb y)
  have hy0 : (y 0).val < 8 := (y 0).isLt
  have e0 : ((((cfg3.win 1).blk t).view.emb y) 0).val = t.val / 25 * 8 + (y 0).val := by
    show win3_1.index t 0 * 8 + 1 * (y 0).val = _
    rw [e10]; omega
  have e1 : ((((cfg3.win 1).blk t).view.emb y) 1).val = (y 1).val := by
    show win3_1.index t 1 * 64 + 1 * (y 1).val = _
    rw [e11]; omega
  have ht : t.val = 24 ∨ t.val = 49 := by omega
  rcases ht with ht | ht
  · have hlo : ((((cfg3.win 1).blk t).view.emb y) 0).val < 8 := by rw [e0]; omega
    refine Eq.trans ?_ (dif_pos hlo).symm
    rw [outs_same V c t.val (25 * 0 + 24) t.isLt (last_lt 0 (by omega)) (by omega)]
    refine congrArg (outsAt3 V c (25 * 0 + 24) (last_lt 0 (by omega))).1 ?_
    funext a
    refine Fin.ext ?_
    match a with
    | ⟨0, _⟩ => show (y 0).val = ((((cfg3.win 1).blk t).view.emb y) 0).val; rw [e0]; omega
    | ⟨1, _⟩ => show (y 1).val = ((((cfg3.win 1).blk t).view.emb y) 1).val; rw [e1]
  · have hhi : ¬((((cfg3.win 1).blk t).view.emb y) 0).val < 8 := by rw [e0]; omega
    refine Eq.trans ?_ (dif_neg hhi).symm
    rw [outs_same V c t.val (25 * 1 + 24) t.isLt (last_lt 1 (by omega)) (by omega)]
    refine congrArg (outsAt3 V c (25 * 1 + 24) (last_lt 1 (by omega))).1 ?_
    funext a
    refine Fin.ext ?_
    match a with
    | ⟨0, _⟩ => show (y 0).val = ((((cfg3.win 1).blk t).view.emb y) 0).val - 8; rw [e0]; omega
    | ⟨1, _⟩ => show (y 1).val = ((((cfg3.win 1).blk t).view.emb y) 1).val; rw [e1]

/-- The two cores' last points cover the sums array. -/
theorem cover1 (i : S16x64.Idx) :
    ∃ t : Fin cfg3.N, (cfg3.win 1).flush t = true ∧ i ∈ ((cfg3.win 1).blk t).view.set := by
  have hN : cfg3.N = 50 := N_3
  have hi0 : (i 0).val < 16 := idx2_lt0 i
  have hi1 : (i 1).val < 64 := idx2_lt1 i
  obtain ⟨t, ht⟩ : ∃ t : Fin cfg3.N, t.val = 25 * ((i 0).val / 8) + 24 :=
    ⟨⟨25 * ((i 0).val / 8) + 24, by rw [hN]; omega⟩, rfl⟩
  obtain ⟨e00, e01, e10, e11, e20, e21⟩ := idx_facts t
  refine ⟨t, (flush3_1 t).mpr (by omega), ?_⟩
  show i ∈ ((View.whole main_v36_0).slice (win3_1.rect t)).set
  rw [View.set_slice_whole, Rect.mem_set_unit]
  intro a
  match a with
  | ⟨0, _⟩ =>
    show win3_1.index t 0 * 8 ≤ (i 0).val ∧ (i 0).val < win3_1.index t 0 * 8 + 8
    rw [e10]; omega
  | ⟨1, _⟩ =>
    show win3_1.index t 1 * 64 ≤ (i 1).val ∧ (i 1).val < win3_1.index t 1 * 64 + 64
    rw [e11]; omega

/-- So the sums array ends holding it. -/
theorem final1 : (dat3 V c).arrAt 1 cfg3.N = arr1 V c :=
  (dat3 V c).arrAt_eq_of_cover 1 (arr1 V c) (flushed1 V c) (fun i => cover1 i)

/-- Row 0 of the sums array: zero plus core 0's 25 column sums. -/
theorem raw1_0 (k : Fin 64) :
    rd2 ((dat3 V c).arrAt 1 cfg3.N : S16x64.Idx → EReal) 0 k = zeroF + ∑ s ∈ Finset.range 25, csN V c (25 * 0 + s) k := by
  rw [final1]
  show arr1 V c (ix2 (0 : Fin 16) k) = _
  refine (dif_pos (show ((ix2 (0 : Fin 16) k) 0).val < 8 from Nat.zero_lt_succ 7)).trans ?_
  refine Eq.trans (congrArg (outsAt3 V c (25 * 0 + 24) (last_lt 0 (by omega))).1 ?_) (row1_run V c 0 (last_lt 0 (by omega)) k)
  funext a
  refine Fin.ext ?_
  match a with
  | ⟨0, _⟩ => rfl
  | ⟨1, _⟩ => rfl

/-- Row 8 of the sums array: zero plus core 1's. -/
theorem raw1_8 (k : Fin 64) :
    rd2 ((dat3 V c).arrAt 1 cfg3.N : S16x64.Idx → EReal) 8 k = zeroF + ∑ s ∈ Finset.range 25, csN V c (25 * 1 + s) k := by
  rw [final1]
  show arr1 V c (ix2 (8 : Fin 16) k) = _
  refine (dif_neg (show ¬((ix2 (8 : Fin 16) k) 0).val < 8 from Nat.lt_irrefl 8)).trans ?_
  refine Eq.trans (congrArg (outsAt3 V c (25 * 1 + 24) (last_lt 1 (by omega))).1 ?_) (row1_run V c 1 (last_lt 1 (by omega)) k)
  funext a
  refine Fin.ext ?_
  match a with
  | ⟨0, _⟩ => rfl
  | ⟨1, _⟩ => rfl

/-- Row 0 of the squares block after a point that starts a core's run: zero plus the point's column squares. -/
theorem row2_A (t : Fin cfg3.N) (h0 : t.val % 25 = 0) (k : Fin 64) :
    (outsAt3 V c t.val t.isLt).2 (ix2 (0 : Fin 8) k) = zeroF + cq V c t k := by
  rw [outsAt3_A V c t h0]
  dsimp only
  refine (q_A_row0 (F := Ideal) c (grid3.coords t) (ms3_0 t) (hs3_0 t) (ms3_1 t) (hs3_1 t) (ms3_2 t) (hs3_2 t) ((hcond3_0 t).mpr h0) (iblk3 V c 0 t) k).trans ?_
  exact pay5_apply (iblk3 V c 0 t) _ k

/-- Row 0 of the squares block after any other point: what the point before left plus the point's column squares. -/
theorem row2_B (t : Fin cfg3.N) (h0 : ¬t.val % 25 = 0) (k : Fin 64) :
    (outsAt3 V c t.val t.isLt).2 (ix2 (0 : Fin 8) k)
      = (outsAt3 V c (t.val - 1) (Nat.lt_of_le_of_lt (Nat.sub_le _ _) t.isLt)).2 (ix2 (0 : Fin 8) k) + cq V c t k := by
  rw [outsAt3_B V c t h0]
  dsimp only
  refine (q_B_row0 (F := Ideal) c (grid3.coords t) (ms3_0 t) (hs3_0 t) (ms3_1 t) (hs3_1 t) (ms3_2 t) (hs3_2 t) (fun h => h0 ((hcond3_0 t).mp h)) (iblk3 V c 0 t) (outsAt3 V c (t.val - 1) (Nat.lt_of_le_of_lt (Nat.sub_le _ _) t.isLt)).1 (outsAt3 V c (t.val - 1) (Nat.lt_of_le_of_lt (Nat.sub_le _ _) t.isLt)).2 k).trans ?_
  refine (pay5_apply (iblk3 V c 0 t) (row0 (outsAt3 V c (t.val - 1) (Nat.lt_of_le_of_lt (Nat.sub_le _ _) t.isLt)).2) k).trans ?_
  exact congrArg (· + cq V c t k) (row0_apply (outsAt3 V c (t.val - 1) (Nat.lt_of_le_of_lt (Nat.sub_le _ _) t.isLt)).2 k)

/-- After the last point of core `q`'s run, row 0 of the squares block is zero plus the sum of the run's 25 column squares. -/
theorem row2_run (q : ℕ) (hq : 25 * q + 24 < cfg3.N) (k : Fin 64) :
    (outsAt3 V c (25 * q + 24) hq).2 (ix2 (0 : Fin 8) k) = zeroF + ∑ s ∈ Finset.range 25, cqN V c (25 * q + s) k := by
  have h1 := Pipeline.eq_accAt (N := cfg3.N) (α := Fin 64 → EReal)
    (fun n h k => (outsAt3 V c n h).2 (ix2 (0 : Fin 8) k)) 25
    (fun n h k => zeroF + cq V c ⟨n, h⟩ k)
    (fun n h acc k => acc k + cq V c ⟨n, h⟩ k)
    (fun n h e => funext fun k => row2_A V c ⟨n, h⟩ e k)
    (fun n h e => funext fun k => row2_B V c ⟨n + 1, h⟩ e k)
    q 24 (by omega) hq
  have h2 := Pipeline.accAt_add_apply (N := cfg3.N) (ι := Fin 64) (β := EReal)
    (fun n h k => zeroF + cq V c ⟨n, h⟩ k)
    (fun n h acc k => acc k + cq V c ⟨n, h⟩ k)
    (fun _ => zeroF) (cqN V c) (25 * q) 24
    (fun h i => by simp only [cqN, dif_pos h])
    (fun n h acc i _ _ => by simp only [cqN, dif_pos h])
    24 le_rfl hq k
  exact (congrFun h1 k).trans h2

/-- The contents of the squares array after the run: rows 0–7 are what core 0's block held after its last point, rows
    8–15 core 1's. -/
def arr2 : S16x64.Idx → EReal := fun i =>
  if h : (i 0).val < 8 then (outsAt3 V c (25 * 0 + 24) (last_lt 0 (by omega))).2 (ix2 (⟨(i 0).val, h⟩ : Fin 8) (i 1))
  else (outsAt3 V c (25 * 1 + 24) (last_lt 1 (by omega))).2
    (ix2 (⟨(i 0).val - 8, by have := idx2_lt0 i; omega⟩ : Fin 8) (i 1))

/-- What a core's last point writes back is its block of that. -/
theorem flushed2 (t : Fin cfg3.N) (hf : (cfg3.win 2).flush t = true) :
    (dat3 V c).flushed 2 t = ((cfg3.win 2).blk t).view.read (Elt Ideal) (arr2 V c) := by
  have hN : cfg3.N = 50 := N_3
  have h24 : t.val % 25 = 24 := (flush3_2 t).mp hf
  have hlt : t.val < cfg3.N := t.isLt
  obtain ⟨e00, e01, e10, e11, e20, e21⟩ := idx_facts t
  show (cfg3.win 2).cut (grid3.coords t) ((dat3 V c).after 2 t) = _
  rw [after3_2]
  funext y
  rw [View.read_apply]
  show (outsAt3 V c t.val t.isLt).2 y = arr2 V c (((cfg3.win 2).blk t).view.emb y)
  have hy0 : (y 0).val < 8 := (y 0).isLt
  have e0 : ((((cfg3.win 2).blk t).view.emb y) 0).val = t.val / 25 * 8 + (y 0).val := by
    show win3_2.index t 0 * 8 + 1 * (y 0).val = _
    rw [e20]; omega
  have e1 : ((((cfg3.win 2).blk t).view.emb y) 1).val = (y 1).val := by
    show win3_2.index t 1 * 64 + 1 * (y 1).val = _
    rw [e21]; omega
  have ht : t.val = 24 ∨ t.val = 49 := by omega
  rcases ht with ht | ht
  · have hlo : ((((cfg3.win 2).blk t).view.emb y) 0).val < 8 := by rw [e0]; omega
    refine Eq.trans ?_ (dif_pos hlo).symm
    rw [outs_same V c t.val (25 * 0 + 24) t.isLt (last_lt 0 (by omega)) (by omega)]
    refine congrArg (outsAt3 V c (25 * 0 + 24) (last_lt 0 (by omega))).2 ?_
    funext a
    refine Fin.ext ?_
    match a with
    | ⟨0, _⟩ => show (y 0).val = ((((cfg3.win 2).blk t).view.emb y) 0).val; rw [e0]; omega
    | ⟨1, _⟩ => show (y 1).val = ((((cfg3.win 2).blk t).view.emb y) 1).val; rw [e1]
  · have hhi : ¬((((cfg3.win 2).blk t).view.emb y) 0).val < 8 := by rw [e0]; omega
    refine Eq.trans ?_ (dif_neg hhi).symm
    rw [outs_same V c t.val (25 * 1 + 24) t.isLt (last_lt 1 (by omega)) (by omega)]
    refine congrArg (outsAt3 V c (25 * 1 + 24) (last_lt 1 (by omega))).2 ?_
    funext a
    refine Fin.ext ?_
    match a with
    | ⟨0, _⟩ => show (y 0).val = ((((cfg3.win 2).blk t).view.emb y) 0).val - 8; rw [e0]; omega
    | ⟨1, _⟩ => show (y 1).val = ((((cfg3.win 2).blk t).view.emb y) 1).val; rw [e1]

/-- The two cores' last points cover the squares array. -/
theorem cover2 (i : S16x64.Idx) :
    ∃ t : Fin cfg3.N, (cfg3.win 2).flush t = true ∧ i ∈ ((cfg3.win 2).blk t).view.set := by
  have hN : cfg3.N = 50 := N_3
  have hi0 : (i 0).val < 16 := idx2_lt0 i
  have hi1 : (i 1).val < 64 := idx2_lt1 i
  obtain ⟨t, ht⟩ : ∃ t : Fin cfg3.N, t.val = 25 * ((i 0).val / 8) + 24 :=
    ⟨⟨25 * ((i 0).val / 8) + 24, by rw [hN]; omega⟩, rfl⟩
  obtain ⟨e00, e01, e10, e11, e20, e21⟩ := idx_facts t
  refine ⟨t, (flush3_2 t).mpr (by omega), ?_⟩
  show i ∈ ((View.whole main_v36_1).slice (win3_2.rect t)).set
  rw [View.set_slice_whole, Rect.mem_set_unit]
  intro a
  match a with
  | ⟨0, _⟩ =>
    show win3_2.index t 0 * 8 ≤ (i 0).val ∧ (i 0).val < win3_2.index t 0 * 8 + 8
    rw [e20]; omega
  | ⟨1, _⟩ =>
    show win3_2.index t 1 * 64 ≤ (i 1).val ∧ (i 1).val < win3_2.index t 1 * 64 + 64
    rw [e21]; omega

/-- So the squares array ends holding it. -/
theorem final2 : (dat3 V c).arrAt 2 cfg3.N = arr2 V c :=
  (dat3 V c).arrAt_eq_of_cover 2 (arr2 V c) (flushed2 V c) (fun i => cover2 i)

/-- Row 0 of the squares array: zero plus core 0's 25 column squares. -/
theorem raw2_0 (k : Fin 64) :
    rd2 ((dat3 V c).arrAt 2 cfg3.N : S16x64.Idx → EReal) 0 k = zeroF + ∑ s ∈ Finset.range 25, cqN V c (25 * 0 + s) k := by
  rw [final2]
  show arr2 V c (ix2 (0 : Fin 16) k) = _
  refine (dif_pos (show ((ix2 (0 : Fin 16) k) 0).val < 8 from Nat.zero_lt_succ 7)).trans ?_
  refine Eq.trans (congrArg (outsAt3 V c (25 * 0 + 24) (last_lt 0 (by omega))).2 ?_) (row2_run V c 0 (last_lt 0 (by omega)) k)
  funext a
  refine Fin.ext ?_
  match a with
  | ⟨0, _⟩ => rfl
  | ⟨1, _⟩ => rfl

/-- Row 8 of the squares array: zero plus core 1's. -/
theorem raw2_8 (k : Fin 64) :
    rd2 ((dat3 V c).arrAt 2 cfg3.N : S16x64.Idx → EReal) 8 k = zeroF + ∑ s ∈ Finset.range 25, cqN V c (25 * 1 + s) k := by
  rw [final2]
  show arr2 V c (ix2 (8 : Fin 16) k) = _
  refine (dif_neg (show ¬((ix2 (8 : Fin 16) k) 0).val < 8 from Nat.lt_irrefl 8)).trans ?_
  refine Eq.trans (congrArg (outsAt3 V c (25 * 1 + 24) (last_lt 1 (by omega))).2 ?_) (row2_run V c 1 (last_lt 1 (by omega)) k)
  funext a
  refine Fin.ext ?_
  match a with
  | ⟨0, _⟩ => rfl
  | ⟨1, _⟩ => rfl

/-- A point's column sums are the sums of its 2000 rows of the array. -/
theorem csN_tile (k : Fin 64) (n : ℕ) (hn : n < 50) :
    csN V c n k = ∑ r : Fin 2000, rd2 (V c (Pipeline.arrRef spec3 0) : S100000x64.Idx → EReal) (tileRow n hn r) k := by
  have hN : n < cfg3.N := by rw [show cfg3.N = 50 from N_3]; exact hn
  unfold csN
  rw [dif_pos hN]
  unfold cs
  exact Finset.sum_congr rfl fun r _ => blk0_apply V c ⟨n, hN⟩ r k _

/-- A point's column sums of squares are those of its 2000 rows of the array. -/
theorem cqN_tile (k : Fin 64) (n : ℕ) (hn : n < 50) :
    cqN V c n k = ∑ r : Fin 2000, rd2 (V c (Pipeline.arrRef spec3 0) : S100000x64.Idx → EReal) (tileRow n hn r) k
        * rd2 (V c (Pipeline.arrRef spec3 0) : S100000x64.Idx → EReal) (tileRow n hn r) k := by
  have hN : n < cfg3.N := by rw [show cfg3.N = 50 from N_3]; exact hn
  unfold cqN
  rw [dif_pos hN]
  unfold cq
  exact Finset.sum_congr rfl fun r _ => congrArg₂ (· * ·) (blk0_apply V c ⟨n, hN⟩ r k _) (blk0_apply V c ⟨n, hN⟩ r k _)

end R3

open R3

/-- REGION 3's raw sums combined by the host: the column sums of the array the region finds, over all 100000 rows. -/
theorem r3_s :
    rd2 (comb64 ((GenP.dat3 (F := Ideal) V c).arrAt 1 cfg3.N)) 0
      = colSum (rd2 (V c (Pipeline.arrRef spec3 0) : S100000x64.Idx → EReal)) := by
  funext k
  rw [comb64_rd, raw1_0, raw1_8]
  exact colSum_tiles (rd2 (V c (Pipeline.arrRef spec3 0) : S100000x64.Idx → EReal)) k (fun n => csN V c n k) (csN_tile V c k)

/-- REGION 3's raw sums of squares combined by the host: the column sums of squares of that array. -/
theorem r3_q :
    rd2 (comb64 ((GenP.dat3 (F := Ideal) V c).arrAt 2 cfg3.N)) 0
      = colSumSq (rd2 (V c (Pipeline.arrRef spec3 0) : S100000x64.Idx → EReal)) := by
  funext k
  rw [comb64_rd, raw2_0, raw2_8]
  exact colSumSq_tiles (rd2 (V c (Pipeline.arrRef spec3 0) : S100000x64.Idx → EReal)) k (fun n => cqN V c n k) (cqN_tile V c k)

end Cert.KernelIdeal.Stage

end
-- ==== Proof.Reg4Pay.lean ====
/-
  Region 4's arithmetic read entry by entry on the extended reals.

  Per grid point the body normalises its 2000 × 64 block of activations with the column sums `s` and sums of squares
  `q` (mean = s / n, var = max (q / n − mean², 0), then (a − mean) · (var + ε)^(−1/2) · g + b), takes the larger of the
  result and zero, and multiplies the 2000 × 64 result by the 64 × 128 weights into a zero accumulator; the two
  narrowings to sixteen bits on the way into the product are the identity on the extended reals. It then adds, column
  by column, the sum of the product's 2000 rows (and of their squares) to a running row.
-/
import proofs.«174784_j23922967838995_2_alg».proof.Proof.Gen.KernelIdeal.Skeleton
import proofs.«174784_j23922967838995_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Stage.R4

open Idealize.ShloMosaic Idealize.ShloMosaic.ValueIdx
open Cert.KernelIdeal Cert.KernelIdeal.Gen Cert.Spec

/-- The normalised and rectified block at row `r`, column `k`: the batch normalisation from the sums `s`, `q` with
    scale `g` and shift `b`, then the larger of it and zero. -/
theorem pay6_apply (s q : Vec Ideal S1x64 .f32) (a : Vec Ideal S2000x64 .f32) (g b : Vec Ideal S1x64 .f32)
    (r : Fin 2000) (k : Fin 64) :
    k4_pay6 (F := Ideal) s q a g b (ix2 r k)
      = relu ((a (ix2 r k) - Ideal.div (s (ix2 0 k)) nF)
          * Ideal.rsqrt (max (Ideal.div (q (ix2 0 k)) nF - Ideal.div (s (ix2 0 k)) nF * Ideal.div (s (ix2 0 k)) nF) zeroF + epsF)
          * g (ix2 0 k) + b (ix2 0 k)) := by
  unfold k4_pay6
  simp only [shapeCast_self]
  simp only [truncf_apply, maximumf_apply, addf_apply, mulf_apply, subf_apply, broadcastTo_1b_ab_apply]
  rfl

/-- The narrowing of the weights is the identity. -/
theorem pay7_eq (w : Vec Ideal S64x128 .f32) : k4_pay7 (F := Ideal) w = w := rfl

/-- The product into the zero accumulator at row `r`, column `c`: the sum over the 64 inner coordinates. -/
theorem pay1_apply (x : FVec Ideal S2000x64 .bf16) (w : FVec Ideal S64x128 .bf16) (r : Fin 2000) (c : Fin 128) :
    k4_pay1 (F := Ideal) x w (constant S2000x128 .f32 0x00000000#32) (ix2 r c) = ∑ k : Fin 64, x (ix2 r k) * w (ix2 k c) := by
  unfold k4_pay1
  refine (Ideal.matmul_constant_zero_apply dot_S2000x64_S64x128_S2000x128_1_0_0_1_n_n none x w (ix2 r c)).trans ?_
  refine (Equiv.sum_comp (contrEquiv1 dot_S2000x64_S64x128_S2000x128_1_0_0_1_n_n 64 rfl rfl).symm _).symm.trans ?_
  refine Finset.sum_congr rfl fun k _ => ?_
  have hl : dot_S2000x64_S64x128_S2000x128_1_0_0_1_n_n.lhsIdx (ix2 r c)
      ((contrEquiv1 dot_S2000x64_S64x128_S2000x128_1_0_0_1_n_n 64 rfl rfl).symm k) = ix2 r k := by
    funext a
    refine Fin.ext ?_
    match a with
    | ⟨0, _⟩ => rfl
    | ⟨1, _⟩ =>
      exact (DotDims.lhsIdx_val_of_single _ (cl := (1 : Fin 2)) rfl _ _).trans
        (contrEquiv1_symm_val dot_S2000x64_S64x128_S2000x128_1_0_0_1_n_n 64 rfl rfl k)
  have hr : dot_S2000x64_S64x128_S2000x128_1_0_0_1_n_n.rhsIdx (ix2 r c)
      ((contrEquiv1 dot_S2000x64_S64x128_S2000x128_1_0_0_1_n_n 64 rfl rfl).symm k) = ix2 k c := by
    funext a
    refine Fin.ext ?_
    match a with
    | ⟨0, _⟩ =>
      exact (DotDims.rhsIdx_val_of_single _ (cr := (0 : Fin 2)) rfl _ _).trans
        (contrEquiv1_symm_val dot_S2000x64_S64x128_S2000x128_1_0_0_1_n_n 64 rfl rfl k)
    | ⟨1, _⟩ => rfl
  rw [hl, hr]

/-- The sum over the rows of a 2000 × 128 block, laid out as one row, at column `c`. -/
theorem rowsum_apply (src : FVec Ideal S2000x128 .f32) (c : Fin 128) :
    shapeCast S1x128 (multiReduction (F := Ideal) .add [0] S128 src 0x00000000#32 reduces_S2000x128_S128 (.inl rfl) rfl)
        shapeCasts_S128_S1x128 (ix2 (0 : Fin 1) c)
      = ∑ r : Fin 2000, src (ix2 r c) := by
  refine (shapeCast_a_1a_apply _ shapeCasts_S128_S1x128 (0 : Fin 1) c).trans ?_
  refine (Ideal.multiReduction_add_single src 0x00000000#32 reduces_S2000x128_S128 (.inl rfl) rfl (ix1 c)).trans ?_
  refine Finset.sum_congr rfl fun r _ => congrArg src ?_
  funext a
  refine Fin.ext ?_
  match a with
  | ⟨0, _⟩ => rfl
  | ⟨1, _⟩ => rfl

/-- The running row of column sums after a point: what it held plus the sum of the product's rows. -/
theorem pay2_apply (x : FVec Ideal S2000x64 .bf16) (w : FVec Ideal S64x128 .bf16) (z : FVec Ideal S2000x128 .f32)
    (old : Vec Ideal S1x128 .f32) (c : Fin 128) :
    k4_pay2 (F := Ideal) x w z old (ix2 (0 : Fin 1) c)
      = old (ix2 (0 : Fin 1) c) + ∑ r : Fin 2000, k4_pay1 (F := Ideal) x w z (ix2 r c) := by
  unfold k4_pay2
  simp only [shapeCast_self]
  refine (addf_apply _ _ _).trans ?_
  exact congrArg (old (ix2 (0 : Fin 1) c) + ·) (rowsum_apply (k4_pay1 (F := Ideal) x w z) c)

/-- The running row of column sums of squares after a point: what it held plus the sum of the squares of the
    product's rows. -/
theorem pay3_apply (x : FVec Ideal S2000x64 .bf16) (w : FVec Ideal S64x128 .bf16) (z : FVec Ideal S2000x128 .f32)
    (old : Vec Ideal S1x128 .f32) (c : Fin 128) :
    k4_pay3 (F := Ideal) x w z old (ix2 (0 : Fin 1) c)
      = old (ix2 (0 : Fin 1) c)
        + ∑ r : Fin 2000, k4_pay1 (F := Ideal) x w z (ix2 r c) * k4_pay1 (F := Ideal) x w z (ix2 r c) := by
  unfold k4_pay3
  simp only [shapeCast_self]
  refine (addf_apply _ _ _).trans ?_
  exact congrArg (old (ix2 (0 : Fin 1) c) + ·)
    (rowsum_apply (mulf (k4_pay1 (F := Ideal) x w z) (k4_pay1 (F := Ideal) x w z)) c)

/-- The block the reset stores is zero everywhere. -/
theorem pay4_apply (i : S8x128.Idx) : k4_pay4 (F := Ideal) i = zeroF := rfl
theorem pay5_apply (i : S8x128.Idx) : k4_pay5 (F := Ideal) i = zeroF := rfl

end Cert.KernelIdeal.Stage.R4

end
-- ==== Proof.Reg4Case.lean ====
/-
  Region 4, one grid point: what the body leaves in its three outputs, read on the extended reals.

  The body stores the 2000 × 128 product `prod` of the normalised, rectified block with the weights as its first
  output. Row 0 of each of the two 8 × 128 accumulator blocks is loaded, increased column by column by the sum of the
  product's 2000 rows (respectively of their squares) and stored back; at the first point of a core's run of 25 the
  whole block is first filled with zeros, so that row 0 restarts from zero.
-/
import proofs.«174784_j23922967838995_2_alg».proof.Proof.KernelIdealFrameP
import proofs.«174784_j23922967838995_2_alg».proof.Proof.Reg4Pay
import Idealize.ShloMosaic.Lib.Pipeline.Value
import Idealize.ShloMosaic.Lib.WritesUnit
import Idealize.ShloMosaic.Lib.Tactic

noncomputable section

namespace Cert.KernelIdeal.Stage.R4

open Idealize.ShloMosaic Idealize.ShloMosaic.TcCoe Idealize.SL.Sem Idealize.ShloMosaic.ValueIdx
open Cert.KernelIdeal Cert.KernelIdeal.Gen Cert.KernelIdeal.GenP Cert.Spec

theorem hz : (![0, 0] : Fin 2 → Nat) = fun _ => 0 := funext fun a => by fin_cases a <;> rfl

/-- The product a point stores: the normalised, rectified block `x0` (sums `x1`, `x2`, scale `x3`, shift `x4`) times the
    weights `x5`. -/
def prod (x0 : Vec Ideal S2000x64 .f32) (x1 : Vec Ideal S1x64 .f32) (x2 : Vec Ideal S1x64 .f32) (x3 : Vec Ideal S1x64 .f32) (x4 : Vec Ideal S1x64 .f32) (x5 : Vec Ideal S64x128 .f32) : FVec Ideal S2000x128 .f32 :=
  k4_pay1 (F := Ideal) (k4_pay6 x1 x2 x0 x3 x4) (k4_pay7 x5) (constant S2000x128 .f32 0x00000000#32)

/-- Row 0 of an 8 × 128 block through the rectangle of its first row. -/
theorem row0_idx (k : Fin 128) :
    (Rect.unit (s := S8x128) ![0, 0] ![1, 128] inb_S8x128_S1x128_0_0).idx (ix2 (0 : Fin 1) k) = ix2 (0 : Fin 8) k := by
  funext a
  refine Fin.ext ?_
  match a with
  | ⟨0, _⟩ => rfl
  | ⟨1, _⟩ => show 0 + 1 * k.val = k.val; omega

/-- The first output at a point where the accumulators restart: the product. -/
theorem out6_A (c : Dev nD) (i : grid4.Coords) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S2000x128 .f32) (harg8 : arg8.IsWhole) (arg9 : Memref sig .tc .vmem S8x128 .f32) (harg9 : arg9.IsWhole) (arg10 : Memref sig .tc .vmem S8x128 .f32) (harg10 : arg10.IsWhole) (hc0 : cond4_0 i) (x0 : Vec Ideal S2000x64 .f32) (x1 : Vec Ideal S1x64 .f32) (x2 : Vec Ideal S1x64 .f32) (x3 : Vec Ideal S1x64 .f32) (x4 : Vec Ideal S1x64 .f32) (x5 : Vec Ideal S64x128 .f32) :
    out4_A_6 (F := Ideal) c i arg2 harg2 arg3 harg3 arg4 harg4 arg5 harg5 arg6 harg6 arg7 harg7 arg8 harg8 arg9 harg9 arg10 harg10 hc0 x0 x1 x2 x3 x4 x5 = prod x0 x1 x2 x3 x4 x5 := by
  unfold out4_A_6
  rw [View.read_writes_eq_canon _ _ _ (cover4_A_6 c i arg2 harg2 arg3 harg3 arg4 harg4 arg5 harg5 arg6 harg6 arg7 harg7 arg8 harg8 arg9 harg9 arg10 harg10 hc0 x0 x1 x2 x3 x4 x5)]
  unfold kernelRun4_A
  dsimp only
  sl_unfold_words
  rw [View.canon_unit_zero hz]
  simp only [View.readAt_eq_ld, harg2.read_unread, harg3.read_unread, harg4.read_unread, harg5.read_unread, harg6.read_unread, harg7.read_unread,
    View.ld_unit_zero (S := S2000x64) hz, View.ld_unit_zero (S := S1x64) hz, View.ld_unit_zero (S := S64x128) hz]
  rfl

/-- The first output at any other point: the product. -/
theorem out6_B (c : Dev nD) (i : grid4.Coords) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S2000x128 .f32) (harg8 : arg8.IsWhole) (arg9 : Memref sig .tc .vmem S8x128 .f32) (harg9 : arg9.IsWhole) (arg10 : Memref sig .tc .vmem S8x128 .f32) (harg10 : arg10.IsWhole) (hc0 : ¬cond4_0 i) (x0 : Vec Ideal S2000x64 .f32) (x1 : Vec Ideal S1x64 .f32) (x2 : Vec Ideal S1x64 .f32) (x3 : Vec Ideal S1x64 .f32) (x4 : Vec Ideal S1x64 .f32) (x5 : Vec Ideal S64x128 .f32) (xo7 xo8 : Vec Ideal S8x128 .f32) :
    out4_B_6 (F := Ideal) c i arg2 harg2 arg3 harg3 arg4 harg4 arg5 harg5 arg6 harg6 arg7 harg7 arg8 harg8 arg9 harg9 arg10 harg10 hc0 x0 x1 x2 x3 x4 x5 xo7 xo8 = prod x0 x1 x2 x3 x4 x5 := by
  unfold out4_B_6
  rw [View.read_writes_eq_canon _ _ _ (cover4_B_6 c i arg2 harg2 arg3 harg3 arg4 harg4 arg5 harg5 arg6 harg6 arg7 harg7 arg8 harg8 arg9 harg9 arg10 harg10 hc0 x0 x1 x2 x3 x4 x5 xo7 xo8)]
  unfold kernelRun4_B
  dsimp only
  sl_unfold_words
  rw [View.canon_unit_zero hz]
  simp only [View.readAt_eq_ld, harg2.read_unread, harg3.read_unread, harg4.read_unread, harg5.read_unread, harg6.read_unread, harg7.read_unread,
    View.ld_unit_zero (S := S2000x64) hz, View.ld_unit_zero (S := S1x64) hz, View.ld_unit_zero (S := S64x128) hz]
  rfl

/-- Row 0 of the sums block where the accumulators restart: zero plus the product's column sums. -/
theorem out7_A (c : Dev nD) (i : grid4.Coords) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S2000x128 .f32) (harg8 : arg8.IsWhole) (arg9 : Memref sig .tc .vmem S8x128 .f32) (harg9 : arg9.IsWhole) (arg10 : Memref sig .tc .vmem S8x128 .f32) (harg10 : arg10.IsWhole) (hc0 : cond4_0 i) (x0 : Vec Ideal S2000x64 .f32) (x1 : Vec Ideal S1x64 .f32) (x2 : Vec Ideal S1x64 .f32) (x3 : Vec Ideal S1x64 .f32) (x4 : Vec Ideal S1x64 .f32) (x5 : Vec Ideal S64x128 .f32) (k : Fin 128) :
    out4_A_7 (F := Ideal) c i arg2 harg2 arg3 harg3 arg4 harg4 arg5 harg5 arg6 harg6 arg7 harg7 arg8 harg8 arg9 harg9 arg10 harg10 hc0 x0 x1 x2 x3 x4 x5 (ix2 (0 : Fin 8) k) = zeroF + ∑ r : Fin 2000, prod x0 x1 x2 x3 x4 x5 (ix2 r k) := by
  unfold out4_A_7 kernelRun4_A
  dsimp only
  sl_unfold_words
  simp only [View.readAt_eq_ld, harg2.read_unread, harg3.read_unread, harg4.read_unread, harg5.read_unread, harg6.read_unread, harg7.read_unread,
    View.ld_unit_zero (S := S2000x64) hz, View.ld_unit_zero (S := S1x64) hz, View.ld_unit_zero (S := S64x128) hz]
  refine (View.read_writes_cons_rows_of_mem VO4_7 VO4_7.junk inb_S8x128_S1x128_0_0 _ _ (ix2 (0 : Fin 8) k) (ix2 (0 : Fin 1) k) rfl rfl rfl).trans ?_
  refine (pay2_apply _ _ _ _ k).trans ?_
  refine congrArg (· + ∑ r : Fin 2000, prod x0 x1 x2 x3 x4 x5 (ix2 r k)) ?_
  rw [View.readCov_eq_canon']
  show View.canon _ _ = _
  rw [View.canon_unit_zero hz]
  rfl

/-- Row 0 of the sums block at any other point: what it held plus the product's column sums. -/
theorem out7_B (c : Dev nD) (i : grid4.Coords) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S2000x128 .f32) (harg8 : arg8.IsWhole) (arg9 : Memref sig .tc .vmem S8x128 .f32) (harg9 : arg9.IsWhole) (arg10 : Memref sig .tc .vmem S8x128 .f32) (harg10 : arg10.IsWhole) (hc0 : ¬cond4_0 i) (x0 : Vec Ideal S2000x64 .f32) (x1 : Vec Ideal S1x64 .f32) (x2 : Vec Ideal S1x64 .f32) (x3 : Vec Ideal S1x64 .f32) (x4 : Vec Ideal S1x64 .f32) (x5 : Vec Ideal S64x128 .f32) (xo7 xo8 : Vec Ideal S8x128 .f32) (k : Fin 128) :
    out4_B_7 (F := Ideal) c i arg2 harg2 arg3 harg3 arg4 harg4 arg5 harg5 arg6 harg6 arg7 harg7 arg8 harg8 arg9 harg9 arg10 harg10 hc0 x0 x1 x2 x3 x4 x5 xo7 xo8 (ix2 (0 : Fin 8) k)
      = xo7 (ix2 (0 : Fin 8) k) + ∑ r : Fin 2000, prod x0 x1 x2 x3 x4 x5 (ix2 r k) := by
  unfold out4_B_7 kernelRun4_B
  dsimp only
  sl_unfold_words
  simp only [View.readAt_eq_ld, harg2.read_unread, harg3.read_unread, harg4.read_unread, harg5.read_unread, harg6.read_unread, harg7.read_unread,
    View.ld_unit_zero (S := S2000x64) hz, View.ld_unit_zero (S := S1x64) hz, View.ld_unit_zero (S := S64x128) hz, harg9.read_unread]
  refine (View.read_writes_cons_rows_of_mem arg9.view (harg9.unread xo7) inb_S8x128_S1x128_0_0 _ [] (ix2 (0 : Fin 8) k) (ix2 (0 : Fin 1) k) rfl rfl rfl).trans ?_
  refine (pay2_apply _ _ _ _ k).trans ?_
  exact congrArg (fun j => xo7 j + ∑ r : Fin 2000, prod x0 x1 x2 x3 x4 x5 (ix2 r k)) (row0_idx k)

/-- Row 0 of the squares block where the accumulators restart: zero plus the column sums of the product's squares. -/
theorem out8_A (c : Dev nD) (i : grid4.Coords) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S2000x128 .f32) (harg8 : arg8.IsWhole) (arg9 : Memref sig .tc .vmem S8x128 .f32) (harg9 : arg9.IsWhole) (arg10 : Memref sig .tc .vmem S8x128 .f32) (harg10 : arg10.IsWhole) (hc0 : cond4_0 i) (x0 : Vec Ideal S2000x64 .f32) (x1 : Vec Ideal S1x64 .f32) (x2 : Vec Ideal S1x64 .f32) (x3 : Vec Ideal S1x64 .f32) (x4 : Vec Ideal S1x64 .f32) (x5 : Vec Ideal S64x128 .f32) (k : Fin 128) :
    out4_A_8 (F := Ideal) c i arg2 harg2 arg3 harg3 arg4 harg4 arg5 harg5 arg6 harg6 arg7 harg7 arg8 harg8 arg9 harg9 arg10 harg10 hc0 x0 x1 x2 x3 x4 x5 (ix2 (0 : Fin 8) k)
      = zeroF + ∑ r : Fin 2000, prod x0 x1 x2 x3 x4 x5 (ix2 r k) * prod x0 x1 x2 x3 x4 x5 (ix2 r k) := by
  unfold out4_A_8 kernelRun4_A
  dsimp only
  sl_unfold_words
  simp only [View.readAt_eq_ld, harg2.read_unread, harg3.read_unread, harg4.read_unread, harg5.read_unread, harg6.read_unread, harg7.read_unread,
    View.ld_unit_zero (S := S2000x64) hz, View.ld_unit_zero (S := S1x64) hz, View.ld_unit_zero (S := S64x128) hz]
  refine (View.read_writes_cons_rows_of_mem VO4_8 VO4_8.junk inb_S8x128_S1x128_0_0 _ _ (ix2 (0 : Fin 8) k) (ix2 (0 : Fin 1) k) rfl rfl rfl).trans ?_
  refine (pay3_apply _ _ _ _ k).trans ?_
  refine congrArg (· + ∑ r : Fin 2000, prod x0 x1 x2 x3 x4 x5 (ix2 r k) * prod x0 x1 x2 x3 x4 x5 (ix2 r k)) ?_
  rw [View.readCov_eq_canon']
  show View.canon _ _ = _
  rw [View.canon_unit_zero hz]
  rfl

/-- Row 0 of the squares block at any other point: what it held plus the column sums of the product's squares. -/
theorem out8_B (c : Dev nD) (i : grid4.Coords) (arg2 : Memref sig .tc .vmem S2000x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S2000x128 .f32) (harg8 : arg8.IsWhole) (arg9 : Memref sig .tc .vmem S8x128 .f32) (harg9 : arg9.IsWhole) (arg10 : Memref sig .tc .vmem S8x128 .f32) (harg10 : arg10.IsWhole) (hc0 : ¬cond4_0 i) (x0 : Vec Ideal S2000x64 .f32) (x1 : Vec Ideal S1x64 .f32) (x2 : Vec Ideal S1x64 .f32) (x3 : Vec Ideal S1x64 .f32) (x4 : Vec Ideal S1x64 .f32) (x5 : Vec Ideal S64x128 .f32) (xo7 xo8 : Vec Ideal S8x128 .f32) (k : Fin 128) :
    out4_B_8 (F := Ideal) c i arg2 harg2 arg3 harg3 arg4 harg4 arg5 harg5 arg6 harg6 arg7 harg7 arg8 harg8 arg9 harg9 arg10 harg10 hc0 x0 x1 x2 x3 x4 x5 xo7 xo8 (ix2 (0 : Fin 8) k)
      = xo8 (ix2 (0 : Fin 8) k) + ∑ r : Fin 2000, prod x0 x1 x2 x3 x4 x5 (ix2 r k) * prod x0 x1 x2 x3 x4 x5 (ix2 r k) := by
  unfold out4_B_8 kernelRun4_B
  dsimp only
  sl_unfold_words
  simp only [View.readAt_eq_ld, harg2.read_unread, harg3.read_unread, harg4.read_unread, harg5.read_unread, harg6.read_unread, harg7.read_unread,
    View.ld_unit_zero (S := S2000x64) hz, View.ld_unit_zero (S := S1x64) hz, View.ld_unit_zero (S := S64x128) hz, harg10.read_unread]
  refine (View.read_writes_cons_rows_of_mem arg10.view (harg10.unread xo8) inb_S8x128_S1x128_0_0 _ [] (ix2 (0 : Fin 8) k) (ix2 (0 : Fin 1) k) rfl rfl rfl).trans ?_
  refine (pay3_apply _ _ _ _ k).trans ?_
  exact congrArg (fun j => xo8 j + ∑ r : Fin 2000, prod x0 x1 x2 x3 x4 x5 (ix2 r k) * prod x0 x1 x2 x3 x4 x5 (ix2 r k)) (row0_idx k)

end Cert.KernelIdeal.Stage.R4

end
-- ==== Proof.Reg4Blk.lean ====
/-
  Region 4's blocks read off the arrays the region finds, and the product of a point as rows of one whole-array
  function.

  Point `t` of the 50 reads rows 2000·t … 2000·t + 1999 of the activations; the sums, the scale, the shift and the
  weights are read whole at every point. So the product the point stores is rows 2000·t … of the product of the whole
  normalised, rectified array with the weights.
-/
import proofs.«174784_j23922967838995_2_alg».proof.Proof.KernelIdealFrameP
import proofs.«174784_j23922967838995_2_alg».proof.Proof.Reg4Case

noncomputable section

namespace Cert.KernelIdeal.Stage.R4

open Idealize.ShloMosaic Idealize.ShloMosaic.TcCoe Idealize.SL.Sem Idealize.ShloMosaic.ValueIdx
open Cert.KernelIdeal Cert.KernelIdeal.Gen Cert.KernelIdeal.GenP Cert.Spec

variable (V : (c : Dev nD) → (b : Ref sig .tc) → Buf (Elt Ideal) ((c : Thread nD τ).loc b)) (c : Dev nD)

/-- The block indices of the windows at each point, decided over the grid: the activations and the product move with the
    point, the accumulators with the core (25 points each), everything else stays. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = t.val / 25 ∧ win4_7.index t (1 : Fin 2) = 0
    ∧ win4_8.index t (0 : Fin 2) = t.val / 25 ∧ win4_8.index t (1 : Fin 2) = 0 :=
  (by decide +kernel : ∀ t : Fin grid4.N, _)

/-- The activations' block at point `t` is rows 2000·t … of the array. -/
theorem blk0_apply (t : Fin cfg4.N) (r : Fin 2000) (k : Fin 64) (hr : 2000 * t.val + r.val < 100000) :
    (iblk4 V c 0 t : Vec Ideal S2000x64 .f32) (ix2 r k)
      = rd2 (V c (Pipeline.arrRef spec4 0) : S100000x64.Idx → EReal) ⟨2000 * t.val + r.val, hr⟩ k := by
  unfold iblk4
  rw [View.read_apply]
  show V c (Pipeline.arrRef spec4 0) _ = V c (Pipeline.arrRef spec4 0) _
  refine congrArg (V c (Pipeline.arrRef spec4 0)) ?_
  funext a
  apply Fin.ext
  match a with
  | ⟨0, _⟩ => show win4_0.index t 0 * 2000 + 1 * r.val = 2000 * t.val + r.val; rw [(idx_facts t).1]; omega
  | ⟨1, _⟩ => show win4_0.index t 1 * 64 + 1 * k.val = k.val; rw [(idx_facts t).2.1]; omega

/-- Window 1 is read whole at every point (one row of 64). -/
theorem blk1_apply (t : Fin cfg4.N) (k : Fin 64) :
    (iblk4 V c 1 t : Vec Ideal S1x64 .f32) (ix2 (0 : Fin 1) k)
      = rd2 (V c (Pipeline.arrRef spec4 1) : S1x64.Idx → EReal) 0 k := by
  obtain ⟨e00, e01, e10, e11, e20, e21, e30, e31, e40, e41, e50, e51, e60, e61, e70, e71, e80, e81⟩ := idx_facts t
  unfold iblk4
  rw [View.read_apply]
  show V c (Pipeline.arrRef spec4 1) _ = V c (Pipeline.arrRef spec4 1) _
  refine congrArg (V c (Pipeline.arrRef spec4 1)) ?_
  funext a
  apply Fin.ext
  match a with
  | ⟨0, _⟩ => show win4_1.index t 0 * 1 + 1 * (0 : Fin 1).val = (0 : Fin 1).val; rw [e10]; omega
  | ⟨1, _⟩ => show win4_1.index t 1 * 64 + 1 * k.val = k.val; rw [e11]; omega

/-- Window 2 is read whole at every point (one row of 64). -/
theorem blk2_apply (t : Fin cfg4.N) (k : Fin 64) :
    (iblk4 V c 2 t : Vec Ideal S1x64 .f32) (ix2 (0 : Fin 1) k)
      = rd2 (V c (Pipeline.arrRef spec4 2) : S1x64.Idx → EReal) 0 k := by
  obtain ⟨e00, e01, e10, e11, e20, e21, e30, e31, e40, e41, e50, e51, e60, e61, e70, e71, e80, e81⟩ := idx_facts t
  unfold iblk4
  rw [View.read_apply]
  show V c (Pipeline.arrRef spec4 2) _ = V c (Pipeline.arrRef spec4 2) _
  refine congrArg (V c (Pipeline.arrRef spec4 2)) ?_
  funext a
  apply Fin.ext
  match a with
  | ⟨0, _⟩ => show win4_2.index t 0 * 1 + 1 * (0 : Fin 1).val = (0 : Fin 1).val; rw [e20]; omega
  | ⟨1, _⟩ => show win4_2.index t 1 * 64 + 1 * k.val = k.val; rw [e21]; omega

/-- Window 3 is read whole at every point (one row of 64). -/
theorem blk3_apply (t : Fin cfg4.N) (k : Fin 64) :
    (iblk4 V c 3 t : Vec Ideal S1x64 .f32) (ix2 (0 : Fin 1) k)
      = rd2 (V c (Pipeline.arrRef spec4 3) : S1x64.Idx → EReal) 0 k := by
  obtain ⟨e00, e01, e10, e11, e20, e21, e30, e31, e40, e41, e50, e51, e60, e61, e70, e71, e80, e81⟩ := idx_facts t
  unfold iblk4
  rw [View.read_apply]
  show V c (Pipeline.arrRef spec4 3) _ = V c (Pipeline.arrRef spec4 3) _
  refine congrArg (V c (Pipeline.arrRef spec4 3)) ?_
  funext a
  apply Fin.ext
  match a with
  | ⟨0, _⟩ => show win4_3.index t 0 * 1 + 1 * (0 : Fin 1).val = (0 : Fin 1).val; rw [e30]; omega
  | ⟨1, _⟩ => show win4_3.index t 1 * 64 + 1 * k.val = k.val; rw [e31]; omega

/-- Window 4 is read whole at every point (one row of 64). -/
theorem blk4_apply (t : Fin cfg4.N) (k : Fin 64) :
    (iblk4 V c 4 t : Vec Ideal S1x64 .f32) (ix2 (0 : Fin 1) k)
      = rd2 (V c (Pipeline.arrRef spec4 4) : S1x64.Idx → EReal) 0 k := by
  obtain ⟨e00, e01, e10, e11, e20, e21, e30, e31, e40, e41, e50, e51, e60, e61, e70, e71, e80, e81⟩ := idx_facts t
  unfold iblk4
  rw [View.read_apply]
  show V c (Pipeline.arrRef spec4 4) _ = V c (Pipeline.arrRef spec4 4) _
  refine congrArg (V c (Pipeline.arrRef spec4 4)) ?_
  funext a
  apply Fin.ext
  match a with
  | ⟨0, _⟩ => show win4_4.index t 0 * 1 + 1 * (0 : Fin 1).val = (0 : Fin 1).val; rw [e40]; omega
  | ⟨1, _⟩ => show win4_4.index t 1 * 64 + 1 * k.val = k.val; rw [e41]; omega

/-- The weights are read whole at every point. -/
theorem blk5_apply (t : Fin cfg4.N) (k : Fin 64) (j : Fin 128) :
    (iblk4 V c 5 t : Vec Ideal S64x128 .f32) (ix2 k j)
      = rd2 (V c (Pipeline.arrRef spec4 5) : S64x128.Idx → EReal) k j := by
  obtain ⟨e00, e01, e10, e11, e20, e21, e30, e31, e40, e41, e50, e51, e60, e61, e70, e71, e80, e81⟩ := idx_facts t
  unfold iblk4
  rw [View.read_apply]
  show V c (Pipeline.arrRef spec4 5) _ = V c (Pipeline.arrRef spec4 5) _
  refine congrArg (V c (Pipeline.arrRef spec4 5)) ?_
  funext a
  apply Fin.ext
  match a with
  | ⟨0, _⟩ => show win4_5.index t 0 * 64 + 1 * k.val = k.val; rw [e50]; omega
  | ⟨1, _⟩ => show win4_5.index t 1 * 128 + 1 * j.val = j.val; rw [e51]; omega

/-- The whole array of activations normalised with the sums the region finds, rectified, times the weights. -/
def whole : Rows → Fin 128 → EReal :=
  mm (fun r k => relu (bnK (rd2 (V c (Pipeline.arrRef spec4 0) : S100000x64.Idx → EReal))
      (rd2 (V c (Pipeline.arrRef spec4 1) : S1x64.Idx → EReal) 0) (rd2 (V c (Pipeline.arrRef spec4 2) : S1x64.Idx → EReal) 0)
      (rd2 (V c (Pipeline.arrRef spec4 3) : S1x64.Idx → EReal) 0) (rd2 (V c (Pipeline.arrRef spec4 4) : S1x64.Idx → EReal) 0) r k))
    (rd2 (V c (Pipeline.arrRef spec4 5) : S64x128.Idx → EReal))

/-- The product point `t` stores. -/
def prodAt (t : Fin cfg4.N) : FVec Ideal S2000x128 .f32 :=
  prod (iblk4 V c 0 t) (iblk4 V c 1 t) (iblk4 V c 2 t) (iblk4 V c 3 t) (iblk4 V c 4 t) (iblk4 V c 5 t)

/-- It is rows 2000·t … 2000·t + 1999 of the whole product. -/
theorem prodAt_apply (t : Fin cfg4.N) (r : Fin 2000) (j : Fin 128) (hr : 2000 * t.val + r.val < 100000) :
    prodAt V c t (ix2 r j) = whole V c ⟨2000 * t.val + r.val, hr⟩ j := by
  unfold prodAt prod whole mm
  refine (pay1_apply _ _ r j).trans ?_
  refine Finset.sum_congr rfl fun k _ => ?_
  have e6 := pay6_apply (iblk4 V c 1 t) (iblk4 V c 2 t) (iblk4 V c 0 t) (iblk4 V c 3 t) (iblk4 V c 4 t) r k
  rw [blk0_apply V c t r k hr, blk1_apply V c t k, blk2_apply V c t k, blk3_apply V c t k, blk4_apply V c t k] at e6
  exact congrArg₂ (· * ·) e6 (blk5_apply V c t k j)

end Cert.KernelIdeal.Stage.R4

end
-- ==== Proof.Reg4Acc.lean ====
/-
  Region 4's accumulators over the grid.

  Row 0 of the sums block after point `t` is, within a core's run of 25 points, zero plus the column sums of the
  products of the run's points up to `t`: the first point of a run restarts it from zero, every later point adds its
  own column sums to what the point before left. The same holds for the squares. So after the last point of core `q`
  the row holds zero plus the sum over the core's 25 points.
-/
import proofs.«174784_j23922967838995_2_alg».proof.Proof.KernelIdealFrameP
import proofs.«174784_j23922967838995_2_alg».proof.Proof.Reg4Blk
import Idealize.ShloMosaic.Lib.Pipeline.Value

noncomputable section

namespace Cert.KernelIdeal.Stage.R4

open Idealize.ShloMosaic Idealize.ShloMosaic.TcCoe Idealize.SL.Sem Idealize.ShloMosaic.ValueIdx
open Cert.KernelIdeal Cert.KernelIdeal.Gen Cert.KernelIdeal.GenP Cert.Spec

variable (V : (c : Dev nD) → (b : Ref sig .tc) → Buf (Elt Ideal) ((c : Thread nD τ).loc b)) (c : Dev nD)

/-- The column sums of the product point `t` stores. -/
def cs (t : Fin cfg4.N) (k : Fin 128) : EReal := ∑ r : Fin 2000, prodAt V c t (ix2 r k)
/-- The column sums of its squares. -/
def cq (t : Fin cfg4.N) (k : Fin 128) : EReal := ∑ r : Fin 2000, prodAt V c t (ix2 r k) * prodAt V c t (ix2 r k)

/-- Row 0 of the sums block after a point that restarts the run. -/
theorem row7_A (t : Fin cfg4.N) (h0 : t.val % 25 = 0) (k : Fin 128) :
    (outsAt4 V c t.val t.isLt).2.1 (ix2 (0 : Fin 8) k) = zeroF + cs V c t k := by
  rw [outsAt4_A V c t h0]
  dsimp only
  exact out7_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t) k

/-- Row 0 of the sums block after any other point. -/
theorem row7_B (t : Fin cfg4.N) (h0 : ¬t.val % 25 = 0) (k : Fin 128) :
    (outsAt4 V c t.val t.isLt).2.1 (ix2 (0 : Fin 8) k)
      = (outsAt4 V c (t.val - 1) (Nat.lt_of_le_of_lt (Nat.sub_le _ _) t.isLt)).2.1 (ix2 (0 : Fin 8) k) + cs V c t k := by
  rw [outsAt4_B V c t h0]
  dsimp only
  exact out7_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2 k

/-- Row 0 of the squares block after a point that restarts the run. -/
theorem row8_A (t : Fin cfg4.N) (h0 : t.val % 25 = 0) (k : Fin 128) :
    (outsAt4 V c t.val t.isLt).2.2 (ix2 (0 : Fin 8) k) = zeroF + cq V c t k := by
  rw [outsAt4_A V c t h0]
  dsimp only
  exact out8_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t) k

/-- Row 0 of the squares block after any other point. -/
theorem row8_B (t : Fin cfg4.N) (h0 : ¬t.val % 25 = 0) (k : Fin 128) :
    (outsAt4 V c t.val t.isLt).2.2 (ix2 (0 : Fin 8) k)
      = (outsAt4 V c (t.val - 1) (Nat.lt_of_le_of_lt (Nat.sub_le _ _) t.isLt)).2.2 (ix2 (0 : Fin 8) k) + cq V c t k := by
  rw [outsAt4_B V c t h0]
  dsimp only
  exact out8_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2 k

/-- The first output's block after any point: the point's product. -/
theorem out6_at (t : Fin cfg4.N) : (outsAt4 V c t.val t.isLt).1 = prodAt V c t := by
  by_cases h0 : t.val % 25 = 0
  · rw [outsAt4_A V c t h0]
    dsimp only
    exact out6_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) ((hcond4_0 t).mpr h0) (iblk4 V c 0 t) (iblk4 V c 1 t) (iblk4 V c 2 t) (iblk4 V c 3 t) (iblk4 V c 4 t) (iblk4 V c 5 t)
  · rw [outsAt4_B V c t h0]
    dsimp only
    exact out6_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.1 (outsAt4 V c (t.val - 1) (Nat.lt_of_le_of_lt (Nat.sub_le _ _) t.isLt)).2.2

/-- A point's column sums as a function of every natural number: zero past the grid. -/
def csN (n : ℕ) (k : Fin 128) : EReal := if h : n < cfg4.N then cs V c ⟨n, h⟩ k else 0
/-- The same for the squares. -/
def cqN (n : ℕ) (k : Fin 128) : EReal := if h : n < cfg4.N then cq V c ⟨n, h⟩ k else 0

/-- After the last point of core `q`'s run, row 0 of the sums block is zero plus the sum of the run's 25 column sums. -/
theorem row7_run (q : ℕ) (hq : 25 * q + 24 < cfg4.N) (k : Fin 128) :
    (outsAt4 V c (25 * q + 24) hq).2.1 (ix2 (0 : Fin 8) k) = zeroF + ∑ s ∈ Finset.range 25, csN V c (25 * q + s) k := by
  have h1 := Pipeline.eq_accAt (N := cfg4.N) (α := Fin 128 → EReal)
    (fun n h k => (outsAt4 V c n h).2.1 (ix2 (0 : Fin 8) k)) 25
    (fun n h k => zeroF + cs V c ⟨n, h⟩ k)
    (fun n h acc k => acc k + cs V c ⟨n, h⟩ k)
    (fun n h e => funext fun k => row7_A V c ⟨n, h⟩ e k)
    (fun n h e => funext fun k => row7_B V c ⟨n + 1, h⟩ e k)
    q 24 (by omega) hq
  have h2 := Pipeline.accAt_add_apply (N := cfg4.N) (ι := Fin 128) (β := EReal)
    (fun n h k => zeroF + cs V c ⟨n, h⟩ k)
    (fun n h acc k => acc k + cs V c ⟨n, h⟩ k)
    (fun _ => zeroF) (csN V c) (25 * q) 24
    (fun h i => by simp only [csN, dif_pos h])
    (fun n h acc i _ _ => by simp only [csN, dif_pos h])
    24 le_rfl hq k
  exact (congrFun h1 k).trans h2

/-- The same for the squares block. -/
theorem row8_run (q : ℕ) (hq : 25 * q + 24 < cfg4.N) (k : Fin 128) :
    (outsAt4 V c (25 * q + 24) hq).2.2 (ix2 (0 : Fin 8) k) = zeroF + ∑ s ∈ Finset.range 25, cqN V c (25 * q + s) k := by
  have h1 := Pipeline.eq_accAt (N := cfg4.N) (α := Fin 128 → EReal)
    (fun n h k => (outsAt4 V c n h).2.2 (ix2 (0 : Fin 8) k)) 25
    (fun n h k => zeroF + cq V c ⟨n, h⟩ k)
    (fun n h acc k => acc k + cq V c ⟨n, h⟩ k)
    (fun n h e => funext fun k => row8_A V c ⟨n, h⟩ e k)
    (fun n h e => funext fun k => row8_B V c ⟨n + 1, h⟩ e k)
    q 24 (by omega) hq
  have h2 := Pipeline.accAt_add_apply (N := cfg4.N) (ι := Fin 128) (β := EReal)
    (fun n h k => zeroF + cq V c ⟨n, h⟩ k)
    (fun n h acc k => acc k + cq V c ⟨n, h⟩ k)
    (fun _ => zeroF) (cqN V c) (25 * q) 24
    (fun h i => by simp only [cqN, dif_pos h])
    (fun n h acc i _ _ => by simp only [cqN, dif_pos h])
    24 le_rfl hq k
  exact (congrFun h1 k).trans h2

end Cert.KernelIdeal.Stage.R4

end
-- ==== Proof.Reg4.lean ====
/-
  Region 4 of the idealised kernel, as arrays: the product of the normalised, rectified activations with the weights,
  and its column sums and sums of squares.

  Each of the 50 points writes its 2000 rows of the product back, so the first output is the product of the whole
  array. Each core's last point (24, 49) writes its accumulator block back: row 0 of the block holds zero plus the
  core's 25 column sums, and the host's combination of the two cores' rows is then the column sum over all 100000 rows
  (the sums re-associated; only that addition on the extended reals is associative and commutative is used).
-/
import proofs.«174784_j23922967838995_2_alg».proof.Proof.KernelIdealFrameP
import proofs.«174784_j23922967838995_2_alg».proof.Proof.Reg4Acc
import proofs.«174784_j23922967838995_2_alg».proof.Proof.Comb
import proofs.«174784_j23922967838995_2_alg».proof.Proof.TileSums
import Idealize.ShloMosaic.Lib.Pipeline.Value

noncomputable section

namespace Cert.KernelIdeal.Stage

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.Spec

variable (V : (c : Dev nD) → (b : Ref sig .tc) → Buf (Elt Ideal) ((c : Thread nD τ).loc b)) (c : Dev nD)

namespace R4

theorem last_lt (q : ℕ) (hq : q < 2) : 25 * q + 24 < cfg4.N := by
  rw [show cfg4.N = 50 from N_4]; omega

/-- The outputs' contents after a point depend on the point's number alone. -/
theorem outs_same (u v : ℕ) (hu : u < cfg4.N) (hv : v < cfg4.N) (e : u = v) : outsAt4 V c u hu = outsAt4 V c v hv := by
  subst e; rfl

/-- The contents of the first output's array after the run: the whole product. -/
def arr6 : S100000x128.Idx → EReal := fun i => whole V c (i 0) (i 1)

/-- What point `t` writes back is its block of the whole product. -/
theorem flushed6 (t : Fin cfg4.N) (hf : (cfg4.win 6).flush t = true) :
    (dat4 V c).flushed 6 t = ((cfg4.win 6).blk t).view.read (Elt Ideal) (arr6 V c) := by
  have hN : cfg4.N = 50 := N_4
  have hlt : t.val < cfg4.N := t.isLt
  obtain ⟨e00, e01, e10, e11, e20, e21, e30, e31, e40, e41, e50, e51, e60, e61, e70, e71, e80, e81⟩ := idx_facts t
  show (cfg4.win 6).cut (grid4.coords t) ((dat4 V c).after 6 t) = _
  rw [after4_6, out6_at]
  funext y
  rw [View.read_apply]
  show prodAt V c t y = arr6 V c (((cfg4.win 6).blk t).view.emb y)
  have hy0 : (y 0).val < 2000 := (y 0).isLt
  have hr : 2000 * t.val + (y 0).val < 100000 := by omega
  refine (congrArg (prodAt V c t) (@eq_ix2 2000 128 y)).trans ?_
  refine (prodAt_apply V c t (y 0) (y 1) hr).trans ?_
  unfold arr6
  refine congrArg₂ (whole V c) (Fin.ext ?_) (Fin.ext ?_)
  · show 2000 * t.val + (y 0).val = win4_6.index t 0 * 2000 + 1 * (y 0).val
    rw [e60]; omega
  · show (y 1).val = win4_6.index t 1 * 128 + 1 * (y 1).val
    rw [e61]; omega

/-- The 50 points' blocks cover the first output's array: row `r` is in point `r / 2000`'s. -/
theorem cover6 (i : S100000x128.Idx) :
    ∃ t : Fin cfg4.N, (cfg4.win 6).flush t = true ∧ i ∈ ((cfg4.win 6).blk t).view.set := by
  have hN : cfg4.N = 50 := N_4
  have hi0 : (i 0).val < 100000 := idx2_lt0 i
  have hi1 : (i 1).val < 128 := idx2_lt1 i
  obtain ⟨t, ht⟩ : ∃ t : Fin cfg4.N, t.val = (i 0).val / 2000 := ⟨⟨(i 0).val / 2000, by rw [hN]; omega⟩, rfl⟩
  obtain ⟨e00, e01, e10, e11, e20, e21, e30, e31, e40, e41, e50, e51, e60, e61, e70, e71, e80, e81⟩ := idx_facts t
  refine ⟨t, flush4_6 t, ?_⟩
  show i ∈ ((View.whole main_v47_0).slice (win4_6.rect t)).set
  rw [View.set_slice_whole, Rect.mem_set_unit]
  intro a
  match a with
  | ⟨0, _⟩ =>
    show win4_6.index t 0 * 2000 ≤ (i 0).val ∧ (i 0).val < win4_6.index t 0 * 2000 + 2000
    rw [e60]; omega
  | ⟨1, _⟩ =>
    show win4_6.index t 1 * 128 ≤ (i 1).val ∧ (i 1).val < win4_6.index t 1 * 128 + 128
    rw [e61]; omega

/-- So the first output's array ends holding the whole product. -/
theorem final6 : (dat4 V c).arrAt 6 cfg4.N = arr6 V c :=
  (dat4 V c).arrAt_eq_of_cover 6 (arr6 V c) (flushed6 V c) (fun i => cover6 i)

/-- What core `q`'s block of the sums holds after the core's last point. -/
def lastBlk7 (q : ℕ) (hq : q < 2) : Vec Ideal S8x128 .f32 := (outsAt4 V c (25 * q + 24) (last_lt q hq)).2.1

/-- It is what the outputs hold after that point, however the point is written. -/
theorem lastBlk7_eq (t : Fin cfg4.N) (q : ℕ) (hq : q < 2) (ht : t.val = 25 * q + 24) :
    (outsAt4 V c t.val t.isLt).2.1 = lastBlk7 V c q hq := by
  unfold lastBlk7
  rw [outs_same V c t.val (25 * q + 24) t.isLt (last_lt q hq) ht]

/-- Its row 0: zero plus the core's 25 column sums. -/
theorem lastBlk7_row0 (q : ℕ) (hq : q < 2) (k : Fin 128) :
    lastBlk7 V c q hq (ix2 (0 : Fin 8) k) = zeroF + ∑ s ∈ Finset.range 25, csN V c (25 * q + s) k :=
  row7_run V c q (last_lt q hq) k

attribute [irreducible] lastBlk7

/-- The contents of the sums array after the run: rows 0–7 are core 0's last block, rows 8–15 core 1's. -/
def arr7 : S16x128.Idx → EReal := fun i =>
  if h : (i 0).val < 8 then lastBlk7 V c 0 Nat.zero_lt_two (ix2 (⟨(i 0).val, h⟩ : Fin 8) (i 1))
  else lastBlk7 V c 1 Nat.one_lt_two (ix2 (⟨(i 0).val - 8, by have := idx2_lt0 i; omega⟩ : Fin 8) (i 1))

/-- An entry of rows 0–7, by coordinates. -/
theorem arr7_lo (i : S16x128.Idx) (h : (i 0).val < 8) (j : S8x128.Idx) (h0 : (j 0).val = (i 0).val)
    (h1 : (j 1).val = (i 1).val) : arr7 V c i = lastBlk7 V c 0 Nat.zero_lt_two j := by
  unfold arr7
  rw [dif_pos h]
  refine congrArg (lastBlk7 V c 0 Nat.zero_lt_two) ?_
  funext a
  refine Fin.ext ?_
  match a with
  | ⟨0, _⟩ => exact h0.symm
  | ⟨1, _⟩ => exact h1.symm

/-- An entry of rows 8–15, by coordinates. -/
theorem arr7_hi (i : S16x128.Idx) (h : ¬(i 0).val < 8) (j : S8x128.Idx) (h0 : (j 0).val = (i 0).val - 8)
    (h1 : (j 1).val = (i 1).val) : arr7 V c i = lastBlk7 V c 1 Nat.one_lt_two j := by
  unfold arr7
  rw [dif_neg h]
  refine congrArg (lastBlk7 V c 1 Nat.one_lt_two) ?_
  funext a
  refine Fin.ext ?_
  match a with
  | ⟨0, _⟩ => exact h0.symm
  | ⟨1, _⟩ => exact h1.symm

/-- What a core's last point writes back is its block of that. -/
theorem flushed7 (t : Fin cfg4.N) (hf : (cfg4.win 7).flush t = true) :
    (dat4 V c).flushed 7 t = ((cfg4.win 7).blk t).view.read (Elt Ideal) (arr7 V c) := by
  have hN : cfg4.N = 50 := N_4
  have h24 : t.val % 25 = 24 := (flush4_7 t).mp hf
  have hlt : t.val < cfg4.N := t.isLt
  obtain ⟨e00, e01, e10, e11, e20, e21, e30, e31, e40, e41, e50, e51, e60, e61, e70, e71, e80, e81⟩ := idx_facts t
  show (cfg4.win 7).cut (grid4.coords t) ((dat4 V c).after 7 t) = _
  rw [after4_7]
  funext y
  rw [View.read_apply]
  show (outsAt4 V c t.val t.isLt).2.1 y = arr7 V c (((cfg4.win 7).blk t).view.emb y)
  have hy0 : (y 0).val < 8 := (y 0).isLt
  have e0 : ((((cfg4.win 7).blk t).view.emb y) 0).val = t.val / 25 * 8 + (y 0).val := by
    show win4_7.index t 0 * 8 + 1 * (y 0).val = _
    rw [e70]; omega
  have e1 : ((((cfg4.win 7).blk t).view.emb y) 1).val = (y 1).val := by
    show win4_7.index t 1 * 128 + 1 * (y 1).val = _
    rw [e71]; omega
  have ht : t.val = 24 ∨ t.val = 49 := by omega
  rcases ht with ht | ht
  · rw [lastBlk7_eq V c t 0 Nat.zero_lt_two (by omega)]
    exact (arr7_lo V c _ (by rw [e0]; omega) y (by rw [e0]; omega) e1.symm).symm
  · rw [lastBlk7_eq V c t 1 Nat.one_lt_two (by omega)]
    exact (arr7_hi V c _ (by rw [e0]; omega) y (by rw [e0]; omega) e1.symm).symm

/-- The two cores' last points cover the sums array. -/
theorem cover7 (i : S16x128.Idx) :
    ∃ t : Fin cfg4.N, (cfg4.win 7).flush t = true ∧ i ∈ ((cfg4.win 7).blk t).view.set := by
  have hN : cfg4.N = 50 := N_4
  have hi0 : (i 0).val < 16 := idx2_lt0 i
  have hi1 : (i 1).val < 128 := idx2_lt1 i
  obtain ⟨t, ht⟩ : ∃ t : Fin cfg4.N, t.val = 25 * ((i 0).val / 8) + 24 :=
    ⟨⟨25 * ((i 0).val / 8) + 24, by rw [hN]; omega⟩, rfl⟩
  obtain ⟨e00, e01, e10, e11, e20, e21, e30, e31, e40, e41, e50, e51, e60, e61, e70, e71, e80, e81⟩ := idx_facts t
  refine ⟨t, (flush4_7 t).mpr (by omega), ?_⟩
  show i ∈ ((View.whole main_v47_1).slice (win4_7.rect t)).set
  rw [View.set_slice_whole, Rect.mem_set_unit]
  intro a
  match a with
  | ⟨0, _⟩ =>
    show win4_7.index t 0 * 8 ≤ (i 0).val ∧ (i 0).val < win4_7.index t 0 * 8 + 8
    rw [e70]; omega
  | ⟨1, _⟩ =>
    show win4_7.index t 1 * 128 ≤ (i 1).val ∧ (i 1).val < win4_7.index t 1 * 128 + 128
    rw [e71]; omega

/-- So the sums array ends holding it. -/
theorem final7 : (dat4 V c).arrAt 7 cfg4.N = arr7 V c :=
  (dat4 V c).arrAt_eq_of_cover 7 (arr7 V c) (flushed7 V c) (fun i => cover7 i)

/-- Row 0 of the sums array: zero plus core 0's 25 column sums. -/
theorem raw7_0 (k : Fin 128) :
    rd2 ((dat4 V c).arrAt 7 cfg4.N : S16x128.Idx → EReal) 0 k = zeroF + ∑ s ∈ Finset.range 25, csN V c (25 * 0 + s) k := by
  rw [final7]
  show arr7 V c (ix2 (0 : Fin 16) k) = _
  rw [arr7_lo V c (ix2 (0 : Fin 16) k) (Nat.zero_lt_succ 7) (ix2 (0 : Fin 8) k) rfl rfl]
  exact lastBlk7_row0 V c 0 Nat.zero_lt_two k

/-- Row 8 of the sums array: zero plus core 1's. -/
theorem raw7_8 (k : Fin 128) :
    rd2 ((dat4 V c).arrAt 7 cfg4.N : S16x128.Idx → EReal) 8 k = zeroF + ∑ s ∈ Finset.range 25, csN V c (25 * 1 + s) k := by
  rw [final7]
  show arr7 V c (ix2 (8 : Fin 16) k) = _
  rw [arr7_hi V c (ix2 (8 : Fin 16) k) (Nat.lt_irrefl 8) (ix2 (0 : Fin 8) k) rfl rfl]
  exact lastBlk7_row0 V c 1 Nat.one_lt_two k

/-- What core `q`'s block of the squares holds after the core's last point. -/
def lastBlk8 (q : ℕ) (hq : q < 2) : Vec Ideal S8x128 .f32 := (outsAt4 V c (25 * q + 24) (last_lt q hq)).2.2

/-- It is what the outputs hold after that point, however the point is written. -/
theorem lastBlk8_eq (t : Fin cfg4.N) (q : ℕ) (hq : q < 2) (ht : t.val = 25 * q + 24) :
    (outsAt4 V c t.val t.isLt).2.2 = lastBlk8 V c q hq := by
  unfold lastBlk8
  rw [outs_same V c t.val (25 * q + 24) t.isLt (last_lt q hq) ht]

/-- Its row 0: zero plus the core's 25 column sums of squares. -/
theorem lastBlk8_row0 (q : ℕ) (hq : q < 2) (k : Fin 128) :
    lastBlk8 V c q hq (ix2 (0 : Fin 8) k) = zeroF + ∑ s ∈ Finset.range 25, cqN V c (25 * q + s) k :=
  row8_run V c q (last_lt q hq) k

attribute [irreducible] lastBlk8

/-- The contents of the squares array after the run: rows 0–7 are core 0's last block, rows 8–15 core 1's. -/
def arr8 : S16x128.Idx → EReal := fun i =>
  if h : (i 0).val < 8 then lastBlk8 V c 0 Nat.zero_lt_two (ix2 (⟨(i 0).val, h⟩ : Fin 8) (i 1))
  else lastBlk8 V c 1 Nat.one_lt_two (ix2 (⟨(i 0).val - 8, by have := idx2_lt0 i; omega⟩ : Fin 8) (i 1))

/-- An entry of rows 0–7, by coordinates. -/
theorem arr8_lo (i : S16x128.Idx) (h : (i 0).val < 8) (j : S8x128.Idx) (h0 : (j 0).val = (i 0).val)
    (h1 : (j 1).val = (i 1).val) : arr8 V c i = lastBlk8 V c 0 Nat.zero_lt_two j := by
  unfold arr8
  rw [dif_pos h]
  refine congrArg (lastBlk8 V c 0 Nat.zero_lt_two) ?_
  funext a
  refine Fin.ext ?_
  match a with
  | ⟨0, _⟩ => exact h0.symm
  | ⟨1, _⟩ => exact h1.symm

/-- An entry of rows 8–15, by coordinates. -/
theorem arr8_hi (i : S16x128.Idx) (h : ¬(i 0).val < 8) (j : S8x128.Idx) (h0 : (j 0).val = (i 0).val - 8)
    (h1 : (j 1).val = (i 1).val) : arr8 V c i = lastBlk8 V c 1 Nat.one_lt_two j := by
  unfold arr8
  rw [dif_neg h]
  refine congrArg (lastBlk8 V c 1 Nat.one_lt_two) ?_
  funext a
  refine Fin.ext ?_
  match a with
  | ⟨0, _⟩ => exact h0.symm
  | ⟨1, _⟩ => exact h1.symm

/-- What a core's last point writes back is its block of that. -/
theorem flushed8 (t : Fin cfg4.N) (hf : (cfg4.win 8).flush t = true) :
    (dat4 V c).flushed 8 t = ((cfg4.win 8).blk t).view.read (Elt Ideal) (arr8 V c) := by
  have hN : cfg4.N = 50 := N_4
  have h24 : t.val % 25 = 24 := (flush4_8 t).mp hf
  have hlt : t.val < cfg4.N := t.isLt
  obtain ⟨e00, e01, e10, e11, e20, e21, e30, e31, e40, e41, e50, e51, e60, e61, e70, e71, e80, e81⟩ := idx_facts t
  show (cfg4.win 8).cut (grid4.coords t) ((dat4 V c).after 8 t) = _
  rw [after4_8]
  funext y
  rw [View.read_apply]
  show (outsAt4 V c t.val t.isLt).2.2 y = arr8 V c (((cfg4.win 8).blk t).view.emb y)
  have hy0 : (y 0).val < 8 := (y 0).isLt
  have e0 : ((((cfg4.win 8).blk t).view.emb y) 0).val = t.val / 25 * 8 + (y 0).val := by
    show win4_8.index t 0 * 8 + 1 * (y 0).val = _
    rw [e80]; omega
  have e1 : ((((cfg4.win 8).blk t).view.emb y) 1).val = (y 1).val := by
    show win4_8.index t 1 * 128 + 1 * (y 1).val = _
    rw [e81]; omega
  have ht : t.val = 24 ∨ t.val = 49 := by omega
  rcases ht with ht | ht
  · rw [lastBlk8_eq V c t 0 Nat.zero_lt_two (by omega)]
    exact (arr8_lo V c _ (by rw [e0]; omega) y (by rw [e0]; omega) e1.symm).symm
  · rw [lastBlk8_eq V c t 1 Nat.one_lt_two (by omega)]
    exact (arr8_hi V c _ (by rw [e0]; omega) y (by rw [e0]; omega) e1.symm).symm

/-- The two cores' last points cover the squares array. -/
theorem cover8 (i : S16x128.Idx) :
    ∃ t : Fin cfg4.N, (cfg4.win 8).flush t = true ∧ i ∈ ((cfg4.win 8).blk t).view.set := by
  have hN : cfg4.N = 50 := N_4
  have hi0 : (i 0).val < 16 := idx2_lt0 i
  have hi1 : (i 1).val < 128 := idx2_lt1 i
  obtain ⟨t, ht⟩ : ∃ t : Fin cfg4.N, t.val = 25 * ((i 0).val / 8) + 24 :=
    ⟨⟨25 * ((i 0).val / 8) + 24, by rw [hN]; omega⟩, rfl⟩
  obtain ⟨e00, e01, e10, e11, e20, e21, e30, e31, e40, e41, e50, e51, e60, e61, e70, e71, e80, e81⟩ := idx_facts t
  refine ⟨t, (flush4_8 t).mpr (by omega), ?_⟩
  show i ∈ ((View.whole main_v47_2).slice (win4_8.rect t)).set
  rw [View.set_slice_whole, Rect.mem_set_unit]
  intro a
  match a with
  | ⟨0, _⟩ =>
    show win4_8.index t 0 * 8 ≤ (i 0).val ∧ (i 0).val < win4_8.index t 0 * 8 + 8
    rw [e80]; omega
  | ⟨1, _⟩ =>
    show win4_8.index t 1 * 128 ≤ (i 1).val ∧ (i 1).val < win4_8.index t 1 * 128 + 128
    rw [e81]; omega

/-- So the squares array ends holding it. -/
theorem final8 : (dat4 V c).arrAt 8 cfg4.N = arr8 V c :=
  (dat4 V c).arrAt_eq_of_cover 8 (arr8 V c) (flushed8 V c) (fun i => cover8 i)

/-- Row 0 of the squares array: zero plus core 0's 25 column sums of squares. -/
theorem raw8_0 (k : Fin 128) :
    rd2 ((dat4 V c).arrAt 8 cfg4.N : S16x128.Idx → EReal) 0 k = zeroF + ∑ s ∈ Finset.range 25, cqN V c (25 * 0 + s) k := by
  rw [final8]
  show arr8 V c (ix2 (0 : Fin 16) k) = _
  rw [arr8_lo V c (ix2 (0 : Fin 16) k) (Nat.zero_lt_succ 7) (ix2 (0 : Fin 8) k) rfl rfl]
  exact lastBlk8_row0 V c 0 Nat.zero_lt_two k

/-- Row 8 of the squares array: zero plus core 1's. -/
theorem raw8_8 (k : Fin 128) :
    rd2 ((dat4 V c).arrAt 8 cfg4.N : S16x128.Idx → EReal) 8 k = zeroF + ∑ s ∈ Finset.range 25, cqN V c (25 * 1 + s) k := by
  rw [final8]
  show arr8 V c (ix2 (8 : Fin 16) k) = _
  rw [arr8_hi V c (ix2 (8 : Fin 16) k) (Nat.lt_irrefl 8) (ix2 (0 : Fin 8) k) rfl rfl]
  exact lastBlk8_row0 V c 1 Nat.one_lt_two k

/-- A point's column sums are the sums of its 2000 rows of the whole product. -/
theorem csN_tile (k : Fin 128) (n : ℕ) (hn : n < 50) :
    csN V c n k = ∑ r : Fin 2000, whole V c (tileRow n hn r) k := by
  have hN : n < cfg4.N := by rw [show cfg4.N = 50 from N_4]; exact hn
  unfold csN
  rw [dif_pos hN]
  unfold cs
  exact Finset.sum_congr rfl fun r _ => prodAt_apply V c ⟨n, hN⟩ r k _

theorem cqN_tile (k : Fin 128) (n : ℕ) (hn : n < 50) :
    cqN V c n k = ∑ r : Fin 2000, whole V c (tileRow n hn r) k * whole V c (tileRow n hn r) k := by
  have hN : n < cfg4.N := by rw [show cfg4.N = 50 from N_4]; exact hn
  unfold cqN
  rw [dif_pos hN]
  unfold cq
  exact Finset.sum_congr rfl fun r _ => by rw [prodAt_apply V c ⟨n, hN⟩ r k (tileRow n hn r).isLt]; rfl

end R4

open R4

/-- REGION 4's first output after the run: the array normalised with the sums the region finds, rectified, times the
    weights. -/
theorem r4_o :
    rd2 ((GenP.dat4 V c).arrAt 6 cfg4.N : S100000x128.Idx → EReal)
      = mm (fun r k => relu (bnK (rd2 (V c (Pipeline.arrRef spec4 0) : S100000x64.Idx → EReal))
        (rd2 (V c (Pipeline.arrRef spec4 1) : S1x64.Idx → EReal) 0) (rd2 (V c (Pipeline.arrRef spec4 2) : S1x64.Idx → EReal) 0)
        (rd2 (V c (Pipeline.arrRef spec4 3) : S1x64.Idx → EReal) 0) (rd2 (V c (Pipeline.arrRef spec4 4) : S1x64.Idx → EReal) 0) r k))
      (rd2 (V c (Pipeline.arrRef spec4 5) : S64x128.Idx → EReal)) := by
  rw [final6]
  rfl

/-- The host's combination of region 4's raw sums: the column sums of that product over all 100000 rows. -/
theorem r4_s :
    rd2 (comb128 ((GenP.dat4 V c).arrAt 7 cfg4.N)) 0
      = colSum (mm (fun r k => relu (bnK (rd2 (V c (Pipeline.arrRef spec4 0) : S100000x64.Idx → EReal))
        (rd2 (V c (Pipeline.arrRef spec4 1) : S1x64.Idx → EReal) 0) (rd2 (V c (Pipeline.arrRef spec4 2) : S1x64.Idx → EReal) 0)
        (rd2 (V c (Pipeline.arrRef spec4 3) : S1x64.Idx → EReal) 0) (rd2 (V c (Pipeline.arrRef spec4 4) : S1x64.Idx → EReal) 0) r k))
      (rd2 (V c (Pipeline.arrRef spec4 5) : S64x128.Idx → EReal))) := by
  funext k
  rw [comb128_rd, raw7_0, raw7_8]
  exact colSum_tiles (whole V c) k (fun n => csN V c n k) (csN_tile V c k)

/-- The host's combination of region 4's raw sums of squares: the column sums of squares of that product. -/
theorem r4_q :
    rd2 (comb128 ((GenP.dat4 V c).arrAt 8 cfg4.N)) 0
      = colSumSq (mm (fun r k => relu (bnK (rd2 (V c (Pipeline.arrRef spec4 0) : S100000x64.Idx → EReal))
        (rd2 (V c (Pipeline.arrRef spec4 1) : S1x64.Idx → EReal) 0) (rd2 (V c (Pipeline.arrRef spec4 2) : S1x64.Idx → EReal) 0)
        (rd2 (V c (Pipeline.arrRef spec4 3) : S1x64.Idx → EReal) 0) (rd2 (V c (Pipeline.arrRef spec4 4) : S1x64.Idx → EReal) 0) r k))
      (rd2 (V c (Pipeline.arrRef spec4 5) : S64x128.Idx → EReal))) := by
  funext k
  rw [comb128_rd, raw8_0, raw8_8]
  exact colSumSq_tiles (whole V c) k (fun n => cqN V c n k) (cqN_tile V c k)

end Cert.KernelIdeal.Stage

end
-- ==== Proof.Reg5.lean ====
/-
  The last region of the kernel's program: the 128-column normalise-and-add kernel, from its blocks to its array.

  The grid has 50 points. At point t the body sees rows 2000·t … 2000·t + 1999 of the two 100000 × 128 arrays A and X and
  the whole of the four one-row arrays S, Q, G, B (their block is the same at every point), and writes back rows
  2000·t … 2000·t + 1999 of the output. The stored block, read at one entry, is the normalisation of that entry of A plus
  the entry of X (the payload lemma); each loaded block entry is the array's entry at the row the output block's entry
  has; the 50 blocks tile the 100000 rows, the row r lying in block r / 2000. Hence the output array, as the region
  leaves it, is entry by entry

      (A(r,k) − S(k)/n) · (max (Q(k)/n − (S(k)/n)², 0) + ε)^(−1/2) · G(k) + B(k) + X(r,k).
-/
import proofs.«174784_j23922967838995_2_alg».proof.Proof.KernelIdealFrameP
import proofs.«174784_j23922967838995_2_alg».proof.Proof.PayNorm
import Idealize.ShloMosaic.Lib.Pipeline.Value

noncomputable section

namespace Cert.KernelIdeal.Stage

open Cert.KernelIdeal Cert.KernelIdeal.Gen Cert.KernelIdeal.GenP Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

private theorem hz : (![0, 0] : Fin 2 → Nat) = fun _ => 0 := funext fun a => by fin_cases a <;> rfl

/-- The normalised array plus the residual, entry by entry: at row `r`, column `k`, the batch normalisation of `A` from the
    column sums `S` and sums of squares `Q` with scale `G` and shift `B` (one-row arrays, read in their row 0), plus `X(r,k)`. -/
def normAdd128 (A : S100000x128.Idx → EReal) (S Q G B : S1x128.Idx → EReal) (X : S100000x128.Idx → EReal) : S100000x128.Idx → EReal :=
  fun i => bnK (rd2 A) (rd2 S 0) (rd2 Q 0) (rd2 G 0) (rd2 B 0) (i 0) (i 1) + rd2 X (i 0) (i 1)

/-- The index maps over the 50 points: a row-block window is at block (t, 0) at point `t`, a one-row window at block (0, 0). -/
private theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

/-- Window 0's block at point `t` holds the rows of its array where the output's block lies. -/
private theorem blk5_0 (t : Fin cfg5.N) (p : Fin 2000) (k : Fin 128) :
    (iblk5 V c 0 t : S2000x128.Idx → EReal) (ix2 p k)
      = (V c (Pipeline.arrRef spec5 0) : S100000x128.Idx → EReal)
          (ix2 ((((cfg5.win 6).blk t).view.emb (ix2 p k) : S100000x128.Idx) 0) ((((cfg5.win 6).blk t).view.emb (ix2 p k) : S100000x128.Idx) 1)) := by
  obtain ⟨a0, a1, -, -, -, -, -, -, -, -, -, -, e60, e61⟩ := idx5 t
  show (V c (Pipeline.arrRef spec5 0) : S100000x128.Idx → EReal) (((cfg5.win 0).blk t).view.emb (ix2 p k)) = _
  refine congrArg _ (funext fun a => Fin.ext ?_)
  match a with
  | ⟨0, _⟩ => show win5_0.index t (0 : Fin 2) * 2000 + 1 * p.val = win5_6.index t (0 : Fin 2) * 2000 + 1 * p.val; omega
  | ⟨1, _⟩ => show win5_0.index t (1 : Fin 2) * 128 + 1 * k.val = win5_6.index t (1 : Fin 2) * 128 + 1 * k.val; omega

/-- Window 1's block is its whole one-row array at every point. -/
private theorem blk5_1 (t : Fin cfg5.N) (p : Fin 2000) (k : Fin 128) :
    (iblk5 V c 1 t : S1x128.Idx → EReal) (ix2 (0 : Fin 1) k)
      = (V c (Pipeline.arrRef spec5 1) : S1x128.Idx → EReal)
          (ix2 (0 : Fin 1) ((((cfg5.win 6).blk t).view.emb (ix2 p k) : S100000x128.Idx) 1)) := by
  obtain ⟨-, -, a0, a1, -, -, -, -, -, -, -, -, e60, e61⟩ := idx5 t
  show (V c (Pipeline.arrRef spec5 1) : S1x128.Idx → EReal) (((cfg5.win 1).blk t).view.emb (ix2 (0 : Fin 1) k)) = _
  refine congrArg _ (funext fun a => Fin.ext ?_)
  match a with
  | ⟨0, _⟩ => show win5_1.index t (0 : Fin 2) * 1 + 1 * 0 = 0; omega
  | ⟨1, _⟩ => show win5_1.index t (1 : Fin 2) * 128 + 1 * k.val = win5_6.index t (1 : Fin 2) * 128 + 1 * k.val; omega

/-- Window 2's block is its whole one-row array at every point. -/
private theorem blk5_2 (t : Fin cfg5.N) (p : Fin 2000) (k : Fin 128) :
    (iblk5 V c 2 t : S1x128.Idx → EReal) (ix2 (0 : Fin 1) k)
      = (V c (Pipeline.arrRef spec5 2) : S1x128.Idx → EReal)
          (ix2 (0 : Fin 1) ((((cfg5.win 6).blk t).view.emb (ix2 p k) : S100000x128.Idx) 1)) := by
  obtain ⟨-, -, -, -, a0, a1, -, -, -, -, -, -, e60, e61⟩ := idx5 t
  show (V c (Pipeline.arrRef spec5 2) : S1x128.Idx → EReal) (((cfg5.win 2).blk t).view.emb (ix2 (0 : Fin 1) k)) = _
  refine congrArg _ (funext fun a => Fin.ext ?_)
  match a with
  | ⟨0, _⟩ => show win5_2.index t (0 : Fin 2) * 1 + 1 * 0 = 0; omega
  | ⟨1, _⟩ => show win5_2.index t (1 : Fin 2) * 128 + 1 * k.val = win5_6.index t (1 : Fin 2) * 128 + 1 * k.val; omega

/-- Window 3's block is its whole one-row array at every point. -/
private theorem blk5_3 (t : Fin cfg5.N) (p : Fin 2000) (k : Fin 128) :
    (iblk5 V c 3 t : S1x128.Idx → EReal) (ix2 (0 : Fin 1) k)
      = (V c (Pipeline.arrRef spec5 3) : S1x128.Idx → EReal)
          (ix2 (0 : Fin 1) ((((cfg5.win 6).blk t).view.emb (ix2 p k) : S100000x128.Idx) 1)) := by
  obtain ⟨-, -, -, -, -, -, a0, a1, -, -, -, -, e60, e61⟩ := idx5 t
  show (V c (Pipeline.arrRef spec5 3) : S1x128.Idx → EReal) (((cfg5.win 3).blk t).view.emb (ix2 (0 : Fin 1) k)) = _
  refine congrArg _ (funext fun a => Fin.ext ?_)
  match a with
  | ⟨0, _⟩ => show win5_3.index t (0 : Fin 2) * 1 + 1 * 0 = 0; omega
  | ⟨1, _⟩ => show win5_3.index t (1 : Fin 2) * 128 + 1 * k.val = win5_6.index t (1 : Fin 2) * 128 + 1 * k.val; omega

/-- Window 4's block is its whole one-row array at every point. -/
private theorem blk5_4 (t : Fin cfg5.N) (p : Fin 2000) (k : Fin 128) :
    (iblk5 V c 4 t : S1x128.Idx → EReal) (ix2 (0 : Fin 1) k)
      = (V c (Pipeline.arrRef spec5 4) : S1x128.Idx → EReal)
          (ix2 (0 : Fin 1) ((((cfg5.win 6).blk t).view.emb (ix2 p k) : S100000x128.Idx) 1)) := by
  obtain ⟨-, -, -, -, -, -, -, -, a0, a1, -, -, e60, e61⟩ := idx5 t
  show (V c (Pipeline.arrRef spec5 4) : S1x128.Idx → EReal) (((cfg5.win 4).blk t).view.emb (ix2 (0 : Fin 1) k)) = _
  refine congrArg _ (funext fun a => Fin.ext ?_)
  match a with
  | ⟨0, _⟩ => show win5_4.index t (0 : Fin 2) * 1 + 1 * 0 = 0; omega
  | ⟨1, _⟩ => show win5_4.index t (1 : Fin 2) * 128 + 1 * k.val = win5_6.index t (1 : Fin 2) * 128 + 1 * k.val; omega

/-- Window 5's block at point `t` holds the rows of its array where the output's block lies. -/
private theorem blk5_5 (t : Fin cfg5.N) (p : Fin 2000) (k : Fin 128) :
    (iblk5 V c 5 t : S2000x128.Idx → EReal) (ix2 p k)
      = (V c (Pipeline.arrRef spec5 5) : S100000x128.Idx → EReal)
          (ix2 ((((cfg5.win 6).blk t).view.emb (ix2 p k) : S100000x128.Idx) 0) ((((cfg5.win 6).blk t).view.emb (ix2 p k) : S100000x128.Idx) 1)) := by
  obtain ⟨-, -, -, -, -, -, -, -, -, -, a0, a1, e60, e61⟩ := idx5 t
  show (V c (Pipeline.arrRef spec5 5) : S100000x128.Idx → EReal) (((cfg5.win 5).blk t).view.emb (ix2 p k)) = _
  refine congrArg _ (funext fun a => Fin.ext ?_)
  match a with
  | ⟨0, _⟩ => show win5_5.index t (0 : Fin 2) * 2000 + 1 * p.val = win5_6.index t (0 : Fin 2) * 2000 + 1 * p.val; omega
  | ⟨1, _⟩ => show win5_5.index t (1 : Fin 2) * 128 + 1 * k.val = win5_6.index t (1 : Fin 2) * 128 + 1 * k.val; omega

/-- The stored block at one entry: the normalisation of `A` plus `X` at the array entry the output's block puts there. -/
private theorem entry5 (t : Fin cfg5.N) (j : S2000x128.Idx) :
    k5_pay1 (F := Ideal) (iblk5 V c 1 t) (iblk5 V c 2 t) (iblk5 V c 0 t) (iblk5 V c 3 t) (iblk5 V c 4 t) (iblk5 V c 5 t) j
      = normAdd128 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (((cfg5.win 6).blk t).view.emb j) := by
  obtain ⟨p, k, rfl⟩ : ∃ (p : Fin 2000) (k : Fin 128), j = ix2 p k := ⟨j 0, j 1, eq_ix2 j⟩
  rw [k5_pay1_apply (iblk5 V c 1 t) (iblk5 V c 2 t) (iblk5 V c 0 t) (iblk5 V c 3 t) (iblk5 V c 4 t) (iblk5 V c 5 t) p k,
    blk5_0 V c t p k, blk5_1 V c t p k, blk5_2 V c t p k, blk5_3 V c t p k, blk5_4 V c t p k, blk5_5 V c t p k]
  rfl

/-- What point `t` writes back is block `t` of `normAdd128` of the arrays as the region finds them. -/
theorem flushed5_eq (t : Fin cfg5.N) :
    (dat5 V c).flushed 6 t = ((cfg5.win 6).blk t).view.read (Elt Ideal)
      (normAdd128 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))) := by
  show (cfg5.win 6).cut (grid5.coords t) ((dat5 V c).after 6 t) = _
  rw [after5_6]
  unfold out5_6
  rw [View.canon_unit_zero hz]
  simp only [View.ld_unit_zero (S := S2000x128) hz, View.ld_unit_zero (S := S1x128) hz]
  funext j
  exact entry5 V c t j

/-- An index of the array is in point `t`'s block iff each coordinate is in the block's range on its axis. -/
private theorem mem_blk5 (t : Fin cfg5.N) (i : S100000x128.Idx) :
    i ∈ ((cfg5.win 6).blk t).view.set ↔ ∀ a : Fin 2, win5_6.index t a * S2000x128.size a ≤ (i a).val ∧ (i a).val < win5_6.index t a * S2000x128.size a + S2000x128.size a := by
  show i ∈ ((View.whole main_v58).slice (win5_6.rect t)).set ↔ _
  rw [View.set_slice_whole, Rect.mem_set_unit]
  exact Iff.rfl

/-- Every entry lies in the block of the point `row / 2000`: the 50 blocks of 2000 rows tile the 100000 rows. -/
private theorem cover5 (i : S100000x128.Idx) :
    ∃ t : Fin cfg5.N, (cfg5.win 6).flush t = true ∧ i ∈ ((cfg5.win 6).blk t).view.set := by
  have hi0 : (i 0).val < 100000 := (i 0).isLt
  have hi1 : (i 1).val < 128 := (i 1).isLt
  have hN : cfg5.N = 50 := N_5
  obtain ⟨t, ht⟩ : ∃ t : Fin cfg5.N, t.val = (i 0).val / 2000 := ⟨⟨(i 0).val / 2000, by rw [hN]; omega⟩, rfl⟩
  obtain ⟨-, -, -, -, -, -, -, -, -, -, -, -, e60, e61⟩ := idx5 t
  refine ⟨t, flush5_6 t, ?_⟩
  rw [mem_blk5]
  intro a
  match a with
  | ⟨0, _⟩ => show win5_6.index t (0 : Fin 2) * 2000 ≤ (i 0).val ∧ (i 0).val < win5_6.index t (0 : Fin 2) * 2000 + 2000; omega
  | ⟨1, _⟩ => show win5_6.index t (1 : Fin 2) * 128 ≤ (i 1).val ∧ (i 1).val < win5_6.index t (1 : Fin 2) * 128 + 128; omega

/-- The output array after the region's run is `normAdd128` of the arrays as the region finds them. -/
theorem final5 : (dat5 V c).arrAt 6 cfg5.N
    = normAdd128 (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  (dat5 V c).arrAt_eq_of_cover 6 _ (fun t _ => flushed5_eq V c t) cover5

/-- The same, read by coordinates. -/
theorem r5_o : rd2 ((dat5 V c).arrAt 6 cfg5.N)
    = fun r k => bnK (rd2 (V c (Pipeline.arrRef spec5 0))) (rd2 (V c (Pipeline.arrRef spec5 1)) 0)
        (rd2 (V c (Pipeline.arrRef spec5 2)) 0) (rd2 (V c (Pipeline.arrRef spec5 3)) 0) (rd2 (V c (Pipeline.arrRef spec5 4)) 0) r k
      + rd2 (V c (Pipeline.arrRef spec5 5)) r k := by
  rw [final5]
  rfl

end Cert.KernelIdeal.Stage

end
-- ==== Proof.KBridge.lean ====
/-
  The idealized kernel's result array as one function of its argument arrays: region by region, each region's
  write-backs (the region modules) at the contents it was entered from (the chain of boundary contents), from the
  launch memory to the last region. Region 0 leaves x·w1 and its column sums; region 1 the rectified normalisation
  of it; the host gathers rows; region 2 multiplies per offset; the host scatter-adds; region 3 takes the column sums
  of that; region 4 normalises, rectifies, multiplies by w3 and takes the product's column sums; region 5 normalises
  and adds x.
-/
import proofs.«174784_j23922967838995_2_alg».proof.Proof.KChain2
import proofs.«174784_j23922967838995_2_alg».proof.Proof.NetSpec
import proofs.«174784_j23922967838995_2_alg».proof.Proof.Reg0
import proofs.«174784_j23922967838995_2_alg».proof.Proof.Reg1
import proofs.«174784_j23922967838995_2_alg».proof.Proof.Reg2
import proofs.«174784_j23922967838995_2_alg».proof.Proof.Reg3
import proofs.«174784_j23922967838995_2_alg».proof.Proof.Reg4
import proofs.«174784_j23922967838995_2_alg».proof.Proof.Reg5
import Idealize.ShloMosaic.Lib.ValueLayout

set_option maxRecDepth 16384

noncomputable section

namespace Cert.KernelIdeal.KBridge

open Cert.KernelIdeal Cert.KernelIdeal.Gen Cert.KernelIdeal.GenP Cert.KernelIdeal.KChain
open Idealize.ShloMosaic Idealize.ShloMosaic.TcCoe Idealize.ShloMosaic.ValueIdx
open Idealize.SL Idealize.SL.Sem
open Cert.Spec

variable (m : (ℓ : Loc nD τ sig) → Buf (Elt Ideal) ℓ) (ρ : Dev nD → PrngReg)

/-- The reference program's stated shape facts (a proposition: any two witnesses agree). -/
local instance : Cert.ReferenceIdeal.Facts := Cert.ReferenceIdeal.Gen.facts

theorem rd2_inj {n0 n1 : Nat} {a b : (⟨2, ![n0, n1]⟩ : Shape).Idx → EReal} (h : rd2 a = rd2 b) : a = b :=
  rd2_ext fun i j => congrFun (congrFun h i) j

/-- A vector laid out as a one-row matrix reads back, along its row, as the vector. -/
theorem row_of_vec {n : Nat} (g : (⟨1, ![n]⟩ : Shape).Idx → EReal) (h : (⟨1, ![n]⟩ : Shape).ShapeCasts ⟨2, ![1, n]⟩) :
    rd2 (shapeCast ⟨2, ![1, n]⟩ g h) 0 = rd1 g := by
  funext k; exact shapeCast_a_1a_apply g h 0 k

/-! ## Region 0: x · w1 and its column sums -/

theorem v1_0 (c : Dev nD) : V1 m ρ c (Pipeline.arrRef spec0 0) = (m ((c : Thread nD τ).loc main_arg0)) := W1_arg0 m ρ c
theorem v1_1 (c : Dev nD) : V1 m ρ c (Pipeline.arrRef spec0 1) = (m ((c : Thread nD τ).loc main_arg3)) := W1_arg3 m ρ c

theorem o1 (c : Dev nD) : rd2 ((dat0 (V1 m ρ) c).arrAt 2 cfg0.N) = (mm (rd2 (m ((c : Thread nD τ).loc main_arg0))) (rd2 (m ((c : Thread nD τ).loc main_arg3)))) := by
  rw [Stage.r0_o (V1 m ρ) c, v1_0, v1_1]

theorem s1 (c : Dev nD) : rd2 (Stage.comb64 ((dat0 (V1 m ρ) c).arrAt 3 cfg0.N)) 0 = colSum (mm (rd2 (m ((c : Thread nD τ).loc main_arg0))) (rd2 (m ((c : Thread nD τ).loc main_arg3)))) := by
  rw [Stage.r0_s (V1 m ρ) c, v1_0, v1_1]

theorem q1 (c : Dev nD) : rd2 (Stage.comb64 ((dat0 (V1 m ρ) c).arrAt 4 cfg0.N)) 0 = colSumSq (mm (rd2 (m ((c : Thread nD τ).loc main_arg0))) (rd2 (m ((c : Thread nD τ).loc main_arg3)))) := by
  rw [Stage.r0_q (V1 m ρ) c, v1_0, v1_1]

/-! ## Region 1: the rectified normalisation of x · w1 -/

theorem v3_0 (c : Dev nD) : V3 m ρ c (Pipeline.arrRef spec1 0) = ((dat0 (V1 m ρ) c).arrAt 2 cfg0.N) := W3_v6_0 m ρ c
theorem v3_1 (c : Dev nD) : V3 m ρ c (Pipeline.arrRef spec1 1) = Stage.comb64 ((dat0 (V1 m ρ) c).arrAt 3 cfg0.N) := W3_v11 m ρ c
theorem v3_2 (c : Dev nD) : V3 m ρ c (Pipeline.arrRef spec1 2) = Stage.comb64 ((dat0 (V1 m ρ) c).arrAt 4 cfg0.N) := W3_v16 m ρ c
theorem v3_3 (c : Dev nD) : V3 m ρ c (Pipeline.arrRef spec1 3) = shapeCast S1x64 (m ((c : Thread nD τ).loc main_arg4)) shapeCasts_S64_S1x64 := W3_v0 m ρ c
theorem v3_4 (c : Dev nD) : V3 m ρ c (Pipeline.arrRef spec1 4) = shapeCast S1x64 (m ((c : Thread nD τ).loc main_arg5)) shapeCasts_S64_S1x64 := W3_v1 m ρ c

theorem h1 (c : Dev nD) : (dat1 (V3 m ρ) c).arrAt 5 cfg1.N = (Cert.Net.h1 (m ((c : Thread nD τ).loc main_arg0)) (m ((c : Thread nD τ).loc main_arg3)) (m ((c : Thread nD τ).loc main_arg4)) (m ((c : Thread nD τ).loc main_arg5))) := by
  apply rd2_inj
  rw [Stage.r1_o (V3 m ρ) c, v3_0, v3_1, v3_2, v3_3, v3_4, o1, s1, q1, row_of_vec, row_of_vec]
  rfl

/-! ## The gather, region 2 and the scatter-add -/

theorem v5_0 (c : Dev nD) : V5 m ρ c (Pipeline.arrRef spec2 0) = Cert.RefStages.gath ((dat1 (V3 m ρ) c).arrAt 5 cfg1.N) (m ((c : Thread nD τ).loc main_arg1)) := W5_v24 m ρ c
theorem v5_1 (c : Dev nD) : V5 m ρ c (Pipeline.arrRef spec2 1) = (m ((c : Thread nD τ).loc main_arg6)) := W5_arg6 m ρ c

theorem y (c : Dev nD) : (dat2 (V5 m ρ) c).arrAt 2 cfg2.N = Cert.RefStages.bmm (Cert.RefStages.gath (Cert.Net.h1 (m ((c : Thread nD τ).loc main_arg0)) (m ((c : Thread nD τ).loc main_arg3)) (m ((c : Thread nD τ).loc main_arg4)) (m ((c : Thread nD τ).loc main_arg5))) (m ((c : Thread nD τ).loc main_arg1))) (m ((c : Thread nD τ).loc main_arg6)) := by
  rw [Stage.r2_o (V5 m ρ) c, v5_0, v5_1, h1]

theorem v7_0 (c : Dev nD) : V7 m ρ c (Pipeline.arrRef spec3 0) = (Cert.Net.a2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (W7_v35 m ρ c).trans ?_
  rw [y]; rfl

/-! ## Region 3: the column sums of the scatter-add's result -/

theorem s2 (c : Dev nD) : rd2 (Stage.comb64 ((dat3 (V7 m ρ) c).arrAt 1 cfg3.N)) 0 = colSum (rd2 (Cert.Net.a2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))) := by
  rw [Stage.r3_s (V7 m ρ) c, v7_0]

theorem q2 (c : Dev nD) : rd2 (Stage.comb64 ((dat3 (V7 m ρ) c).arrAt 2 cfg3.N)) 0 = colSumSq (rd2 (Cert.Net.a2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))) := by
  rw [Stage.r3_q (V7 m ρ) c, v7_0]

/-! ## Region 4: normalise, rectify, multiply by w3, and the product's column sums -/

theorem v9_0 (c : Dev nD) : V9 m ρ c (Pipeline.arrRef spec4 0) = (Cert.Net.a2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (W9_v35' m ρ c).trans ?_
  rw [y]; rfl
theorem v9_1 (c : Dev nD) : V9 m ρ c (Pipeline.arrRef spec4 1) = Stage.comb64 ((dat3 (V7 m ρ) c).arrAt 1 cfg3.N) := W9_v41 m ρ c
theorem v9_2 (c : Dev nD) : V9 m ρ c (Pipeline.arrRef spec4 2) = Stage.comb64 ((dat3 (V7 m ρ) c).arrAt 2 cfg3.N) := W9_v46 m ρ c
theorem v9_3 (c : Dev nD) : V9 m ρ c (Pipeline.arrRef spec4 3) = shapeCast S1x64 (m ((c : Thread nD τ).loc main_arg7)) shapeCasts_S64_S1x64 := W9_v2 m ρ c
theorem v9_4 (c : Dev nD) : V9 m ρ c (Pipeline.arrRef spec4 4) = shapeCast S1x64 (m ((c : Thread nD τ).loc main_arg8)) shapeCasts_S64_S1x64 := W9_v3 m ρ c
theorem v9_5 (c : Dev nD) : V9 m ρ c (Pipeline.arrRef spec4 5) = (m ((c : Thread nD τ).loc main_arg9)) := W9_arg9 m ρ c

theorem o3 (c : Dev nD) : rd2 ((dat4 (V9 m ρ) c).arrAt 6 cfg4.N) = (Cert.Net.a3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [Stage.r4_o (V9 m ρ) c, v9_0, v9_1, v9_2, v9_3, v9_4, v9_5, s2, q2, row_of_vec, row_of_vec]
  rfl

theorem s3 (c : Dev nD) : rd2 (Stage.comb128 ((dat4 (V9 m ρ) c).arrAt 7 cfg4.N)) 0 = colSum (Cert.Net.a3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [Stage.r4_s (V9 m ρ) c, v9_0, v9_1, v9_2, v9_3, v9_4, v9_5, s2, q2, row_of_vec, row_of_vec]
  rfl

theorem q3 (c : Dev nD) : rd2 (Stage.comb128 ((dat4 (V9 m ρ) c).arrAt 8 cfg4.N)) 0 = colSumSq (Cert.Net.a3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  rw [Stage.r4_q (V9 m ρ) c, v9_0, v9_1, v9_2, v9_3, v9_4, v9_5, s2, q2, row_of_vec, row_of_vec]
  rfl

/-! ## Region 5: normalise and add x -/

theorem v11_0 (c : Dev nD) : V11 m ρ c (Pipeline.arrRef spec5 0) = (dat4 (V9 m ρ) c).arrAt 6 cfg4.N := W11_v47_0 m ρ c
theorem v11_1 (c : Dev nD) : V11 m ρ c (Pipeline.arrRef spec5 1) = Stage.comb128 ((dat4 (V9 m ρ) c).arrAt 7 cfg4.N) := W11_v52 m ρ c
theorem v11_2 (c : Dev nD) : V11 m ρ c (Pipeline.arrRef spec5 2) = Stage.comb128 ((dat4 (V9 m ρ) c).arrAt 8 cfg4.N) := W11_v57 m ρ c
theorem v11_3 (c : Dev nD) : V11 m ρ c (Pipeline.arrRef spec5 3) = shapeCast S1x128 (m ((c : Thread nD τ).loc main_arg10)) shapeCasts_S128_S1x128 := W11_v4 m ρ c
theorem v11_4 (c : Dev nD) : V11 m ρ c (Pipeline.arrRef spec5 4) = shapeCast S1x128 (m ((c : Thread nD τ).loc main_arg11)) shapeCasts_S128_S1x128 := W11_v5 m ρ c
theorem v11_5 (c : Dev nD) : V11 m ρ c (Pipeline.arrRef spec5 5) = (m ((c : Thread nD τ).loc main_arg0)) := W11_arg0 m ρ c

/-- The last region's output array, read back to the launch memory, is the network of the twelve arguments. -/
theorem kernel_out (c : Dev nD) : W12 m ρ c (Proc.devRef .tc main_v58) = Cert.Net.outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W12_v58 m ρ c).trans (rd2_inj ?_)
  rw [Stage.r5_o (V11 m ρ) c, v11_0, v11_1, v11_2, v11_3, v11_4, v11_5, o3, s3, q3, row_of_vec, row_of_vec]
  rfl

end Cert.KernelIdeal.KBridge

end
-- ==== Proof.RefRunA.lean ====
/-
  The reference program's @main as a list of its 164 host operations, the five calls of outlined functions
  (the variance with its where-select, three times; the relu, twice) written out at their call sites over the
  calls' own buffers, and the equation `main = seq ops`. The list is also cut into the eleven stages of the
  computation (a linear layer, a batch normalization, a relu, the gather, the batched product, the scatter-add,
  a batch normalization, a relu, a linear layer, a batch normalization, the residual sum), each with the list of
  the buffers it writes: a buffer outside that list keeps its contents through the stage.
-/
import proofs.«174784_j23922967838995_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The operations of @main's first window (statements 1 … 60), calls written out: 104 operations. -/
abbrev ops0 : List (HloOp τ sig (Elt F)) :=
  [ StableHlo.binary main_arg0 main_arg3 main_v0 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.nullary main_cst (constant S_ .f32 0x00000000#32),
    StableHlo.binary main_v0 main_cst main_v1 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_0 (constant S_ .f32 0x47C35000#32),
    StableHlo.unary main_cst_0 main_v2 (broadcastInDim S64 ![] bcast_S_S64 : (⟨S_, .f32⟩ : BufTy).Contents (Elt F) → (⟨S64, .f32⟩ : BufTy).Contents (Elt F)),
    StableHlo.binary main_v1 main_v2 main_v3 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary main_call0.cst (constant S_ .f32 0x00000000#32),
    StableHlo.TRef.binary (.of main_v0) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (.of main_v0) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v3 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S100000x64 ![0, 1] bcast_S1x64_S100000x64_0_1 : (⟨S1x64, .f32⟩ : BufTy).Contents (Elt F) → (⟨S100000x64, .f32⟩ : BufTy).Contents (Elt F)),
    StableHlo.binary main_v0 main_v6 main_v7 (subf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x3727C5AC#32),
    StableHlo.unary main_cst_1 main_v8 (broadcastInDim S64 ![] bcast_S_S64 : (⟨S_, .f32⟩ : BufTy).Contents (Elt F) → (⟨S64, .f32⟩ : BufTy).Contents (Elt F)),
    StableHlo.binary main_v4 main_v8 main_v9 (addf : (⟨S64, .f32⟩ : BufTy).Contents (Elt F) → (⟨S64, .f32⟩ : BufTy).Contents (Elt F) → (⟨S64, .f32⟩ : BufTy).Contents (Elt F)),
    StableHlo.unary main_v9 main_v10 (Host.rsqrt : (⟨S64, .f32⟩ : BufTy).Contents (Elt F) → (⟨S64, .f32⟩ : BufTy).Contents (Elt F)),
    StableHlo.unary main_v10 main_v11 (broadcastInDim S1x64 ![1] bcast_S64_S1x64_1 : (⟨S64, .f32⟩ : BufTy).Contents (Elt F) → (⟨S1x64, .f32⟩ : BufTy).Contents (Elt F)),
    StableHlo.unary main_v11 main_v12 (broadcastInDim S100000x64 ![0, 1] bcast_S1x64_S100000x64_0_1 : (⟨S1x64, .f32⟩ : BufTy).Contents (Elt F) → (⟨S100000x64, .f32⟩ : BufTy).Contents (Elt F)),
    StableHlo.binary main_v7 main_v12 main_v13 (mulf : (⟨S100000x64, .f32⟩ : BufTy).Contents (Elt F) → (⟨S100000x64, .f32⟩ : BufTy).Contents (Elt F) → (⟨S100000x64, .f32⟩ : BufTy).Contents (Elt F)),
    StableHlo.unary main_arg4 main_v14 (broadcastInDim S1x64 ![1] bcast_S64_S1x64_1 : (⟨S64, .f32⟩ : BufTy).Contents (Elt F) → (⟨S1x64, .f32⟩ : BufTy).Contents (Elt F)),
    StableHlo.unary main_v14 main_v15 (broadcastInDim S100000x64 ![0, 1] bcast_S1x64_S100000x64_0_1 : (⟨S1x64, .f32⟩ : BufTy).Contents (Elt F) → (⟨S100000x64, .f32⟩ : BufTy).Contents (Elt F)),
    StableHlo.binary main_v13 main_v15 main_v16 (mulf : (⟨S100000x64, .f32⟩ : BufTy).Contents (Elt F) → (⟨S100000x64, .f32⟩ : BufTy).Contents (Elt F) → (⟨S100000x64, .f32⟩ : BufTy).Contents (Elt F)),
    StableHlo.unary main_arg5 main_v17 (broadcastInDim S1x64 ![1] bcast_S64_S1x64_1 : (⟨S64, .f32⟩ : BufTy).Contents (Elt F) → (⟨S1x64, .f32⟩ : BufTy).Contents (Elt F)),
    StableHlo.unary main_v17 main_v18 (broadcastInDim S100000x64 ![0, 1] bcast_S1x64_S100000x64_0_1 : (⟨S1x64, .f32⟩ : BufTy).Contents (Elt F) → (⟨S100000x64, .f32⟩ : BufTy).Contents (Elt F)),
    StableHlo.binary main_v16 main_v18 main_v19 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v19) main_call1.v0 main_call1.v1 maximumf,
    StableHlo.nullary main_c_2 (constantI S_ 32 0#32),
    StableHlo.unary main_c_2 main_v21 (broadcastInDim S27x50000 ![] bcast_S_S27x50000 : (⟨S_, .i32⟩ : BufTy).Contents (Elt F) → (⟨S27x50000, .i32⟩ : BufTy).Contents (Elt F)),
    StableHlo.binary main_arg1 main_v21 main_v22 (cmpi .slt : (⟨S27x50000, .i32⟩ : BufTy).Contents (Elt F) → (⟨S27x50000, .i32⟩ : BufTy).Contents (Elt F) → (⟨S27x50000, .i1⟩ : BufTy).Contents (Elt F)),
    StableHlo.nullary main_c_3 (constantI S_ 32 100000#32),
    StableHlo.unary main_c_3 main_v23 (broadcastInDim S27x50000 ![] bcast_S_S27x50000 : (⟨S_, .i32⟩ : BufTy).Contents (Elt F) → (⟨S27x50000, .i32⟩ : BufTy).Contents (Elt F)),
    StableHlo.binary main_arg1 main_v23 main_v24 (addi : (⟨S27x50000, .i32⟩ : BufTy).Contents (Elt F) → (⟨S27x50000, .i32⟩ : BufTy).Contents (Elt F) → (⟨S27x50000, .i32⟩ : BufTy).Contents (Elt F)),
    StableHlo.ternary main_v22 main_v24 main_arg1 main_v25 (select : (⟨S27x50000, .i1⟩ : BufTy).Contents (Elt F) → (⟨S27x50000, .i32⟩ : BufTy).Contents (Elt F) → (⟨S27x50000, .i32⟩ : BufTy).Contents (Elt F) → (⟨S27x50000, .i32⟩ : BufTy).Contents (Elt F)),
    StableHlo.unary main_v25 main_v26 (broadcastInDim S27x50000x1 ![0, 1] bcast_S27x50000_S27x50000x1_0_1 : (⟨S27x50000, .i32⟩ : BufTy).Contents (Elt F) → (⟨S27x50000x1, .i32⟩ : BufTy).Contents (Elt F)),
    StableHlo.binary main_v20 main_v26 main_v27 ((fun x i => Host.gather gather_S100000x64_S27x50000x1_S27x50000x64_2_0_n_n_0_2_164 x i) : (⟨S100000x64, .f32⟩ : BufTy).Contents (Elt F) → (⟨S27x50000x1, .i32⟩ : BufTy).Contents (Elt F) → (⟨S27x50000x64, .f32⟩ : BufTy).Contents (Elt F)),
    StableHlo.binary main_v27 main_arg6 main_v28 ((fun l r => Host.dotGeneral dot_S27x50000x64_S27x64x64_S27x50000x64_2_1_1_2_0_0 none l r) : (⟨S27x50000x64, .f32⟩ : BufTy).Contents (Elt F) → (⟨S27x64x64, .f32⟩ : BufTy).Contents (Elt F) → (⟨S27x50000x64, .f32⟩ : BufTy).Contents (Elt F)),
    StableHlo.nullary main_cst_4 (constant S_ .f32 0x00000000#32),
    StableHlo.unary main_cst_4 main_v29 (broadcastInDim S100000x64 ![] bcast_S_S100000x64 : (⟨S_, .f32⟩ : BufTy).Contents (Elt F) → (⟨S100000x64, .f32⟩ : BufTy).Contents (Elt F)),
    StableHlo.reshape main_arg2 main_v30 rfl shapeCasts_S27x50000_S1350000,
    StableHlo.reshape main_v28 main_v31 rfl shapeCasts_S27x50000x64_S1350000x64,
    StableHlo.nullary main_c_5 (constantI S_ 32 0#32),
    StableHlo.unary main_c_5 main_v32 (broadcastInDim S1350000 ![] bcast_S_S1350000 : (⟨S_, .i32⟩ : BufTy).Contents (Elt F) → (⟨S1350000, .i32⟩ : BufTy).Contents (Elt F)),
    StableHlo.binary main_v30 main_v32 main_v33 (cmpi .slt : (⟨S1350000, .i32⟩ : BufTy).Contents (Elt F) → (⟨S1350000, .i32⟩ : BufTy).Contents (Elt F) → (⟨S1350000, .i1⟩ : BufTy).Contents (Elt F)),
    StableHlo.nullary main_c_6 (constantI S_ 32 100000#32),
    StableHlo.unary main_c_6 main_v34 (broadcastInDim S1350000 ![] bcast_S_S1350000 : (⟨S_, .i32⟩ : BufTy).Contents (Elt F) → (⟨S1350000, .i32⟩ : BufTy).Contents (Elt F)),
    StableHlo.binary main_v30 main_v34 main_v35 (addi : (⟨S1350000, .i32⟩ : BufTy).Contents (Elt F) → (⟨S1350000, .i32⟩ : BufTy).Contents (Elt F) → (⟨S1350000, .i32⟩ : BufTy).Contents (Elt F)),
    StableHlo.ternary main_v33 main_v35 main_v30 main_v36 (select : (⟨S1350000, .i1⟩ : BufTy).Contents (Elt F) → (⟨S1350000, .i32⟩ : BufTy).Contents (Elt F) → (⟨S1350000, .i32⟩ : BufTy).Contents (Elt F) → (⟨S1350000, .i32⟩ : BufTy).Contents (Elt F)),
    StableHlo.unary main_v36 main_v37 (broadcastInDim S1350000x1 ![0] bcast_S1350000_S1350000x1_0 : (⟨S1350000, .i32⟩ : BufTy).Contents (Elt F) → (⟨S1350000x1, .i32⟩ : BufTy).Contents (Elt F)),
    StableHlo.ternary main_v29 main_v37 main_v31 main_v38 ((fun x i u => Host.scatterAdd scatter_S100000x64_S1350000x1_S1350000x64_1_0_0_1 x i u) : (⟨S100000x64, .f32⟩ : BufTy).Contents (Elt F) → (⟨S1350000x1, .i32⟩ : BufTy).Contents (Elt F) → (⟨S1350000x64, .f32⟩ : BufTy).Contents (Elt F) → (⟨S100000x64, .f32⟩ : BufTy).Contents (Elt F)),
    StableHlo.nullary main_cst_7 (constant S_ .f32 0x00000000#32),
    StableHlo.binary main_v38 main_cst_7 main_v39 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_8 (constant S_ .f32 0x47C35000#32),
    StableHlo.unary main_cst_8 main_v40 (broadcastInDim S64 ![] bcast_S_S64 : (⟨S_, .f32⟩ : BufTy).Contents (Elt F) → (⟨S64, .f32⟩ : BufTy).Contents (Elt F)),
    StableHlo.binary main_v39 main_v40 main_v41 (Host.divf : (⟨S64, .f32⟩ : BufTy).Contents (Elt F) → (⟨S64, .f32⟩ : BufTy).Contents (Elt F) → (⟨S64, .f32⟩ : BufTy).Contents (Elt F)),
    StableHlo.nullary main_c_9 (constantI S_ 32 0#32),
    StableHlo.TRef.nullary main_call2.cst (constant S_ .f32 0x00000000#32),
    StableHlo.TRef.binary (.of main_v38) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v38) main_call2.v4 main_call2.v5 subf,
    StableHlo.TRef.binary main_call2.v5 main_call2.v5 main_call2.v6 mulf,
    StableHlo.TRef.unary (.of main_c_9) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v41 main_v43 (broadcastInDim S1x64 ![1] bcast_S64_S1x64_1 : (⟨S64, .f32⟩ : BufTy).Contents (Elt F) → (⟨S1x64, .f32⟩ : BufTy).Contents (Elt F)),
    StableHlo.unary main_v43 main_v44 (broadcastInDim S100000x64 ![0, 1] bcast_S1x64_S100000x64_0_1 : (⟨S1x64, .f32⟩ : BufTy).Contents (Elt F) → (⟨S100000x64, .f32⟩ : BufTy).Contents (Elt F)),
    StableHlo.binary main_v38 main_v44 main_v45 (subf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x3727C5AC#32),
    StableHlo.unary main_cst_10 main_v46 (broadcastInDim S64 ![] bcast_S_S64 : (⟨S_, .f32⟩ : BufTy).Contents (Elt F) → (⟨S64, .f32⟩ : BufTy).Contents (Elt F)) ]

/-- The operations of @main's second window (statements 61 … 98), calls written out: 60 operations. -/
abbrev ops1 : List (HloOp τ sig (Elt F)) :=
  [ StableHlo.binary main_v42 main_v46 main_v47 (addf : (⟨S64, .f32⟩ : BufTy).Contents (Elt F) → (⟨S64, .f32⟩ : BufTy).Contents (Elt F) → (⟨S64, .f32⟩ : BufTy).Contents (Elt F)),
    StableHlo.unary main_v47 main_v48 (Host.rsqrt : (⟨S64, .f32⟩ : BufTy).Contents (Elt F) → (⟨S64, .f32⟩ : BufTy).Contents (Elt F)),
    StableHlo.unary main_v48 main_v49 (broadcastInDim S1x64 ![1] bcast_S64_S1x64_1 : (⟨S64, .f32⟩ : BufTy).Contents (Elt F) → (⟨S1x64, .f32⟩ : BufTy).Contents (Elt F)),
    StableHlo.unary main_v49 main_v50 (broadcastInDim S100000x64 ![0, 1] bcast_S1x64_S100000x64_0_1 : (⟨S1x64, .f32⟩ : BufTy).Contents (Elt F) → (⟨S100000x64, .f32⟩ : BufTy).Contents (Elt F)),
    StableHlo.binary main_v45 main_v50 main_v51 (mulf : (⟨S100000x64, .f32⟩ : BufTy).Contents (Elt F) → (⟨S100000x64, .f32⟩ : BufTy).Contents (Elt F) → (⟨S100000x64, .f32⟩ : BufTy).Contents (Elt F)),
    StableHlo.unary main_arg7 main_v52 (broadcastInDim S1x64 ![1] bcast_S64_S1x64_1 : (⟨S64, .f32⟩ : BufTy).Contents (Elt F) → (⟨S1x64, .f32⟩ : BufTy).Contents (Elt F)),
    StableHlo.unary main_v52 main_v53 (broadcastInDim S100000x64 ![0, 1] bcast_S1x64_S100000x64_0_1 : (⟨S1x64, .f32⟩ : BufTy).Contents (Elt F) → (⟨S100000x64, .f32⟩ : BufTy).Contents (Elt F)),
    StableHlo.binary main_v51 main_v53 main_v54 (mulf : (⟨S100000x64, .f32⟩ : BufTy).Contents (Elt F) → (⟨S100000x64, .f32⟩ : BufTy).Contents (Elt F) → (⟨S100000x64, .f32⟩ : BufTy).Contents (Elt F)),
    StableHlo.unary main_arg8 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S100000x64 ![0, 1] bcast_S1x64_S100000x64_0_1 : (⟨S1x64, .f32⟩ : BufTy).Contents (Elt F) → (⟨S100000x64, .f32⟩ : BufTy).Contents (Elt F)),
    StableHlo.binary main_v54 main_v56 main_v57 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v57) main_call3.v0 main_call3.v1 maximumf,
    StableHlo.binary main_v58 main_arg9 main_v59 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    StableHlo.nullary main_cst_11 (constant S_ .f32 0x00000000#32),
    StableHlo.binary main_v59 main_cst_11 main_v60 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_12 (constant S_ .f32 0x47C35000#32),
    StableHlo.unary main_cst_12 main_v61 (broadcastInDim S128 ![] bcast_S_S128 : (⟨S_, .f32⟩ : BufTy).Contents (Elt F) → (⟨S128, .f32⟩ : BufTy).Contents (Elt F)),
    StableHlo.binary main_v60 main_v61 main_v62 (Host.divf : (⟨S128, .f32⟩ : BufTy).Contents (Elt F) → (⟨S128, .f32⟩ : BufTy).Contents (Elt F) → (⟨S128, .f32⟩ : BufTy).Contents (Elt F)),
    StableHlo.nullary main_c_13 (constantI S_ 32 0#32),
    StableHlo.TRef.nullary main_call4.cst (constant S_ .f32 0x00000000#32),
    StableHlo.TRef.binary (.of main_v59) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v59) main_call4.v4 main_call4.v5 subf,
    StableHlo.TRef.binary main_call4.v5 main_call4.v5 main_call4.v6 mulf,
    StableHlo.TRef.unary (.of main_c_13) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v62 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S100000x128 ![0, 1] bcast_S1x128_S100000x128_0_1 : (⟨S1x128, .f32⟩ : BufTy).Contents (Elt F) → (⟨S100000x128, .f32⟩ : BufTy).Contents (Elt F)),
    StableHlo.binary main_v59 main_v65 main_v66 (subf : (⟨S100000x128, .f32⟩ : BufTy).Contents (Elt F) → (⟨S100000x128, .f32⟩ : BufTy).Contents (Elt F) → (⟨S100000x128, .f32⟩ : BufTy).Contents (Elt F)),
    StableHlo.nullary main_cst_14 (constant S_ .f32 0x3727C5AC#32),
    StableHlo.unary main_cst_14 main_v67 (broadcastInDim S128 ![] bcast_S_S128 : (⟨S_, .f32⟩ : BufTy).Contents (Elt F) → (⟨S128, .f32⟩ : BufTy).Contents (Elt F)),
    StableHlo.binary main_v63 main_v67 main_v68 (addf : (⟨S128, .f32⟩ : BufTy).Contents (Elt F) → (⟨S128, .f32⟩ : BufTy).Contents (Elt F) → (⟨S128, .f32⟩ : BufTy).Contents (Elt F)),
    StableHlo.unary main_v68 main_v69 (Host.rsqrt : (⟨S128, .f32⟩ : BufTy).Contents (Elt F) → (⟨S128, .f32⟩ : BufTy).Contents (Elt F)),
    StableHlo.unary main_v69 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S100000x128 ![0, 1] bcast_S1x128_S100000x128_0_1 : (⟨S1x128, .f32⟩ : BufTy).Contents (Elt F) → (⟨S100000x128, .f32⟩ : BufTy).Contents (Elt F)),
    StableHlo.binary main_v66 main_v71 main_v72 (mulf : (⟨S100000x128, .f32⟩ : BufTy).Contents (Elt F) → (⟨S100000x128, .f32⟩ : BufTy).Contents (Elt F) → (⟨S100000x128, .f32⟩ : BufTy).Contents (Elt F)),
    StableHlo.unary main_arg10 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S100000x128 ![0, 1] bcast_S1x128_S100000x128_0_1 : (⟨S1x128, .f32⟩ : BufTy).Contents (Elt F) → (⟨S100000x128, .f32⟩ : BufTy).Contents (Elt F)),
    StableHlo.binary main_v72 main_v74 main_v75 (mulf : (⟨S100000x128, .f32⟩ : BufTy).Contents (Elt F) → (⟨S100000x128, .f32⟩ : BufTy).Contents (Elt F) → (⟨S100000x128, .f32⟩ : BufTy).Contents (Elt F)),
    StableHlo.unary main_arg11 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S100000x128 ![0, 1] bcast_S1x128_S100000x128_0_1 : (⟨S1x128, .f32⟩ : BufTy).Contents (Elt F) → (⟨S100000x128, .f32⟩ : BufTy).Contents (Elt F)),
    StableHlo.binary main_v75 main_v77 main_v78 (addf : (⟨S100000x128, .f32⟩ : BufTy).Contents (Elt F) → (⟨S100000x128, .f32⟩ : BufTy).Contents (Elt F) → (⟨S100000x128, .f32⟩ : BufTy).Contents (Elt F)),
    StableHlo.binary main_v78 main_arg0 main_v79 (addf : (⟨S100000x128, .f32⟩ : BufTy).Contents (Elt F) → (⟨S100000x128, .f32⟩ : BufTy).Contents (Elt F) → (⟨S100000x128, .f32⟩ : BufTy).Contents (Elt F)) ]

/-- @main's operations, in order. -/
abbrev ops : List (HloOp τ sig (Elt F)) := ops0 ++ ops1

set_option maxRecDepth 16384 in
set_option maxHeartbeats 8000000 in
/-- The first window is that straight line: the outlined functions unfolded at their calls, both sides are one
    chain of steps once sequencing is reassociated. -/
theorem part0_eq (c : Dev nD) : main_part0 (F := F) c = seq ops0 := by
  simp only [main_part0, ops0, fn_var.body, fn_where.body, fn_relu.body, seq, bind_assoc, pure_bind]
  rfl

set_option maxRecDepth 16384 in
set_option maxHeartbeats 8000000 in
/-- The second window, likewise. -/
theorem part1_eq (c : Dev nD) : main_part1 (F := F) c = seq ops1 := by
  simp only [main_part1, ops1, fn_relu.body, fn_var_0.body, fn_where_1.body, seq, bind_assoc, pure_bind]

set_option maxRecDepth 16384 in
theorem main_eq (c : Dev nD) : main (F := F) c = seq ops := by
  simp only [ops, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem ops0_sub : (ops0 : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., reshape_bufs_sub .., reshape_bufs_sub .., nullary_bufs_sub .., unary_bufs_sub .., binary_bufs_sub .., nullary_bufs_sub .., unary_bufs_sub .., binary_bufs_sub .., ternary_bufs_sub .., unary_bufs_sub .., ternary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub ..⟩
set_option maxRecDepth 16384 in
theorem ops1_sub : (ops1 : List (HloOp τ sig (Elt F))).Forall fun op => op.bufs ⊆ tcRefs τ sig :=
  ⟨binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

/-! ## The stages -/

/-- Stage A: operations 1 … 1. -/
abbrev opsA : List (HloOp τ sig (Elt F)) :=
  [ StableHlo.binary main_arg0 main_arg3 main_v0 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]
/-- The buffers stage A writes. -/
abbrev opsA_W : List (Ref sig .tc) := [main_v0]
set_option maxRecDepth 16384 in
theorem opsA_writes : (opsA : List (HloOp τ sig (Elt F))).Forall fun op => op.writes ⊆ (opsA_W.map (Proc.devRef (τ := τ) .tc)).toFinset := by
  simp only [List.Forall]; exact (by simp only [nullary_writes, unary_writes, binary_writes, ternary_writes, quaternary_writes, reshape_writes, Finset.singleton_subset_iff, List.mem_toFinset]; exact List.mem_map_of_mem (by decide))

/-- Stage B: operations 2 … 45. -/
abbrev opsB : List (HloOp τ sig (Elt F)) :=
  [ StableHlo.nullary main_cst (constant S_ .f32 0x00000000#32),
    StableHlo.binary main_v0 main_cst main_v1 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_0 (constant S_ .f32 0x47C35000#32),
    StableHlo.unary main_cst_0 main_v2 (broadcastInDim S64 ![] bcast_S_S64 : (⟨S_, .f32⟩ : BufTy).Contents (Elt F) → (⟨S64, .f32⟩ : BufTy).Contents (Elt F)),
    StableHlo.binary main_v1 main_v2 main_v3 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary main_call0.cst (constant S_ .f32 0x00000000#32),
    StableHlo.TRef.binary (.of main_v0) main_call0.cst main_call0.v0 (fun x v => Host.reduceAdd x v reducesTo_S100000x64_S64_d0 h_S_),
    StableHlo.TRef.unary main_call0.v0 main_call0.v1 (broadcastInDim S1x64 ![1] bcast_S64_S1x64_1),
    StableHlo.TRef.nullary main_call0.cst_0 (constant S_ .f32 0x47C35000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S100000x64 ![0, 1] bcast_S1x64_S100000x64_0_1),
    StableHlo.TRef.binary (.of main_v0) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v3 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S100000x64 ![0, 1] bcast_S1x64_S100000x64_0_1 : (⟨S1x64, .f32⟩ : BufTy).Contents (Elt F) → (⟨S100000x64, .f32⟩ : BufTy).Contents (Elt F)),
    StableHlo.binary main_v0 main_v6 main_v7 (subf : (⟨S100000x64, .f32⟩ : BufTy).Contents (Elt F) → (⟨S100000x64, .f32⟩ : BufTy).Contents (Elt F) → (⟨S100000x64, .f32⟩ : BufTy).Contents (Elt F)),
    StableHlo.nullary main_cst_1 (constant S_ .f32 0x3727C5AC#32),
    StableHlo.unary main_cst_1 main_v8 (broadcastInDim S64 ![] bcast_S_S64 : (⟨S_, .f32⟩ : BufTy).Contents (Elt F) → (⟨S64, .f32⟩ : BufTy).Contents (Elt F)),
    StableHlo.binary main_v4 main_v8 main_v9 (addf : (⟨S64, .f32⟩ : BufTy).Contents (Elt F) → (⟨S64, .f32⟩ : BufTy).Contents (Elt F) → (⟨S64, .f32⟩ : BufTy).Contents (Elt F)),
    StableHlo.unary main_v9 main_v10 (Host.rsqrt : (⟨S64, .f32⟩ : BufTy).Contents (Elt F) → (⟨S64, .f32⟩ : BufTy).Contents (Elt F)),
    StableHlo.unary main_v10 main_v11 (broadcastInDim S1x64 ![1] bcast_S64_S1x64_1 : (⟨S64, .f32⟩ : BufTy).Contents (Elt F) → (⟨S1x64, .f32⟩ : BufTy).Contents (Elt F)),
    StableHlo.unary main_v11 main_v12 (broadcastInDim S100000x64 ![0, 1] bcast_S1x64_S100000x64_0_1 : (⟨S1x64, .f32⟩ : BufTy).Contents (Elt F) → (⟨S100000x64, .f32⟩ : BufTy).Contents (Elt F)),
    StableHlo.binary main_v7 main_v12 main_v13 (mulf : (⟨S100000x64, .f32⟩ : BufTy).Contents (Elt F) → (⟨S100000x64, .f32⟩ : BufTy).Contents (Elt F) → (⟨S100000x64, .f32⟩ : BufTy).Contents (Elt F)),
    StableHlo.unary main_arg4 main_v14 (broadcastInDim S1x64 ![1] bcast_S64_S1x64_1 : (⟨S64, .f32⟩ : BufTy).Contents (Elt F) → (⟨S1x64, .f32⟩ : BufTy).Contents (Elt F)),
    StableHlo.unary main_v14 main_v15 (broadcastInDim S100000x64 ![0, 1] bcast_S1x64_S100000x64_0_1 : (⟨S1x64, .f32⟩ : BufTy).Contents (Elt F) → (⟨S100000x64, .f32⟩ : BufTy).Contents (Elt F)),
    StableHlo.binary main_v13 main_v15 main_v16 (mulf : (⟨S100000x64, .f32⟩ : BufTy).Contents (Elt F) → (⟨S100000x64, .f32⟩ : BufTy).Contents (Elt F) → (⟨S100000x64, .f32⟩ : BufTy).Contents (Elt F)),
    StableHlo.unary main_arg5 main_v17 (broadcastInDim S1x64 ![1] bcast_S64_S1x64_1 : (⟨S64, .f32⟩ : BufTy).Contents (Elt F) → (⟨S1x64, .f32⟩ : BufTy).Contents (Elt F)),
    StableHlo.unary main_v17 main_v18 (broadcastInDim S100000x64 ![0, 1] bcast_S1x64_S100000x64_0_1 : (⟨S1x64, .f32⟩ : BufTy).Contents (Elt F) → (⟨S100000x64, .f32⟩ : BufTy).Contents (Elt F)),
    StableHlo.binary main_v16 main_v18 main_v19 (addf : (⟨S100000x64, .f32⟩ : BufTy).Contents (Elt F) → (⟨S100000x64, .f32⟩ : BufTy).Contents (Elt F) → (⟨S100000x64, .f32⟩ : BufTy).Contents (Elt F)) ]
/-- The buffers stage B writes. -/
abbrev opsB_W : List (Ref sig .tc) := [main_cst, main_v1, main_cst_0, main_v2, main_v3, main_c, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.cst_3.ref, main_call0.v12.ref, main_call0.cst_4.ref, main_call0.call0.v0.ref, main_call0.call0.v1.ref, main_call0.call0.v2.ref, main_v5, main_v6, main_v7, main_cst_1, main_v8, main_v9, main_v10, main_v11, main_v12, main_v13, main_v14, main_v15, main_v16, main_v17, main_v18, main_v19]
set_option maxRecDepth 16384 in
theorem opsB_writes : (opsB : List (HloOp τ sig (Elt F))).Forall fun op => op.writes ⊆ (opsB_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Stage C: operations 46 … 48. -/
abbrev opsC : List (HloOp τ sig (Elt F)) :=
  [ StableHlo.TRef.nullary main_call1.cst (constant S_ .f32 0x00000000#32),
    StableHlo.TRef.unary main_call1.cst main_call1.v0 (broadcastInDim S100000x64 ![] bcast_S_S100000x64),
    StableHlo.TRef.binary (.of main_v19) main_call1.v0 main_call1.v1 maximumf ]
/-- The buffers stage C writes. -/
abbrev opsC_W : List (Ref sig .tc) := [main_call1.cst.ref, main_call1.v0.ref, main_call1.v1.ref]
set_option maxRecDepth 16384 in
theorem opsC_writes : (opsC : List (HloOp τ sig (Elt F))).Forall fun op => op.writes ⊆ (opsC_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Stage D: operations 49 … 57. -/
abbrev opsD : List (HloOp τ sig (Elt F)) :=
  [ StableHlo.nullary main_c_2 (constantI S_ 32 0#32),
    StableHlo.unary main_c_2 main_v21 (broadcastInDim S27x50000 ![] bcast_S_S27x50000 : (⟨S_, .i32⟩ : BufTy).Contents (Elt F) → (⟨S27x50000, .i32⟩ : BufTy).Contents (Elt F)),
    StableHlo.binary main_arg1 main_v21 main_v22 (cmpi .slt : (⟨S27x50000, .i32⟩ : BufTy).Contents (Elt F) → (⟨S27x50000, .i32⟩ : BufTy).Contents (Elt F) → (⟨S27x50000, .i1⟩ : BufTy).Contents (Elt F)),
    StableHlo.nullary main_c_3 (constantI S_ 32 100000#32),
    StableHlo.unary main_c_3 main_v23 (broadcastInDim S27x50000 ![] bcast_S_S27x50000 : (⟨S_, .i32⟩ : BufTy).Contents (Elt F) → (⟨S27x50000, .i32⟩ : BufTy).Contents (Elt F)),
    StableHlo.binary main_arg1 main_v23 main_v24 (addi : (⟨S27x50000, .i32⟩ : BufTy).Contents (Elt F) → (⟨S27x50000, .i32⟩ : BufTy).Contents (Elt F) → (⟨S27x50000, .i32⟩ : BufTy).Contents (Elt F)),
    StableHlo.ternary main_v22 main_v24 main_arg1 main_v25 (select : (⟨S27x50000, .i1⟩ : BufTy).Contents (Elt F) → (⟨S27x50000, .i32⟩ : BufTy).Contents (Elt F) → (⟨S27x50000, .i32⟩ : BufTy).Contents (Elt F) → (⟨S27x50000, .i32⟩ : BufTy).Contents (Elt F)),
    StableHlo.unary main_v25 main_v26 (broadcastInDim S27x50000x1 ![0, 1] bcast_S27x50000_S27x50000x1_0_1 : (⟨S27x50000, .i32⟩ : BufTy).Contents (Elt F) → (⟨S27x50000x1, .i32⟩ : BufTy).Contents (Elt F)),
    StableHlo.binary main_v20 main_v26 main_v27 ((fun x i => Host.gather gather_S100000x64_S27x50000x1_S27x50000x64_2_0_n_n_0_2_164 x i) : (⟨S100000x64, .f32⟩ : BufTy).Contents (Elt F) → (⟨S27x50000x1, .i32⟩ : BufTy).Contents (Elt F) → (⟨S27x50000x64, .f32⟩ : BufTy).Contents (Elt F)) ]
/-- The buffers stage D writes. -/
abbrev opsD_W : List (Ref sig .tc) := [main_c_2, main_v21, main_v22, main_c_3, main_v23, main_v24, main_v25, main_v26, main_v27]
set_option maxRecDepth 16384 in
theorem opsD_writes : (opsD : List (HloOp τ sig (Elt F))).Forall fun op => op.writes ⊆ (opsD_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Stage E: operations 58 … 58. -/
abbrev opsE : List (HloOp τ sig (Elt F)) :=
  [ StableHlo.binary main_v27 main_arg6 main_v28 ((fun l r => Host.dotGeneral dot_S27x50000x64_S27x64x64_S27x50000x64_2_1_1_2_0_0 none l r) : (⟨S27x50000x64, .f32⟩ : BufTy).Contents (Elt F) → (⟨S27x64x64, .f32⟩ : BufTy).Contents (Elt F) → (⟨S27x50000x64, .f32⟩ : BufTy).Contents (Elt F)) ]
/-- The buffers stage E writes. -/
abbrev opsE_W : List (Ref sig .tc) := [main_v28]
set_option maxRecDepth 16384 in
theorem opsE_writes : (opsE : List (HloOp τ sig (Elt F))).Forall fun op => op.writes ⊆ (opsE_W.map (Proc.devRef (τ := τ) .tc)).toFinset := by
  simp only [List.Forall]; exact (by simp only [nullary_writes, unary_writes, binary_writes, ternary_writes, quaternary_writes, reshape_writes, Finset.singleton_subset_iff, List.mem_toFinset]; exact List.mem_map_of_mem (by decide))

/-- Stage G: operations 59 … 71. -/
abbrev opsG : List (HloOp τ sig (Elt F)) :=
  [ StableHlo.nullary main_cst_4 (constant S_ .f32 0x00000000#32),
    StableHlo.unary main_cst_4 main_v29 (broadcastInDim S100000x64 ![] bcast_S_S100000x64 : (⟨S_, .f32⟩ : BufTy).Contents (Elt F) → (⟨S100000x64, .f32⟩ : BufTy).Contents (Elt F)),
    StableHlo.reshape main_arg2 main_v30 rfl shapeCasts_S27x50000_S1350000,
    StableHlo.reshape main_v28 main_v31 rfl shapeCasts_S27x50000x64_S1350000x64,
    StableHlo.nullary main_c_5 (constantI S_ 32 0#32),
    StableHlo.unary main_c_5 main_v32 (broadcastInDim S1350000 ![] bcast_S_S1350000 : (⟨S_, .i32⟩ : BufTy).Contents (Elt F) → (⟨S1350000, .i32⟩ : BufTy).Contents (Elt F)),
    StableHlo.binary main_v30 main_v32 main_v33 (cmpi .slt : (⟨S1350000, .i32⟩ : BufTy).Contents (Elt F) → (⟨S1350000, .i32⟩ : BufTy).Contents (Elt F) → (⟨S1350000, .i1⟩ : BufTy).Contents (Elt F)),
    StableHlo.nullary main_c_6 (constantI S_ 32 100000#32),
    StableHlo.unary main_c_6 main_v34 (broadcastInDim S1350000 ![] bcast_S_S1350000 : (⟨S_, .i32⟩ : BufTy).Contents (Elt F) → (⟨S1350000, .i32⟩ : BufTy).Contents (Elt F)),
    StableHlo.binary main_v30 main_v34 main_v35 (addi : (⟨S1350000, .i32⟩ : BufTy).Contents (Elt F) → (⟨S1350000, .i32⟩ : BufTy).Contents (Elt F) → (⟨S1350000, .i32⟩ : BufTy).Contents (Elt F)),
    StableHlo.ternary main_v33 main_v35 main_v30 main_v36 (select : (⟨S1350000, .i1⟩ : BufTy).Contents (Elt F) → (⟨S1350000, .i32⟩ : BufTy).Contents (Elt F) → (⟨S1350000, .i32⟩ : BufTy).Contents (Elt F) → (⟨S1350000, .i32⟩ : BufTy).Contents (Elt F)),
    StableHlo.unary main_v36 main_v37 (broadcastInDim S1350000x1 ![0] bcast_S1350000_S1350000x1_0 : (⟨S1350000, .i32⟩ : BufTy).Contents (Elt F) → (⟨S1350000x1, .i32⟩ : BufTy).Contents (Elt F)),
    StableHlo.ternary main_v29 main_v37 main_v31 main_v38 ((fun x i u => Host.scatterAdd scatter_S100000x64_S1350000x1_S1350000x64_1_0_0_1 x i u) : (⟨S100000x64, .f32⟩ : BufTy).Contents (Elt F) → (⟨S1350000x1, .i32⟩ : BufTy).Contents (Elt F) → (⟨S1350000x64, .f32⟩ : BufTy).Contents (Elt F) → (⟨S100000x64, .f32⟩ : BufTy).Contents (Elt F)) ]
/-- The buffers stage G writes. -/
abbrev opsG_W : List (Ref sig .tc) := [main_cst_4, main_v29, main_v30, main_v31, main_c_5, main_v32, main_v33, main_c_6, main_v34, main_v35, main_v36, main_v37, main_v38]
set_option maxRecDepth 16384 in
theorem opsG_writes : (opsG : List (HloOp τ sig (Elt F))).Forall fun op => op.writes ⊆ (opsG_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Stage H: operations 72 … 115. -/
abbrev opsH : List (HloOp τ sig (Elt F)) :=
  [ StableHlo.nullary main_cst_7 (constant S_ .f32 0x00000000#32),
    StableHlo.binary main_v38 main_cst_7 main_v39 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_8 (constant S_ .f32 0x47C35000#32),
    StableHlo.unary main_cst_8 main_v40 (broadcastInDim S64 ![] bcast_S_S64 : (⟨S_, .f32⟩ : BufTy).Contents (Elt F) → (⟨S64, .f32⟩ : BufTy).Contents (Elt F)),
    StableHlo.binary main_v39 main_v40 main_v41 (Host.divf : (⟨S64, .f32⟩ : BufTy).Contents (Elt F) → (⟨S64, .f32⟩ : BufTy).Contents (Elt F) → (⟨S64, .f32⟩ : BufTy).Contents (Elt F)),
    StableHlo.nullary main_c_9 (constantI S_ 32 0#32),
    StableHlo.TRef.nullary main_call2.cst (constant S_ .f32 0x00000000#32),
    StableHlo.TRef.binary (.of main_v38) main_call2.cst main_call2.v0 (fun x v => Host.reduceAdd x v reducesTo_S100000x64_S64_d0 h_S_),
    StableHlo.TRef.unary main_call2.v0 main_call2.v1 (broadcastInDim S1x64 ![1] bcast_S64_S1x64_1),
    StableHlo.TRef.nullary main_call2.cst_0 (constant S_ .f32 0x47C35000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S100000x64 ![0, 1] bcast_S1x64_S100000x64_0_1),
    StableHlo.TRef.binary (.of main_v38) main_call2.v4 main_call2.v5 subf,
    StableHlo.TRef.binary main_call2.v5 main_call2.v5 main_call2.v6 mulf,
    StableHlo.TRef.unary (.of main_c_9) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v41 main_v43 (broadcastInDim S1x64 ![1] bcast_S64_S1x64_1 : (⟨S64, .f32⟩ : BufTy).Contents (Elt F) → (⟨S1x64, .f32⟩ : BufTy).Contents (Elt F)),
    StableHlo.unary main_v43 main_v44 (broadcastInDim S100000x64 ![0, 1] bcast_S1x64_S100000x64_0_1 : (⟨S1x64, .f32⟩ : BufTy).Contents (Elt F) → (⟨S100000x64, .f32⟩ : BufTy).Contents (Elt F)),
    StableHlo.binary main_v38 main_v44 main_v45 (subf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x3727C5AC#32),
    StableHlo.unary main_cst_10 main_v46 (broadcastInDim S64 ![] bcast_S_S64 : (⟨S_, .f32⟩ : BufTy).Contents (Elt F) → (⟨S64, .f32⟩ : BufTy).Contents (Elt F)),
    StableHlo.binary main_v42 main_v46 main_v47 (addf : (⟨S64, .f32⟩ : BufTy).Contents (Elt F) → (⟨S64, .f32⟩ : BufTy).Contents (Elt F) → (⟨S64, .f32⟩ : BufTy).Contents (Elt F)),
    StableHlo.unary main_v47 main_v48 (Host.rsqrt : (⟨S64, .f32⟩ : BufTy).Contents (Elt F) → (⟨S64, .f32⟩ : BufTy).Contents (Elt F)),
    StableHlo.unary main_v48 main_v49 (broadcastInDim S1x64 ![1] bcast_S64_S1x64_1 : (⟨S64, .f32⟩ : BufTy).Contents (Elt F) → (⟨S1x64, .f32⟩ : BufTy).Contents (Elt F)),
    StableHlo.unary main_v49 main_v50 (broadcastInDim S100000x64 ![0, 1] bcast_S1x64_S100000x64_0_1 : (⟨S1x64, .f32⟩ : BufTy).Contents (Elt F) → (⟨S100000x64, .f32⟩ : BufTy).Contents (Elt F)),
    StableHlo.binary main_v45 main_v50 main_v51 (mulf : (⟨S100000x64, .f32⟩ : BufTy).Contents (Elt F) → (⟨S100000x64, .f32⟩ : BufTy).Contents (Elt F) → (⟨S100000x64, .f32⟩ : BufTy).Contents (Elt F)),
    StableHlo.unary main_arg7 main_v52 (broadcastInDim S1x64 ![1] bcast_S64_S1x64_1 : (⟨S64, .f32⟩ : BufTy).Contents (Elt F) → (⟨S1x64, .f32⟩ : BufTy).Contents (Elt F)),
    StableHlo.unary main_v52 main_v53 (broadcastInDim S100000x64 ![0, 1] bcast_S1x64_S100000x64_0_1 : (⟨S1x64, .f32⟩ : BufTy).Contents (Elt F) → (⟨S100000x64, .f32⟩ : BufTy).Contents (Elt F)),
    StableHlo.binary main_v51 main_v53 main_v54 (mulf : (⟨S100000x64, .f32⟩ : BufTy).Contents (Elt F) → (⟨S100000x64, .f32⟩ : BufTy).Contents (Elt F) → (⟨S100000x64, .f32⟩ : BufTy).Contents (Elt F)),
    StableHlo.unary main_arg8 main_v55 (broadcastInDim S1x64 ![1] bcast_S64_S1x64_1 : (⟨S64, .f32⟩ : BufTy).Contents (Elt F) → (⟨S1x64, .f32⟩ : BufTy).Contents (Elt F)),
    StableHlo.unary main_v55 main_v56 (broadcastInDim S100000x64 ![0, 1] bcast_S1x64_S100000x64_0_1 : (⟨S1x64, .f32⟩ : BufTy).Contents (Elt F) → (⟨S100000x64, .f32⟩ : BufTy).Contents (Elt F)),
    StableHlo.binary main_v54 main_v56 main_v57 (addf : (⟨S100000x64, .f32⟩ : BufTy).Contents (Elt F) → (⟨S100000x64, .f32⟩ : BufTy).Contents (Elt F) → (⟨S100000x64, .f32⟩ : BufTy).Contents (Elt F)) ]
/-- The buffers stage H writes. -/
abbrev opsH_W : List (Ref sig .tc) := [main_cst_7, main_v39, main_cst_8, main_v40, main_v41, main_c_9, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v43, main_v44, main_v45, main_cst_10, main_v46, main_v47, main_v48, main_v49, main_v50, main_v51, main_v52, main_v53, main_v54, main_v55, main_v56, main_v57]
set_option maxRecDepth 16384 in
theorem opsH_writes : (opsH : List (HloOp τ sig (Elt F))).Forall fun op => op.writes ⊆ (opsH_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Stage I: operations 116 … 118. -/
abbrev opsI : List (HloOp τ sig (Elt F)) :=
  [ StableHlo.TRef.nullary main_call3.cst (constant S_ .f32 0x00000000#32),
    StableHlo.TRef.unary main_call3.cst main_call3.v0 (broadcastInDim S100000x64 ![] bcast_S_S100000x64),
    StableHlo.TRef.binary (.of main_v57) main_call3.v0 main_call3.v1 maximumf ]
/-- The buffers stage I writes. -/
abbrev opsI_W : List (Ref sig .tc) := [main_call3.cst.ref, main_call3.v0.ref, main_call3.v1.ref]
set_option maxRecDepth 16384 in
theorem opsI_writes : (opsI : List (HloOp τ sig (Elt F))).Forall fun op => op.writes ⊆ (opsI_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Stage J: operations 119 … 119. -/
abbrev opsJ : List (HloOp τ sig (Elt F)) :=
  [ StableHlo.binary main_v58 main_arg9 main_v59 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)) ]
/-- The buffers stage J writes. -/
abbrev opsJ_W : List (Ref sig .tc) := [main_v59]
set_option maxRecDepth 16384 in
theorem opsJ_writes : (opsJ : List (HloOp τ sig (Elt F))).Forall fun op => op.writes ⊆ (opsJ_W.map (Proc.devRef (τ := τ) .tc)).toFinset := by
  simp only [List.Forall]; exact (by simp only [nullary_writes, unary_writes, binary_writes, ternary_writes, quaternary_writes, reshape_writes, Finset.singleton_subset_iff, List.mem_toFinset]; exact List.mem_map_of_mem (by decide))

/-- Stage K: operations 120 … 163. -/
abbrev opsK : List (HloOp τ sig (Elt F)) :=
  [ StableHlo.nullary main_cst_11 (constant S_ .f32 0x00000000#32),
    StableHlo.binary main_v59 main_cst_11 main_v60 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_12 (constant S_ .f32 0x47C35000#32),
    StableHlo.unary main_cst_12 main_v61 (broadcastInDim S128 ![] bcast_S_S128 : (⟨S_, .f32⟩ : BufTy).Contents (Elt F) → (⟨S128, .f32⟩ : BufTy).Contents (Elt F)),
    StableHlo.binary main_v60 main_v61 main_v62 (Host.divf : (⟨S128, .f32⟩ : BufTy).Contents (Elt F) → (⟨S128, .f32⟩ : BufTy).Contents (Elt F) → (⟨S128, .f32⟩ : BufTy).Contents (Elt F)),
    StableHlo.nullary main_c_13 (constantI S_ 32 0#32),
    StableHlo.TRef.nullary main_call4.cst (constant S_ .f32 0x00000000#32),
    StableHlo.TRef.binary (.of main_v59) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v59) main_call4.v4 main_call4.v5 subf,
    StableHlo.TRef.binary main_call4.v5 main_call4.v5 main_call4.v6 mulf,
    StableHlo.TRef.unary (.of main_c_13) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v62 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S100000x128 ![0, 1] bcast_S1x128_S100000x128_0_1 : (⟨S1x128, .f32⟩ : BufTy).Contents (Elt F) → (⟨S100000x128, .f32⟩ : BufTy).Contents (Elt F)),
    StableHlo.binary main_v59 main_v65 main_v66 (subf : (⟨S100000x128, .f32⟩ : BufTy).Contents (Elt F) → (⟨S100000x128, .f32⟩ : BufTy).Contents (Elt F) → (⟨S100000x128, .f32⟩ : BufTy).Contents (Elt F)),
    StableHlo.nullary main_cst_14 (constant S_ .f32 0x3727C5AC#32),
    StableHlo.unary main_cst_14 main_v67 (broadcastInDim S128 ![] bcast_S_S128 : (⟨S_, .f32⟩ : BufTy).Contents (Elt F) → (⟨S128, .f32⟩ : BufTy).Contents (Elt F)),
    StableHlo.binary main_v63 main_v67 main_v68 (addf : (⟨S128, .f32⟩ : BufTy).Contents (Elt F) → (⟨S128, .f32⟩ : BufTy).Contents (Elt F) → (⟨S128, .f32⟩ : BufTy).Contents (Elt F)),
    StableHlo.unary main_v68 main_v69 (Host.rsqrt : (⟨S128, .f32⟩ : BufTy).Contents (Elt F) → (⟨S128, .f32⟩ : BufTy).Contents (Elt F)),
    StableHlo.unary main_v69 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S100000x128 ![0, 1] bcast_S1x128_S100000x128_0_1 : (⟨S1x128, .f32⟩ : BufTy).Contents (Elt F) → (⟨S100000x128, .f32⟩ : BufTy).Contents (Elt F)),
    StableHlo.binary main_v66 main_v71 main_v72 (mulf : (⟨S100000x128, .f32⟩ : BufTy).Contents (Elt F) → (⟨S100000x128, .f32⟩ : BufTy).Contents (Elt F) → (⟨S100000x128, .f32⟩ : BufTy).Contents (Elt F)),
    StableHlo.unary main_arg10 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S100000x128 ![0, 1] bcast_S1x128_S100000x128_0_1 : (⟨S1x128, .f32⟩ : BufTy).Contents (Elt F) → (⟨S100000x128, .f32⟩ : BufTy).Contents (Elt F)),
    StableHlo.binary main_v72 main_v74 main_v75 (mulf : (⟨S100000x128, .f32⟩ : BufTy).Contents (Elt F) → (⟨S100000x128, .f32⟩ : BufTy).Contents (Elt F) → (⟨S100000x128, .f32⟩ : BufTy).Contents (Elt F)),
    StableHlo.unary main_arg11 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S100000x128 ![0, 1] bcast_S1x128_S100000x128_0_1 : (⟨S1x128, .f32⟩ : BufTy).Contents (Elt F) → (⟨S100000x128, .f32⟩ : BufTy).Contents (Elt F)),
    StableHlo.binary main_v75 main_v77 main_v78 (addf : (⟨S100000x128, .f32⟩ : BufTy).Contents (Elt F) → (⟨S100000x128, .f32⟩ : BufTy).Contents (Elt F) → (⟨S100000x128, .f32⟩ : BufTy).Contents (Elt F)) ]
/-- The buffers stage K writes. -/
abbrev opsK_W : List (Ref sig .tc) := [main_cst_11, main_v60, main_cst_12, main_v61, main_v62, main_c_13, main_call4.cst.ref, main_call4.v0.ref, main_call4.v1.ref, main_call4.cst_0.ref, main_call4.v2.ref, main_call4.v3.ref, main_call4.v4.ref, main_call4.v5.ref, main_call4.v6.ref, main_call4.v7.ref, main_call4.cst_1.ref, main_call4.v8.ref, main_call4.cst_2.ref, main_call4.v9.ref, main_call4.v10.ref, main_call4.v11.ref, main_call4.cst_3.ref, main_call4.v12.ref, main_call4.cst_4.ref, main_call4.call0.v0.ref, main_call4.call0.v1.ref, main_call4.call0.v2.ref, main_v64, main_v65, main_v66, main_cst_14, main_v67, main_v68, main_v69, main_v70, main_v71, main_v72, main_v73, main_v74, main_v75, main_v76, main_v77, main_v78]
set_option maxRecDepth 16384 in
theorem opsK_writes : (opsK : List (HloOp τ sig (Elt F))).Forall fun op => op.writes ⊆ (opsK_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Stage L: operations 164 … 164. -/
abbrev opsL : List (HloOp τ sig (Elt F)) :=
  [ StableHlo.binary main_v78 main_arg0 main_v79 (addf : (⟨S100000x128, .f32⟩ : BufTy).Contents (Elt F) → (⟨S100000x128, .f32⟩ : BufTy).Contents (Elt F) → (⟨S100000x128, .f32⟩ : BufTy).Contents (Elt F)) ]
/-- The buffers stage L writes. -/
abbrev opsL_W : List (Ref sig .tc) := [main_v79]
set_option maxRecDepth 16384 in
theorem opsL_writes : (opsL : List (HloOp τ sig (Elt F))).Forall fun op => op.writes ⊆ (opsL_W.map (Proc.devRef (τ := τ) .tc)).toFinset := by
  simp only [List.Forall]; exact (by simp only [nullary_writes, unary_writes, binary_writes, ternary_writes, quaternary_writes, reshape_writes, Finset.singleton_subset_iff, List.mem_toFinset]; exact List.mem_map_of_mem (by decide))

set_option maxRecDepth 16384 in
/-- The operations are the stages one after the other. -/
theorem ops_stages : (ops : List (HloOp τ sig (Elt F))) = opsA ++ (opsB ++ (opsC ++ (opsD ++ (opsE ++ (opsG ++ (opsH ++ (opsI ++ (opsJ ++ (opsK ++ (opsL)))))))))) := rfl

/-- The contents after two lines run one after the other. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

end Cert.ReferenceIdeal.RefRun

end
-- ==== Proof.RefRun.lean ====
/-
  The reference program's run: every weakly fair execution of @main terminates, the result buffer holding
  `Cert.RefStages.out` of the argument arrays and the arguments unchanged. Stage by stage: the contents of a
  stage's result buffer after its operations is the stage's whole-array function of the contents of its operand
  buffers before them (each operation's result read off at its own buffer, the outlined functions' typed
  references being the buffers themselves); a buffer a stage does not write keeps its contents; the stages'
  functions compose to `out`.
-/
import proofs.«174784_j23922967838995_2_alg».proof.Proof.RefRunA
import proofs.«174784_j23922967838995_2_alg».proof.Proof.RefStages

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts
open Cert.RefStages

/-! ## Each stage's result buffer, from any contents -/

set_option maxRecDepth 16384 in
set_option maxHeartbeats 4000000 in
theorem A_out (V : Valuation τ sig (Elt Ideal)) :
    after (opsA (F := Ideal)) V (Proc.devRef .tc main_v0) = lin1 (V (Proc.devRef .tc main_arg0)) (V (Proc.devRef .tc main_arg3)) := by
  simp only [opsA]
  after_results_simp
  rfl

set_option maxRecDepth 16384 in
set_option maxHeartbeats 4000000 in
theorem B_out (V : Valuation τ sig (Elt Ideal)) :
    after (opsB (F := Ideal)) V (Proc.devRef .tc main_v19) = bn64 (V (Proc.devRef .tc main_v0)) (V (Proc.devRef .tc main_arg4)) (V (Proc.devRef .tc main_arg5)) := by
  simp only [opsB]
  after_results_simp
  rfl

set_option maxRecDepth 16384 in
set_option maxHeartbeats 4000000 in
theorem C_out (V : Valuation τ sig (Elt Ideal)) :
    after (opsC (F := Ideal)) V (Proc.devRef .tc main_v20) = relu64 (V (Proc.devRef .tc main_v19)) := by
  simp only [opsC]
  after_results_simp
  rfl

set_option maxRecDepth 16384 in
set_option maxHeartbeats 4000000 in
theorem D_out (V : Valuation τ sig (Elt Ideal)) :
    after (opsD (F := Ideal)) V (Proc.devRef .tc main_v27) = gath (V (Proc.devRef .tc main_v20)) (V (Proc.devRef .tc main_arg1)) := by
  simp only [opsD]
  after_results_simp
  rfl

set_option maxRecDepth 16384 in
set_option maxHeartbeats 4000000 in
theorem E_out (V : Valuation τ sig (Elt Ideal)) :
    after (opsE (F := Ideal)) V (Proc.devRef .tc main_v28) = bmm (V (Proc.devRef .tc main_v27)) (V (Proc.devRef .tc main_arg6)) := by
  simp only [opsE]
  after_results_simp
  rfl

set_option maxRecDepth 16384 in
set_option maxHeartbeats 4000000 in
theorem G_out (V : Valuation τ sig (Elt Ideal)) :
    after (opsG (F := Ideal)) V (Proc.devRef .tc main_v38) = scat (V (Proc.devRef .tc main_arg2)) (V (Proc.devRef .tc main_v28)) := by
  simp only [opsG]
  after_results_simp
  rfl

set_option maxRecDepth 16384 in
set_option maxHeartbeats 4000000 in
theorem H_out (V : Valuation τ sig (Elt Ideal)) :
    after (opsH (F := Ideal)) V (Proc.devRef .tc main_v57) = bn64 (V (Proc.devRef .tc main_v38)) (V (Proc.devRef .tc main_arg7)) (V (Proc.devRef .tc main_arg8)) := by
  simp only [opsH]
  after_results_simp
  rfl

set_option maxRecDepth 16384 in
set_option maxHeartbeats 4000000 in
theorem I_out (V : Valuation τ sig (Elt Ideal)) :
    after (opsI (F := Ideal)) V (Proc.devRef .tc main_v58) = relu64 (V (Proc.devRef .tc main_v57)) := by
  simp only [opsI]
  after_results_simp
  rfl

set_option maxRecDepth 16384 in
set_option maxHeartbeats 4000000 in
theorem J_out (V : Valuation τ sig (Elt Ideal)) :
    after (opsJ (F := Ideal)) V (Proc.devRef .tc main_v59) = lin3 (V (Proc.devRef .tc main_v58)) (V (Proc.devRef .tc main_arg9)) := by
  simp only [opsJ]
  after_results_simp
  rfl

set_option maxRecDepth 16384 in
set_option maxHeartbeats 4000000 in
theorem K_out (V : Valuation τ sig (Elt Ideal)) :
    after (opsK (F := Ideal)) V (Proc.devRef .tc main_v78) = bn128 (V (Proc.devRef .tc main_v59)) (V (Proc.devRef .tc main_arg10)) (V (Proc.devRef .tc main_arg11)) := by
  simp only [opsK]
  after_results_simp
  rfl

set_option maxRecDepth 16384 in
set_option maxHeartbeats 4000000 in
theorem L_out (V : Valuation τ sig (Elt Ideal)) :
    after (opsL (F := Ideal)) V (Proc.devRef .tc main_v79) = addf (F := Ideal) (s := S100000x128) (φ := .f32) (V (Proc.devRef .tc main_v78)) (V (Proc.devRef .tc main_arg0)) := by
  simp only [opsL]
  after_results_simp

/-! ## The contents after each stage, from the launch contents `V0` -/

/-- The buffers' contents after the first 1 stage. -/
def val1 (V0 : Valuation τ sig (Elt Ideal)) : Valuation τ sig (Elt Ideal) := after (opsA (F := Ideal)) V0
/-- A buffer stage A does not write keeps its contents through it. -/
theorem val1_keep (V0 : Valuation τ sig (Elt Ideal)) (r : Ref sig .tc) (h : r ∉ opsA_W) :
    val1 V0 (Proc.devRef .tc r) = V0 (Proc.devRef .tc r) :=
  after_of_writes_sub opsA _ opsA_writes h
theorem val1_main_arg0 (V0 : Valuation τ sig (Elt Ideal)) : val1 V0 (no_index (Proc.devRef .tc main_arg0)) = V0 (Proc.devRef .tc main_arg0) :=
  val1_keep V0 main_arg0 (by decide)
theorem val1_main_arg1 (V0 : Valuation τ sig (Elt Ideal)) : val1 V0 (no_index (Proc.devRef .tc main_arg1)) = V0 (Proc.devRef .tc main_arg1) :=
  val1_keep V0 main_arg1 (by decide)
theorem val1_main_arg2 (V0 : Valuation τ sig (Elt Ideal)) : val1 V0 (no_index (Proc.devRef .tc main_arg2)) = V0 (Proc.devRef .tc main_arg2) :=
  val1_keep V0 main_arg2 (by decide)
theorem val1_main_arg3 (V0 : Valuation τ sig (Elt Ideal)) : val1 V0 (no_index (Proc.devRef .tc main_arg3)) = V0 (Proc.devRef .tc main_arg3) :=
  val1_keep V0 main_arg3 (by decide)
theorem val1_main_arg4 (V0 : Valuation τ sig (Elt Ideal)) : val1 V0 (no_index (Proc.devRef .tc main_arg4)) = V0 (Proc.devRef .tc main_arg4) :=
  val1_keep V0 main_arg4 (by decide)
theorem val1_main_arg5 (V0 : Valuation τ sig (Elt Ideal)) : val1 V0 (no_index (Proc.devRef .tc main_arg5)) = V0 (Proc.devRef .tc main_arg5) :=
  val1_keep V0 main_arg5 (by decide)
theorem val1_main_arg6 (V0 : Valuation τ sig (Elt Ideal)) : val1 V0 (no_index (Proc.devRef .tc main_arg6)) = V0 (Proc.devRef .tc main_arg6) :=
  val1_keep V0 main_arg6 (by decide)
theorem val1_main_arg7 (V0 : Valuation τ sig (Elt Ideal)) : val1 V0 (no_index (Proc.devRef .tc main_arg7)) = V0 (Proc.devRef .tc main_arg7) :=
  val1_keep V0 main_arg7 (by decide)
theorem val1_main_arg8 (V0 : Valuation τ sig (Elt Ideal)) : val1 V0 (no_index (Proc.devRef .tc main_arg8)) = V0 (Proc.devRef .tc main_arg8) :=
  val1_keep V0 main_arg8 (by decide)
theorem val1_main_arg9 (V0 : Valuation τ sig (Elt Ideal)) : val1 V0 (no_index (Proc.devRef .tc main_arg9)) = V0 (Proc.devRef .tc main_arg9) :=
  val1_keep V0 main_arg9 (by decide)
theorem val1_main_arg10 (V0 : Valuation τ sig (Elt Ideal)) : val1 V0 (no_index (Proc.devRef .tc main_arg10)) = V0 (Proc.devRef .tc main_arg10) :=
  val1_keep V0 main_arg10 (by decide)
theorem val1_main_arg11 (V0 : Valuation τ sig (Elt Ideal)) : val1 V0 (no_index (Proc.devRef .tc main_arg11)) = V0 (Proc.devRef .tc main_arg11) :=
  val1_keep V0 main_arg11 (by decide)
theorem val1_main_v0 (V0 : Valuation τ sig (Elt Ideal)) : val1 V0 (no_index (Proc.devRef .tc main_v0)) = lin1 (V0 (Proc.devRef .tc main_arg0)) (V0 (Proc.devRef .tc main_arg3)) := by
  unfold val1
  rw [A_out]

/-- The buffers' contents after the first 2 stages. -/
def val2 (V0 : Valuation τ sig (Elt Ideal)) : Valuation τ sig (Elt Ideal) := after (opsB (F := Ideal)) (val1 V0)
/-- A buffer stage B does not write keeps its contents through it. -/
theorem val2_keep (V0 : Valuation τ sig (Elt Ideal)) (r : Ref sig .tc) (h : r ∉ opsB_W) :
    val2 V0 (Proc.devRef .tc r) = val1 V0 (Proc.devRef .tc r) :=
  after_of_writes_sub opsB _ opsB_writes h
theorem val2_main_arg0 (V0 : Valuation τ sig (Elt Ideal)) : val2 V0 (no_index (Proc.devRef .tc main_arg0)) = V0 (Proc.devRef .tc main_arg0) :=
  (val2_keep V0 main_arg0 (by decide)).trans (val1_main_arg0 V0)
theorem val2_main_arg1 (V0 : Valuation τ sig (Elt Ideal)) : val2 V0 (no_index (Proc.devRef .tc main_arg1)) = V0 (Proc.devRef .tc main_arg1) :=
  (val2_keep V0 main_arg1 (by decide)).trans (val1_main_arg1 V0)
theorem val2_main_arg2 (V0 : Valuation τ sig (Elt Ideal)) : val2 V0 (no_index (Proc.devRef .tc main_arg2)) = V0 (Proc.devRef .tc main_arg2) :=
  (val2_keep V0 main_arg2 (by decide)).trans (val1_main_arg2 V0)
theorem val2_main_arg3 (V0 : Valuation τ sig (Elt Ideal)) : val2 V0 (no_index (Proc.devRef .tc main_arg3)) = V0 (Proc.devRef .tc main_arg3) :=
  (val2_keep V0 main_arg3 (by decide)).trans (val1_main_arg3 V0)
theorem val2_main_arg4 (V0 : Valuation τ sig (Elt Ideal)) : val2 V0 (no_index (Proc.devRef .tc main_arg4)) = V0 (Proc.devRef .tc main_arg4) :=
  (val2_keep V0 main_arg4 (by decide)).trans (val1_main_arg4 V0)
theorem val2_main_arg5 (V0 : Valuation τ sig (Elt Ideal)) : val2 V0 (no_index (Proc.devRef .tc main_arg5)) = V0 (Proc.devRef .tc main_arg5) :=
  (val2_keep V0 main_arg5 (by decide)).trans (val1_main_arg5 V0)
theorem val2_main_arg6 (V0 : Valuation τ sig (Elt Ideal)) : val2 V0 (no_index (Proc.devRef .tc main_arg6)) = V0 (Proc.devRef .tc main_arg6) :=
  (val2_keep V0 main_arg6 (by decide)).trans (val1_main_arg6 V0)
theorem val2_main_arg7 (V0 : Valuation τ sig (Elt Ideal)) : val2 V0 (no_index (Proc.devRef .tc main_arg7)) = V0 (Proc.devRef .tc main_arg7) :=
  (val2_keep V0 main_arg7 (by decide)).trans (val1_main_arg7 V0)
theorem val2_main_arg8 (V0 : Valuation τ sig (Elt Ideal)) : val2 V0 (no_index (Proc.devRef .tc main_arg8)) = V0 (Proc.devRef .tc main_arg8) :=
  (val2_keep V0 main_arg8 (by decide)).trans (val1_main_arg8 V0)
theorem val2_main_arg9 (V0 : Valuation τ sig (Elt Ideal)) : val2 V0 (no_index (Proc.devRef .tc main_arg9)) = V0 (Proc.devRef .tc main_arg9) :=
  (val2_keep V0 main_arg9 (by decide)).trans (val1_main_arg9 V0)
theorem val2_main_arg10 (V0 : Valuation τ sig (Elt Ideal)) : val2 V0 (no_index (Proc.devRef .tc main_arg10)) = V0 (Proc.devRef .tc main_arg10) :=
  (val2_keep V0 main_arg10 (by decide)).trans (val1_main_arg10 V0)
theorem val2_main_arg11 (V0 : Valuation τ sig (Elt Ideal)) : val2 V0 (no_index (Proc.devRef .tc main_arg11)) = V0 (Proc.devRef .tc main_arg11) :=
  (val2_keep V0 main_arg11 (by decide)).trans (val1_main_arg11 V0)
theorem val2_main_v19 (V0 : Valuation τ sig (Elt Ideal)) : val2 V0 (no_index (Proc.devRef .tc main_v19)) = bn64 (lin1 (V0 (Proc.devRef .tc main_arg0)) (V0 (Proc.devRef .tc main_arg3))) (V0 (Proc.devRef .tc main_arg4)) (V0 (Proc.devRef .tc main_arg5)) := by
  unfold val2
  rw [B_out]
  simp only [val1_main_v0, val1_main_arg4, val1_main_arg5]

/-- The buffers' contents after the first 3 stages. -/
def val3 (V0 : Valuation τ sig (Elt Ideal)) : Valuation τ sig (Elt Ideal) := after (opsC (F := Ideal)) (val2 V0)
/-- A buffer stage C does not write keeps its contents through it. -/
theorem val3_keep (V0 : Valuation τ sig (Elt Ideal)) (r : Ref sig .tc) (h : r ∉ opsC_W) :
    val3 V0 (Proc.devRef .tc r) = val2 V0 (Proc.devRef .tc r) :=
  after_of_writes_sub opsC _ opsC_writes h
theorem val3_main_arg0 (V0 : Valuation τ sig (Elt Ideal)) : val3 V0 (no_index (Proc.devRef .tc main_arg0)) = V0 (Proc.devRef .tc main_arg0) :=
  (val3_keep V0 main_arg0 (by decide)).trans (val2_main_arg0 V0)
theorem val3_main_arg1 (V0 : Valuation τ sig (Elt Ideal)) : val3 V0 (no_index (Proc.devRef .tc main_arg1)) = V0 (Proc.devRef .tc main_arg1) :=
  (val3_keep V0 main_arg1 (by decide)).trans (val2_main_arg1 V0)
theorem val3_main_arg2 (V0 : Valuation τ sig (Elt Ideal)) : val3 V0 (no_index (Proc.devRef .tc main_arg2)) = V0 (Proc.devRef .tc main_arg2) :=
  (val3_keep V0 main_arg2 (by decide)).trans (val2_main_arg2 V0)
theorem val3_main_arg3 (V0 : Valuation τ sig (Elt Ideal)) : val3 V0 (no_index (Proc.devRef .tc main_arg3)) = V0 (Proc.devRef .tc main_arg3) :=
  (val3_keep V0 main_arg3 (by decide)).trans (val2_main_arg3 V0)
theorem val3_main_arg4 (V0 : Valuation τ sig (Elt Ideal)) : val3 V0 (no_index (Proc.devRef .tc main_arg4)) = V0 (Proc.devRef .tc main_arg4) :=
  (val3_keep V0 main_arg4 (by decide)).trans (val2_main_arg4 V0)
theorem val3_main_arg5 (V0 : Valuation τ sig (Elt Ideal)) : val3 V0 (no_index (Proc.devRef .tc main_arg5)) = V0 (Proc.devRef .tc main_arg5) :=
  (val3_keep V0 main_arg5 (by decide)).trans (val2_main_arg5 V0)
theorem val3_main_arg6 (V0 : Valuation τ sig (Elt Ideal)) : val3 V0 (no_index (Proc.devRef .tc main_arg6)) = V0 (Proc.devRef .tc main_arg6) :=
  (val3_keep V0 main_arg6 (by decide)).trans (val2_main_arg6 V0)
theorem val3_main_arg7 (V0 : Valuation τ sig (Elt Ideal)) : val3 V0 (no_index (Proc.devRef .tc main_arg7)) = V0 (Proc.devRef .tc main_arg7) :=
  (val3_keep V0 main_arg7 (by decide)).trans (val2_main_arg7 V0)
theorem val3_main_arg8 (V0 : Valuation τ sig (Elt Ideal)) : val3 V0 (no_index (Proc.devRef .tc main_arg8)) = V0 (Proc.devRef .tc main_arg8) :=
  (val3_keep V0 main_arg8 (by decide)).trans (val2_main_arg8 V0)
theorem val3_main_arg9 (V0 : Valuation τ sig (Elt Ideal)) : val3 V0 (no_index (Proc.devRef .tc main_arg9)) = V0 (Proc.devRef .tc main_arg9) :=
  (val3_keep V0 main_arg9 (by decide)).trans (val2_main_arg9 V0)
theorem val3_main_arg10 (V0 : Valuation τ sig (Elt Ideal)) : val3 V0 (no_index (Proc.devRef .tc main_arg10)) = V0 (Proc.devRef .tc main_arg10) :=
  (val3_keep V0 main_arg10 (by decide)).trans (val2_main_arg10 V0)
theorem val3_main_arg11 (V0 : Valuation τ sig (Elt Ideal)) : val3 V0 (no_index (Proc.devRef .tc main_arg11)) = V0 (Proc.devRef .tc main_arg11) :=
  (val3_keep V0 main_arg11 (by decide)).trans (val2_main_arg11 V0)
theorem val3_main_v20 (V0 : Valuation τ sig (Elt Ideal)) : val3 V0 (no_index (Proc.devRef .tc main_v20)) = relu64 (bn64 (lin1 (V0 (Proc.devRef .tc main_arg0)) (V0 (Proc.devRef .tc main_arg3))) (V0 (Proc.devRef .tc main_arg4)) (V0 (Proc.devRef .tc main_arg5))) := by
  unfold val3
  rw [C_out]
  simp only [val2_main_v19]

/-- The buffers' contents after the first 4 stages. -/
def val4 (V0 : Valuation τ sig (Elt Ideal)) : Valuation τ sig (Elt Ideal) := after (opsD (F := Ideal)) (val3 V0)
/-- A buffer stage D does not write keeps its contents through it. -/
theorem val4_keep (V0 : Valuation τ sig (Elt Ideal)) (r : Ref sig .tc) (h : r ∉ opsD_W) :
    val4 V0 (Proc.devRef .tc r) = val3 V0 (Proc.devRef .tc r) :=
  after_of_writes_sub opsD _ opsD_writes h
theorem val4_main_arg0 (V0 : Valuation τ sig (Elt Ideal)) : val4 V0 (no_index (Proc.devRef .tc main_arg0)) = V0 (Proc.devRef .tc main_arg0) :=
  (val4_keep V0 main_arg0 (by decide)).trans (val3_main_arg0 V0)
theorem val4_main_arg1 (V0 : Valuation τ sig (Elt Ideal)) : val4 V0 (no_index (Proc.devRef .tc main_arg1)) = V0 (Proc.devRef .tc main_arg1) :=
  (val4_keep V0 main_arg1 (by decide)).trans (val3_main_arg1 V0)
theorem val4_main_arg2 (V0 : Valuation τ sig (Elt Ideal)) : val4 V0 (no_index (Proc.devRef .tc main_arg2)) = V0 (Proc.devRef .tc main_arg2) :=
  (val4_keep V0 main_arg2 (by decide)).trans (val3_main_arg2 V0)
theorem val4_main_arg3 (V0 : Valuation τ sig (Elt Ideal)) : val4 V0 (no_index (Proc.devRef .tc main_arg3)) = V0 (Proc.devRef .tc main_arg3) :=
  (val4_keep V0 main_arg3 (by decide)).trans (val3_main_arg3 V0)
theorem val4_main_arg4 (V0 : Valuation τ sig (Elt Ideal)) : val4 V0 (no_index (Proc.devRef .tc main_arg4)) = V0 (Proc.devRef .tc main_arg4) :=
  (val4_keep V0 main_arg4 (by decide)).trans (val3_main_arg4 V0)
theorem val4_main_arg5 (V0 : Valuation τ sig (Elt Ideal)) : val4 V0 (no_index (Proc.devRef .tc main_arg5)) = V0 (Proc.devRef .tc main_arg5) :=
  (val4_keep V0 main_arg5 (by decide)).trans (val3_main_arg5 V0)
theorem val4_main_arg6 (V0 : Valuation τ sig (Elt Ideal)) : val4 V0 (no_index (Proc.devRef .tc main_arg6)) = V0 (Proc.devRef .tc main_arg6) :=
  (val4_keep V0 main_arg6 (by decide)).trans (val3_main_arg6 V0)
theorem val4_main_arg7 (V0 : Valuation τ sig (Elt Ideal)) : val4 V0 (no_index (Proc.devRef .tc main_arg7)) = V0 (Proc.devRef .tc main_arg7) :=
  (val4_keep V0 main_arg7 (by decide)).trans (val3_main_arg7 V0)
theorem val4_main_arg8 (V0 : Valuation τ sig (Elt Ideal)) : val4 V0 (no_index (Proc.devRef .tc main_arg8)) = V0 (Proc.devRef .tc main_arg8) :=
  (val4_keep V0 main_arg8 (by decide)).trans (val3_main_arg8 V0)
theorem val4_main_arg9 (V0 : Valuation τ sig (Elt Ideal)) : val4 V0 (no_index (Proc.devRef .tc main_arg9)) = V0 (Proc.devRef .tc main_arg9) :=
  (val4_keep V0 main_arg9 (by decide)).trans (val3_main_arg9 V0)
theorem val4_main_arg10 (V0 : Valuation τ sig (Elt Ideal)) : val4 V0 (no_index (Proc.devRef .tc main_arg10)) = V0 (Proc.devRef .tc main_arg10) :=
  (val4_keep V0 main_arg10 (by decide)).trans (val3_main_arg10 V0)
theorem val4_main_arg11 (V0 : Valuation τ sig (Elt Ideal)) : val4 V0 (no_index (Proc.devRef .tc main_arg11)) = V0 (Proc.devRef .tc main_arg11) :=
  (val4_keep V0 main_arg11 (by decide)).trans (val3_main_arg11 V0)
theorem val4_main_v27 (V0 : Valuation τ sig (Elt Ideal)) : val4 V0 (no_index (Proc.devRef .tc main_v27)) = gath (relu64 (bn64 (lin1 (V0 (Proc.devRef .tc main_arg0)) (V0 (Proc.devRef .tc main_arg3))) (V0 (Proc.devRef .tc main_arg4)) (V0 (Proc.devRef .tc main_arg5)))) (V0 (Proc.devRef .tc main_arg1)) := by
  unfold val4
  rw [D_out]
  simp only [val3_main_v20, val3_main_arg1]

/-- The buffers' contents after the first 5 stages. -/
def val5 (V0 : Valuation τ sig (Elt Ideal)) : Valuation τ sig (Elt Ideal) := after (opsE (F := Ideal)) (val4 V0)
/-- A buffer stage E does not write keeps its contents through it. -/
theorem val5_keep (V0 : Valuation τ sig (Elt Ideal)) (r : Ref sig .tc) (h : r ∉ opsE_W) :
    val5 V0 (Proc.devRef .tc r) = val4 V0 (Proc.devRef .tc r) :=
  after_of_writes_sub opsE _ opsE_writes h
theorem val5_main_arg0 (V0 : Valuation τ sig (Elt Ideal)) : val5 V0 (no_index (Proc.devRef .tc main_arg0)) = V0 (Proc.devRef .tc main_arg0) :=
  (val5_keep V0 main_arg0 (by decide)).trans (val4_main_arg0 V0)
theorem val5_main_arg1 (V0 : Valuation τ sig (Elt Ideal)) : val5 V0 (no_index (Proc.devRef .tc main_arg1)) = V0 (Proc.devRef .tc main_arg1) :=
  (val5_keep V0 main_arg1 (by decide)).trans (val4_main_arg1 V0)
theorem val5_main_arg2 (V0 : Valuation τ sig (Elt Ideal)) : val5 V0 (no_index (Proc.devRef .tc main_arg2)) = V0 (Proc.devRef .tc main_arg2) :=
  (val5_keep V0 main_arg2 (by decide)).trans (val4_main_arg2 V0)
theorem val5_main_arg3 (V0 : Valuation τ sig (Elt Ideal)) : val5 V0 (no_index (Proc.devRef .tc main_arg3)) = V0 (Proc.devRef .tc main_arg3) :=
  (val5_keep V0 main_arg3 (by decide)).trans (val4_main_arg3 V0)
theorem val5_main_arg4 (V0 : Valuation τ sig (Elt Ideal)) : val5 V0 (no_index (Proc.devRef .tc main_arg4)) = V0 (Proc.devRef .tc main_arg4) :=
  (val5_keep V0 main_arg4 (by decide)).trans (val4_main_arg4 V0)
theorem val5_main_arg5 (V0 : Valuation τ sig (Elt Ideal)) : val5 V0 (no_index (Proc.devRef .tc main_arg5)) = V0 (Proc.devRef .tc main_arg5) :=
  (val5_keep V0 main_arg5 (by decide)).trans (val4_main_arg5 V0)
theorem val5_main_arg6 (V0 : Valuation τ sig (Elt Ideal)) : val5 V0 (no_index (Proc.devRef .tc main_arg6)) = V0 (Proc.devRef .tc main_arg6) :=
  (val5_keep V0 main_arg6 (by decide)).trans (val4_main_arg6 V0)
theorem val5_main_arg7 (V0 : Valuation τ sig (Elt Ideal)) : val5 V0 (no_index (Proc.devRef .tc main_arg7)) = V0 (Proc.devRef .tc main_arg7) :=
  (val5_keep V0 main_arg7 (by decide)).trans (val4_main_arg7 V0)
theorem val5_main_arg8 (V0 : Valuation τ sig (Elt Ideal)) : val5 V0 (no_index (Proc.devRef .tc main_arg8)) = V0 (Proc.devRef .tc main_arg8) :=
  (val5_keep V0 main_arg8 (by decide)).trans (val4_main_arg8 V0)
theorem val5_main_arg9 (V0 : Valuation τ sig (Elt Ideal)) : val5 V0 (no_index (Proc.devRef .tc main_arg9)) = V0 (Proc.devRef .tc main_arg9) :=
  (val5_keep V0 main_arg9 (by decide)).trans (val4_main_arg9 V0)
theorem val5_main_arg10 (V0 : Valuation τ sig (Elt Ideal)) : val5 V0 (no_index (Proc.devRef .tc main_arg10)) = V0 (Proc.devRef .tc main_arg10) :=
  (val5_keep V0 main_arg10 (by decide)).trans (val4_main_arg10 V0)
theorem val5_main_arg11 (V0 : Valuation τ sig (Elt Ideal)) : val5 V0 (no_index (Proc.devRef .tc main_arg11)) = V0 (Proc.devRef .tc main_arg11) :=
  (val5_keep V0 main_arg11 (by decide)).trans (val4_main_arg11 V0)
theorem val5_main_v28 (V0 : Valuation τ sig (Elt Ideal)) : val5 V0 (no_index (Proc.devRef .tc main_v28)) = bmm (gath (relu64 (bn64 (lin1 (V0 (Proc.devRef .tc main_arg0)) (V0 (Proc.devRef .tc main_arg3))) (V0 (Proc.devRef .tc main_arg4)) (V0 (Proc.devRef .tc main_arg5)))) (V0 (Proc.devRef .tc main_arg1))) (V0 (Proc.devRef .tc main_arg6)) := by
  unfold val5
  rw [E_out]
  simp only [val4_main_v27, val4_main_arg6]

/-- The buffers' contents after the first 6 stages. -/
def val6 (V0 : Valuation τ sig (Elt Ideal)) : Valuation τ sig (Elt Ideal) := after (opsG (F := Ideal)) (val5 V0)
/-- A buffer stage G does not write keeps its contents through it. -/
theorem val6_keep (V0 : Valuation τ sig (Elt Ideal)) (r : Ref sig .tc) (h : r ∉ opsG_W) :
    val6 V0 (Proc.devRef .tc r) = val5 V0 (Proc.devRef .tc r) :=
  after_of_writes_sub opsG _ opsG_writes h
theorem val6_main_arg0 (V0 : Valuation τ sig (Elt Ideal)) : val6 V0 (no_index (Proc.devRef .tc main_arg0)) = V0 (Proc.devRef .tc main_arg0) :=
  (val6_keep V0 main_arg0 (by decide)).trans (val5_main_arg0 V0)
theorem val6_main_arg1 (V0 : Valuation τ sig (Elt Ideal)) : val6 V0 (no_index (Proc.devRef .tc main_arg1)) = V0 (Proc.devRef .tc main_arg1) :=
  (val6_keep V0 main_arg1 (by decide)).trans (val5_main_arg1 V0)
theorem val6_main_arg2 (V0 : Valuation τ sig (Elt Ideal)) : val6 V0 (no_index (Proc.devRef .tc main_arg2)) = V0 (Proc.devRef .tc main_arg2) :=
  (val6_keep V0 main_arg2 (by decide)).trans (val5_main_arg2 V0)
theorem val6_main_arg3 (V0 : Valuation τ sig (Elt Ideal)) : val6 V0 (no_index (Proc.devRef .tc main_arg3)) = V0 (Proc.devRef .tc main_arg3) :=
  (val6_keep V0 main_arg3 (by decide)).trans (val5_main_arg3 V0)
theorem val6_main_arg4 (V0 : Valuation τ sig (Elt Ideal)) : val6 V0 (no_index (Proc.devRef .tc main_arg4)) = V0 (Proc.devRef .tc main_arg4) :=
  (val6_keep V0 main_arg4 (by decide)).trans (val5_main_arg4 V0)
theorem val6_main_arg5 (V0 : Valuation τ sig (Elt Ideal)) : val6 V0 (no_index (Proc.devRef .tc main_arg5)) = V0 (Proc.devRef .tc main_arg5) :=
  (val6_keep V0 main_arg5 (by decide)).trans (val5_main_arg5 V0)
theorem val6_main_arg6 (V0 : Valuation τ sig (Elt Ideal)) : val6 V0 (no_index (Proc.devRef .tc main_arg6)) = V0 (Proc.devRef .tc main_arg6) :=
  (val6_keep V0 main_arg6 (by decide)).trans (val5_main_arg6 V0)
theorem val6_main_arg7 (V0 : Valuation τ sig (Elt Ideal)) : val6 V0 (no_index (Proc.devRef .tc main_arg7)) = V0 (Proc.devRef .tc main_arg7) :=
  (val6_keep V0 main_arg7 (by decide)).trans (val5_main_arg7 V0)
theorem val6_main_arg8 (V0 : Valuation τ sig (Elt Ideal)) : val6 V0 (no_index (Proc.devRef .tc main_arg8)) = V0 (Proc.devRef .tc main_arg8) :=
  (val6_keep V0 main_arg8 (by decide)).trans (val5_main_arg8 V0)
theorem val6_main_arg9 (V0 : Valuation τ sig (Elt Ideal)) : val6 V0 (no_index (Proc.devRef .tc main_arg9)) = V0 (Proc.devRef .tc main_arg9) :=
  (val6_keep V0 main_arg9 (by decide)).trans (val5_main_arg9 V0)
theorem val6_main_arg10 (V0 : Valuation τ sig (Elt Ideal)) : val6 V0 (no_index (Proc.devRef .tc main_arg10)) = V0 (Proc.devRef .tc main_arg10) :=
  (val6_keep V0 main_arg10 (by decide)).trans (val5_main_arg10 V0)
theorem val6_main_arg11 (V0 : Valuation τ sig (Elt Ideal)) : val6 V0 (no_index (Proc.devRef .tc main_arg11)) = V0 (Proc.devRef .tc main_arg11) :=
  (val6_keep V0 main_arg11 (by decide)).trans (val5_main_arg11 V0)
theorem val6_main_v38 (V0 : Valuation τ sig (Elt Ideal)) : val6 V0 (no_index (Proc.devRef .tc main_v38)) = scat (V0 (Proc.devRef .tc main_arg2)) (bmm (gath (relu64 (bn64 (lin1 (V0 (Proc.devRef .tc main_arg0)) (V0 (Proc.devRef .tc main_arg3))) (V0 (Proc.devRef .tc main_arg4)) (V0 (Proc.devRef .tc main_arg5)))) (V0 (Proc.devRef .tc main_arg1))) (V0 (Proc.devRef .tc main_arg6))) := by
  unfold val6
  rw [G_out]
  simp only [val5_main_arg2, val5_main_v28]

/-- The buffers' contents after the first 7 stages. -/
def val7 (V0 : Valuation τ sig (Elt Ideal)) : Valuation τ sig (Elt Ideal) := after (opsH (F := Ideal)) (val6 V0)
/-- A buffer stage H does not write keeps its contents through it. -/
theorem val7_keep (V0 : Valuation τ sig (Elt Ideal)) (r : Ref sig .tc) (h : r ∉ opsH_W) :
    val7 V0 (Proc.devRef .tc r) = val6 V0 (Proc.devRef .tc r) :=
  after_of_writes_sub opsH _ opsH_writes h
theorem val7_main_arg0 (V0 : Valuation τ sig (Elt Ideal)) : val7 V0 (no_index (Proc.devRef .tc main_arg0)) = V0 (Proc.devRef .tc main_arg0) :=
  (val7_keep V0 main_arg0 (by decide)).trans (val6_main_arg0 V0)
theorem val7_main_arg1 (V0 : Valuation τ sig (Elt Ideal)) : val7 V0 (no_index (Proc.devRef .tc main_arg1)) = V0 (Proc.devRef .tc main_arg1) :=
  (val7_keep V0 main_arg1 (by decide)).trans (val6_main_arg1 V0)
theorem val7_main_arg2 (V0 : Valuation τ sig (Elt Ideal)) : val7 V0 (no_index (Proc.devRef .tc main_arg2)) = V0 (Proc.devRef .tc main_arg2) :=
  (val7_keep V0 main_arg2 (by decide)).trans (val6_main_arg2 V0)
theorem val7_main_arg3 (V0 : Valuation τ sig (Elt Ideal)) : val7 V0 (no_index (Proc.devRef .tc main_arg3)) = V0 (Proc.devRef .tc main_arg3) :=
  (val7_keep V0 main_arg3 (by decide)).trans (val6_main_arg3 V0)
theorem val7_main_arg4 (V0 : Valuation τ sig (Elt Ideal)) : val7 V0 (no_index (Proc.devRef .tc main_arg4)) = V0 (Proc.devRef .tc main_arg4) :=
  (val7_keep V0 main_arg4 (by decide)).trans (val6_main_arg4 V0)
theorem val7_main_arg5 (V0 : Valuation τ sig (Elt Ideal)) : val7 V0 (no_index (Proc.devRef .tc main_arg5)) = V0 (Proc.devRef .tc main_arg5) :=
  (val7_keep V0 main_arg5 (by decide)).trans (val6_main_arg5 V0)
theorem val7_main_arg6 (V0 : Valuation τ sig (Elt Ideal)) : val7 V0 (no_index (Proc.devRef .tc main_arg6)) = V0 (Proc.devRef .tc main_arg6) :=
  (val7_keep V0 main_arg6 (by decide)).trans (val6_main_arg6 V0)
theorem val7_main_arg7 (V0 : Valuation τ sig (Elt Ideal)) : val7 V0 (no_index (Proc.devRef .tc main_arg7)) = V0 (Proc.devRef .tc main_arg7) :=
  (val7_keep V0 main_arg7 (by decide)).trans (val6_main_arg7 V0)
theorem val7_main_arg8 (V0 : Valuation τ sig (Elt Ideal)) : val7 V0 (no_index (Proc.devRef .tc main_arg8)) = V0 (Proc.devRef .tc main_arg8) :=
  (val7_keep V0 main_arg8 (by decide)).trans (val6_main_arg8 V0)
theorem val7_main_arg9 (V0 : Valuation τ sig (Elt Ideal)) : val7 V0 (no_index (Proc.devRef .tc main_arg9)) = V0 (Proc.devRef .tc main_arg9) :=
  (val7_keep V0 main_arg9 (by decide)).trans (val6_main_arg9 V0)
theorem val7_main_arg10 (V0 : Valuation τ sig (Elt Ideal)) : val7 V0 (no_index (Proc.devRef .tc main_arg10)) = V0 (Proc.devRef .tc main_arg10) :=
  (val7_keep V0 main_arg10 (by decide)).trans (val6_main_arg10 V0)
theorem val7_main_arg11 (V0 : Valuation τ sig (Elt Ideal)) : val7 V0 (no_index (Proc.devRef .tc main_arg11)) = V0 (Proc.devRef .tc main_arg11) :=
  (val7_keep V0 main_arg11 (by decide)).trans (val6_main_arg11 V0)
theorem val7_main_v57 (V0 : Valuation τ sig (Elt Ideal)) : val7 V0 (no_index (Proc.devRef .tc main_v57)) = bn64 (scat (V0 (Proc.devRef .tc main_arg2)) (bmm (gath (relu64 (bn64 (lin1 (V0 (Proc.devRef .tc main_arg0)) (V0 (Proc.devRef .tc main_arg3))) (V0 (Proc.devRef .tc main_arg4)) (V0 (Proc.devRef .tc main_arg5)))) (V0 (Proc.devRef .tc main_arg1))) (V0 (Proc.devRef .tc main_arg6)))) (V0 (Proc.devRef .tc main_arg7)) (V0 (Proc.devRef .tc main_arg8)) := by
  unfold val7
  rw [H_out]
  simp only [val6_main_v38, val6_main_arg7, val6_main_arg8]

/-- The buffers' contents after the first 8 stages. -/
def val8 (V0 : Valuation τ sig (Elt Ideal)) : Valuation τ sig (Elt Ideal) := after (opsI (F := Ideal)) (val7 V0)
/-- A buffer stage I does not write keeps its contents through it. -/
theorem val8_keep (V0 : Valuation τ sig (Elt Ideal)) (r : Ref sig .tc) (h : r ∉ opsI_W) :
    val8 V0 (Proc.devRef .tc r) = val7 V0 (Proc.devRef .tc r) :=
  after_of_writes_sub opsI _ opsI_writes h
theorem val8_main_arg0 (V0 : Valuation τ sig (Elt Ideal)) : val8 V0 (no_index (Proc.devRef .tc main_arg0)) = V0 (Proc.devRef .tc main_arg0) :=
  (val8_keep V0 main_arg0 (by decide)).trans (val7_main_arg0 V0)
theorem val8_main_arg1 (V0 : Valuation τ sig (Elt Ideal)) : val8 V0 (no_index (Proc.devRef .tc main_arg1)) = V0 (Proc.devRef .tc main_arg1) :=
  (val8_keep V0 main_arg1 (by decide)).trans (val7_main_arg1 V0)
theorem val8_main_arg2 (V0 : Valuation τ sig (Elt Ideal)) : val8 V0 (no_index (Proc.devRef .tc main_arg2)) = V0 (Proc.devRef .tc main_arg2) :=
  (val8_keep V0 main_arg2 (by decide)).trans (val7_main_arg2 V0)
theorem val8_main_arg3 (V0 : Valuation τ sig (Elt Ideal)) : val8 V0 (no_index (Proc.devRef .tc main_arg3)) = V0 (Proc.devRef .tc main_arg3) :=
  (val8_keep V0 main_arg3 (by decide)).trans (val7_main_arg3 V0)
theorem val8_main_arg4 (V0 : Valuation τ sig (Elt Ideal)) : val8 V0 (no_index (Proc.devRef .tc main_arg4)) = V0 (Proc.devRef .tc main_arg4) :=
  (val8_keep V0 main_arg4 (by decide)).trans (val7_main_arg4 V0)
theorem val8_main_arg5 (V0 : Valuation τ sig (Elt Ideal)) : val8 V0 (no_index (Proc.devRef .tc main_arg5)) = V0 (Proc.devRef .tc main_arg5) :=
  (val8_keep V0 main_arg5 (by decide)).trans (val7_main_arg5 V0)
theorem val8_main_arg6 (V0 : Valuation τ sig (Elt Ideal)) : val8 V0 (no_index (Proc.devRef .tc main_arg6)) = V0 (Proc.devRef .tc main_arg6) :=
  (val8_keep V0 main_arg6 (by decide)).trans (val7_main_arg6 V0)
theorem val8_main_arg7 (V0 : Valuation τ sig (Elt Ideal)) : val8 V0 (no_index (Proc.devRef .tc main_arg7)) = V0 (Proc.devRef .tc main_arg7) :=
  (val8_keep V0 main_arg7 (by decide)).trans (val7_main_arg7 V0)
theorem val8_main_arg8 (V0 : Valuation τ sig (Elt Ideal)) : val8 V0 (no_index (Proc.devRef .tc main_arg8)) = V0 (Proc.devRef .tc main_arg8) :=
  (val8_keep V0 main_arg8 (by decide)).trans (val7_main_arg8 V0)
theorem val8_main_arg9 (V0 : Valuation τ sig (Elt Ideal)) : val8 V0 (no_index (Proc.devRef .tc main_arg9)) = V0 (Proc.devRef .tc main_arg9) :=
  (val8_keep V0 main_arg9 (by decide)).trans (val7_main_arg9 V0)
theorem val8_main_arg10 (V0 : Valuation τ sig (Elt Ideal)) : val8 V0 (no_index (Proc.devRef .tc main_arg10)) = V0 (Proc.devRef .tc main_arg10) :=
  (val8_keep V0 main_arg10 (by decide)).trans (val7_main_arg10 V0)
theorem val8_main_arg11 (V0 : Valuation τ sig (Elt Ideal)) : val8 V0 (no_index (Proc.devRef .tc main_arg11)) = V0 (Proc.devRef .tc main_arg11) :=
  (val8_keep V0 main_arg11 (by decide)).trans (val7_main_arg11 V0)
theorem val8_main_v58 (V0 : Valuation τ sig (Elt Ideal)) : val8 V0 (no_index (Proc.devRef .tc main_v58)) = relu64 (bn64 (scat (V0 (Proc.devRef .tc main_arg2)) (bmm (gath (relu64 (bn64 (lin1 (V0 (Proc.devRef .tc main_arg0)) (V0 (Proc.devRef .tc main_arg3))) (V0 (Proc.devRef .tc main_arg4)) (V0 (Proc.devRef .tc main_arg5)))) (V0 (Proc.devRef .tc main_arg1))) (V0 (Proc.devRef .tc main_arg6)))) (V0 (Proc.devRef .tc main_arg7)) (V0 (Proc.devRef .tc main_arg8))) := by
  unfold val8
  rw [I_out]
  simp only [val7_main_v57]

/-- The buffers' contents after the first 9 stages. -/
def val9 (V0 : Valuation τ sig (Elt Ideal)) : Valuation τ sig (Elt Ideal) := after (opsJ (F := Ideal)) (val8 V0)
/-- A buffer stage J does not write keeps its contents through it. -/
theorem val9_keep (V0 : Valuation τ sig (Elt Ideal)) (r : Ref sig .tc) (h : r ∉ opsJ_W) :
    val9 V0 (Proc.devRef .tc r) = val8 V0 (Proc.devRef .tc r) :=
  after_of_writes_sub opsJ _ opsJ_writes h
theorem val9_main_arg0 (V0 : Valuation τ sig (Elt Ideal)) : val9 V0 (no_index (Proc.devRef .tc main_arg0)) = V0 (Proc.devRef .tc main_arg0) :=
  (val9_keep V0 main_arg0 (by decide)).trans (val8_main_arg0 V0)
theorem val9_main_arg1 (V0 : Valuation τ sig (Elt Ideal)) : val9 V0 (no_index (Proc.devRef .tc main_arg1)) = V0 (Proc.devRef .tc main_arg1) :=
  (val9_keep V0 main_arg1 (by decide)).trans (val8_main_arg1 V0)
theorem val9_main_arg2 (V0 : Valuation τ sig (Elt Ideal)) : val9 V0 (no_index (Proc.devRef .tc main_arg2)) = V0 (Proc.devRef .tc main_arg2) :=
  (val9_keep V0 main_arg2 (by decide)).trans (val8_main_arg2 V0)
theorem val9_main_arg3 (V0 : Valuation τ sig (Elt Ideal)) : val9 V0 (no_index (Proc.devRef .tc main_arg3)) = V0 (Proc.devRef .tc main_arg3) :=
  (val9_keep V0 main_arg3 (by decide)).trans (val8_main_arg3 V0)
theorem val9_main_arg4 (V0 : Valuation τ sig (Elt Ideal)) : val9 V0 (no_index (Proc.devRef .tc main_arg4)) = V0 (Proc.devRef .tc main_arg4) :=
  (val9_keep V0 main_arg4 (by decide)).trans (val8_main_arg4 V0)
theorem val9_main_arg5 (V0 : Valuation τ sig (Elt Ideal)) : val9 V0 (no_index (Proc.devRef .tc main_arg5)) = V0 (Proc.devRef .tc main_arg5) :=
  (val9_keep V0 main_arg5 (by decide)).trans (val8_main_arg5 V0)
theorem val9_main_arg6 (V0 : Valuation τ sig (Elt Ideal)) : val9 V0 (no_index (Proc.devRef .tc main_arg6)) = V0 (Proc.devRef .tc main_arg6) :=
  (val9_keep V0 main_arg6 (by decide)).trans (val8_main_arg6 V0)
theorem val9_main_arg7 (V0 : Valuation τ sig (Elt Ideal)) : val9 V0 (no_index (Proc.devRef .tc main_arg7)) = V0 (Proc.devRef .tc main_arg7) :=
  (val9_keep V0 main_arg7 (by decide)).trans (val8_main_arg7 V0)
theorem val9_main_arg8 (V0 : Valuation τ sig (Elt Ideal)) : val9 V0 (no_index (Proc.devRef .tc main_arg8)) = V0 (Proc.devRef .tc main_arg8) :=
  (val9_keep V0 main_arg8 (by decide)).trans (val8_main_arg8 V0)
theorem val9_main_arg9 (V0 : Valuation τ sig (Elt Ideal)) : val9 V0 (no_index (Proc.devRef .tc main_arg9)) = V0 (Proc.devRef .tc main_arg9) :=
  (val9_keep V0 main_arg9 (by decide)).trans (val8_main_arg9 V0)
theorem val9_main_arg10 (V0 : Valuation τ sig (Elt Ideal)) : val9 V0 (no_index (Proc.devRef .tc main_arg10)) = V0 (Proc.devRef .tc main_arg10) :=
  (val9_keep V0 main_arg10 (by decide)).trans (val8_main_arg10 V0)
theorem val9_main_arg11 (V0 : Valuation τ sig (Elt Ideal)) : val9 V0 (no_index (Proc.devRef .tc main_arg11)) = V0 (Proc.devRef .tc main_arg11) :=
  (val9_keep V0 main_arg11 (by decide)).trans (val8_main_arg11 V0)
theorem val9_main_v59 (V0 : Valuation τ sig (Elt Ideal)) : val9 V0 (no_index (Proc.devRef .tc main_v59)) = lin3 (relu64 (bn64 (scat (V0 (Proc.devRef .tc main_arg2)) (bmm (gath (relu64 (bn64 (lin1 (V0 (Proc.devRef .tc main_arg0)) (V0 (Proc.devRef .tc main_arg3))) (V0 (Proc.devRef .tc main_arg4)) (V0 (Proc.devRef .tc main_arg5)))) (V0 (Proc.devRef .tc main_arg1))) (V0 (Proc.devRef .tc main_arg6)))) (V0 (Proc.devRef .tc main_arg7)) (V0 (Proc.devRef .tc main_arg8)))) (V0 (Proc.devRef .tc main_arg9)) := by
  unfold val9
  rw [J_out]
  simp only [val8_main_v58, val8_main_arg9]

/-- The buffers' contents after the first 10 stages. -/
def val10 (V0 : Valuation τ sig (Elt Ideal)) : Valuation τ sig (Elt Ideal) := after (opsK (F := Ideal)) (val9 V0)
/-- A buffer stage K does not write keeps its contents through it. -/
theorem val10_keep (V0 : Valuation τ sig (Elt Ideal)) (r : Ref sig .tc) (h : r ∉ opsK_W) :
    val10 V0 (Proc.devRef .tc r) = val9 V0 (Proc.devRef .tc r) :=
  after_of_writes_sub opsK _ opsK_writes h
theorem val10_main_arg0 (V0 : Valuation τ sig (Elt Ideal)) : val10 V0 (no_index (Proc.devRef .tc main_arg0)) = V0 (Proc.devRef .tc main_arg0) :=
  (val10_keep V0 main_arg0 (by decide)).trans (val9_main_arg0 V0)
theorem val10_main_arg1 (V0 : Valuation τ sig (Elt Ideal)) : val10 V0 (no_index (Proc.devRef .tc main_arg1)) = V0 (Proc.devRef .tc main_arg1) :=
  (val10_keep V0 main_arg1 (by decide)).trans (val9_main_arg1 V0)
theorem val10_main_arg2 (V0 : Valuation τ sig (Elt Ideal)) : val10 V0 (no_index (Proc.devRef .tc main_arg2)) = V0 (Proc.devRef .tc main_arg2) :=
  (val10_keep V0 main_arg2 (by decide)).trans (val9_main_arg2 V0)
theorem val10_main_arg3 (V0 : Valuation τ sig (Elt Ideal)) : val10 V0 (no_index (Proc.devRef .tc main_arg3)) = V0 (Proc.devRef .tc main_arg3) :=
  (val10_keep V0 main_arg3 (by decide)).trans (val9_main_arg3 V0)
theorem val10_main_arg4 (V0 : Valuation τ sig (Elt Ideal)) : val10 V0 (no_index (Proc.devRef .tc main_arg4)) = V0 (Proc.devRef .tc main_arg4) :=
  (val10_keep V0 main_arg4 (by decide)).trans (val9_main_arg4 V0)
theorem val10_main_arg5 (V0 : Valuation τ sig (Elt Ideal)) : val10 V0 (no_index (Proc.devRef .tc main_arg5)) = V0 (Proc.devRef .tc main_arg5) :=
  (val10_keep V0 main_arg5 (by decide)).trans (val9_main_arg5 V0)
theorem val10_main_arg6 (V0 : Valuation τ sig (Elt Ideal)) : val10 V0 (no_index (Proc.devRef .tc main_arg6)) = V0 (Proc.devRef .tc main_arg6) :=
  (val10_keep V0 main_arg6 (by decide)).trans (val9_main_arg6 V0)
theorem val10_main_arg7 (V0 : Valuation τ sig (Elt Ideal)) : val10 V0 (no_index (Proc.devRef .tc main_arg7)) = V0 (Proc.devRef .tc main_arg7) :=
  (val10_keep V0 main_arg7 (by decide)).trans (val9_main_arg7 V0)
theorem val10_main_arg8 (V0 : Valuation τ sig (Elt Ideal)) : val10 V0 (no_index (Proc.devRef .tc main_arg8)) = V0 (Proc.devRef .tc main_arg8) :=
  (val10_keep V0 main_arg8 (by decide)).trans (val9_main_arg8 V0)
theorem val10_main_arg9 (V0 : Valuation τ sig (Elt Ideal)) : val10 V0 (no_index (Proc.devRef .tc main_arg9)) = V0 (Proc.devRef .tc main_arg9) :=
  (val10_keep V0 main_arg9 (by decide)).trans (val9_main_arg9 V0)
theorem val10_main_arg10 (V0 : Valuation τ sig (Elt Ideal)) : val10 V0 (no_index (Proc.devRef .tc main_arg10)) = V0 (Proc.devRef .tc main_arg10) :=
  (val10_keep V0 main_arg10 (by decide)).trans (val9_main_arg10 V0)
theorem val10_main_arg11 (V0 : Valuation τ sig (Elt Ideal)) : val10 V0 (no_index (Proc.devRef .tc main_arg11)) = V0 (Proc.devRef .tc main_arg11) :=
  (val10_keep V0 main_arg11 (by decide)).trans (val9_main_arg11 V0)
theorem val10_main_v78 (V0 : Valuation τ sig (Elt Ideal)) : val10 V0 (no_index (Proc.devRef .tc main_v78)) = bn128 (lin3 (relu64 (bn64 (scat (V0 (Proc.devRef .tc main_arg2)) (bmm (gath (relu64 (bn64 (lin1 (V0 (Proc.devRef .tc main_arg0)) (V0 (Proc.devRef .tc main_arg3))) (V0 (Proc.devRef .tc main_arg4)) (V0 (Proc.devRef .tc main_arg5)))) (V0 (Proc.devRef .tc main_arg1))) (V0 (Proc.devRef .tc main_arg6)))) (V0 (Proc.devRef .tc main_arg7)) (V0 (Proc.devRef .tc main_arg8)))) (V0 (Proc.devRef .tc main_arg9))) (V0 (Proc.devRef .tc main_arg10)) (V0 (Proc.devRef .tc main_arg11)) := by
  unfold val10
  rw [K_out]
  simp only [val9_main_v59, val9_main_arg10, val9_main_arg11]

/-- The buffers' contents after the first 11 stages. -/
def val11 (V0 : Valuation τ sig (Elt Ideal)) : Valuation τ sig (Elt Ideal) := after (opsL (F := Ideal)) (val10 V0)
/-- A buffer stage L does not write keeps its contents through it. -/
theorem val11_keep (V0 : Valuation τ sig (Elt Ideal)) (r : Ref sig .tc) (h : r ∉ opsL_W) :
    val11 V0 (Proc.devRef .tc r) = val10 V0 (Proc.devRef .tc r) :=
  after_of_writes_sub opsL _ opsL_writes h
theorem val11_main_arg0 (V0 : Valuation τ sig (Elt Ideal)) : val11 V0 (no_index (Proc.devRef .tc main_arg0)) = V0 (Proc.devRef .tc main_arg0) :=
  (val11_keep V0 main_arg0 (by decide)).trans (val10_main_arg0 V0)
theorem val11_main_arg1 (V0 : Valuation τ sig (Elt Ideal)) : val11 V0 (no_index (Proc.devRef .tc main_arg1)) = V0 (Proc.devRef .tc main_arg1) :=
  (val11_keep V0 main_arg1 (by decide)).trans (val10_main_arg1 V0)
theorem val11_main_arg2 (V0 : Valuation τ sig (Elt Ideal)) : val11 V0 (no_index (Proc.devRef .tc main_arg2)) = V0 (Proc.devRef .tc main_arg2) :=
  (val11_keep V0 main_arg2 (by decide)).trans (val10_main_arg2 V0)
theorem val11_main_arg3 (V0 : Valuation τ sig (Elt Ideal)) : val11 V0 (no_index (Proc.devRef .tc main_arg3)) = V0 (Proc.devRef .tc main_arg3) :=
  (val11_keep V0 main_arg3 (by decide)).trans (val10_main_arg3 V0)
theorem val11_main_arg4 (V0 : Valuation τ sig (Elt Ideal)) : val11 V0 (no_index (Proc.devRef .tc main_arg4)) = V0 (Proc.devRef .tc main_arg4) :=
  (val11_keep V0 main_arg4 (by decide)).trans (val10_main_arg4 V0)
theorem val11_main_arg5 (V0 : Valuation τ sig (Elt Ideal)) : val11 V0 (no_index (Proc.devRef .tc main_arg5)) = V0 (Proc.devRef .tc main_arg5) :=
  (val11_keep V0 main_arg5 (by decide)).trans (val10_main_arg5 V0)
theorem val11_main_arg6 (V0 : Valuation τ sig (Elt Ideal)) : val11 V0 (no_index (Proc.devRef .tc main_arg6)) = V0 (Proc.devRef .tc main_arg6) :=
  (val11_keep V0 main_arg6 (by decide)).trans (val10_main_arg6 V0)
theorem val11_main_arg7 (V0 : Valuation τ sig (Elt Ideal)) : val11 V0 (no_index (Proc.devRef .tc main_arg7)) = V0 (Proc.devRef .tc main_arg7) :=
  (val11_keep V0 main_arg7 (by decide)).trans (val10_main_arg7 V0)
theorem val11_main_arg8 (V0 : Valuation τ sig (Elt Ideal)) : val11 V0 (no_index (Proc.devRef .tc main_arg8)) = V0 (Proc.devRef .tc main_arg8) :=
  (val11_keep V0 main_arg8 (by decide)).trans (val10_main_arg8 V0)
theorem val11_main_arg9 (V0 : Valuation τ sig (Elt Ideal)) : val11 V0 (no_index (Proc.devRef .tc main_arg9)) = V0 (Proc.devRef .tc main_arg9) :=
  (val11_keep V0 main_arg9 (by decide)).trans (val10_main_arg9 V0)
theorem val11_main_arg10 (V0 : Valuation τ sig (Elt Ideal)) : val11 V0 (no_index (Proc.devRef .tc main_arg10)) = V0 (Proc.devRef .tc main_arg10) :=
  (val11_keep V0 main_arg10 (by decide)).trans (val10_main_arg10 V0)
theorem val11_main_arg11 (V0 : Valuation τ sig (Elt Ideal)) : val11 V0 (no_index (Proc.devRef .tc main_arg11)) = V0 (Proc.devRef .tc main_arg11) :=
  (val11_keep V0 main_arg11 (by decide)).trans (val10_main_arg11 V0)
theorem val11_main_v79 (V0 : Valuation τ sig (Elt Ideal)) : val11 V0 (no_index (Proc.devRef .tc main_v79)) = addf (F := Ideal) (s := S100000x128) (φ := .f32) (bn128 (lin3 (relu64 (bn64 (scat (V0 (Proc.devRef .tc main_arg2)) (bmm (gath (relu64 (bn64 (lin1 (V0 (Proc.devRef .tc main_arg0)) (V0 (Proc.devRef .tc main_arg3))) (V0 (Proc.devRef .tc main_arg4)) (V0 (Proc.devRef .tc main_arg5)))) (V0 (Proc.devRef .tc main_arg1))) (V0 (Proc.devRef .tc main_arg6)))) (V0 (Proc.devRef .tc main_arg7)) (V0 (Proc.devRef .tc main_arg8)))) (V0 (Proc.devRef .tc main_arg9))) (V0 (Proc.devRef .tc main_arg10)) (V0 (Proc.devRef .tc main_arg11))) (V0 (Proc.devRef .tc main_arg0)) := by
  unfold val11
  rw [L_out]
  simp only [val10_main_v78, val10_main_arg0]

set_option maxRecDepth 16384 in
/-- The operations' fold is the stages' chain. -/
theorem after_ops (V0 : Valuation τ sig (Elt Ideal)) : after (ops (F := Ideal)) V0 = val11 V0 := by
  rw [ops_stages]
  simp only [after_app]
  rfl

/-- The result buffer after @main: `out` of the arguments. -/
theorem val11_out (V0 : Valuation τ sig (Elt Ideal)) : val11 V0 (no_index (Proc.devRef .tc main_v79)) = Cert.RefStages.out (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) :=
  val11_main_v79 V0

/-- At the compiled mesh, from any memory with zero counters: every weakly fair execution of the reference's
    @main terminates with the result buffer at `Cert.RefStages.out` of the argument arrays' launch contents, and
    the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v79) = Cert.RefStages.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c main_v79).trans (by simp only [after_ops]; exact val11_out (launchContents m c)),
      (h c main_arg0).trans (by simp only [after_ops]; exact val11_main_arg0 (launchContents m c)),
      (h c main_arg1).trans (by simp only [after_ops]; exact val11_main_arg1 (launchContents m c)),
      (h c main_arg2).trans (by simp only [after_ops]; exact val11_main_arg2 (launchContents m c)),
      (h c main_arg3).trans (by simp only [after_ops]; exact val11_main_arg3 (launchContents m c)),
      (h c main_arg4).trans (by simp only [after_ops]; exact val11_main_arg4 (launchContents m c)),
      (h c main_arg5).trans (by simp only [after_ops]; exact val11_main_arg5 (launchContents m c)),
      (h c main_arg6).trans (by simp only [after_ops]; exact val11_main_arg6 (launchContents m c)),
      (h c main_arg7).trans (by simp only [after_ops]; exact val11_main_arg7 (launchContents m c)),
      (h c main_arg8).trans (by simp only [after_ops]; exact val11_main_arg8 (launchContents m c)),
      (h c main_arg9).trans (by simp only [after_ops]; exact val11_main_arg9 (launchContents m c)),
      (h c main_arg10).trans (by simp only [after_ops]; exact val11_main_arg10 (launchContents m c)),
      (h c main_arg11).trans (by simp only [after_ops]; exact val11_main_arg11 (launchContents m c))⟩)
    (run_seq scopedRefs_eq scopedSems_eq defs main (fun _ => ops) main_eq (fun _ => ops_sub) m ρ)

end Cert.ReferenceIdeal.RefRun

end
-- ==== Proof.LibVariance.lean ====
/-
  The two ways of writing a variance agree on real numbers.

  For real numbers `f r` indexed by a finite type with `n` elements, `n ≠ 0`, and mean `μ = (∑ r, f r) / n`: the mean of the
  squared deviations, `(∑ r, (f r − μ)²) / n`, equals the mean of the squares minus the square of the mean,
  `(∑ r, (f r)²) / n − μ²`. Expanding the square, `∑ (f r − μ)² = ∑ (f r)² − 2 μ ∑ f r + n μ²`, and `∑ f r = n μ`.
  The count of the index type must be the `n` one divides by: with another divisor the identity is false.

  General: nothing here mentions a program. Written with the reciprocal `n⁻¹` as a factor, the form in which an exact
  division by a nonzero real reads on the extended reals.
-/
import Mathlib.Data.Real.Basic
import Mathlib.Algebra.BigOperators.Ring.Finset
import Mathlib.Data.Fintype.Card
import Mathlib.Tactic.Ring
import Mathlib.Tactic.FieldSimp

namespace Cert.LibVariance

open Finset

/-- Mean of squared deviations = mean of squares − square of mean, over a finite index type of `n` elements. -/
theorem meanSqDev_eq {ι : Type} [Fintype ι] (f : ι → ℝ) (n : ℝ) (hn : (Fintype.card ι : ℝ) = n) (h0 : n ≠ 0) :
    (∑ r, (f r - (∑ r, f r) * (1 / n)) * (f r - (∑ r, f r) * (1 / n))) * (1 / n)
      = (∑ r, f r * f r) * (1 / n) - ((∑ r, f r) * (1 / n)) * ((∑ r, f r) * (1 / n)) := by
  have e : ∀ r, (f r - (∑ r, f r) * (1 / n)) * (f r - (∑ r, f r) * (1 / n))
      = f r * f r - 2 * ((∑ r, f r) * (1 / n)) * f r + ((∑ r, f r) * (1 / n)) * ((∑ r, f r) * (1 / n)) := fun r => by ring
  simp only [e, sum_add_distrib, sum_sub_distrib, ← mul_sum, sum_const, card_univ, nsmul_eq_mul, hn]
  field_simp
  ring

end Cert.LibVariance
-- ==== Proof.LibERealCoeSum.lean ====
/-
  The inclusion of the reals into the extended reals commutes with finite sums.

  The inclusion `ℝ → EReal` sends `0` to `0` and is additive, so by induction on the index set the image of a
  finite sum of reals is the sum of the images.  No infinite value ever enters, so none of the conventions for
  `⊤ + ⊥` plays a part.
-/
import Mathlib.Data.EReal.Basic
import Mathlib.Algebra.BigOperators.Group.Finset.Basic

namespace ERealCoeSum

open scoped BigOperators

/-- The image in `EReal` of a finite sum of reals is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite index type. -/
theorem coe_sum {ι : Type*} [Fintype ι] (f : ι → ℝ) :
    ((∑ i, f i : ℝ) : EReal) = ∑ i, (f i : EReal) :=
  coe_finset_sum Finset.univ f

end ERealCoeSum
-- ==== Proof.BnLaw.lean ====
/-
  The batch normalisation as the reference arranges it, index by index on the extended reals, and its agreement with
  the arrangement that works from the column sums (`bnS`) on arrays of real numbers.

  The reference takes the column mean  m(c) = (0 + Σ_r a(r,c)) / n  and then the mean of the squared deviations
  v(c) = (0 + Σ_r (a(r,c) − m(c))²) / n,  and returns  (a(r,c) − m(c)) · (v(c) + ε)^(−1/2) · g(c) + b(c).
  The other arrangement takes  max (q(c)/n − m(c)², 0)  for the variance, with q(c) = Σ_r a(r,c)².

  For real entries  Σ_r (a − m)² = Σ_r a² − 2 m Σ_r a + n m²  and  Σ_r a = n m, so  v = q/n − m²; and v, a mean of
  squares, is not negative, so the maximum with 0 changes nothing.  The expansion uses distributivity, which fails on
  the extended reals at the infinities (∞ − ∞ is −∞ there); hence the hypothesis that every entry is real.  With real
  entries every intermediate value is the image of a real number, and the computation is carried out in ℝ and carried
  back along the inclusion ℝ → EReal, which commutes with sums, differences, products and the division by n ≠ 0.

  Also here: the three float constants as reals (n = 100000, ε = 10995116 · 2⁻⁴⁰ > 0, zero), the reference's guard
  n − 0 > 0 in front of its variance, and the closure of the real arrays under the stages (product with a real
  matrix, rectifier, normalisation with real scale and shift): v + ε is a positive real, whose inverse square root is
  a real.
-/
import proofs.«174784_j23922967838995_2_alg».proof.Proof.Spec
import proofs.«174784_j23922967838995_2_alg».proof.Proof.LibVariance
import proofs.«174784_j23922967838995_2_alg».proof.Proof.LibERealCoeSum

noncomputable section

namespace Cert.Spec

open Idealize.ShloMosaic
open scoped BigOperators

variable {C K : Nat}

/-! ### The constants as real numbers -/

/-- The zero word is the extended real 0. -/
theorem zeroF_eq : zeroF = 0 := by
  simp [zeroF, Ideal.ofBits, Ideal.ieee]

/-- The row-count word is the real 100000: significand 12800000 at exponent −7. -/
theorem nF_eq : nF = ((100000 : ℝ) : EReal) := by
  simp [nF, Ideal.ofBits, Ideal.ieee, -EReal.coe_mul]; norm_num

/-- The offset word is the real 10995116 · 2⁻⁴⁰. -/
theorem epsF_eq : epsF = ((10995116 * (2 : ℝ) ^ (-40 : ℤ) : ℝ) : EReal) := by
  simp [epsF, Ideal.ofBits, Ideal.ieee, -EReal.coe_mul]

/-- The offset is positive. -/
theorem epsF_pos : (0 : ℝ) < 10995116 * (2 : ℝ) ^ (-40 : ℤ) := by positivity

/-- The row count less the integer 0 converted to a float is the row count. -/
theorem nF_sub_zero : nF - ((((0#32 : BitVec 32).toInt : ℤ) : ℝ) : EReal) = nF := by
  simp

/-- The guard in front of the reference's variance, `n − 0 > 0`, holds. -/
theorem var_guard : Ideal.cmp .ogt (nF - ((((0#32 : BitVec 32).toInt : ℤ) : ℝ) : EReal)) zeroF = 1#1 := by
  rw [nF_sub_zero, nF_eq, zeroF_eq]
  simp [Ideal.cmp]

/-- The inclusion of the reals preserves the maximum, being monotone. -/
theorem coe_max (x y : ℝ) : ((max x y : ℝ) : EReal) = max (x : EReal) (y : EReal) :=
  EReal.coe_strictMono.monotone.map_max

/-! ### Mean and variance of finitely many reals, computed on the extended reals -/

section General
variable {ι : Type} [Fintype ι]

/-- The sum of the images of reals divided by a nonzero real is the image of the real quotient. -/
theorem div_sum_coe (f : ι → ℝ) {n : ℝ} (hn : n ≠ 0) :
    Ideal.div (∑ r, (f r : EReal)) (n : EReal) = (((∑ r, f r) * (1 / n) : ℝ) : EReal) := by
  rw [Ideal.div_coe hn, ← ERealCoeSum.coe_sum, ← EReal.coe_mul]

/-- The mean of the squared deviations from the mean, computed on the extended reals, is the image of the same
    expression computed in the reals. -/
theorem var_dev_coe (f : ι → ℝ) {n : ℝ} (hn : n ≠ 0) :
    Ideal.div (∑ r, ((f r : EReal) - Ideal.div (∑ r, (f r : EReal)) (n : EReal))
        * ((f r : EReal) - Ideal.div (∑ r, (f r : EReal)) (n : EReal))) (n : EReal)
      = (((∑ r, (f r - (∑ r, f r) * (1 / n)) * (f r - (∑ r, f r) * (1 / n))) * (1 / n) : ℝ) : EReal) := by
  rw [div_sum_coe f hn]
  simp only [← EReal.coe_sub, ← EReal.coe_mul]
  rw [div_sum_coe (fun r => (f r - (∑ r, f r) * (1 / n)) * (f r - (∑ r, f r) * (1 / n))) hn]

/-- A mean of squares over a positive count is not negative. -/
theorem var_dev_nonneg (f : ι → ℝ) {n : ℝ} (hn : 0 < n) :
    0 ≤ (∑ r, (f r - (∑ r, f r) * (1 / n)) * (f r - (∑ r, f r) * (1 / n))) * (1 / n) :=
  mul_nonneg (Finset.sum_nonneg fun r _ => mul_self_nonneg _) (by positivity)

/-- The two variances agree on reals: the mean of the squared deviations is the mean of the squares less the squared
    mean, and, being nonnegative, is its own maximum with 0.  The divisor is the number of terms. -/
theorem var_two_ways (f : ι → ℝ) {n : ℝ} (hc : (Fintype.card ι : ℝ) = n) (hn : n ≠ 0) :
    Ideal.div (∑ r, ((f r : EReal) - Ideal.div (∑ r, (f r : EReal)) (n : EReal))
        * ((f r : EReal) - Ideal.div (∑ r, (f r : EReal)) (n : EReal))) (n : EReal)
      = max (Ideal.div (∑ r, (f r : EReal) * (f r : EReal)) (n : EReal)
              - Ideal.div (∑ r, (f r : EReal)) (n : EReal) * Ideal.div (∑ r, (f r : EReal)) (n : EReal)) 0 := by
  have hpos : 0 < n := lt_of_le_of_ne (hc ▸ Nat.cast_nonneg _) (Ne.symm hn)
  rw [var_dev_coe f hn, div_sum_coe f hn]
  simp only [← EReal.coe_mul]
  rw [div_sum_coe (fun r => f r * f r) hn, ← EReal.coe_sub, ← LibVariance.meanSqDev_eq f n hc hn]
  exact (max_eq_left (EReal.coe_nonneg.mpr (var_dev_nonneg f hpos))).symm

end General

/-! ### The reference's arrangement -/

/-- The column mean as the reference takes it: the sum over the rows, started from the zero word, over the row count. -/
def meanR (a : Rows → Fin C → EReal) (c : Fin C) : EReal := Ideal.div (zeroF + ∑ r : Rows, a r c) nF

/-- The column variance as the reference takes it: the sum over the rows of the squared deviations from `meanR`,
    started from the zero word, over the row count. -/
def varR (a : Rows → Fin C → EReal) (c : Fin C) : EReal :=
  Ideal.div (zeroF + ∑ r : Rows, (a r c - meanR a c) * (a r c - meanR a c)) nF

/-- Batch normalisation in the reference's arrangement. -/
def bnR (a : Rows → Fin C → EReal) (g b : Fin C → EReal) (r : Rows) (c : Fin C) : EReal :=
  (a r c - meanR a c) * Ideal.rsqrt (varR a c + epsF) * g c + b c

/-- The reference's mean is the column sum over the row count. -/
theorem meanR_eq (a : Rows → Fin C → EReal) (c : Fin C) : meanR a c = Ideal.div (colSum a c) nF := by
  rw [meanR, colSum, zeroF_eq, zero_add]

/-- There are 100000 rows. -/
theorem card_rows : ((Fintype.card Rows : ℕ) : ℝ) = 100000 := by
  rw [Fintype.card_fin]; norm_num

/-- On a real array the reference's variance is the variance from the column sums. -/
theorem varR_eq (f : Rows → Fin C → ℝ) (c : Fin C) :
    varR (fun r c => (f r c : EReal)) c
      = max (Ideal.div (colSumSq (fun r c => (f r c : EReal)) c) nF
          - Ideal.div (colSum (fun r c => (f r c : EReal)) c) nF * Ideal.div (colSum (fun r c => (f r c : EReal)) c) nF)
          zeroF := by
  simp only [varR, meanR, colSum, colSumSq, zeroF_eq, zero_add, nF_eq]
  exact var_two_ways (fun r => f r c) card_rows (by norm_num)

/-- On an array of real entries the two arrangements of the batch normalisation are the same function. -/
theorem bnR_eq_bnS {a : Rows → Fin C → EReal} {g b : Fin C → EReal} (ha : IsReal2 a) : bnR a g b = bnS a g b := by
  choose f hf using ha
  obtain rfl : a = fun r c => (f r c : EReal) := funext fun r => funext fun c => hf r c
  funext r c
  simp only [bnR, bnS, bnK, varR_eq, meanR_eq]

/-! ### Real arrays stay real -/

/-- The rectifier of a real array is real. -/
theorem isReal_relu {a : Rows → Fin C → EReal} (ha : IsReal2 a) : IsReal2 (fun r c => relu (a r c)) := by
  intro r c
  obtain ⟨x, hx⟩ := ha r c
  exact ⟨max x 0, by show max (a r c) zeroF = _; rw [zeroF_eq, hx, ← EReal.coe_zero, coe_max]⟩

/-- The product of a real array with a real matrix is real. -/
theorem isReal_mm {x : Rows → Fin K → EReal} {w : Fin K → Fin C → EReal} (hx : IsReal2 x)
    (hw : ∀ k c, ∃ y : ℝ, w k c = (y : EReal)) : IsReal2 (mm x w) := by
  choose f hf using hx
  choose v hv using hw
  intro r c
  refine ⟨∑ k, f r k * v k c, ?_⟩
  simp only [mm, hf, hv, ← EReal.coe_mul]
  exact (ERealCoeSum.coe_sum _).symm

/-- The batch normalisation of a real array with real scale and shift is real: the variance is a nonnegative real, so
    the variance plus the offset is a positive real, and its inverse square root a real. -/
theorem isReal_bnS {a : Rows → Fin C → EReal} {g b : Fin C → EReal} (ha : IsReal2 a) (hg : IsReal1 g) (hb : IsReal1 b) :
    IsReal2 (bnS a g b) := by
  choose f hf using ha
  obtain rfl : a = fun r c => (f r c : EReal) := funext fun r => funext fun c => hf r c
  intro r c
  obtain ⟨gc, hgc⟩ := hg c
  obtain ⟨bc, hbc⟩ := hb c
  have hn : (100000 : ℝ) ≠ 0 := by norm_num
  have hV0 := var_dev_nonneg (fun r => f r c) (n := 100000) (by norm_num)
  have hvar : max (Ideal.div (colSumSq (fun r c => (f r c : EReal)) c) nF
          - Ideal.div (colSum (fun r c => (f r c : EReal)) c) nF * Ideal.div (colSum (fun r c => (f r c : EReal)) c) nF) zeroF
        = (((∑ r, (f r c - (∑ r, f r c) * (1 / 100000)) * (f r c - (∑ r, f r c) * (1 / 100000))) * (1 / 100000) : ℝ) : EReal) := by
    rw [← varR_eq]; simp only [varR, meanR, zeroF_eq, zero_add, nF_eq]; exact var_dev_coe (fun r => f r c) hn
  have hmean : Ideal.div (colSum (fun r c => (f r c : EReal)) c) nF = (((∑ r, f r c) * (1 / 100000) : ℝ) : EReal) := by
    rw [colSum, nF_eq]; exact div_sum_coe (fun r => f r c) hn
  have hpos := add_pos_of_nonneg_of_pos hV0 epsF_pos
  simp only [bnS, bnK]
  rw [hvar, hmean, epsF_eq, ← EReal.coe_add, Ideal.rsqrt_coe, if_neg (not_lt.mpr hpos.le), if_neg hpos.ne', hgc, hbc,
    ← EReal.coe_sub, ← EReal.coe_mul, ← EReal.coe_mul, ← EReal.coe_add]
  exact ⟨_, rfl⟩

end Cert.Spec

end
-- ==== Proof.RefRead.lean ====
/-
  The reference's stages read index by index.  Each stage of the reference, a composition of whole-array operations,
  is read at a pair of coordinates (r, c) as the mathematical expression of `Spec` / `BnLaw` in the entries of its
  operands:

    · a linear layer is the sum over the contracted coordinate of the products of the entries (`mm`): the product's
      dimension numbers are those of a plain rows-by-matrix product;
    · the rectifier is the maximum with zero, entry by entry;
    · the batch normalisation is `bnR`: every broadcast reads its operand at the coordinates it keeps (a scalar at its
      one index, a vector laid out as one row at its column, one row copied down the rows at that row), the sums over
      the rows are sums over the row coordinate started from the zero word, the guard `n − 0 > 0` in front of the
      variance holds, so the selection returns the variance and not the stand-in, and `n − 0 = n`.

  No entry needs to be finite here: no sum is reordered or split.
-/
import proofs.«174784_j23922967838995_2_alg».proof.Proof.RefStages
import proofs.«174784_j23922967838995_2_alg».proof.Proof.BnLaw
import Idealize.ShloMosaic.PureOps.Ideal.Laws
import Idealize.ShloMosaic.Lib.ValueLayout
import Idealize.ShloMosaic.Lib.IdealHost
import Idealize.ShloMosaic.Lib.KernelVsHost
import Idealize.ShloMosaic.Lib.StackMember

noncomputable section

namespace Cert.RefRead

open Idealize.ShloMosaic Idealize.ShloMosaic.ValueIdx Cert.Spec Cert.ReferenceIdeal
open scoped BigOperators

variable [Cert.ReferenceIdeal.Facts]
open Cert.ReferenceIdeal.Facts₀ Cert.ReferenceIdeal.Facts

/-- One row copied down the 100000 rows, read at (r, c): the row at c. -/
theorem bcRows {n : Nat} {α : Type} (h : (⟨2, ![1, n]⟩ : Shape).BroadcastsInDim ⟨2, ![100000, n]⟩ ![0, 1])
    (v : (⟨2, ![1, n]⟩ : Shape).Idx → α) (r : Rows) (c : Fin n) :
    broadcastInDim ⟨2, ![100000, n]⟩ ![0, 1] h v (ix2 r c) = v (ix2 (0 : Fin 1) c) :=
  broadcastInDim_oneRow_apply h v r c

/-- A vector laid out as one row, read at (u, c): the vector at c. -/
theorem bcRow {n : Nat} {α : Type} (h : (⟨1, ![n]⟩ : Shape).BroadcastsInDim ⟨2, ![1, n]⟩ ![1])
    (v : (⟨1, ![n]⟩ : Shape).Idx → α) (u : Fin 1) (c : Fin n) :
    broadcastInDim ⟨2, ![1, n]⟩ ![1] h v (ix2 u c) = v (ix1 c) := by
  refine broadcastInDim_apply ![1] h v (ix2 u c) (ix1 c) ?_
  intro a
  match a with
  | ⟨0, _⟩ =>
    show c.val = if n = 1 then 0 else c.val
    split
    · have := c.isLt; omega
    · rfl

/-- The host's quotient read at an index is the quotient of the elements. -/
theorem hdivf_apply {s : Shape} {φ : FTy} (x y : FVec Ideal s φ) (i : s.Idx) : Host.divf x y i = Ideal.div (x i) (y i) := rfl
/-- The host's inverse square root read at an index is that of the element. -/
theorem hrsqrt_apply {s : Shape} {φ : FTy} (x : FVec Ideal s φ) (i : s.Idx) : Host.rsqrt x i = Ideal.rsqrt (x i) := rfl

/-- The host's sum over the rows of a 100000 × n array, read at column c: the initial value plus the sum over the rows
    of the entries of that column. -/
theorem reduce_rd {n : Nat} (h' : (⟨2, ![100000, n]⟩ : Shape).ReducesTo [0] ⟨1, ![n]⟩) (hu : 0 < S_.numel)
    (x : FVec Ideal ⟨2, ![100000, n]⟩ .f32) (init : FVec Ideal S_ .f32) (c : Fin n) :
    Host.reduceAdd x init h' hu (ix1 c) = init ix0 + ∑ r : Rows, x (ix2 r c) := by
  have h : (⟨2, ![100000, n]⟩ : Shape).Reduces [0] ⟨1, ![n]⟩ := ⟨h'.1, Nat.one_pos, h'.2⟩
  rw [hostReduceAdd_apply, Ideal.hostReduceAdd_single h' h, eq_ix0 (Shape.Idx.first hu)]
  refine congrArg (init ix0 + ·) (Finset.sum_congr rfl fun r _ => congrArg x ?_)
  funext a
  apply Fin.ext
  match a with
  | ⟨0, _⟩ => rfl
  | ⟨1, _⟩ => rfl

/-! ### The linear layers -/

/-- The first layer's dimension numbers are those of the plain product of a 100000 × 128 by a 128 × 64 array. -/
theorem dot1_eq : dot_S100000x128_S128x64_S100000x64_1_0_0_1_n_n = DotDims.plain 100000 128 64 := rfl
/-- The third layer's dimension numbers are those of the plain product of a 100000 × 64 by a 64 × 128 array. -/
theorem dot3_eq : dot_S100000x64_S64x128_S100000x128_1_0_0_1_n_n = DotDims.plain 100000 64 128 := rfl

/-- The first linear layer at (r, c): the sum over the 128 input channels of the products. -/
theorem lin1_rd (x : FVec Ideal S100000x128 .f32) (w : FVec Ideal S128x64 .f32) :
    rd2 (RefStages.lin1 x w) = mm (rd2 x) (rd2 w) := by
  funext r c
  show Host.dotGeneral (F := Ideal) dot_S100000x128_S128x64_S100000x64_1_0_0_1_n_n none x w (ix2 r c) = _
  rw [dot1_eq]
  exact StackMember.dotGeneral_plain_apply none x w r c

/-- The third linear layer at (r, c): the sum over the 64 channels of the products. -/
theorem lin3_rd (h : FVec Ideal S100000x64 .f32) (w : FVec Ideal S64x128 .f32) :
    rd2 (RefStages.lin3 h w) = mm (rd2 h) (rd2 w) := by
  funext r c
  show Host.dotGeneral (F := Ideal) dot_S100000x64_S64x128_S100000x128_1_0_0_1_n_n none h w (ix2 r c) = _
  rw [dot3_eq]
  exact StackMember.dotGeneral_plain_apply none h w r c

/-! ### The rectifier -/

/-- The rectifier at (r, c): the maximum of the entry and zero. -/
theorem relu64_rd (a : FVec Ideal S100000x64 .f32) : rd2 (RefStages.relu64 a) = fun r c => relu (rd2 a r c) := by
  funext r c
  rfl

/-! ### The batch normalisations -/

/-- The batch normalisation of the 64 channels at (r, c) is the reference's arrangement `bnR` of the entries. -/
theorem bn64_rd (a : FVec Ideal S100000x64 .f32) (g b : FVec Ideal S64 .f32) :
    rd2 (RefStages.bn64 a g b) = bnR (rd2 a) (rd1 g) (rd1 b) := by
  funext r c
  show RefStages.bn64 a g b (ix2 r c) = _
  unfold RefStages.bn64
  simp only [addf_apply, mulf_apply, subf_apply, bcRows bcast_S1x64_S100000x64_0_1, bcRow bcast_S64_S1x64_1,
    hdivf_apply, hrsqrt_apply, select_apply, broadcastInDim_scalar_apply bcast_S_S64,
    broadcastInDim_scalar_apply bcast_S_S1x64, cmpf_apply, sitofp_apply, constant_apply, constantI_apply, reduce_rd, id]
  have hg : FloatOps.cmpf (F := Ideal) (φ := .f32) CmpFPredicate.ogt
      (Ideal.ofBits .f32 0x47C35000#32 - FloatOps.sitofp (F := Ideal) .f32 (0#32 : BitVec 32))
      (Ideal.ofBits .f32 0x00000000#32) = 1#1 := var_guard
  have hz : Ideal.ofBits .f32 0x47C35000#32 - FloatOps.sitofp (F := Ideal) .f32 (0#32 : BitVec 32)
      = Ideal.ofBits .f32 0x47C35000#32 := nF_sub_zero
  rw [hg, select_one, hz]
  rfl

/-- The batch normalisation of the 128 channels at (r, c) is the reference's arrangement `bnR` of the entries. -/
theorem bn128_rd (a : FVec Ideal S100000x128 .f32) (g b : FVec Ideal S128 .f32) :
    rd2 (RefStages.bn128 a g b) = bnR (rd2 a) (rd1 g) (rd1 b) := by
  funext r c
  show RefStages.bn128 a g b (ix2 r c) = _
  unfold RefStages.bn128
  simp only [addf_apply, mulf_apply, subf_apply, bcRows bcast_S1x128_S100000x128_0_1, bcRow bcast_S128_S1x128_1,
    hdivf_apply, hrsqrt_apply, select_apply, broadcastInDim_scalar_apply bcast_S_S128,
    broadcastInDim_scalar_apply bcast_S_S1x128, cmpf_apply, sitofp_apply, constant_apply, constantI_apply, reduce_rd, id]
  have hg : FloatOps.cmpf (F := Ideal) (φ := .f32) CmpFPredicate.ogt
      (Ideal.ofBits .f32 0x47C35000#32 - FloatOps.sitofp (F := Ideal) .f32 (0#32 : BitVec 32))
      (Ideal.ofBits .f32 0x00000000#32) = 1#1 := var_guard
  have hz : Ideal.ofBits .f32 0x47C35000#32 - FloatOps.sitofp (F := Ideal) .f32 (0#32 : BitVec 32)
      = Ideal.ofBits .f32 0x47C35000#32 := nF_sub_zero
  rw [hg, select_one, hz]
  rfl

end Cert.RefRead

end
-- ==== Proof.RealsOps.lean ====
/-
  Real entries pass through the host's index operations and exact sums. On the extended reals a sum or a product of
  two reals is a real, so by induction a finite sum of reals is a real. A gather's entry is an entry of its operand; a
  reshape's entry is an entry of its operand; a dot_general's entry is a finite sum of products of operand entries; an
  accumulating scatter's entry is an operand entry plus a finite sum of update entries.
-/
import proofs.«174784_j23922967838995_2_alg».proof.Proof.Spec
import Idealize.ShloMosaic.PureOps
import Idealize.ShloMosaic.PureOps.Ideal
import Idealize.ShloMosaic.PureOps.Ideal.Laws

noncomputable section

namespace Cert.Reals

open Idealize.ShloMosaic Idealize.ShloMosaic.ValueIdx Cert.Spec

/-- The sum of two reals is a real. -/
theorem real_add {a b : EReal} (ha : ∃ x : ℝ, a = (x : EReal)) (hb : ∃ x : ℝ, b = (x : EReal)) :
    ∃ x : ℝ, a + b = (x : EReal) := by
  obtain ⟨x, rfl⟩ := ha; obtain ⟨y, rfl⟩ := hb
  exact ⟨x + y, (EReal.coe_add x y).symm⟩

/-- The product of two reals is a real. -/
theorem real_mul {a b : EReal} (ha : ∃ x : ℝ, a = (x : EReal)) (hb : ∃ x : ℝ, b = (x : EReal)) :
    ∃ x : ℝ, a * b = (x : EReal) := by
  obtain ⟨x, rfl⟩ := ha; obtain ⟨y, rfl⟩ := hb
  exact ⟨x * y, (EReal.coe_mul x y).symm⟩

/-- A finite sum of reals is a real. -/
theorem real_sum {ι : Type} (s : Finset ι) (f : ι → EReal) (h : ∀ i ∈ s, ∃ x : ℝ, f i = (x : EReal)) :
    ∃ x : ℝ, ∑ i ∈ s, f i = (x : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

/-- The f32 zero word is the real zero. -/
theorem real_zeroWord : ∃ x : ℝ, Ideal.ofBits .f32 0x00000000#32 = (x : EReal) :=
  ⟨0, by rw [Ideal.ofBits_zero_f32]; rfl⟩

/-! Entries by coordinates and entries by index say the same. -/

theorem raw_of_rd1 {n : Nat} {a : (⟨1, ![n]⟩ : Shape).Idx → EReal} (h : ∀ i, ∃ x : ℝ, rd1 a i = (x : EReal))
    (j : (⟨1, ![n]⟩ : Shape).Idx) : ∃ x : ℝ, a j = (x : EReal) := by
  rw [eq_ix1 j]; exact h _

theorem raw_of_rd2 {n0 n1 : Nat} {a : (⟨2, ![n0, n1]⟩ : Shape).Idx → EReal}
    (h : ∀ i j, ∃ x : ℝ, rd2 a i j = (x : EReal)) (j : (⟨2, ![n0, n1]⟩ : Shape).Idx) : ∃ x : ℝ, a j = (x : EReal) := by
  rw [eq_ix2 j]; exact h _ _

theorem raw_of_rd3 {n0 n1 n2 : Nat} {a : (⟨3, ![n0, n1, n2]⟩ : Shape).Idx → EReal}
    (h : ∀ i j k, ∃ x : ℝ, rd3 a i j k = (x : EReal)) (j : (⟨3, ![n0, n1, n2]⟩ : Shape).Idx) :
    ∃ x : ℝ, a j = (x : EReal) := by
  rw [eq_ix3 j]; exact h _ _ _

/-! The host operations. -/

/-- Every entry of a gather is an entry of its operand. -/
theorem gather_real {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx _

/-- Every entry of a reshape is an entry of its operand. -/
theorem shapeCast_real {s t : Shape} (x : s.Idx → EReal) (h : s.ShapeCasts t)
    (hx : ∀ i, ∃ r : ℝ, x i = (r : EReal)) (j : t.Idx) : ∃ r : ℝ, shapeCast t x h j = (r : EReal) :=
  hx _

/-- Every entry of a dot_general of two real arrays is a real: a finite sum of products. -/
theorem dotGeneral_real {sl sr so : Shape} {φ₁ φ₂ : FTy} (d : DotDims sl sr so) (prec : Option ContractPrecision)
    (lhs : FVec Ideal sl φ₁) (rhs : FVec Ideal sr φ₂)
    (hl : ∀ i, ∃ r : ℝ, lhs i = (r : EReal)) (hr : ∀ i, ∃ r : ℝ, rhs i = (r : EReal)) (j : so.Idx) :
    ∃ r : ℝ, Host.dotGeneral (F := Ideal) d prec lhs rhs j = (r : EReal) := by
  unfold Host.dotGeneral
  rw [Ideal.dotGeneral_apply]
  exact real_sum _ _ fun k _ => real_mul (hl _) (hr _)

/-- Every entry of an accumulating scatter of real updates into a real operand is a real: the operand's entry plus a
    finite sum of update entries. -/
theorem scatterAdd_real {s si u : Shape} {w : Nat} (d : ScatterDims s si u) (x : FVec Ideal s .f32) (idx : IVec si w)
    (upd : FVec Ideal u .f32) (hx : ∀ i, ∃ r : ℝ, x i = (r : EReal)) (hu : ∀ i, ∃ r : ℝ, upd i = (r : EReal))
    (i : s.Idx) : ∃ r : ℝ, Host.scatterAdd (F := Ideal) d x idx upd i = (r : EReal) := by
  show ∃ r : ℝ, x i + ∑ j ∈ Finset.univ.filter (fun j => d.resultIdx? j idx = some i), upd j = (r : EReal)
  exact real_add (hx i) (real_sum _ _ fun j _ => hu j)

end Cert.Reals

end
-- ==== Proof.RealsStages.lean ====
/-
  The reference's gather, batched product and scatter-add keep entries real: a gathered entry is a row entry of the
  operand, an entry of the batched product is a finite sum of products, and an entry of the scatter-add into the zero
  array is zero plus a finite sum of entries of the flattened updates.
-/
import proofs.«174784_j23922967838995_2_alg».proof.Proof.RefStages
import proofs.«174784_j23922967838995_2_alg».proof.Proof.RealsOps

noncomputable section

namespace Cert.Reals

open Idealize.ShloMosaic Idealize.ShloMosaic.ValueIdx Cert.Spec
open Cert.ReferenceIdeal

variable [Cert.ReferenceIdeal.Facts]

/-- Every entry of the row gather of a real array is a real. -/
theorem gath_real (h : FVec Ideal S100000x64 .f32) (ii : IVec S27x50000 32)
    (hh : ∀ r k, ∃ x : ℝ, rd2 h r k = (x : EReal)) :
    ∀ i j k, ∃ x : ℝ, rd3 (Cert.RefStages.gath h ii) i j k = (x : EReal) :=
  fun _ _ _ => gather_real _ h _ (raw_of_rd2 hh) _

/-- Every entry of the batched product of two real arrays is a real. -/
theorem bmm_real (t : FVec Ideal S27x50000x64 .f32) (w : FVec Ideal S27x64x64 .f32)
    (ht : ∀ i j k, ∃ x : ℝ, rd3 t i j k = (x : EReal)) (hw : ∀ i j k, ∃ x : ℝ, rd3 w i j k = (x : EReal)) :
    ∀ i j k, ∃ x : ℝ, rd3 (Cert.RefStages.bmm t w) i j k = (x : EReal) :=
  fun _ _ _ => dotGeneral_real _ none t w (raw_of_rd3 ht) (raw_of_rd3 hw) _

/-- Every entry of the scatter-add of real updates into the zero array is a real. -/
theorem scat_real (oi : IVec S27x50000 32) (y : FVec Ideal S27x50000x64 .f32)
    (hy : ∀ i j k, ∃ x : ℝ, rd3 y i j k = (x : EReal)) :
    IsReal2 (rd2 (Cert.RefStages.scat oi y)) :=
  fun _ _ => scatterAdd_real _ _ _ _ (fun _ => real_zeroWord) (shapeCast_real y _ (raw_of_rd3 hy)) _

end Cert.Reals

end
-- ==== Proof.RefBridge.lean ====
/-
  The reference is the network in the kernel's arrangement. The reference normalises each batch with the mean of the
  squared deviations from the mean; the network (NetSpec) with the mean of the squares less the squared mean, floored
  at zero. On arrays of real numbers the two agree. Under real inputs every array that is normalised has real
  entries: a product of real arrays is real, a rectified or normalised real array is real, and the gather, the
  per-offset product and the scatter-add into zeros keep entries real. So the two chains agree stage by stage.
-/
import proofs.«174784_j23922967838995_2_alg».proof.Proof.NetSpec
import proofs.«174784_j23922967838995_2_alg».proof.Proof.BnLaw
import proofs.«174784_j23922967838995_2_alg».proof.Proof.RefRead
import proofs.«174784_j23922967838995_2_alg».proof.Proof.RealsStages
import proofs.«174784_j23922967838995_2_alg».proof.Proof.RealsOps

noncomputable section

namespace Cert.Net
open Idealize.ShloMosaic Idealize.ShloMosaic.ValueIdx
open Cert.Spec Cert.ReferenceIdeal Cert.RefRead Cert.Reals
variable [Cert.ReferenceIdeal.Facts]

/-- Under real inputs the reference's first stage is the first stage of the network: the product x · w1 has real
    entries, so its normalisation from the mean of squared deviations is the one from the column sums. -/
theorem stage1_eq (x : FVec Ideal S100000x128 .f32) (w1 : FVec Ideal S128x64 .f32) (g1 b1 : FVec Ideal S64 .f32)
    (hx : IsReal2 (rd2 x)) (hw1 : ∀ k j, ∃ r : ℝ, rd2 w1 k j = (r : EReal)) :
    Cert.RefStages.relu64 (Cert.RefStages.bn64 (Cert.RefStages.lin1 x w1) g1 b1) = h1 x w1 g1 b1 := by
  have e : rd2 (Cert.RefStages.relu64 (Cert.RefStages.bn64 (Cert.RefStages.lin1 x w1) g1 b1))
      = fun r k => relu (bnS (mm (rd2 x) (rd2 w1)) (rd1 g1) (rd1 b1) r k) := by
    rw [relu64_rd, bn64_rd, lin1_rd, bnR_eq_bnS (isReal_mm hx hw1)]
  rw [← un2_rd2 (Cert.RefStages.relu64 (Cert.RefStages.bn64 (Cert.RefStages.lin1 x w1) g1 b1)), e]
  unfold h1
  rfl

/-- The first stage's entries are real. -/
theorem h1_real (x : FVec Ideal S100000x128 .f32) (w1 : FVec Ideal S128x64 .f32) (g1 b1 : FVec Ideal S64 .f32)
    (hx : IsReal2 (rd2 x)) (hw1 : ∀ k j, ∃ r : ℝ, rd2 w1 k j = (r : EReal)) (hg1 : IsReal1 (rd1 g1))
    (hb1 : IsReal1 (rd1 b1)) : IsReal2 (rd2 (h1 x w1 g1 b1)) := by
  unfold h1
  rw [rd2_un2]
  exact isReal_relu (isReal_bnS (isReal_mm hx hw1) hg1 hb1)

/-- The sparse convolution of the first stage has real entries. -/
theorem a2_real (x : FVec Ideal S100000x128 .f32) (ii oi : IVec S27x50000 32) (w1 : FVec Ideal S128x64 .f32)
    (g1 b1 : FVec Ideal S64 .f32) (w2 : FVec Ideal S27x64x64 .f32)
    (hx : IsReal2 (rd2 x)) (hw1 : ∀ k j, ∃ r : ℝ, rd2 w1 k j = (r : EReal)) (hg1 : IsReal1 (rd1 g1))
    (hb1 : IsReal1 (rd1 b1)) (hw2 : ∀ t k j, ∃ r : ℝ, rd3 w2 t k j = (r : EReal)) :
    IsReal2 (rd2 (a2 x ii oi w1 g1 b1 w2)) := by
  unfold a2
  exact scat_real oi (Cert.RefStages.bmm (Cert.RefStages.gath (h1 x w1 g1 b1) ii) w2)
    (bmm_real (Cert.RefStages.gath (h1 x w1 g1 b1) ii) w2
      (gath_real (h1 x w1 g1 b1) ii (h1_real x w1 g1 b1 hx hw1 hg1 hb1)) hw2)

/-- The rectified normalisation of a real array, as the reference computes it, read by coordinates. -/
theorem stage_bn_relu (a : FVec Ideal S100000x64 .f32) (g b : FVec Ideal S64 .f32) (ha : IsReal2 (rd2 a)) :
    rd2 (Cert.RefStages.relu64 (Cert.RefStages.bn64 a g b)) = fun r k => relu (bnS (rd2 a) (rd1 g) (rd1 b) r k) := by
  rw [relu64_rd, bn64_rd, bnR_eq_bnS ha]

/-- The third layer's product has real entries. -/
theorem a3_real (x : FVec Ideal S100000x128 .f32) (ii oi : IVec S27x50000 32) (w1 : FVec Ideal S128x64 .f32)
    (g1 b1 : FVec Ideal S64 .f32) (w2 : FVec Ideal S27x64x64 .f32) (g2 b2 : FVec Ideal S64 .f32) (w3 : FVec Ideal S64x128 .f32)
    (hx : IsReal2 (rd2 x)) (hw1 : ∀ k j, ∃ r : ℝ, rd2 w1 k j = (r : EReal)) (hg1 : IsReal1 (rd1 g1))
    (hb1 : IsReal1 (rd1 b1)) (hw2 : ∀ t k j, ∃ r : ℝ, rd3 w2 t k j = (r : EReal)) (hg2 : IsReal1 (rd1 g2))
    (hb2 : IsReal1 (rd1 b2)) (hw3 : ∀ k j, ∃ r : ℝ, rd2 w3 k j = (r : EReal)) :
    IsReal2 (a3 x ii oi w1 g1 b1 w2 g2 b2 w3) := by
  unfold a3
  exact isReal_mm (isReal_relu (isReal_bnS (a2_real x ii oi w1 g1 b1 w2 hx hw1 hg1 hb1 hw2) hg2 hb2)) hw3

/-- The elementwise sum of two arrays read by coordinates is the sum of the entries. -/
theorem addf_rd2 {n0 n1 : Nat} (u v : FVec Ideal ⟨2, ![n0, n1]⟩ .f32) (r : Fin n0) (k : Fin n1) :
    rd2 (addf (F := Ideal) u v) r k = rd2 u r k + rd2 v r k := rfl

/-- The reference as the chain of its stages. -/
theorem out_chain (x : FVec Ideal S100000x128 .f32) (ii oi : IVec S27x50000 32) (w1 : FVec Ideal S128x64 .f32)
    (g1 b1 : FVec Ideal S64 .f32) (w2 : FVec Ideal S27x64x64 .f32) (g2 b2 : FVec Ideal S64 .f32)
    (w3 : FVec Ideal S64x128 .f32) (g3 b3 : FVec Ideal S128 .f32) :
    Cert.RefStages.out x ii oi w1 g1 b1 w2 g2 b2 w3 g3 b3
      = addf (F := Ideal) (Cert.RefStages.bn128 (Cert.RefStages.lin3 (Cert.RefStages.relu64 (Cert.RefStages.bn64
          (Cert.RefStages.scat oi (Cert.RefStages.bmm (Cert.RefStages.gath (Cert.RefStages.relu64
            (Cert.RefStages.bn64 (Cert.RefStages.lin1 x w1) g1 b1)) ii) w2)) g2 b2)) w3) g3 b3) x := rfl

/-- The sparse convolution of the first stage, folded. -/
theorem a2_def (x : FVec Ideal S100000x128 .f32) (ii oi : IVec S27x50000 32) (w1 : FVec Ideal S128x64 .f32)
    (g1 b1 : FVec Ideal S64 .f32) (w2 : FVec Ideal S27x64x64 .f32) :
    Cert.RefStages.scat oi (Cert.RefStages.bmm (Cert.RefStages.gath (h1 x w1 g1 b1) ii) w2) = a2 x ii oi w1 g1 b1 w2 := rfl

/-- Under real inputs the reference computes the network in the arrangement that works from the column sums: stage by
    stage each normalised array has real entries, so each of the three normalisations agrees with the one from the
    column sums, and the gather, the per-offset product and the scatter-add are the same functions on both sides. -/
theorem ref_eq_outK (x : FVec Ideal S100000x128 .f32) (ii oi : IVec S27x50000 32) (w1 : FVec Ideal S128x64 .f32)
    (g1 b1 : FVec Ideal S64 .f32) (w2 : FVec Ideal S27x64x64 .f32) (g2 b2 : FVec Ideal S64 .f32)
    (w3 : FVec Ideal S64x128 .f32) (g3 b3 : FVec Ideal S128 .f32)
    (hx : IsReal2 (rd2 x)) (hw1 : ∀ k j, ∃ r : ℝ, rd2 w1 k j = (r : EReal)) (hg1 : IsReal1 (rd1 g1))
    (hb1 : IsReal1 (rd1 b1)) (hw2 : ∀ t k j, ∃ r : ℝ, rd3 w2 t k j = (r : EReal)) (hg2 : IsReal1 (rd1 g2))
    (hb2 : IsReal1 (rd1 b2)) (hw3 : ∀ k j, ∃ r : ℝ, rd2 w3 k j = (r : EReal)) (hg3 : IsReal1 (rd1 g3))
    (hb3 : IsReal1 (rd1 b3)) :
    Cert.RefStages.out x ii oi w1 g1 b1 w2 g2 b2 w3 g3 b3 = outK x ii oi w1 g1 b1 w2 g2 b2 w3 g3 b3 := by
  have e3 : rd2 (Cert.RefStages.lin3 (Cert.RefStages.relu64 (Cert.RefStages.bn64 (a2 x ii oi w1 g1 b1 w2) g2 b2)) w3)
      = a3 x ii oi w1 g1 b1 w2 g2 b2 w3 := by
    rw [lin3_rd, stage_bn_relu _ g2 b2 (a2_real x ii oi w1 g1 b1 w2 hx hw1 hg1 hb1 hw2)]
    unfold a3
    rfl
  have e4 : rd2 (Cert.RefStages.bn128 (Cert.RefStages.lin3 (Cert.RefStages.relu64
        (Cert.RefStages.bn64 (a2 x ii oi w1 g1 b1 w2) g2 b2)) w3) g3 b3)
      = bnS (a3 x ii oi w1 g1 b1 w2 g2 b2 w3) (rd1 g3) (rd1 b3) := by
    rw [bn128_rd, e3, bnR_eq_bnS (a3_real x ii oi w1 g1 b1 w2 g2 b2 w3 hx hw1 hg1 hb1 hw2 hg2 hb2 hw3)]
  rw [out_chain, stage1_eq x w1 g1 b1 hx hw1, a2_def]
  refine rd2_ext fun r k => ?_
  rw [addf_rd2, e4]
  unfold outK
  rw [rd2_un2]

end Cert.Net

end
-- ==== Proof.Reals.lean ====
/-
  From the precondition to real entries. The precondition states, for each of the ten float arguments, that the
  conjunction over all its entries of |x| < +inf holds. On the extended reals |x| = max x (-x) and the f32 word of
  +inf is the top element, so each entry is neither infinity: it is a real number.
-/
import proofs.«174784_j23922967838995_2_alg».proof.Defs
import proofs.«174784_j23922967838995_2_alg».proof.Proof.Spec
import Idealize.ShloMosaic.Lib.ReduceAll

noncomputable section

namespace Cert.Reals

open Idealize.ShloMosaic Idealize.SL.Sem Cert.Spec

/-- The f32 word of +infinity is the top of the extended reals. -/
theorem inf_eq_top : Ideal.ofBits .f32 0x7F800000#32 = (⊤ : EReal) := by
  simp [Ideal.ofBits, Ideal.ieee]

/-- An extended real whose absolute value max x (-x) is strictly below +infinity is a real. -/
theorem real_of_abs_lt (x : EReal) (h : Ideal.cmp .olt (max x (-x)) (Ideal.ofBits .f32 0x7F800000#32) = 1#1) :
    ∃ r : ℝ, x = (r : EReal) := by
  rw [inf_eq_top] at h
  induction x using EReal.rec with
  | bot => simp [Ideal.cmp] at h
  | coe r => exact ⟨r, rfl⟩
  | top => simp [Ideal.cmp] at h

/-- The rank-0 shape has one index. -/
instance : Subsingleton Cert.Pre_finite_inputs.S_.Idx := ⟨fun a b => funext fun d => d.elim0⟩

/-- The conjunction over all entries of |x| < +inf being 1 says every entry of x is a real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_)
    (hu : 0 < Cert.Pre_finite_inputs.S_.numel) (j : Cert.Pre_finite_inputs.S_.Idx)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu j = 1#1) (i : s.Idx) :
    ∃ r : ℝ, x i = (r : EReal) :=
  real_of_abs_lt (x i) (Host.reduce_andi_all _ _ hr hu j e i)

variable [Cert.Pre_finite_inputs.Facts]

open Cert.Pre_finite_inputs in
/-- If the finiteness predicate of twelve arguments is all ones, every entry of each of the ten float arguments is a real. -/
theorem fn_real (a0 : FVec Ideal S100000x128 .f32) (a1 a2 : IVec S27x50000 32) (a3 : FVec Ideal S128x64 .f32)
    (a4 a5 : FVec Ideal S64 .f32) (a6 : FVec Ideal S27x64x64 .f32) (a7 a8 : FVec Ideal S64 .f32)
    (a9 : FVec Ideal S64x128 .f32) (a10 a11 : FVec Ideal S128 .f32)
    (h : fn (F := Ideal) a0 a1 a2 a3 a4 a5 a6 a7 a8 a9 a10 a11 = fun _ => 1#1) :
    (∀ i, ∃ r : ℝ, a0 i = (r : EReal)) ∧ (∀ i, ∃ r : ℝ, a3 i = (r : EReal)) ∧ (∀ i, ∃ r : ℝ, a4 i = (r : EReal))
      ∧ (∀ i, ∃ r : ℝ, a5 i = (r : EReal)) ∧ (∀ i, ∃ r : ℝ, a6 i = (r : EReal)) ∧ (∀ i, ∃ r : ℝ, a7 i = (r : EReal))
      ∧ (∀ i, ∃ r : ℝ, a8 i = (r : EReal)) ∧ (∀ i, ∃ r : ℝ, a9 i = (r : EReal)) ∧ (∀ i, ∃ r : ℝ, a10 i = (r : EReal))
      ∧ (∀ i, ∃ r : ℝ, a11 i = (r : EReal)) := by
  have h0 := congrFun h ValueIdx.ix0
  dsimp only [fn, fn_part1, fn_part2, andi] at h0
  simp only [IntOp.andi_eq_one] at h0
  obtain ⟨⟨⟨⟨⟨⟨⟨⟨⟨e0, e3⟩, e4⟩, e5⟩, e6⟩, e7⟩, e8⟩, e9⟩, e10⟩, e11⟩ := h0
  exact ⟨all_real a0 _ _ _ _ e0, all_real a3 _ _ _ _ e3, all_real a4 _ _ _ _ e4, all_real a5 _ _ _ _ e5,
    all_real a6 _ _ _ _ e6, all_real a7 _ _ _ _ e7, all_real a8 _ _ _ _ e8, all_real a9 _ _ _ _ e9,
    all_real a10 _ _ _ _ e10, all_real a11 _ _ _ _ e11⟩

/-- Under the precondition every entry of each float argument array, on every device, is a real (by raw index). -/
theorem pre_real_idx (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal))
      ∧ (∀ i, ∃ r : ℝ, m ((c.tc : Thread Cert.KernelIdeal.nD Cert.KernelIdeal.τ).loc Cert.KernelIdeal.main_arg5) i = (r : EReal))
      ∧ (∀ i, ∃ r : ℝ, m ((c.tc : Thread Cert.KernelIdeal.nD Cert.KernelIdeal.τ).loc Cert.KernelIdeal.main_arg6) i = (r : EReal))
      ∧ (∀ i, ∃ r : ℝ, m ((c.tc : Thread Cert.KernelIdeal.nD Cert.KernelIdeal.τ).loc Cert.KernelIdeal.main_arg7) i = (r : EReal))
      ∧ (∀ i, ∃ r : ℝ, m ((c.tc : Thread Cert.KernelIdeal.nD Cert.KernelIdeal.τ).loc Cert.KernelIdeal.main_arg8) i = (r : EReal))
      ∧ (∀ i, ∃ r : ℝ, m ((c.tc : Thread Cert.KernelIdeal.nD Cert.KernelIdeal.τ).loc Cert.KernelIdeal.main_arg9) i = (r : EReal))
      ∧ (∀ i, ∃ r : ℝ, m ((c.tc : Thread Cert.KernelIdeal.nD Cert.KernelIdeal.τ).loc Cert.KernelIdeal.main_arg10) i = (r : EReal))
      ∧ (∀ i, ∃ r : ℝ, m ((c.tc : Thread Cert.KernelIdeal.nD Cert.KernelIdeal.τ).loc Cert.KernelIdeal.main_arg11) i = (r : EReal)) :=
  fn_real _ _ _ _ _ _ _ _ _ _ _ _ (h c)

/-- Under the precondition every entry of each float argument array, on every device, is a real, each array read by
    its coordinates: x [100000,128], W1 [128,64], g1 b1 [64], W2 [27,64,64], g2 b2 [64], W3 [64,128], g3 b3 [128]. -/
theorem pre_real (m : (ℓ : Loc Cert.KernelIdeal.nD Cert.KernelIdeal.τ Cert.KernelIdeal.sig) → Buf (Elt Ideal) ℓ)
    (h : Cert.Pre_KernelIdeal m) (c : Dev Cert.KernelIdeal.nD) :
    IsReal2 (rd2 (m ((c.tc : Thread Cert.KernelIdeal.nD Cert.KernelIdeal.τ).loc Cert.KernelIdeal.main_arg0)))
      ∧ (∀ k j, ∃ r : ℝ, rd2 (m ((c.tc : Thread Cert.KernelIdeal.nD Cert.KernelIdeal.τ).loc Cert.KernelIdeal.main_arg3)) k j = (r : EReal))
      ∧ IsReal1 (rd1 (m ((c.tc : Thread Cert.KernelIdeal.nD Cert.KernelIdeal.τ).loc Cert.KernelIdeal.main_arg4)))
      ∧ IsReal1 (rd1 (m ((c.tc : Thread Cert.KernelIdeal.nD Cert.KernelIdeal.τ).loc Cert.KernelIdeal.main_arg5)))
      ∧ (∀ t k j, ∃ r : ℝ, rd3 (m ((c.tc : Thread Cert.KernelIdeal.nD Cert.KernelIdeal.τ).loc Cert.KernelIdeal.main_arg6)) t k j = (r : EReal))
      ∧ IsReal1 (rd1 (m ((c.tc : Thread Cert.KernelIdeal.nD Cert.KernelIdeal.τ).loc Cert.KernelIdeal.main_arg7)))
      ∧ IsReal1 (rd1 (m ((c.tc : Thread Cert.KernelIdeal.nD Cert.KernelIdeal.τ).loc Cert.KernelIdeal.main_arg8)))
      ∧ (∀ k j, ∃ r : ℝ, rd2 (m ((c.tc : Thread Cert.KernelIdeal.nD Cert.KernelIdeal.τ).loc Cert.KernelIdeal.main_arg9)) k j = (r : EReal))
      ∧ IsReal1 (rd1 (m ((c.tc : Thread Cert.KernelIdeal.nD Cert.KernelIdeal.τ).loc Cert.KernelIdeal.main_arg10)))
      ∧ IsReal1 (rd1 (m ((c.tc : Thread Cert.KernelIdeal.nD Cert.KernelIdeal.τ).loc Cert.KernelIdeal.main_arg11))) := by
  obtain ⟨h0, h3, h4, h5, h6, h7, h8, h9, h10, h11⟩ := pre_real_idx m h c
  exact ⟨fun i j => h0 _, fun i j => h3 _, fun i => h4 _, fun i => h5 _, fun i j k => h6 _, fun i => h7 _,
    fun i => h8 _, fun i j => h9 _, fun i => h10 _, fun i => h11 _⟩

end Cert.Reals

end
-- ==== Proof.lean ====
/-
  The certificate of a sparse-convolution bottleneck block: a 1×1 convolution, a sparse 3×3×3 convolution (a row gather,
  a product per offset, a scatter-add of rows) and a second 1×1 convolution, each followed by a training-mode batch
  normalisation over the 100000 rows, with a rectifier after the first two and the input added at the end.

  The kernel runs six pallas_calls among host operations. It takes every batch normalisation from the column sums
  s = Σ_r a(r,c) and q = Σ_r a(r,c)², accumulated tile by tile on two cores and combined on the host:
  mean = s/n, var = max(q/n − mean², 0). The reference takes jnp.mean and jnp.var, the mean of the squared deviations.
  On the extended reals the two agree when every entry is a real number — there the mean of squared deviations is the
  mean of squares minus the squared mean, and it is nonnegative — and every entry is a real number because every input
  is finite and each stage (finite sums of products, a gather, a scatter-add, the normalisation, whose rsqrt sees a
  nonnegative real plus a positive ε) keeps the reals. Rounding to bf16 on the way into a matrix product, the tiling,
  and the order of the sums do not exist at the ideal instance.

  Both programs end in `Net.outK` of the twelve argument arrays: the kernel by reading each region's write-backs and
  each host stretch back to the launch memory (`KBridge.kernel_out`), the reference by its run (`RefRun.run`) and the
  law between the two arrangements (`Net.ref_eq_outK`). The frames of the two kernel programs are the frame
  certificates over their regions; the reference's frame is its run with the result dropped; the idealisation
  rewrote nothing, so `preserves` is trivial.
-/
import proofs.«174784_j23922967838995_2_alg».proof.Defs
import proofs.«174784_j23922967838995_2_alg».proof.Proof.Gen.Kernel
import proofs.«174784_j23922967838995_2_alg».proof.Proof.Gen.KernelIdeal
import proofs.«174784_j23922967838995_2_alg».proof.Proof.Gen.ReferenceIdeal
import proofs.«174784_j23922967838995_2_alg».proof.Proof.Gen.Pre_finite_inputs
import proofs.«174784_j23922967838995_2_alg».proof.Proof.KernelFrameP
import proofs.«174784_j23922967838995_2_alg».proof.Proof.KernelIdealFrameP
import proofs.«174784_j23922967838995_2_alg».proof.Proof.KRun
import proofs.«174784_j23922967838995_2_alg».proof.Proof.KBridge
import proofs.«174784_j23922967838995_2_alg».proof.Proof.RefRun
import proofs.«174784_j23922967838995_2_alg».proof.Proof.RefBridge
import proofs.«174784_j23922967838995_2_alg».proof.Proof.Reals

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.GenP.frame m ρ

theorem frame_ki : Cert.frame_KernelIdeal := fun m ρ _ => Cert.KernelIdeal.GenP.frame m ρ

/-- The reference's frame: its run with the result forgotten. -/
theorem frame_ri : Cert.frame_ReferenceIdeal := fun m ρ _ =>
  (θ_run Cert.ReferenceIdeal.defs _ _).mono (fun _ h c => (h c).2) (Cert.ReferenceIdeal.RefRun.run m ρ)

/-- The idealisation rewrote no operation. -/
theorem preserves : Cert.preserves_Kernel_KernelIdeal := trivial

/-- Both programs end with the result array at `Net.outK` of the argument arrays. -/
theorem algebraic : Cert.algebraic_KernelIdeal_ReferenceIdeal := by
  intro m ρ m' ρ' hpre hagree
  refine ⟨fun c => Cert.Net.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KBridge.kernel_out m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.RefRun.run m' ρ')
    obtain ⟨e0, e1, e2, e3, e4, e5, e6, e7, e8, e9, e10, e11⟩ := hagree c
    rw [e0, e1, e2, e3, e4, e5, e6, e7, e8, e9, e10, e11]
    obtain ⟨h0, h3, h4, h5, h6, h7, h8, h9, h10, h11⟩ := Cert.Reals.pre_real m hpre c
    exact Cert.Net.ref_eq_outK _ _ _ _ _ _ _ _ _ _ _ _ h0 h3 h4 h5 h6 h7 h8 h9 h10 h11

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
